-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v312) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x512x512 : Shape := ⟨4, ![8, 1, 512, 512]⟩
abbrev S8x9x512x512 : Shape := ⟨4, ![8, 9, 512, 512]⟩
abbrev S_ : Shape := ⟨0, ![]⟩

class Facts : Prop where
  bcast_S_S8x1x512x512 : S_.BroadcastsInDim S8x1x512x512 (![] : Fin 0 → Fin S8x1x512x512.rank)
  reducesTo_S8x1x512x512_S_d0_1_2_3 : S8x1x512x512.ReducesTo [0, 1, 2, 3] S_
  h_S_ : 0 < S_.numel
  bcast_S_S8x9x512x512 : S_.BroadcastsInDim S8x9x512x512 (![] : Fin 0 → Fin S8x9x512x512.rank)
  reducesTo_S8x9x512x512_S_d0_1_2_3 : S8x9x512x512.ReducesTo [0, 1, 2, 3] S_

variable [Facts]

def fn_part4 {F : FTy → Type} [FloatOps F] (main_arg14 : FVec F S8x9x512x512 .f32) (main_arg15 : FVec F S8x9x512x512 .f32) (main_arg16 : FVec F S8x9x512x512 .f32) (main_v63 : IVec S_ 1) (main_v67 : IVec S_ 1) : IVec S_ 1 :=
  let main_v68 : IVec S_ 1 := andi main_v63 main_v67
  let main_v69 : FVec F S8x9x512x512 .f32 := Host.absf main_arg14
  let main_cst_26 : FVec F S_ .f32 := constant S_ .f32 0x7F800000#32
  let main_v70 : FVec F S8x9x512x512 .f32 := broadcastInDim S8x9x512x512 ![] bcast_S_S8x9x512x512 main_cst_26
  let main_v71 : IVec S8x9x512x512 1 := cmpf .olt main_v69 main_v70
  let main_c_27 : IVec S_ 1 := constantI S_ 1 1#1
  let main_v72 : IVec S_ 1 := (fun x v => Host.reduce IntOp.andi x v reducesTo_S8x9x512x512_S_d0_1_2_3 h_S_) main_v71 main_c_27
  let main_v73 : IVec S_ 1 := andi main_v68 main_v72
  let main_v74 : FVec F S8x9x512x512 .f32 := Host.absf main_arg15
  let main_cst_28 : FVec F S_ .f32 := constant S_ .f32 0x7F800000#32
  let main_v75 : FVec F S8x9x512x512 .f32 := broadcastInDim S8x9x512x512 ![] bcast_S_S8x9x512x512 main_cst_28
  let main_v76 : IVec S8x9x512x512 1 := cmpf .olt main_v74 main_v75
  let main_c_29 : IVec S_ 1 := constantI S_ 1 1#1
  let main_v77 : IVec S_ 1 := (fun x v => Host.reduce IntOp.andi x v reducesTo_S8x9x512x512_S_d0_1_2_3 h_S_) main_v76 main_c_29
  let main_v78 : IVec S_ 1 := andi main_v73 main_v77
  let main_v79 : FVec F S8x9x512x512 .f32 := Host.absf main_arg16
  let main_cst_30 : FVec F S_ .f32 := constant S_ .f32 0x7F800000#32
  let main_v80 : FVec F S8x9x512x512 .f32 := broadcastInDim S8x9x512x512 ![] bcast_S_S8x9x512x512 main_cst_30
  let main_v81 : IVec S8x9x512x512 1 := cmpf .olt main_v79 main_v80
  let main_c_31 : IVec S_ 1 := constantI S_ 1 1#1
  let main_v82 : IVec S_ 1 := (fun x v => Host.reduce IntOp.andi x v reducesTo_S8x9x512x512_S_d0_1_2_3 h_S_) main_v81 main_c_31
  let main_v83 : IVec S_ 1 := andi main_v78 main_v82
  main_v83

def fn_part3 {F : FTy → Type} [FloatOps F] (main_arg11 : FVec F S8x1x512x512 .f32) (main_arg12 : FVec F S8x1x512x512 .f32) (main_arg13 : FVec F S8x9x512x512 .f32) (main_arg14 : FVec F S8x9x512x512 .f32) (main_arg15 : FVec F S8x9x512x512 .f32) (main_arg16 : FVec F S8x9x512x512 .f32) (main_v48 : IVec S_ 1) (main_v49 : FVec F S8x1x512x512 .f32) (main_v50 : FVec F S8x1x512x512 .f32) : IVec S_ 1 :=
  let main_v51 : IVec S8x1x512x512 1 := cmpf .olt main_v49 main_v50
  let main_c_19 : IVec S_ 1 := constantI S_ 1 1#1
  let main_v52 : IVec S_ 1 := (fun x v => Host.reduce IntOp.andi x v reducesTo_S8x1x512x512_S_d0_1_2_3 h_S_) main_v51 main_c_19
  let main_v53 : IVec S_ 1 := andi main_v48 main_v52
  let main_v54 : FVec F S8x1x512x512 .f32 := Host.absf main_arg11
  let main_cst_20 : FVec F S_ .f32 := constant S_ .f32 0x7F800000#32
  let main_v55 : FVec F S8x1x512x512 .f32 := broadcastInDim S8x1x512x512 ![] bcast_S_S8x1x512x512 main_cst_20
  let main_v56 : IVec S8x1x512x512 1 := cmpf .olt main_v54 main_v55
  let main_c_21 : IVec S_ 1 := constantI S_ 1 1#1
  let main_v57 : IVec S_ 1 := (fun x v => Host.reduce IntOp.andi x v reducesTo_S8x1x512x512_S_d0_1_2_3 h_S_) main_v56 main_c_21
  let main_v58 : IVec S_ 1 := andi main_v53 main_v57
  let main_v59 : FVec F S8x1x512x512 .f32 := Host.absf main_arg12
  let main_cst_22 : FVec F S_ .f32 := constant S_ .f32 0x7F800000#32
  let main_v60 : FVec F S8x1x512x512 .f32 := broadcastInDim S8x1x512x512 ![] bcast_S_S8x1x512x512 main_cst_22
  let main_v61 : IVec S8x1x512x512 1 := cmpf .olt main_v59 main_v60
  let main_c_23 : IVec S_ 1 := constantI S_ 1 1#1
  let main_v62 : IVec S_ 1 := (fun x v => Host.reduce IntOp.andi x v reducesTo_S8x1x512x512_S_d0_1_2_3 h_S_) main_v61 main_c_23
  let main_v63 : IVec S_ 1 := andi main_v58 main_v62
  let main_v64 : FVec F S8x9x512x512 .f32 := Host.absf main_arg13
  let main_cst_24 : FVec F S_ .f32 := constant S_ .f32 0x7F800000#32
  let main_v65 : FVec F S8x9x512x512 .f32 := broadcastInDim S8x9x512x512 ![] bcast_S_S8x9x512x512 main_cst_24
  let main_v66 : IVec S8x9x512x512 1 := cmpf .olt main_v64 main_v65
  let main_c_25 : IVec S_ 1 := constantI S_ 1 1#1
  let main_v67 : IVec S_ 1 := (fun x v => Host.reduce IntOp.andi x v reducesTo_S8x9x512x512_S_d0_1_2_3 h_S_) main_v66 main_c_25
  fn_part4 (F := F) main_arg14 main_arg15 main_arg16 main_v63 main_v67

def fn_part2 {F : FTy → Type} [FloatOps F] (main_arg7 : FVec F S8x1x512x512 .f32) (main_arg8 : FVec F S8x1x512x512 .f32) (main_arg9 : FVec F S8x1x512x512 .f32) (main_arg10 : FVec F S8x1x512x512 .f32) (main_arg11 : FVec F S8x1x512x512 .f32) (main_arg12 : FVec F S8x1x512x512 .f32) (main_arg13 : FVec F S8x9x512x512 .f32) (main_arg14 : FVec F S8x9x512x512 .f32) (main_arg15 : FVec F S8x9x512x512 .f32) (main_arg16 : FVec F S8x9x512x512 .f32) (main_v33 : IVec S_ 1) : IVec S_ 1 :=
  let main_v34 : FVec F S8x1x512x512 .f32 := Host.absf main_arg7
  let main_cst_12 : FVec F S_ .f32 := constant S_ .f32 0x7F800000#32
  let main_v35 : FVec F S8x1x512x512 .f32 := broadcastInDim S8x1x512x512 ![] bcast_S_S8x1x512x512 main_cst_12
  let main_v36 : IVec S8x1x512x512 1 := cmpf .olt main_v34 main_v35
  let main_c_13 : IVec S_ 1 := constantI S_ 1 1#1
  let main_v37 : IVec S_ 1 := (fun x v => Host.reduce IntOp.andi x v reducesTo_S8x1x512x512_S_d0_1_2_3 h_S_) main_v36 main_c_13
  let main_v38 : IVec S_ 1 := andi main_v33 main_v37
  let main_v39 : FVec F S8x1x512x512 .f32 := Host.absf main_arg8
  let main_cst_14 : FVec F S_ .f32 := constant S_ .f32 0x7F800000#32
  let main_v40 : FVec F S8x1x512x512 .f32 := broadcastInDim S8x1x512x512 ![] bcast_S_S8x1x512x512 main_cst_14
  let main_v41 : IVec S8x1x512x512 1 := cmpf .olt main_v39 main_v40
  let main_c_15 : IVec S_ 1 := constantI S_ 1 1#1
  let main_v42 : IVec S_ 1 := (fun x v => Host.reduce IntOp.andi x v reducesTo_S8x1x512x512_S_d0_1_2_3 h_S_) main_v41 main_c_15
  let main_v43 : IVec S_ 1 := andi main_v38 main_v42
  let main_v44 : FVec F S8x1x512x512 .f32 := Host.absf main_arg9
  let main_cst_16 : FVec F S_ .f32 := constant S_ .f32 0x7F800000#32
  let main_v45 : FVec F S8x1x512x512 .f32 := broadcastInDim S8x1x512x512 ![] bcast_S_S8x1x512x512 main_cst_16
  let main_v46 : IVec S8x1x512x512 1 := cmpf .olt main_v44 main_v45
  let main_c_17 : IVec S_ 1 := constantI S_ 1 1#1
  let main_v47 : IVec S_ 1 := (fun x v => Host.reduce IntOp.andi x v reducesTo_S8x1x512x512_S_d0_1_2_3 h_S_) main_v46 main_c_17
  let main_v48 : IVec S_ 1 := andi main_v43 main_v47
  let main_v49 : FVec F S8x1x512x512 .f32 := Host.absf main_arg10
  let main_cst_18 : FVec F S_ .f32 := constant S_ .f32 0x7F800000#32
  let main_v50 : FVec F S8x1x512x512 .f32 := broadcastInDim S8x1x512x512 ![] bcast_S_S8x1x512x512 main_cst_18
  fn_part3 (F := F) main_arg11 main_arg12 main_arg13 main_arg14 main_arg15 main_arg16 main_v48 main_v49 main_v50

def fn_part1 {F : FTy → Type} [FloatOps F] (main_arg4 : FVec F S8x1x512x512 .f32) (main_arg5 : FVec F S8x1x512x512 .f32) (main_arg6 : FVec F S8x1x512x512 .f32) (main_arg7 : FVec F S8x1x512x512 .f32) (main_arg8 : FVec F S8x1x512x512 .f32) (main_arg9 : FVec F S8x1x512x512 .f32) (main_arg10 : FVec F S8x1x512x512 .f32) (main_arg11 : FVec F S8x1x512x512 .f32) (main_arg12 : FVec F S8x1x512x512 .f32) (main_arg13 : FVec F S8x9x512x512 .f32) (main_arg14 : FVec F S8x9x512x512 .f32) (main_arg15 : FVec F S8x9x512x512 .f32) (main_arg16 : FVec F S8x9x512x512 .f32) (main_v13 : IVec S_ 1) (main_v16 : IVec S8x1x512x512 1) : IVec S_ 1 :=
  let main_c_5 : IVec S_ 1 := constantI S_ 1 1#1
  let main_v17 : IVec S_ 1 := (fun x v => Host.reduce IntOp.andi x v reducesTo_S8x1x512x512_S_d0_1_2_3 h_S_) main_v16 main_c_5
  let main_v18 : IVec S_ 1 := andi main_v13 main_v17
  let main_v19 : FVec F S8x1x512x512 .f32 := Host.absf main_arg4
  let main_cst_6 : FVec F S_ .f32 := constant S_ .f32 0x7F800000#32
  let main_v20 : FVec F S8x1x512x512 .f32 := broadcastInDim S8x1x512x512 ![] bcast_S_S8x1x512x512 main_cst_6
  let main_v21 : IVec S8x1x512x512 1 := cmpf .olt main_v19 main_v20
  let main_c_7 : IVec S_ 1 := constantI S_ 1 1#1
  let main_v22 : IVec S_ 1 := (fun x v => Host.reduce IntOp.andi x v reducesTo_S8x1x512x512_S_d0_1_2_3 h_S_) main_v21 main_c_7
  let main_v23 : IVec S_ 1 := andi main_v18 main_v22
  let main_v24 : FVec F S8x1x512x512 .f32 := Host.absf main_arg5
  let main_cst_8 : FVec F S_ .f32 := constant S_ .f32 0x7F800000#32
  let main_v25 : FVec F S8x1x512x512 .f32 := broadcastInDim S8x1x512x512 ![] bcast_S_S8x1x512x512 main_cst_8
  let main_v26 : IVec S8x1x512x512 1 := cmpf .olt main_v24 main_v25
  let main_c_9 : IVec S_ 1 := constantI S_ 1 1#1
  let main_v27 : IVec S_ 1 := (fun x v => Host.reduce IntOp.andi x v reducesTo_S8x1x512x512_S_d0_1_2_3 h_S_) main_v26 main_c_9
  let main_v28 : IVec S_ 1 := andi main_v23 main_v27
  let main_v29 : FVec F S8x1x512x512 .f32 := Host.absf main_arg6
  let main_cst_10 : FVec F S_ .f32 := constant S_ .f32 0x7F800000#32
  let main_v30 : FVec F S8x1x512x512 .f32 := broadcastInDim S8x1x512x512 ![] bcast_S_S8x1x512x512 main_cst_10
  let main_v31 : IVec S8x1x512x512 1 := cmpf .olt main_v29 main_v30
  let main_c_11 : IVec S_ 1 := constantI S_ 1 1#1
  let main_v32 : IVec S_ 1 := (fun x v => Host.reduce IntOp.andi x v reducesTo_S8x1x512x512_S_d0_1_2_3 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8x1x512x512 .f32) (main_arg1 : FVec F S8x1x512x512 .f32) (main_arg2 : FVec F S8x1x512x512 .f32) (main_arg3 : FVec F S8x1x512x512 .f32) (main_arg4 : FVec F S8x1x512x512 .f32) (main_arg5 : FVec F S8x1x512x512 .f32) (main_arg6 : FVec F S8x1x512x512 .f32) (main_arg7 : FVec F S8x1x512x512 .f32) (main_arg8 : FVec F S8x1x512x512 .f32) (main_arg9 : FVec F S8x1x512x512 .f32) (main_arg10 : FVec F S8x1x512x512 .f32) (main_arg11 : FVec F S8x1x512x512 .f32) (main_arg12 : FVec F S8x1x512x512 .f32) (main_arg13 : FVec F S8x9x512x512 .f32) (main_arg14 : FVec F S8x9x512x512 .f32) (main_arg15 : FVec F S8x9x512x512 .f32) (main_arg16 : FVec F S8x9x512x512 .f32) : IVec S_ 1 :=
  let main_v0 : FVec F S8x1x512x512 .f32 := Host.absf main_arg0
  let main_cst : FVec F S_ .f32 := constant S_ .f32 0x7F800000#32
  let main_v1 : FVec F S8x1x512x512 .f32 := broadcastInDim S8x1x512x512 ![] bcast_S_S8x1x512x512 main_cst
  let main_v2 : IVec S8x1x512x512 1 := cmpf .olt main_v0 main_v1
  let main_c : IVec S_ 1 := constantI S_ 1 1#1
  let main_v3 : IVec S_ 1 := (fun x v => Host.reduce IntOp.andi x v reducesTo_S8x1x512x512_S_d0_1_2_3 h_S_) main_v2 main_c
  let main_v4 : FVec F S8x1x512x512 .f32 := Host.absf main_arg1
  let main_cst_0 : FVec F S_ .f32 := constant S_ .f32 0x7F800000#32
  let main_v5 : FVec F S8x1x512x512 .f32 := broadcastInDim S8x1x512x512 ![] bcast_S_S8x1x512x512 main_cst_0
  let main_v6 : IVec S8x1x512x512 1 := cmpf .olt main_v4 main_v5
  let main_c_1 : IVec S_ 1 := constantI S_ 1 1#1
  let main_v7 : IVec S_ 1 := (fun x v => Host.reduce IntOp.andi x v reducesTo_S8x1x512x512_S_d0_1_2_3 h_S_) main_v6 main_c_1
  let main_v8 : IVec S_ 1 := andi main_v3 main_v7
  let main_v9 : FVec F S8x1x512x512 .f32 := Host.absf main_arg2
  let main_cst_2 : FVec F S_ .f32 := constant S_ .f32 0x7F800000#32
  let main_v10 : FVec F S8x1x512x512 .f32 := broadcastInDim S8x1x512x512 ![] bcast_S_S8x1x512x512 main_cst_2
  let main_v11 : IVec S8x1x512x512 1 := cmpf .olt main_v9 main_v10
  let main_c_3 : IVec S_ 1 := constantI S_ 1 1#1
  let main_v12 : IVec S_ 1 := (fun x v => Host.reduce IntOp.andi x v reducesTo_S8x1x512x512_S_d0_1_2_3 h_S_) main_v11 main_c_3
  let main_v13 : IVec S_ 1 := andi main_v8 main_v12
  let main_v14 : FVec F S8x1x512x512 .f32 := Host.absf main_arg3
  let main_cst_4 : FVec F S_ .f32 := constant S_ .f32 0x7F800000#32
  let main_v15 : FVec F S8x1x512x512 .f32 := broadcastInDim S8x1x512x512 ![] bcast_S_S8x1x512x512 main_cst_4
  let main_v16 : IVec S8x1x512x512 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8x1x512x512 : Shape := ⟨4, ![8, 1, 512, 512]⟩
abbrev S8x9x512x512 : Shape := ⟨4, ![8, 9, 512, 512]⟩
abbrev S8x1x128 : Shape := ⟨3, ![8, 1, 128]⟩
abbrev S1x1x512x512 : Shape := ⟨4, ![1, 1, 512, 512]⟩
abbrev S1x1x128 : Shape := ⟨3, ![1, 1, 128]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩
abbrev S1x1 : Shape := ⟨2, ![1, 1]⟩
abbrev S8x1x1 : Shape := ⟨3, ![8, 1, 1]⟩
abbrev S8 : Shape := ⟨1, ![8]⟩
abbrev S_ : Shape := ⟨0, ![]⟩
abbrev S1x9x512x512 : Shape := ⟨4, ![1, 9, 512, 512]⟩
abbrev S511x511 : Shape := ⟨2, ![511, 511]⟩
abbrev S1x511x511 : Shape := ⟨3, ![1, 511, 511]⟩
abbrev S511x512 : Shape := ⟨2, ![511, 512]⟩
abbrev S1x511x512 : Shape := ⟨3, ![1, 511, 512]⟩
abbrev S512x511 : Shape := ⟨2, ![512, 511]⟩
abbrev S1x512x511 : Shape := ⟨3, ![1, 512, 511]⟩

abbrev nBuf : Space → Nat
  | .hbm => 36
  | .vmem => 42
  | .smem => 0
  | _ => 0

abbrev bufTy : (tb : Table) → Fin (tcTables nBuf tb) → BufTy
  | .hbm, ⟨0, _⟩ => ⟨S8x1x512x512, .f32⟩
  | .hbm, ⟨1, _⟩ => ⟨S8x1x512x512, .f32⟩
  | .hbm, ⟨2, _⟩ => ⟨S8x1x512x512, .f32⟩
  | .hbm, ⟨3, _⟩ => ⟨S8x1x512x512, .f32⟩
  | .hbm, ⟨4, _⟩ => ⟨S8x1x512x512, .f32⟩
  | .hbm, ⟨5, _⟩ => ⟨S8x1x512x512, .f32⟩
  | .hbm, ⟨6, _⟩ => ⟨S8x1x512x512, .f32⟩
  | .hbm, ⟨7, _⟩ => ⟨S8x1x512x512, .f32⟩
  | .hbm, ⟨8, _⟩ => ⟨S8x1x512x512, .f32⟩
  | .hbm, ⟨9, _⟩ => ⟨S8x1x512x512, .f32⟩
  | .hbm, ⟨10, _⟩ => ⟨S8x1x512x512, .f32⟩
  | .hbm, ⟨11, _⟩ => ⟨S8x1x512x512, .f32⟩
  | .hbm, ⟨12, _⟩ => ⟨S8x1x512x512, .f32⟩
  | .hbm, ⟨13, _⟩ => ⟨S8x9x512x512, .f32⟩
  | .hbm, ⟨14, _⟩ => ⟨S8x9x512x512, .f32⟩
  | .hbm, ⟨15, _⟩ => ⟨S8x9x512x512, .f32⟩
  | .hbm, ⟨16, _⟩ => ⟨S8x9x512x512, .f32⟩
  | .hbm, ⟨17, _⟩ => ⟨S8x1x128, .f32⟩
  | .hbm, ⟨18, _⟩ => ⟨S8x1x1, .f32⟩
  | .hbm, ⟨19, _⟩ => ⟨S8, .f32⟩
  | .hbm, ⟨20, _⟩ => ⟨S_, .f32⟩
  | .hbm, ⟨21, _⟩ => ⟨S_, .f32⟩
  | .hbm, ⟨22, _⟩ => ⟨S8x1x128, .f32⟩
  | .hbm, ⟨23, _⟩ => ⟨S8x1x1, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S8x1x128, .f32⟩
  | .hbm, ⟨28, _⟩ => ⟨S8x1x1, .f32⟩
  | .hbm, ⟨29, _⟩ => ⟨S8, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1x1x512x512, .f32⟩
  | .local _ .vmem, ⟨7, _⟩ => ⟨S1x1x512x512, .f32⟩
  | .local _ .vmem, ⟨8, _⟩ => ⟨S1x1x512x512, .f32⟩
  | .local _ .vmem, ⟨9, _⟩ => ⟨S1x1x512x512, .f32⟩
  | .local _ .vmem, ⟨10, _⟩ => ⟨S1x1x512x512, .f32⟩
  | .local _ .vmem, ⟨11, _⟩ => ⟨S1x1x512x512, .f32⟩
  | .local _ .vmem, ⟨12, _⟩ => ⟨S1x1x512x512, .f32⟩
  | .local _ .vmem, ⟨13, _⟩ => ⟨S1x1x512x512, .f32⟩
  | .local _ .vmem, ⟨14, _⟩ => ⟨S1x1x512x512, .f32⟩
  | .local _ .vmem, ⟨15, _⟩ => ⟨S1x1x512x512, .f32⟩
  | .local _ .vmem, ⟨16, _⟩ => ⟨S1x1x512x512, .f32⟩
  | .local _ .vmem, ⟨17, _⟩ => ⟨S1x1x512x512, .f32⟩
  | .local _ .vmem, ⟨18, _⟩ => ⟨S1x1x512x512, .f32⟩
  | .local _ .vmem, ⟨19, _⟩ => ⟨S1x1x512x512, .f32⟩
  | .local _ .vmem, ⟨20, _⟩ => ⟨S1x1x512x512, .f32⟩
  | .local _ .vmem, ⟨21, _⟩ => ⟨S1x1x512x512, .f32⟩
  | .local _ .vmem, ⟨22, _⟩ => ⟨S1x1x512x512, .f32⟩
  | .local _ .vmem, ⟨23, _⟩ => ⟨S1x1x512x512, .f32⟩
  | .local _ .vmem, ⟨24, _⟩ => ⟨S1x1x128, .f32⟩
  | .local _ .vmem, ⟨25, _⟩ => ⟨S1x1x128, .f32⟩
  | .local _ .vmem, ⟨26, _⟩ => ⟨S1x9x512x512, .f32⟩
  | .local _ .vmem, ⟨27, _⟩ => ⟨S1x9x512x512, .f32⟩
  | .local _ .vmem, ⟨28, _⟩ => ⟨S1x9x512x512, .f32⟩
  | .local _ .vmem, ⟨29, _⟩ => ⟨S1x9x512x512, .f32⟩
  | .local _ .vmem, ⟨30, _⟩ => ⟨S1x1x512x512, .f32⟩
  | .local _ .vmem, ⟨31, _⟩ => ⟨S1x1x512x512, .f32⟩
  | .local _ .vmem, ⟨32, _⟩ => ⟨S1x1x128, .f32⟩
  | .local _ .vmem, ⟨33, _⟩ => ⟨S1x1x128, .f32⟩
  | .local _ .vmem, ⟨34, _⟩ => ⟨S1x9x512x512, .f32⟩
  | .local _ .vmem, ⟨35, _⟩ => ⟨S1x9x512x512, .f32⟩
  | .local _ .vmem, ⟨36, _⟩ => ⟨S1x9x512x512, .f32⟩
  | .local _ .vmem, ⟨37, _⟩ => ⟨S1x9x512x512, .f32⟩
  | .local _ .vmem, ⟨38, _⟩ => ⟨S1x1x512x512, .f32⟩
  | .local _ .vmem, ⟨39, _⟩ => ⟨S1x1x512x512, .f32⟩
  | .local _ .vmem, ⟨40, _⟩ => ⟨S1x1x128, .f32⟩
  | .local _ .vmem, ⟨41, _⟩ => ⟨S1x1x128, .f32⟩
  | _, _ => ⟨S8x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc2_sem0_0 : DmaSem sig := 34
abbrev cc2_sem0_1 : DmaSem sig := 35
abbrev cc2_sem1_0 : DmaSem sig := 36
abbrev cc2_sem1_1 : DmaSem sig := 37
abbrev cc2_sem2_0 : DmaSem sig := 38
abbrev cc2_sem2_1 : DmaSem sig := 39
abbrev cc2_sem3_0 : DmaSem sig := 40
abbrev cc2_sem3_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x9x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x9x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x9x512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x9x512x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  inb_S1x9x512x512_S1x1x512x512_0_0_0_0 : ∀ a, (![0, 0, 0, 0] : Fin 4 → Nat) a + S1x1x512x512.size a ≤ S1x9x512x512.size a
  slices_S512x512_o1_1_S511x511 : S512x512.Slices ![1, 1] S511x511
  inb_S1x9x512x512_S1x1x512x512_0_8_0_0 : ∀ a, (![0, 8, 0, 0] : Fin 4 → Nat) a + S1x1x512x512.size a ≤ S1x9x512x512.size a
  slices_S512x512_o0_0_S511x511 : S512x512.Slices ![0, 0] S511x511
  shapeCasts_S511x511_S1x511x511 : S511x511.ShapeCasts S1x511x511
  reduces_S1x511x511_S1 : S1x511x511.Reduces [1, 2] S1
  inb_S1x9x512x512_S1x1x512x512_0_1_0_0 : ∀ a, (![0, 1, 0, 0] : Fin 4 → Nat) a + S1x1x512x512.size a ≤ S1x9x512x512.size a
  slices_S512x512_o1_0_S511x512 : S512x512.Slices ![1, 0] S511x512
  inb_S1x9x512x512_S1x1x512x512_0_7_0_0 : ∀ a, (![0, 7, 0, 0] : Fin 4 → Nat) a + S1x1x512x512.size a ≤ S1x9x512x512.size a
  slices_S512x512_o0_0_S511x512 : S512x512.Slices ![0, 0] S511x512
  shapeCasts_S511x512_S1x511x512 : S511x512.ShapeCasts S1x511x512
  reduces_S1x511x512_S1 : S1x511x512.Reduces [1, 2] S1
  inb_S1x9x512x512_S1x1x512x512_0_2_0_0 : ∀ a, (![0, 2, 0, 0] : Fin 4 → Nat) a + S1x1x512x512.size a ≤ S1x9x512x512.size a
  slices_S512x512_o1_0_S511x511 : S512x512.Slices ![1, 0] S511x511
  inb_S1x9x512x512_S1x1x512x512_0_6_0_0 : ∀ a, (![0, 6, 0, 0] : Fin 4 → Nat) a + S1x1x512x512.size a ≤ S1x9x512x512.size a
  slices_S512x512_o0_1_S511x511 : S512x512.Slices ![0, 1] S511x511
  inb_S1x9x512x512_S1x1x512x512_0_3_0_0 : ∀ a, (![0, 3, 0, 0] : Fin 4 → Nat) a + S1x1x512x512.size a ≤ S1x9x512x512.size a
  slices_S512x512_o0_1_S512x511 : S512x512.Slices ![0, 1] S512x511
  inb_S1x9x512x512_S1x1x512x512_0_5_0_0 : ∀ a, (![0, 5, 0, 0] : Fin 4 → Nat) a + S1x1x512x512.size a ≤ S1x9x512x512.size a
  slices_S512x512_o0_0_S512x511 : S512x512.Slices ![0, 0] S512x511
  shapeCasts_S512x511_S1x512x511 : S512x511.ShapeCasts S1x512x511
  reduces_S1x512x511_S1 : S1x512x511.Reduces [1, 2] S1
  inb_S1x9x512x512_S1x1x512x512_0_4_0_0 : ∀ a, (![0, 4, 0, 0] : Fin 4 → Nat) a + S1x1x512x512.size a ≤ S1x9x512x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S8x1x512x512.size a
  hwx0_0 : ∀ i : grid0.Coords, EltTy.bits .f32 = 32 ∨ (Rect.block (s := S8x1x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S8x1x512x512.size a
  hwx0_1 : ∀ i : grid0.Coords, EltTy.bits .f32 = 32 ∨ (Rect.block (s := S8x1x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S8x1x512x512.size a
  hwx0_2 : ∀ i : grid0.Coords, EltTy.bits .f32 = 32 ∨ (Rect.block (s := S8x1x512x512) S1x1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x512.size a ≤ S8x1x512x512.size a
  hwx0_3 : ∀ i : grid0.Coords, EltTy.bits .f32 = 32 ∨ (Rect.block (s := S8x1x512x512) S1x1x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x512.size a ≤ S8x1x512x512.size a
  hwx0_4 : ∀ i : grid0.Coords, EltTy.bits .f32 = 32 ∨ (Rect.block (s := S8x1x512x512) S1x1x512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x512.size a ≤ S8x1x512x512.size a
  hwx0_5 : ∀ i : grid0.Coords, EltTy.bits .f32 = 32 ∨ (Rect.block (s := S8x1x512x512) S1x1x512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x512.size a ≤ S8x1x512x512.size a
  hwx0_6 : ∀ i : grid0.Coords, EltTy.bits .f32 = 32 ∨ (Rect.block (s := S8x1x512x512) S1x1x512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x512x512.size a ≤ S8x1x512x512.size a
  hwx0_7 : ∀ i : grid0.Coords, EltTy.bits .f32 = 32 ∨ (Rect.block (s := S8x1x512x512) S1x1x512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512x512.size a ≤ S8x1x512x512.size a
  hwx0_8 : ∀ i : grid0.Coords, EltTy.bits .f32 = 32 ∨ (Rect.block (s := S8x1x512x512) S1x1x512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x512x512.size a ≤ S8x1x512x512.size a
  hwx0_9 : ∀ i : grid0.Coords, EltTy.bits .f32 = 32 ∨ (Rect.block (s := S8x1x512x512) S1x1x512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x512x512.size a ≤ S8x1x512x512.size a
  hwx0_10 : ∀ i : grid0.Coords, EltTy.bits .f32 = 32 ∨ (Rect.block (s := S8x1x512x512) S1x1x512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x512x512.size a ≤ S8x1x512x512.size a
  hwx0_11 : ∀ i : grid0.Coords, EltTy.bits .f32 = 32 ∨ (Rect.block (s := S8x1x512x512) S1x1x512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x128.size a ≤ S8x1x128.size a
  hwx0_12 : ∀ i : grid0.Coords, EltTy.bits .f32 = 32 ∨ (Rect.block (s := S8x1x128) S1x1x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x9x512x512.size a ≤ S8x9x512x512.size a
  hwx1_0 : ∀ i : grid1.Coords, EltTy.bits .f32 = 32 ∨ (Rect.block (s := S8x9x512x512) S1x9x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x9x512x512.size a ≤ S8x9x512x512.size a
  hwx1_1 : ∀ i : grid1.Coords, EltTy.bits .f32 = 32 ∨ (Rect.block (s := S8x9x512x512) S1x9x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512x512.size a ≤ S8x1x512x512.size a
  hwx1_2 : ∀ i : grid1.Coords, EltTy.bits .f32 = 32 ∨ (Rect.block (s := S8x1x512x512) S1x1x512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S8x1x128.size a
  hwx1_3 : ∀ i : grid1.Coords, EltTy.bits .f32 = 32 ∨ (Rect.block (s := S8x1x128) S1x1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x9x512x512.size a ≤ S8x9x512x512.size a
  hwx2_0 : ∀ i : grid2.Coords, EltTy.bits .f32 = 32 ∨ (Rect.block (s := S8x9x512x512) S1x9x512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x9x512x512.size a ≤ S8x9x512x512.size a
  hwx2_1 : ∀ i : grid2.Coords, EltTy.bits .f32 = 32 ∨ (Rect.block (s := S8x9x512x512) S1x9x512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x512x512.size a ≤ S8x1x512x512.size a
  hwx2_2 : ∀ i : grid2.Coords, EltTy.bits .f32 = 32 ∨ (Rect.block (s := S8x1x512x512) S1x1x512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x128.size a ≤ S8x1x128.size a
  hwx2_3 : ∀ i : grid2.Coords, EltTy.bits .f32 = 32 ∨ (Rect.block (s := S8x1x128) S1x1x128.size (cc2_transform_3 i) (hinb2_3 i)).WholeWords (EltTy.packing .f32)

variable [Facts₀]

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x1x512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x1x512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1x1x512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1x1x512x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1x1x512x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1x1x512x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S1x1x512x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S1x1x512x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0) S1x1x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_arg13) S1x9x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg14) S1x9x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg15) S1x9x512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg16) S1x9x512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S1x1x512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x1x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1x512x512 : Shape := ⟨4, ![8, 1, 512, 512]⟩
abbrev S8x9x512x512 : Shape := ⟨4, ![8, 9, 512, 512]⟩
abbrev S_ : Shape := ⟨0, ![]⟩
abbrev S8x1x511x511 : Shape := ⟨4, ![8, 1, 511, 511]⟩
abbrev S8x511x511 : Shape := ⟨3, ![8, 511, 511]⟩
abbrev S8x1x511x512 : Shape := ⟨4, ![8, 1, 511, 512]⟩
abbrev S8x511x512 : Shape := ⟨3, ![8, 511, 512]⟩
abbrev S8x1x512x511 : Shape := ⟨4, ![8, 1, 512, 511]⟩
abbrev S8x512x511 : Shape := ⟨3, ![8, 512, 511]⟩
abbrev S8x512x512 : Shape := ⟨3, ![8, 512, 512]⟩

abbrev nBuf : Space → Nat
  | .hbm => 622
  | .vmem => 0
  | .smem => 0
  | _ => 0

abbrev hbmTy0_0 (i : Nat) : BufTy := match i % 128 with
  | 0 => ⟨S8x1x512x512, .f32⟩
  | 1 => ⟨S8x1x512x512, .f32⟩
  | 2 => ⟨S8x1x512x512, .f32⟩
  | 3 => ⟨S8x1x512x512, .f32⟩
  | 4 => ⟨S8x1x512x512, .f32⟩
  | 5 => ⟨S8x1x512x512, .f32⟩
  | 6 => ⟨S8x1x512x512, .f32⟩
  | 7 => ⟨S8x1x512x512, .f32⟩
  | 8 => ⟨S8x1x512x512, .f32⟩
  | 9 => ⟨S8x1x512x512, .f32⟩
  | 10 => ⟨S8x1x512x512, .f32⟩
  | 11 => ⟨S8x1x512x512, .f32⟩
  | 12 => ⟨S8x1x512x512, .f32⟩
  | 13 => ⟨S8x9x512x512, .f32⟩
  | 14 => ⟨S8x9x512x512, .f32⟩
  | 15 => ⟨S8x9x512x512, .f32⟩
  | 16 => ⟨S8x9x512x512, .f32⟩
  | 17 => ⟨S8x1x512x512, .f32⟩
  | 18 => ⟨S8x1x512x512, .f32⟩
  | 19 => ⟨S8x1x512x512, .f32⟩
  | 20 => ⟨S8x1x512x512, .f32⟩
  | 21 => ⟨S8x1x512x512, .f32⟩
  | 22 => ⟨S8x1x512x512, .f32⟩
  | 23 => ⟨S8x1x512x512, .f32⟩
  | 24 => ⟨S_, .f32⟩
  | 25 => ⟨S8x1x512x512, .f32⟩
  | 26 => ⟨S8x1x512x512, .f32⟩
  | 27 => ⟨S8x1x512x512, .f32⟩
  | 28 => ⟨S8x1x512x512, .f32⟩
  | 29 => ⟨S_, .f32⟩
  | 30 => ⟨S_, .f32⟩
  | 31 => ⟨S8x1x512x512, .f32⟩
  | 32 => ⟨S8x1x512x512, .f32⟩
  | 33 => ⟨S8x1x512x512, .f32⟩
  | 34 => ⟨S_, .f32⟩
  | 35 => ⟨S8x1x512x512, .f32⟩
  | 36 => ⟨S8x1x512x512, .f32⟩
  | 37 => ⟨S8x1x512x512, .f32⟩
  | 38 => ⟨S8x1x512x512, .f32⟩
  | 39 => ⟨S_, .f32⟩
  | 40 => ⟨S_, .f32⟩
  | 41 => ⟨S_, .f32⟩
  | 42 => ⟨S8x1x512x512, .f32⟩
  | 43 => ⟨S8x1x512x512, .f32⟩
  | 44 => ⟨S8x1x512x512, .f32⟩
  | 45 => ⟨S_, .f32⟩
  | 46 => ⟨S8x1x512x512, .f32⟩
  | 47 => ⟨S8x1x512x512, .f32⟩
  | 48 => ⟨S8x1x512x512, .f32⟩
  | 49 => ⟨S8x1x512x512, .f32⟩
  | 50 => ⟨S_, .f32⟩
  | 51 => ⟨S_, .f32⟩
  | 52 => ⟨S_, .f32⟩
  | 53 => ⟨S8x1x512x512, .f32⟩
  | 54 => ⟨S8x1x512x512, .f32⟩
  | 55 => ⟨S8x1x512x512, .f32⟩
  | 56 => ⟨S_, .f32⟩
  | 57 => ⟨S8x1x512x512, .f32⟩
  | 58 => ⟨S8x1x512x512, .f32⟩
  | 59 => ⟨S8x1x512x512, .f32⟩
  | 60 => ⟨S8x1x512x512, .f32⟩
  | 61 => ⟨S_, .f32⟩
  | 62 => ⟨S_, .f32⟩
  | 63 => ⟨S_, .f32⟩
  | 64 => ⟨S_, .f32⟩
  | 65 => ⟨S_, .f32⟩
  | 66 => ⟨S8x1x512x512, .f32⟩
  | 67 => ⟨S8x1x512x512, .f32⟩
  | 68 => ⟨S8x1x512x512, .f32⟩
  | 69 => ⟨S_, .f32⟩
  | 70 => ⟨S8x1x512x512, .f32⟩
  | 71 => ⟨S8x1x512x512, .f32⟩
  | 72 => ⟨S8x1x512x512, .f32⟩
  | 73 => ⟨S8x1x512x512, .f32⟩
  | 74 => ⟨S_, .f32⟩
  | 75 => ⟨S_, .f32⟩
  | 76 => ⟨S8x1x512x512, .f32⟩
  | 77 => ⟨S8x1x512x512, .f32⟩
  | 78 => ⟨S8x1x512x512, .f32⟩
  | 79 => ⟨S_, .f32⟩
  | 80 => ⟨S8x1x512x512, .f32⟩
  | 81 => ⟨S8x1x512x512, .f32⟩
  | 82 => ⟨S8x1x512x512, .f32⟩
  | 83 => ⟨S8x1x512x512, .f32⟩
  | 84 => ⟨S_, .f32⟩
  | 85 => ⟨S_, .f32⟩
  | 86 => ⟨S_, .f32⟩
  | 87 => ⟨S_, .f32⟩
  | 88 => ⟨S_, .f32⟩
  | 89 => ⟨S8x1x512x512, .f32⟩
  | 90 => ⟨S8x1x512x512, .f32⟩
  | 91 => ⟨S8x1x512x512, .f32⟩
  | 92 => ⟨S_, .f32⟩
  | 93 => ⟨S8x1x512x512, .f32⟩
  | 94 => ⟨S8x1x512x512, .f32⟩
  | 95 => ⟨S8x1x512x512, .f32⟩
  | 96 => ⟨S8x1x512x512, .f32⟩
  | 97 => ⟨S_, .f32⟩
  | 98 => ⟨S_, .f32⟩
  | 99 => ⟨S8x1x512x512, .f32⟩
  | 100 => ⟨S8x1x512x512, .f32⟩
  | 101 => ⟨S8x1x512x512, .f32⟩
  | 102 => ⟨S_, .f32⟩
  | 103 => ⟨S8x1x512x512, .f32⟩
  | 104 => ⟨S8x1x512x512, .f32⟩
  | 105 => ⟨S8x1x512x512, .f32⟩
  | 106 => ⟨S8x1x512x512, .f32⟩
  | 107 => ⟨S_, .f32⟩
  | 108 => ⟨S_, .f32⟩
  | 109 => ⟨S_, .f32⟩
  | 110 => ⟨S_, .f32⟩
  | 111 => ⟨S_, .f32⟩
  | 112 => ⟨S8x1x511x511, .f32⟩
  | 113 => ⟨S8x511x511, .f32⟩
  | 114 => ⟨S8x1x511x511, .f32⟩
  | 115 => ⟨S8x511x511, .f32⟩
  | 116 => ⟨S8x1x511x511, .f32⟩
  | 117 => ⟨S8x511x511, .f32⟩
  | 118 => ⟨S_, .f32⟩
  | 119 => ⟨S_, .f32⟩
  | 120 => ⟨S_, .f32⟩
  | 121 => ⟨S8x511x511, .f32⟩
  | 122 => ⟨S8x511x511, .f32⟩
  | 123 => ⟨S_, .f32⟩
  | 124 => ⟨S8x511x511, .f32⟩
  | 125 => ⟨S8x511x511, .f32⟩
  | 126 => ⟨S_, .f32⟩
  | 127 => ⟨S_, .f32⟩
  | _ => ⟨S8x1x512x512, .f32⟩

abbrev hbmTy0_1 (i : Nat) : BufTy := match i % 128 with
  | 0 => ⟨S_, .f32⟩
  | 1 => ⟨S8x511x511, .f32⟩
  | 2 => ⟨S8x511x511, .f32⟩
  | 3 => ⟨S_, .f32⟩
  | 4 => ⟨S8x511x511, .f32⟩
  | 5 => ⟨S8x511x511, .f32⟩
  | 6 => ⟨S8x511x511, .f32⟩
  | 7 => ⟨S8x511x511, .f32⟩
  | 8 => ⟨S8x511x511, .f32⟩
  | 9 => ⟨S_, .f32⟩
  | 10 => ⟨S_, .f32⟩
  | 11 => ⟨S_, .f32⟩
  | 12 => ⟨S_, .f32⟩
  | 13 => ⟨S8x1x511x512, .f32⟩
  | 14 => ⟨S8x511x512, .f32⟩
  | 15 => ⟨S8x1x511x512, .f32⟩
  | 16 => ⟨S8x511x512, .f32⟩
  | 17 => ⟨S8x1x511x512, .f32⟩
  | 18 => ⟨S8x511x512, .f32⟩
  | 19 => ⟨S_, .f32⟩
  | 20 => ⟨S_, .f32⟩
  | 21 => ⟨S_, .f32⟩
  | 22 => ⟨S8x511x512, .f32⟩
  | 23 => ⟨S8x511x512, .f32⟩
  | 24 => ⟨S_, .f32⟩
  | 25 => ⟨S8x511x512, .f32⟩
  | 26 => ⟨S8x511x512, .f32⟩
  | 27 => ⟨S_, .f32⟩
  | 28 => ⟨S_, .f32⟩
  | 29 => ⟨S_, .f32⟩
  | 30 => ⟨S8x511x512, .f32⟩
  | 31 => ⟨S8x511x512, .f32⟩
  | 32 => ⟨S_, .f32⟩
  | 33 => ⟨S8x511x512, .f32⟩
  | 34 => ⟨S8x511x512, .f32⟩
  | 35 => ⟨S8x511x512, .f32⟩
  | 36 => ⟨S8x511x512, .f32⟩
  | 37 => ⟨S8x511x512, .f32⟩
  | 38 => ⟨S_, .f32⟩
  | 39 => ⟨S_, .f32⟩
  | 40 => ⟨S_, .f32⟩
  | 41 => ⟨S8x1x511x511, .f32⟩
  | 42 => ⟨S8x511x511, .f32⟩
  | 43 => ⟨S8x1x511x511, .f32⟩
  | 44 => ⟨S8x511x511, .f32⟩
  | 45 => ⟨S8x1x511x511, .f32⟩
  | 46 => ⟨S8x511x511, .f32⟩
  | 47 => ⟨S_, .f32⟩
  | 48 => ⟨S_, .f32⟩
  | 49 => ⟨S_, .f32⟩
  | 50 => ⟨S8x511x511, .f32⟩
  | 51 => ⟨S8x511x511, .f32⟩
  | 52 => ⟨S_, .f32⟩
  | 53 => ⟨S8x511x511, .f32⟩
  | 54 => ⟨S8x511x511, .f32⟩
  | 55 => ⟨S_, .f32⟩
  | 56 => ⟨S_, .f32⟩
  | 57 => ⟨S_, .f32⟩
  | 58 => ⟨S8x511x511, .f32⟩
  | 59 => ⟨S8x511x511, .f32⟩
  | 60 => ⟨S_, .f32⟩
  | 61 => ⟨S8x511x511, .f32⟩
  | 62 => ⟨S8x511x511, .f32⟩
  | 63 => ⟨S8x511x511, .f32⟩
  | 64 => ⟨S8x511x511, .f32⟩
  | 65 => ⟨S8x511x511, .f32⟩
  | 66 => ⟨S_, .f32⟩
  | 67 => ⟨S_, .f32⟩
  | 68 => ⟨S_, .f32⟩
  | 69 => ⟨S8x1x512x511, .f32⟩
  | 70 => ⟨S8x512x511, .f32⟩
  | 71 => ⟨S8x1x512x511, .f32⟩
  | 72 => ⟨S8x512x511, .f32⟩
  | 73 => ⟨S8x1x512x511, .f32⟩
  | 74 => ⟨S8x512x511, .f32⟩
  | 75 => ⟨S_, .f32⟩
  | 76 => ⟨S_, .f32⟩
  | 77 => ⟨S_, .f32⟩
  | 78 => ⟨S8x512x511, .f32⟩
  | 79 => ⟨S8x512x511, .f32⟩
  | 80 => ⟨S_, .f32⟩
  | 81 => ⟨S8x512x511, .f32⟩
  | 82 => ⟨S8x512x511, .f32⟩
  | 83 => ⟨S_, .f32⟩
  | 84 => ⟨S_, .f32⟩
  | 85 => ⟨S_, .f32⟩
  | 86 => ⟨S8x512x511, .f32⟩
  | 87 => ⟨S8x512x511, .f32⟩
  | 88 => ⟨S_, .f32⟩
  | 89 => ⟨S8x512x511, .f32⟩
  | 90 => ⟨S8x512x511, .f32⟩
  | 91 => ⟨S8x512x511, .f32⟩
  | 92 => ⟨S8x512x511, .f32⟩
  | 93 => ⟨S8x512x511, .f32⟩
  | 94 => ⟨S_, .f32⟩
  | 95 => ⟨S_, .f32⟩
  | 96 => ⟨S_, .f32⟩
  | 97 => ⟨S8x1x512x512, .f32⟩
  | 98 => ⟨S8x512x512, .f32⟩
  | 99 => ⟨S8x1x512x512, .f32⟩
  | 100 => ⟨S8x512x512, .f32⟩
  | 101 => ⟨S8x512x512, .f32⟩
  | 102 => ⟨S_, .f32⟩
  | 103 => ⟨S_, .f32⟩
  | 104 => ⟨S_, .f32⟩
  | 105 => ⟨S8x512x512, .f32⟩
  | 106 => ⟨S8x512x512, .f32⟩
  | 107 => ⟨S_, .f32⟩
  | 108 => ⟨S8x512x512, .f32⟩
  | 109 => ⟨S8x512x512, .f32⟩
  | 110 => ⟨S_, .f32⟩
  | 111 => ⟨S_, .f32⟩
  | 112 => ⟨S_, .f32⟩
  | 113 => ⟨S8x512x512, .f32⟩
  | 114 => ⟨S8x512x512, .f32⟩
  | 115 => ⟨S_, .f32⟩
  | 116 => ⟨S8x512x512, .f32⟩
  | 117 => ⟨S8x512x512, .f32⟩
  | 118 => ⟨S8x512x512, .f32⟩
  | 119 => ⟨S8x512x512, .f32⟩
  | 120 => ⟨S8x512x512, .f32⟩
  | 121 => ⟨S_, .f32⟩
  | 122 => ⟨S_, .f32⟩
  | 123 => ⟨S_, .f32⟩
  | 124 => ⟨S8x1x512x511, .f32⟩
  | 125 => ⟨S8x512x511, .f32⟩
  | 126 => ⟨S8x1x512x511, .f32⟩
  | 127 => ⟨S8x512x511, .f32⟩
  | _ => ⟨S8x1x512x512, .f32⟩

abbrev hbmTy0_2 (i : Nat) : BufTy := match i % 128 with
  | 0 => ⟨S8x1x512x511, .f32⟩
  | 1 => ⟨S8x512x511, .f32⟩
  | 2 => ⟨S_, .f32⟩
  | 3 => ⟨S_, .f32⟩
  | 4 => ⟨S_, .f32⟩
  | 5 => ⟨S8x512x511, .f32⟩
  | 6 => ⟨S8x512x511, .f32⟩
  | 7 => ⟨S_, .f32⟩
  | 8 => ⟨S8x512x511, .f32⟩
  | 9 => ⟨S8x512x511, .f32⟩
  | 10 => ⟨S_, .f32⟩
  | 11 => ⟨S_, .f32⟩
  | 12 => ⟨S_, .f32⟩
  | 13 => ⟨S8x512x511, .f32⟩
  | 14 => ⟨S8x512x511, .f32⟩
  | 15 => ⟨S_, .f32⟩
  | 16 => ⟨S8x512x511, .f32⟩
  | 17 => ⟨S8x512x511, .f32⟩
  | 18 => ⟨S8x512x511, .f32⟩
  | 19 => ⟨S8x512x511, .f32⟩
  | 20 => ⟨S8x512x511, .f32⟩
  | 21 => ⟨S_, .f32⟩
  | 22 => ⟨S_, .f32⟩
  | 23 => ⟨S_, .f32⟩
  | 24 => ⟨S8x1x511x511, .f32⟩
  | 25 => ⟨S8x511x511, .f32⟩
  | 26 => ⟨S8x1x511x511, .f32⟩
  | 27 => ⟨S8x511x511, .f32⟩
  | 28 => ⟨S8x1x511x511, .f32⟩
  | 29 => ⟨S8x511x511, .f32⟩
  | 30 => ⟨S_, .f32⟩
  | 31 => ⟨S_, .f32⟩
  | 32 => ⟨S_, .f32⟩
  | 33 => ⟨S8x511x511, .f32⟩
  | 34 => ⟨S8x511x511, .f32⟩
  | 35 => ⟨S_, .f32⟩
  | 36 => ⟨S8x511x511, .f32⟩
  | 37 => ⟨S8x511x511, .f32⟩
  | 38 => ⟨S_, .f32⟩
  | 39 => ⟨S_, .f32⟩
  | 40 => ⟨S_, .f32⟩
  | 41 => ⟨S8x511x511, .f32⟩
  | 42 => ⟨S8x511x511, .f32⟩
  | 43 => ⟨S_, .f32⟩
  | 44 => ⟨S8x511x511, .f32⟩
  | 45 => ⟨S8x511x511, .f32⟩
  | 46 => ⟨S8x511x511, .f32⟩
  | 47 => ⟨S8x511x511, .f32⟩
  | 48 => ⟨S8x511x511, .f32⟩
  | 49 => ⟨S_, .f32⟩
  | 50 => ⟨S_, .f32⟩
  | 51 => ⟨S_, .f32⟩
  | 52 => ⟨S8x1x511x512, .f32⟩
  | 53 => ⟨S8x511x512, .f32⟩
  | 54 => ⟨S8x1x511x512, .f32⟩
  | 55 => ⟨S8x511x512, .f32⟩
  | 56 => ⟨S8x1x511x512, .f32⟩
  | 57 => ⟨S8x511x512, .f32⟩
  | 58 => ⟨S_, .f32⟩
  | 59 => ⟨S_, .f32⟩
  | 60 => ⟨S_, .f32⟩
  | 61 => ⟨S8x511x512, .f32⟩
  | 62 => ⟨S8x511x512, .f32⟩
  | 63 => ⟨S_, .f32⟩
  | 64 => ⟨S8x511x512, .f32⟩
  | 65 => ⟨S8x511x512, .f32⟩
  | 66 => ⟨S_, .f32⟩
  | 67 => ⟨S_, .f32⟩
  | 68 => ⟨S_, .f32⟩
  | 69 => ⟨S8x511x512, .f32⟩
  | 70 => ⟨S8x511x512, .f32⟩
  | 71 => ⟨S_, .f32⟩
  | 72 => ⟨S8x511x512, .f32⟩
  | 73 => ⟨S8x511x512, .f32⟩
  | 74 => ⟨S8x511x512, .f32⟩
  | 75 => ⟨S8x511x512, .f32⟩
  | 76 => ⟨S8x511x512, .f32⟩
  | 77 => ⟨S_, .f32⟩
  | 78 => ⟨S_, .f32⟩
  | 79 => ⟨S_, .f32⟩
  | 80 => ⟨S8x1x511x511, .f32⟩
  | 81 => ⟨S8x511x511, .f32⟩
  | 82 => ⟨S8x1x511x511, .f32⟩
  | 83 => ⟨S8x511x511, .f32⟩
  | 84 => ⟨S8x1x511x511, .f32⟩
  | 85 => ⟨S8x511x511, .f32⟩
  | 86 => ⟨S_, .f32⟩
  | 87 => ⟨S_, .f32⟩
  | 88 => ⟨S_, .f32⟩
  | 89 => ⟨S8x511x511, .f32⟩
  | 90 => ⟨S8x511x511, .f32⟩
  | 91 => ⟨S_, .f32⟩
  | 92 => ⟨S8x511x511, .f32⟩
  | 93 => ⟨S8x511x511, .f32⟩
  | 94 => ⟨S_, .f32⟩
  | 95 => ⟨S_, .f32⟩
  | 96 => ⟨S_, .f32⟩
  | 97 => ⟨S8x511x511, .f32⟩
  | 98 => ⟨S8x511x511, .f32⟩
  | 99 => ⟨S_, .f32⟩
  | 100 => ⟨S8x511x511, .f32⟩
  | 101 => ⟨S8x511x511, .f32⟩
  | 102 => ⟨S8x511x511, .f32⟩
  | 103 => ⟨S8x511x511, .f32⟩
  | 104 => ⟨S8x511x511, .f32⟩
  | 105 => ⟨S_, .f32⟩
  | 106 => ⟨S_, .f32⟩
  | 107 => ⟨S_, .f32⟩
  | 108 => ⟨S8x1x511x511, .f32⟩
  | 109 => ⟨S8x511x511, .f32⟩
  | 110 => ⟨S8x1x511x511, .f32⟩
  | 111 => ⟨S8x511x511, .f32⟩
  | 112 => ⟨S8x1x511x511, .f32⟩
  | 113 => ⟨S8x511x511, .f32⟩
  | 114 => ⟨S_, .f32⟩
  | 115 => ⟨S_, .f32⟩
  | 116 => ⟨S_, .f32⟩
  | 117 => ⟨S8x511x511, .f32⟩
  | 118 => ⟨S8x511x511, .f32⟩
  | 119 => ⟨S_, .f32⟩
  | 120 => ⟨S8x511x511, .f32⟩
  | 121 => ⟨S8x511x511, .f32⟩
  | 122 => ⟨S_, .f32⟩
  | 123 => ⟨S_, .f32⟩
  | 124 => ⟨S_, .f32⟩
  | 125 => ⟨S8x511x511, .f32⟩
  | 126 => ⟨S8x511x511, .f32⟩
  | 127 => ⟨S_, .f32⟩
  | _ => ⟨S8x1x512x512, .f32⟩

abbrev hbmTy0_3 (i : Nat) : BufTy := match i % 128 with
  | 0 => ⟨S8x511x511, .f32⟩
  | 1 => ⟨S8x511x511, .f32⟩
  | 2 => ⟨S8x511x511, .f32⟩
  | 3 => ⟨S8x511x511, .f32⟩
  | 4 => ⟨S8x511x511, .f32⟩
  | 5 => ⟨S_, .f32⟩
  | 6 => ⟨S_, .f32⟩
  | 7 => ⟨S_, .f32⟩
  | 8 => ⟨S_, .f32⟩
  | 9 => ⟨S8x1x511x512, .f32⟩
  | 10 => ⟨S8x511x512, .f32⟩
  | 11 => ⟨S8x1x511x512, .f32⟩
  | 12 => ⟨S8x511x512, .f32⟩
  | 13 => ⟨S8x1x511x512, .f32⟩
  | 14 => ⟨S8x511x512, .f32⟩
  | 15 => ⟨S_, .f32⟩
  | 16 => ⟨S_, .f32⟩
  | 17 => ⟨S_, .f32⟩
  | 18 => ⟨S8x511x512, .f32⟩
  | 19 => ⟨S8x511x512, .f32⟩
  | 20 => ⟨S_, .f32⟩
  | 21 => ⟨S8x511x512, .f32⟩
  | 22 => ⟨S8x511x512, .f32⟩
  | 23 => ⟨S_, .f32⟩
  | 24 => ⟨S_, .f32⟩
  | 25 => ⟨S_, .f32⟩
  | 26 => ⟨S8x511x512, .f32⟩
  | 27 => ⟨S8x511x512, .f32⟩
  | 28 => ⟨S_, .f32⟩
  | 29 => ⟨S8x511x512, .f32⟩
  | 30 => ⟨S8x511x512, .f32⟩
  | 31 => ⟨S8x511x512, .f32⟩
  | 32 => ⟨S8x511x512, .f32⟩
  | 33 => ⟨S8x511x512, .f32⟩
  | 34 => ⟨S_, .f32⟩
  | 35 => ⟨S_, .f32⟩
  | 36 => ⟨S_, .f32⟩
  | 37 => ⟨S8x1x511x511, .f32⟩
  | 38 => ⟨S8x511x511, .f32⟩
  | 39 => ⟨S8x1x511x511, .f32⟩
  | 40 => ⟨S8x511x511, .f32⟩
  | 41 => ⟨S8x1x511x511, .f32⟩
  | 42 => ⟨S8x511x511, .f32⟩
  | 43 => ⟨S_, .f32⟩
  | 44 => ⟨S_, .f32⟩
  | 45 => ⟨S_, .f32⟩
  | 46 => ⟨S8x511x511, .f32⟩
  | 47 => ⟨S8x511x511, .f32⟩
  | 48 => ⟨S_, .f32⟩
  | 49 => ⟨S8x511x511, .f32⟩
  | 50 => ⟨S8x511x511, .f32⟩
  | 51 => ⟨S_, .f32⟩
  | 52 => ⟨S_, .f32⟩
  | 53 => ⟨S_, .f32⟩
  | 54 => ⟨S8x511x511, .f32⟩
  | 55 => ⟨S8x511x511, .f32⟩
  | 56 => ⟨S_, .f32⟩
  | 57 => ⟨S8x511x511, .f32⟩
  | 58 => ⟨S8x511x511, .f32⟩
  | 59 => ⟨S8x511x511, .f32⟩
  | 60 => ⟨S8x511x511, .f32⟩
  | 61 => ⟨S8x511x511, .f32⟩
  | 62 => ⟨S_, .f32⟩
  | 63 => ⟨S_, .f32⟩
  | 64 => ⟨S_, .f32⟩
  | 65 => ⟨S8x1x512x511, .f32⟩
  | 66 => ⟨S8x512x511, .f32⟩
  | 67 => ⟨S8x1x512x511, .f32⟩
  | 68 => ⟨S8x512x511, .f32⟩
  | 69 => ⟨S8x1x512x511, .f32⟩
  | 70 => ⟨S8x512x511, .f32⟩
  | 71 => ⟨S_, .f32⟩
  | 72 => ⟨S_, .f32⟩
  | 73 => ⟨S_, .f32⟩
  | 74 => ⟨S8x512x511, .f32⟩
  | 75 => ⟨S8x512x511, .f32⟩
  | 76 => ⟨S_, .f32⟩
  | 77 => ⟨S8x512x511, .f32⟩
  | 78 => ⟨S8x512x511, .f32⟩
  | 79 => ⟨S_, .f32⟩
  | 80 => ⟨S_, .f32⟩
  | 81 => ⟨S_, .f32⟩
  | 82 => ⟨S8x512x511, .f32⟩
  | 83 => ⟨S8x512x511, .f32⟩
  | 84 => ⟨S_, .f32⟩
  | 85 => ⟨S8x512x511, .f32⟩
  | 86 => ⟨S8x512x511, .f32⟩
  | 87 => ⟨S8x512x511, .f32⟩
  | 88 => ⟨S8x512x511, .f32⟩
  | 89 => ⟨S8x512x511, .f32⟩
  | 90 => ⟨S_, .f32⟩
  | 91 => ⟨S_, .f32⟩
  | 92 => ⟨S_, .f32⟩
  | 93 => ⟨S8x1x512x512, .f32⟩
  | 94 => ⟨S8x512x512, .f32⟩
  | 95 => ⟨S8x1x512x512, .f32⟩
  | 96 => ⟨S8x512x512, .f32⟩
  | 97 => ⟨S8x512x512, .f32⟩
  | 98 => ⟨S_, .f32⟩
  | 99 => ⟨S_, .f32⟩
  | 100 => ⟨S_, .f32⟩
  | 101 => ⟨S8x512x512, .f32⟩
  | 102 => ⟨S8x512x512, .f32⟩
  | 103 => ⟨S_, .f32⟩
  | 104 => ⟨S8x512x512, .f32⟩
  | 105 => ⟨S8x512x512, .f32⟩
  | 106 => ⟨S_, .f32⟩
  | 107 => ⟨S_, .f32⟩
  | 108 => ⟨S_, .f32⟩
  | 109 => ⟨S8x512x512, .f32⟩
  | 110 => ⟨S8x512x512, .f32⟩
  | 111 => ⟨S_, .f32⟩
  | 112 => ⟨S8x512x512, .f32⟩
  | 113 => ⟨S8x512x512, .f32⟩
  | 114 => ⟨S8x512x512, .f32⟩
  | 115 => ⟨S8x512x512, .f32⟩
  | 116 => ⟨S8x512x512, .f32⟩
  | 117 => ⟨S_, .f32⟩
  | 118 => ⟨S_, .f32⟩
  | 119 => ⟨S_, .f32⟩
  | 120 => ⟨S8x1x512x511, .f32⟩
  | 121 => ⟨S8x512x511, .f32⟩
  | 122 => ⟨S8x1x512x511, .f32⟩
  | 123 => ⟨S8x512x511, .f32⟩
  | 124 => ⟨S8x1x512x511, .f32⟩
  | 125 => ⟨S8x512x511, .f32⟩
  | 126 => ⟨S_, .f32⟩
  | 127 => ⟨S_, .f32⟩
  | _ => ⟨S8x1x512x512, .f32⟩

abbrev hbmTy0_4 (i : Nat) : BufTy := match i % 128 with
  | 0 => ⟨S_, .f32⟩
  | 1 => ⟨S8x512x511, .f32⟩
  | 2 => ⟨S8x512x511, .f32⟩
  | 3 => ⟨S_, .f32⟩
  | 4 => ⟨S8x512x511, .f32⟩
  | 5 => ⟨S8x512x511, .f32⟩
  | 6 => ⟨S_, .f32⟩
  | 7 => ⟨S_, .f32⟩
  | 8 => ⟨S_, .f32⟩
  | 9 => ⟨S8x512x511, .f32⟩
  | 10 => ⟨S8x512x511, .f32⟩
  | 11 => ⟨S_, .f32⟩
  | 12 => ⟨S8x512x511, .f32⟩
  | 13 => ⟨S8x512x511, .f32⟩
  | 14 => ⟨S8x512x511, .f32⟩
  | 15 => ⟨S8x512x511, .f32⟩
  | 16 => ⟨S8x512x511, .f32⟩
  | 17 => ⟨S_, .f32⟩
  | 18 => ⟨S_, .f32⟩
  | 19 => ⟨S_, .f32⟩
  | 20 => ⟨S8x1x511x511, .f32⟩
  | 21 => ⟨S8x511x511, .f32⟩
  | 22 => ⟨S8x1x511x511, .f32⟩
  | 23 => ⟨S8x511x511, .f32⟩
  | 24 => ⟨S8x1x511x511, .f32⟩
  | 25 => ⟨S8x511x511, .f32⟩
  | 26 => ⟨S_, .f32⟩
  | 27 => ⟨S_, .f32⟩
  | 28 => ⟨S_, .f32⟩
  | 29 => ⟨S8x511x511, .f32⟩
  | 30 => ⟨S8x511x511, .f32⟩
  | 31 => ⟨S_, .f32⟩
  | 32 => ⟨S8x511x511, .f32⟩
  | 33 => ⟨S8x511x511, .f32⟩
  | 34 => ⟨S_, .f32⟩
  | 35 => ⟨S_, .f32⟩
  | 36 => ⟨S_, .f32⟩
  | 37 => ⟨S8x511x511, .f32⟩
  | 38 => ⟨S8x511x511, .f32⟩
  | 39 => ⟨S_, .f32⟩
  | 40 => ⟨S8x511x511, .f32⟩
  | 41 => ⟨S8x511x511, .f32⟩
  | 42 => ⟨S8x511x511, .f32⟩
  | 43 => ⟨S8x511x511, .f32⟩
  | 44 => ⟨S8x511x511, .f32⟩
  | 45 => ⟨S_, .f32⟩
  | 46 => ⟨S_, .f32⟩
  | 47 => ⟨S_, .f32⟩
  | 48 => ⟨S8x1x511x512, .f32⟩
  | 49 => ⟨S8x511x512, .f32⟩
  | 50 => ⟨S8x1x511x512, .f32⟩
  | 51 => ⟨S8x511x512, .f32⟩
  | 52 => ⟨S8x1x511x512, .f32⟩
  | 53 => ⟨S8x511x512, .f32⟩
  | 54 => ⟨S_, .f32⟩
  | 55 => ⟨S_, .f32⟩
  | 56 => ⟨S_, .f32⟩
  | 57 => ⟨S8x511x512, .f32⟩
  | 58 => ⟨S8x511x512, .f32⟩
  | 59 => ⟨S_, .f32⟩
  | 60 => ⟨S8x511x512, .f32⟩
  | 61 => ⟨S8x511x512, .f32⟩
  | 62 => ⟨S_, .f32⟩
  | 63 => ⟨S_, .f32⟩
  | 64 => ⟨S_, .f32⟩
  | 65 => ⟨S8x511x512, .f32⟩
  | 66 => ⟨S8x511x512, .f32⟩
  | 67 => ⟨S_, .f32⟩
  | 68 => ⟨S8x511x512, .f32⟩
  | 69 => ⟨S8x511x512, .f32⟩
  | 70 => ⟨S8x511x512, .f32⟩
  | 71 => ⟨S8x511x512, .f32⟩
  | 72 => ⟨S8x511x512, .f32⟩
  | 73 => ⟨S_, .f32⟩
  | 74 => ⟨S_, .f32⟩
  | 75 => ⟨S_, .f32⟩
  | 76 => ⟨S8x1x511x511, .f32⟩
  | 77 => ⟨S8x511x511, .f32⟩
  | 78 => ⟨S8x1x511x511, .f32⟩
  | 79 => ⟨S8x511x511, .f32⟩
  | 80 => ⟨S8x1x511x511, .f32⟩
  | 81 => ⟨S8x511x511, .f32⟩
  | 82 => ⟨S_, .f32⟩
  | 83 => ⟨S_, .f32⟩
  | 84 => ⟨S_, .f32⟩
  | 85 => ⟨S8x511x511, .f32⟩
  | 86 => ⟨S8x511x511, .f32⟩
  | 87 => ⟨S_, .f32⟩
  | 88 => ⟨S8x511x511, .f32⟩
  | 89 => ⟨S8x511x511, .f32⟩
  | 90 => ⟨S_, .f32⟩
  | 91 => ⟨S_, .f32⟩
  | 92 => ⟨S_, .f32⟩
  | 93 => ⟨S8x511x511, .f32⟩
  | 94 => ⟨S8x511x511, .f32⟩
  | 95 => ⟨S_, .f32⟩
  | 96 => ⟨S8x511x511, .f32⟩
  | 97 => ⟨S8x511x511, .f32⟩
  | 98 => ⟨S8x511x511, .f32⟩
  | 99 => ⟨S8x511x511, .f32⟩
  | 100 => ⟨S8x511x511, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | _ => ⟨S8x1x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x1x512x512, .f32⟩

abbrev bufTy : (tb : Table) → Fin (tcTables nBuf tb) → BufTy
  | .hbm, ⟨i, _⟩ => hbmTy i
  | _, _ => ⟨S8x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_4 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_15 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_16 : Ref sig .tc := ⟨.hbm, 107, rfl⟩
abbrev main_v73 : Ref sig .tc := ⟨.hbm, 108, rfl⟩
abbrev main_v74 : Ref sig .tc := ⟨.hbm, 109, rfl⟩
abbrev main_cst_17 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_18 : Ref sig .tc := ⟨.hbm, 118, rfl⟩
abbrev main_cst_19 : Ref sig .tc := ⟨.hbm, 119, rfl⟩
abbrev main_call0_v0 : Ref sig .tc := ⟨.hbm, 120, rfl⟩
abbrev main_call0_v1 : Ref sig .tc := ⟨.hbm, 121, rfl⟩
abbrev main_call0_v2 : Ref sig .tc := ⟨.hbm, 122, rfl⟩
abbrev main_call0_v3 : Ref sig .tc := ⟨.hbm, 123, rfl⟩
abbrev main_call0_v4 : Ref sig .tc := ⟨.hbm, 124, rfl⟩
abbrev main_v82 : Ref sig .tc := ⟨.hbm, 125, rfl⟩
abbrev main_cst_20 : Ref sig .tc := ⟨.hbm, 126, rfl⟩
abbrev main_cst_21 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_22 : Ref sig .tc := ⟨.hbm, 137, rfl⟩
abbrev main_v87 : Ref sig .tc := ⟨.hbm, 138, rfl⟩
abbrev main_cst_23 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_24 : Ref sig .tc := ⟨.hbm, 147, rfl⟩
abbrev main_cst_25 : Ref sig .tc := ⟨.hbm, 148, rfl⟩
abbrev main_call2_v0 : Ref sig .tc := ⟨.hbm, 149, rfl⟩
abbrev main_call2_v1 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_v95 : Ref sig .tc := ⟨.hbm, 154, rfl⟩
abbrev main_cst_26 : Ref sig .tc := ⟨.hbm, 155, rfl⟩
abbrev main_cst_27 : Ref sig .tc := ⟨.hbm, 156, rfl⟩
abbrev main_call3_v0 : Ref sig .tc := ⟨.hbm, 157, rfl⟩
abbrev main_call3_v1 : Ref sig .tc := ⟨.hbm, 158, rfl⟩
abbrev main_call3_v2 : Ref sig .tc := ⟨.hbm, 159, rfl⟩
abbrev main_call3_v3 : Ref sig .tc := ⟨.hbm, 160, rfl⟩
abbrev main_call3_v4 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_cst_28 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_cst_29 : Ref sig .tc := ⟨.hbm, 175, rfl⟩
abbrev main_cst_30 : Ref sig .tc := ⟨.hbm, 176, rfl⟩
abbrev main_call4_v0 : Ref sig .tc := ⟨.hbm, 177, rfl⟩
abbrev main_call4_v1 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_v108 : Ref sig .tc := ⟨.hbm, 182, rfl⟩
abbrev main_cst_31 : Ref sig .tc := ⟨.hbm, 183, rfl⟩
abbrev main_cst_32 : Ref sig .tc := ⟨.hbm, 184, rfl⟩
abbrev main_call5_v0 : Ref sig .tc := ⟨.hbm, 185, rfl⟩
abbrev main_call5_v1 : Ref sig .tc := ⟨.hbm, 186, rfl⟩
abbrev main_call5_v2 : Ref sig .tc := ⟨.hbm, 187, rfl⟩
abbrev main_call5_v3 : Ref sig .tc := ⟨.hbm, 188, rfl⟩
abbrev main_call5_v4 : Ref sig .tc := ⟨.hbm, 189, rfl⟩
abbrev main_v109 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_cst_33 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_cst_34 : Ref sig .tc := ⟨.hbm, 203, rfl⟩
abbrev main_cst_35 : Ref sig .tc := ⟨.hbm, 204, rfl⟩
abbrev main_call6_v0 : Ref sig .tc := ⟨.hbm, 205, rfl⟩
abbrev main_call6_v1 : Ref sig .tc := ⟨.hbm, 206, rfl⟩
abbrev main_call6_v2 : Ref sig .tc := ⟨.hbm, 207, rfl⟩
abbrev main_call6_v3 : Ref sig .tc := ⟨.hbm, 208, rfl⟩
abbrev main_call6_v4 : Ref sig .tc := ⟨.hbm, 209, rfl⟩
abbrev main_v121 : Ref sig .tc := ⟨.hbm, 210, rfl⟩
abbrev main_cst_36 : Ref sig .tc := ⟨.hbm, 211, rfl⟩
abbrev main_cst_37 : Ref sig .tc := ⟨.hbm, 212, rfl⟩
abbrev main_call7_v0 : Ref sig .tc := ⟨.hbm, 213, rfl⟩
abbrev main_call7_v1 : Ref sig .tc := ⟨.hbm, 214, rfl⟩
abbrev main_call7_v2 : Ref sig .tc := ⟨.hbm, 215, rfl⟩
abbrev main_call7_v3 : Ref sig .tc := ⟨.hbm, 216, rfl⟩
abbrev main_call7_v4 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_cst_38 : Ref sig .tc := ⟨.hbm, 222, rfl⟩
abbrev main_v126 : Ref sig .tc := ⟨.hbm, 223, rfl⟩
abbrev main_v127 : Ref sig .tc := ⟨.hbm, 224, rfl⟩
abbrev main_v128 : Ref sig .tc := ⟨.hbm, 225, rfl⟩
abbrev main_v129 : Ref sig .tc := ⟨.hbm, 226, rfl⟩
abbrev main_v130 : Ref sig .tc := ⟨.hbm, 227, rfl⟩
abbrev main_v131 : Ref sig .tc := ⟨.hbm, 228, rfl⟩
abbrev main_v132 : Ref sig .tc := ⟨.hbm, 229, rfl⟩
abbrev main_cst_39 : Ref sig .tc := ⟨.hbm, 230, rfl⟩
abbrev main_cst_40 : Ref sig .tc := ⟨.hbm, 231, rfl⟩
abbrev main_call8_v0 : Ref sig .tc := ⟨.hbm, 232, rfl⟩
abbrev main_call8_v1 : Ref sig .tc := ⟨.hbm, 233, rfl⟩
abbrev main_call8_v2 : Ref sig .tc := ⟨.hbm, 234, rfl⟩
abbrev main_call8_v3 : Ref sig .tc := ⟨.hbm, 235, rfl⟩
abbrev main_call8_v4 : Ref sig .tc := ⟨.hbm, 236, rfl⟩
abbrev main_v133 : Ref sig .tc := ⟨.hbm, 237, rfl⟩
abbrev main_cst_41 : Ref sig .tc := ⟨.hbm, 238, rfl⟩
abbrev main_cst_42 : Ref sig .tc := ⟨.hbm, 239, rfl⟩
abbrev main_call9_v0 : Ref sig .tc := ⟨.hbm, 240, rfl⟩
abbrev main_call9_v1 : Ref sig .tc := ⟨.hbm, 241, rfl⟩
abbrev main_call9_v2 : Ref sig .tc := ⟨.hbm, 242, rfl⟩
abbrev main_call9_v3 : Ref sig .tc := ⟨.hbm, 243, rfl⟩
abbrev main_call9_v4 : Ref sig .tc := ⟨.hbm, 244, rfl⟩
abbrev main_v134 : Ref sig .tc := ⟨.hbm, 245, rfl⟩
abbrev main_v135 : Ref sig .tc := ⟨.hbm, 246, rfl⟩
abbrev main_v136 : Ref sig .tc := ⟨.hbm, 247, rfl⟩
abbrev main_v137 : Ref sig .tc := ⟨.hbm, 248, rfl⟩
abbrev main_cst_43 : Ref sig .tc := ⟨.hbm, 249, rfl⟩
abbrev main_v138 : Ref sig .tc := ⟨.hbm, 250, rfl⟩
abbrev main_v139 : Ref sig .tc := ⟨.hbm, 251, rfl⟩
abbrev main_v140 : Ref sig .tc := ⟨.hbm, 252, rfl⟩
abbrev main_v141 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_v145 : Ref sig .tc := ⟨.hbm, 257, rfl⟩
abbrev main_cst_44 : Ref sig .tc := ⟨.hbm, 258, rfl⟩
abbrev main_cst_45 : Ref sig .tc := ⟨.hbm, 259, rfl⟩
abbrev main_call10_v0 : Ref sig .tc := ⟨.hbm, 260, rfl⟩
abbrev main_call10_v1 : Ref sig .tc := ⟨.hbm, 261, rfl⟩
abbrev main_call10_v2 : Ref sig .tc := ⟨.hbm, 262, rfl⟩
abbrev main_call10_v3 : Ref sig .tc := ⟨.hbm, 263, rfl⟩
abbrev main_call10_v4 : Ref sig .tc := ⟨.hbm, 264, rfl⟩
abbrev main_v146 : Ref sig .tc := ⟨.hbm, 265, rfl⟩
abbrev main_cst_46 : Ref sig .tc := ⟨.hbm, 266, rfl⟩
abbrev main_cst_47 : Ref sig .tc := ⟨.hbm, 267, rfl⟩
abbrev main_call11_v0 : Ref sig .tc := ⟨.hbm, 268, rfl⟩
abbrev main_call11_v1 : Ref sig .tc := ⟨.hbm, 269, rfl⟩
abbrev main_call11_v2 : Ref sig .tc := ⟨.hbm, 270, rfl⟩
abbrev main_call11_v3 : Ref sig .tc := ⟨.hbm, 271, rfl⟩
abbrev main_call11_v4 : Ref sig .tc := ⟨.hbm, 272, rfl⟩
abbrev main_v147 : Ref sig .tc := ⟨.hbm, 273, rfl⟩
abbrev main_v148 : Ref sig .tc := ⟨.hbm, 274, rfl⟩
abbrev main_v149 : Ref sig .tc := ⟨.hbm, 275, rfl⟩
abbrev main_v150 : Ref sig .tc := ⟨.hbm, 276, rfl⟩
abbrev main_cst_48 : Ref sig .tc := ⟨.hbm, 277, rfl⟩
abbrev main_v151 : Ref sig .tc := ⟨.hbm, 278, rfl⟩
abbrev main_v152 : Ref sig .tc := ⟨.hbm, 279, rfl⟩
abbrev main_v153 : Ref sig .tc := ⟨.hbm, 280, rfl⟩
abbrev main_v154 : Ref sig .tc := ⟨.hbm, 281, rfl⟩
abbrev main_v155 : Ref sig .tc := ⟨.hbm, 282, rfl⟩
abbrev main_v156 : Ref sig .tc := ⟨.hbm, 283, rfl⟩
abbrev main_v157 : Ref sig .tc := ⟨.hbm, 284, rfl⟩
abbrev main_v158 : Ref sig .tc := ⟨.hbm, 285, rfl⟩
abbrev main_cst_49 : Ref sig .tc := ⟨.hbm, 286, rfl⟩
abbrev main_cst_50 : Ref sig .tc := ⟨.hbm, 287, rfl⟩
abbrev main_call12_v0 : Ref sig .tc := ⟨.hbm, 288, rfl⟩
abbrev main_call12_v1 : Ref sig .tc := ⟨.hbm, 289, rfl⟩
abbrev main_call12_v2 : Ref sig .tc := ⟨.hbm, 290, rfl⟩
abbrev main_call12_v3 : Ref sig .tc := ⟨.hbm, 291, rfl⟩
abbrev main_call12_v4 : Ref sig .tc := ⟨.hbm, 292, rfl⟩
abbrev main_v159 : Ref sig .tc := ⟨.hbm, 293, rfl⟩
abbrev main_cst_51 : Ref sig .tc := ⟨.hbm, 294, rfl⟩
abbrev main_cst_52 : Ref sig .tc := ⟨.hbm, 295, rfl⟩
abbrev main_call13_v0 : Ref sig .tc := ⟨.hbm, 296, rfl⟩
abbrev main_call13_v1 : Ref sig .tc := ⟨.hbm, 297, rfl⟩
abbrev main_call13_v2 : Ref sig .tc := ⟨.hbm, 298, rfl⟩
abbrev main_call13_v3 : Ref sig .tc := ⟨.hbm, 299, rfl⟩
abbrev main_call13_v4 : Ref sig .tc := ⟨.hbm, 300, rfl⟩
abbrev main_v160 : Ref sig .tc := ⟨.hbm, 301, rfl⟩
abbrev main_v161 : Ref sig .tc := ⟨.hbm, 302, rfl⟩
abbrev main_v162 : Ref sig .tc := ⟨.hbm, 303, rfl⟩
abbrev main_v163 : Ref sig .tc := ⟨.hbm, 304, rfl⟩
abbrev main_cst_53 : Ref sig .tc := ⟨.hbm, 305, rfl⟩
abbrev main_v164 : Ref sig .tc := ⟨.hbm, 306, rfl⟩
abbrev main_v165 : Ref sig .tc := ⟨.hbm, 307, rfl⟩
abbrev main_v166 : Ref sig .tc := ⟨.hbm, 308, rfl⟩
abbrev main_v167 : Ref sig .tc := ⟨.hbm, 309, rfl⟩
abbrev main_v168 : Ref sig .tc := ⟨.hbm, 310, rfl⟩
abbrev main_v169 : Ref sig .tc := ⟨.hbm, 311, rfl⟩
abbrev main_v170 : Ref sig .tc := ⟨.hbm, 312, rfl⟩
abbrev main_v171 : Ref sig .tc := ⟨.hbm, 313, rfl⟩
abbrev main_cst_54 : Ref sig .tc := ⟨.hbm, 314, rfl⟩
abbrev main_cst_55 : Ref sig .tc := ⟨.hbm, 315, rfl⟩
abbrev main_call14_v0 : Ref sig .tc := ⟨.hbm, 316, rfl⟩
abbrev main_call14_v1 : Ref sig .tc := ⟨.hbm, 317, rfl⟩
abbrev main_call14_v2 : Ref sig .tc := ⟨.hbm, 318, rfl⟩
abbrev main_call14_v3 : Ref sig .tc := ⟨.hbm, 319, rfl⟩
abbrev main_call14_v4 : Ref sig .tc := ⟨.hbm, 320, rfl⟩
abbrev main_v172 : Ref sig .tc := ⟨.hbm, 321, rfl⟩
abbrev main_cst_56 : Ref sig .tc := ⟨.hbm, 322, rfl⟩
abbrev main_cst_57 : Ref sig .tc := ⟨.hbm, 323, rfl⟩
abbrev main_call15_v0 : Ref sig .tc := ⟨.hbm, 324, rfl⟩
abbrev main_call15_v1 : Ref sig .tc := ⟨.hbm, 325, rfl⟩
abbrev main_call15_v2 : Ref sig .tc := ⟨.hbm, 326, rfl⟩
abbrev main_call15_v3 : Ref sig .tc := ⟨.hbm, 327, rfl⟩
abbrev main_call15_v4 : Ref sig .tc := ⟨.hbm, 328, rfl⟩
abbrev main_v173 : Ref sig .tc := ⟨.hbm, 329, rfl⟩
abbrev main_v174 : Ref sig .tc := ⟨.hbm, 330, rfl⟩
abbrev main_v175 : Ref sig .tc := ⟨.hbm, 331, rfl⟩
abbrev main_v176 : Ref sig .tc := ⟨.hbm, 332, rfl⟩
abbrev main_cst_58 : Ref sig .tc := ⟨.hbm, 333, rfl⟩
abbrev main_v177 : Ref sig .tc := ⟨.hbm, 334, rfl⟩
abbrev main_v178 : Ref sig .tc := ⟨.hbm, 335, rfl⟩
abbrev main_v179 : Ref sig .tc := ⟨.hbm, 336, rfl⟩
abbrev main_v180 : Ref sig .tc := ⟨.hbm, 337, rfl⟩
abbrev main_v181 : Ref sig .tc := ⟨.hbm, 338, rfl⟩
abbrev main_v182 : Ref sig .tc := ⟨.hbm, 339, rfl⟩
abbrev main_v183 : Ref sig .tc := ⟨.hbm, 340, rfl⟩
abbrev main_v184 : Ref sig .tc := ⟨.hbm, 341, rfl⟩
abbrev main_cst_59 : Ref sig .tc := ⟨.hbm, 342, rfl⟩
abbrev main_cst_60 : Ref sig .tc := ⟨.hbm, 343, rfl⟩
abbrev main_call16_v0 : Ref sig .tc := ⟨.hbm, 344, rfl⟩
abbrev main_call16_v1 : Ref sig .tc := ⟨.hbm, 345, rfl⟩
abbrev main_call16_v2 : Ref sig .tc := ⟨.hbm, 346, rfl⟩
abbrev main_call16_v3 : Ref sig .tc := ⟨.hbm, 347, rfl⟩
abbrev main_call16_v4 : Ref sig .tc := ⟨.hbm, 348, rfl⟩
abbrev main_v185 : Ref sig .tc := ⟨.hbm, 349, rfl⟩
abbrev main_cst_61 : Ref sig .tc := ⟨.hbm, 350, rfl⟩
abbrev main_cst_62 : Ref sig .tc := ⟨.hbm, 351, rfl⟩
abbrev main_call17_v0 : Ref sig .tc := ⟨.hbm, 352, rfl⟩
abbrev main_call17_v1 : Ref sig .tc := ⟨.hbm, 353, rfl⟩
abbrev main_call17_v2 : Ref sig .tc := ⟨.hbm, 354, rfl⟩
abbrev main_call17_v3 : Ref sig .tc := ⟨.hbm, 355, rfl⟩
abbrev main_call17_v4 : Ref sig .tc := ⟨.hbm, 356, rfl⟩
abbrev main_v186 : Ref sig .tc := ⟨.hbm, 357, rfl⟩
abbrev main_v187 : Ref sig .tc := ⟨.hbm, 358, rfl⟩
abbrev main_v188 : Ref sig .tc := ⟨.hbm, 359, rfl⟩
abbrev main_v189 : Ref sig .tc := ⟨.hbm, 360, rfl⟩
abbrev main_cst_63 : Ref sig .tc := ⟨.hbm, 361, rfl⟩
abbrev main_v190 : Ref sig .tc := ⟨.hbm, 362, rfl⟩
abbrev main_v191 : Ref sig .tc := ⟨.hbm, 363, rfl⟩
abbrev main_v192 : Ref sig .tc := ⟨.hbm, 364, rfl⟩
abbrev main_v193 : Ref sig .tc := ⟨.hbm, 365, rfl⟩
abbrev main_v194 : Ref sig .tc := ⟨.hbm, 366, rfl⟩
abbrev main_v195 : Ref sig .tc := ⟨.hbm, 367, rfl⟩
abbrev main_v196 : Ref sig .tc := ⟨.hbm, 368, rfl⟩
abbrev main_v197 : Ref sig .tc := ⟨.hbm, 369, rfl⟩
abbrev main_cst_64 : Ref sig .tc := ⟨.hbm, 370, rfl⟩
abbrev main_cst_65 : Ref sig .tc := ⟨.hbm, 371, rfl⟩
abbrev main_call18_v0 : Ref sig .tc := ⟨.hbm, 372, rfl⟩
abbrev main_call18_v1 : Ref sig .tc := ⟨.hbm, 373, rfl⟩
abbrev main_call18_v2 : Ref sig .tc := ⟨.hbm, 374, rfl⟩
abbrev main_call18_v3 : Ref sig .tc := ⟨.hbm, 375, rfl⟩
abbrev main_call18_v4 : Ref sig .tc := ⟨.hbm, 376, rfl⟩
abbrev main_v198 : Ref sig .tc := ⟨.hbm, 377, rfl⟩
abbrev main_cst_66 : Ref sig .tc := ⟨.hbm, 378, rfl⟩
abbrev main_cst_67 : Ref sig .tc := ⟨.hbm, 379, rfl⟩
abbrev main_call19_v0 : Ref sig .tc := ⟨.hbm, 380, rfl⟩
abbrev main_call19_v1 : Ref sig .tc := ⟨.hbm, 381, rfl⟩
abbrev main_call19_v2 : Ref sig .tc := ⟨.hbm, 382, rfl⟩
abbrev main_call19_v3 : Ref sig .tc := ⟨.hbm, 383, rfl⟩
abbrev main_call19_v4 : Ref sig .tc := ⟨.hbm, 384, rfl⟩
abbrev main_v199 : Ref sig .tc := ⟨.hbm, 385, rfl⟩
abbrev main_v200 : Ref sig .tc := ⟨.hbm, 386, rfl⟩
abbrev main_v201 : Ref sig .tc := ⟨.hbm, 387, rfl⟩
abbrev main_v202 : Ref sig .tc := ⟨.hbm, 388, rfl⟩
abbrev main_cst_68 : Ref sig .tc := ⟨.hbm, 389, rfl⟩
abbrev main_v203 : Ref sig .tc := ⟨.hbm, 390, rfl⟩
abbrev main_cst_69 : Ref sig .tc := ⟨.hbm, 391, rfl⟩
abbrev main_v204 : Ref sig .tc := ⟨.hbm, 392, rfl⟩
abbrev main_v205 : Ref sig .tc := ⟨.hbm, 393, rfl⟩
abbrev main_v206 : Ref sig .tc := ⟨.hbm, 394, rfl⟩
abbrev main_v207 : Ref sig .tc := ⟨.hbm, 395, rfl⟩
abbrev main_v208 : Ref sig .tc := ⟨.hbm, 396, rfl⟩
abbrev main_v209 : Ref sig .tc := ⟨.hbm, 397, rfl⟩
abbrev main_v210 : Ref sig .tc := ⟨.hbm, 398, rfl⟩
abbrev main_cst_70 : Ref sig .tc := ⟨.hbm, 399, rfl⟩
abbrev main_cst_71 : Ref sig .tc := ⟨.hbm, 400, rfl⟩
abbrev main_call20_v0 : Ref sig .tc := ⟨.hbm, 401, rfl⟩
abbrev main_call20_v1 : Ref sig .tc := ⟨.hbm, 402, rfl⟩
abbrev main_call20_v2 : Ref sig .tc := ⟨.hbm, 403, rfl⟩
abbrev main_call20_v3 : Ref sig .tc := ⟨.hbm, 404, rfl⟩
abbrev main_call20_v4 : Ref sig .tc := ⟨.hbm, 405, rfl⟩
abbrev main_v211 : Ref sig .tc := ⟨.hbm, 406, rfl⟩
abbrev main_cst_72 : Ref sig .tc := ⟨.hbm, 407, rfl⟩
abbrev main_cst_73 : Ref sig .tc := ⟨.hbm, 408, rfl⟩
abbrev main_call21_v0 : Ref sig .tc := ⟨.hbm, 409, rfl⟩
abbrev main_call21_v1 : Ref sig .tc := ⟨.hbm, 410, rfl⟩
abbrev main_call21_v2 : Ref sig .tc := ⟨.hbm, 411, rfl⟩
abbrev main_call21_v3 : Ref sig .tc := ⟨.hbm, 412, rfl⟩
abbrev main_call21_v4 : Ref sig .tc := ⟨.hbm, 413, rfl⟩
abbrev main_v212 : Ref sig .tc := ⟨.hbm, 414, rfl⟩
abbrev main_v213 : Ref sig .tc := ⟨.hbm, 415, rfl⟩
abbrev main_v214 : Ref sig .tc := ⟨.hbm, 416, rfl⟩
abbrev main_v215 : Ref sig .tc := ⟨.hbm, 417, rfl⟩
abbrev main_cst_74 : Ref sig .tc := ⟨.hbm, 418, rfl⟩
abbrev main_v216 : Ref sig .tc := ⟨.hbm, 419, rfl⟩
abbrev main_v217 : Ref sig .tc := ⟨.hbm, 420, rfl⟩
abbrev main_v218 : Ref sig .tc := ⟨.hbm, 421, rfl⟩
abbrev main_v219 : Ref sig .tc := ⟨.hbm, 422, rfl⟩
abbrev main_v220 : Ref sig .tc := ⟨.hbm, 423, rfl⟩
abbrev main_v221 : Ref sig .tc := ⟨.hbm, 424, rfl⟩
abbrev main_v222 : Ref sig .tc := ⟨.hbm, 425, rfl⟩
abbrev main_v223 : Ref sig .tc := ⟨.hbm, 426, rfl⟩
abbrev main_cst_75 : Ref sig .tc := ⟨.hbm, 427, rfl⟩
abbrev main_cst_76 : Ref sig .tc := ⟨.hbm, 428, rfl⟩
abbrev main_call22_v0 : Ref sig .tc := ⟨.hbm, 429, rfl⟩
abbrev main_call22_v1 : Ref sig .tc := ⟨.hbm, 430, rfl⟩
abbrev main_call22_v2 : Ref sig .tc := ⟨.hbm, 431, rfl⟩
abbrev main_call22_v3 : Ref sig .tc := ⟨.hbm, 432, rfl⟩
abbrev main_call22_v4 : Ref sig .tc := ⟨.hbm, 433, rfl⟩
abbrev main_v224 : Ref sig .tc := ⟨.hbm, 434, rfl⟩
abbrev main_cst_77 : Ref sig .tc := ⟨.hbm, 435, rfl⟩
abbrev main_cst_78 : Ref sig .tc := ⟨.hbm, 436, rfl⟩
abbrev main_call23_v0 : Ref sig .tc := ⟨.hbm, 437, rfl⟩
abbrev main_call23_v1 : Ref sig .tc := ⟨.hbm, 438, rfl⟩
abbrev main_call23_v2 : Ref sig .tc := ⟨.hbm, 439, rfl⟩
abbrev main_call23_v3 : Ref sig .tc := ⟨.hbm, 440, rfl⟩
abbrev main_call23_v4 : Ref sig .tc := ⟨.hbm, 441, rfl⟩
abbrev main_v225 : Ref sig .tc := ⟨.hbm, 442, rfl⟩
abbrev main_v226 : Ref sig .tc := ⟨.hbm, 443, rfl⟩
abbrev main_v227 : Ref sig .tc := ⟨.hbm, 444, rfl⟩
abbrev main_v228 : Ref sig .tc := ⟨.hbm, 445, rfl⟩
abbrev main_cst_79 : Ref sig .tc := ⟨.hbm, 446, rfl⟩
abbrev main_v229 : Ref sig .tc := ⟨.hbm, 447, rfl⟩
abbrev main_v230 : Ref sig .tc := ⟨.hbm, 448, rfl⟩
abbrev main_v231 : Ref sig .tc := ⟨.hbm, 449, rfl⟩
abbrev main_v232 : Ref sig .tc := ⟨.hbm, 450, rfl⟩
abbrev main_v233 : Ref sig .tc := ⟨.hbm, 451, rfl⟩
abbrev main_v234 : Ref sig .tc := ⟨.hbm, 452, rfl⟩
abbrev main_v235 : Ref sig .tc := ⟨.hbm, 453, rfl⟩
abbrev main_v236 : Ref sig .tc := ⟨.hbm, 454, rfl⟩
abbrev main_cst_80 : Ref sig .tc := ⟨.hbm, 455, rfl⟩
abbrev main_cst_81 : Ref sig .tc := ⟨.hbm, 456, rfl⟩
abbrev main_call24_v0 : Ref sig .tc := ⟨.hbm, 457, rfl⟩
abbrev main_call24_v1 : Ref sig .tc := ⟨.hbm, 458, rfl⟩
abbrev main_call24_v2 : Ref sig .tc := ⟨.hbm, 459, rfl⟩
abbrev main_call24_v3 : Ref sig .tc := ⟨.hbm, 460, rfl⟩
abbrev main_call24_v4 : Ref sig .tc := ⟨.hbm, 461, rfl⟩
abbrev main_v237 : Ref sig .tc := ⟨.hbm, 462, rfl⟩
abbrev main_cst_82 : Ref sig .tc := ⟨.hbm, 463, rfl⟩
abbrev main_cst_83 : Ref sig .tc := ⟨.hbm, 464, rfl⟩
abbrev main_call25_v0 : Ref sig .tc := ⟨.hbm, 465, rfl⟩
abbrev main_call25_v1 : Ref sig .tc := ⟨.hbm, 466, rfl⟩
abbrev main_call25_v2 : Ref sig .tc := ⟨.hbm, 467, rfl⟩
abbrev main_call25_v3 : Ref sig .tc := ⟨.hbm, 468, rfl⟩
abbrev main_call25_v4 : Ref sig .tc := ⟨.hbm, 469, rfl⟩
abbrev main_v238 : Ref sig .tc := ⟨.hbm, 470, rfl⟩
abbrev main_v239 : Ref sig .tc := ⟨.hbm, 471, rfl⟩
abbrev main_v240 : Ref sig .tc := ⟨.hbm, 472, rfl⟩
abbrev main_v241 : Ref sig .tc := ⟨.hbm, 473, rfl⟩
abbrev main_cst_84 : Ref sig .tc := ⟨.hbm, 474, rfl⟩
abbrev main_v242 : Ref sig .tc := ⟨.hbm, 475, rfl⟩
abbrev main_v243 : Ref sig .tc := ⟨.hbm, 476, rfl⟩
abbrev main_v244 : Ref sig .tc := ⟨.hbm, 477, rfl⟩
abbrev main_v245 : Ref sig .tc := ⟨.hbm, 478, rfl⟩
abbrev main_v246 : Ref sig .tc := ⟨.hbm, 479, rfl⟩
abbrev main_v247 : Ref sig .tc := ⟨.hbm, 480, rfl⟩
abbrev main_v248 : Ref sig .tc := ⟨.hbm, 481, rfl⟩
abbrev main_cst_85 : Ref sig .tc := ⟨.hbm, 482, rfl⟩
abbrev main_cst_86 : Ref sig .tc := ⟨.hbm, 483, rfl⟩
abbrev main_call26_v0 : Ref sig .tc := ⟨.hbm, 484, rfl⟩
abbrev main_call26_v1 : Ref sig .tc := ⟨.hbm, 485, rfl⟩
abbrev main_call26_v2 : Ref sig .tc := ⟨.hbm, 486, rfl⟩
abbrev main_call26_v3 : Ref sig .tc := ⟨.hbm, 487, rfl⟩
abbrev main_call26_v4 : Ref sig .tc := ⟨.hbm, 488, rfl⟩
abbrev main_v249 : Ref sig .tc := ⟨.hbm, 489, rfl⟩
abbrev main_cst_87 : Ref sig .tc := ⟨.hbm, 490, rfl⟩
abbrev main_cst_88 : Ref sig .tc := ⟨.hbm, 491, rfl⟩
abbrev main_call27_v0 : Ref sig .tc := ⟨.hbm, 492, rfl⟩
abbrev main_call27_v1 : Ref sig .tc := ⟨.hbm, 493, rfl⟩
abbrev main_call27_v2 : Ref sig .tc := ⟨.hbm, 494, rfl⟩
abbrev main_call27_v3 : Ref sig .tc := ⟨.hbm, 495, rfl⟩
abbrev main_call27_v4 : Ref sig .tc := ⟨.hbm, 496, rfl⟩
abbrev main_v250 : Ref sig .tc := ⟨.hbm, 497, rfl⟩
abbrev main_v251 : Ref sig .tc := ⟨.hbm, 498, rfl⟩
abbrev main_v252 : Ref sig .tc := ⟨.hbm, 499, rfl⟩
abbrev main_v253 : Ref sig .tc := ⟨.hbm, 500, rfl⟩
abbrev main_cst_89 : Ref sig .tc := ⟨.hbm, 501, rfl⟩
abbrev main_v254 : Ref sig .tc := ⟨.hbm, 502, rfl⟩
abbrev main_v255 : Ref sig .tc := ⟨.hbm, 503, rfl⟩
abbrev main_v256 : Ref sig .tc := ⟨.hbm, 504, rfl⟩
abbrev main_v257 : Ref sig .tc := ⟨.hbm, 505, rfl⟩
abbrev main_v258 : Ref sig .tc := ⟨.hbm, 506, rfl⟩
abbrev main_v259 : Ref sig .tc := ⟨.hbm, 507, rfl⟩
abbrev main_v260 : Ref sig .tc := ⟨.hbm, 508, rfl⟩
abbrev main_v261 : Ref sig .tc := ⟨.hbm, 509, rfl⟩
abbrev main_cst_90 : Ref sig .tc := ⟨.hbm, 510, rfl⟩
abbrev main_cst_91 : Ref sig .tc := ⟨.hbm, 511, rfl⟩
abbrev main_call28_v0 : Ref sig .tc := ⟨.hbm, 512, rfl⟩
abbrev main_call28_v1 : Ref sig .tc := ⟨.hbm, 513, rfl⟩
abbrev main_call28_v2 : Ref sig .tc := ⟨.hbm, 514, rfl⟩
abbrev main_call28_v3 : Ref sig .tc := ⟨.hbm, 515, rfl⟩
abbrev main_call28_v4 : Ref sig .tc := ⟨.hbm, 516, rfl⟩
abbrev main_v262 : Ref sig .tc := ⟨.hbm, 517, rfl⟩
abbrev main_cst_92 : Ref sig .tc := ⟨.hbm, 518, rfl⟩
abbrev main_cst_93 : Ref sig .tc := ⟨.hbm, 519, rfl⟩
abbrev main_call29_v0 : Ref sig .tc := ⟨.hbm, 520, rfl⟩
abbrev main_call29_v1 : Ref sig .tc := ⟨.hbm, 521, rfl⟩
abbrev main_call29_v2 : Ref sig .tc := ⟨.hbm, 522, rfl⟩
abbrev main_call29_v3 : Ref sig .tc := ⟨.hbm, 523, rfl⟩
abbrev main_call29_v4 : Ref sig .tc := ⟨.hbm, 524, rfl⟩
abbrev main_v263 : Ref sig .tc := ⟨.hbm, 525, rfl⟩
abbrev main_v264 : Ref sig .tc := ⟨.hbm, 526, rfl⟩
abbrev main_v265 : Ref sig .tc := ⟨.hbm, 527, rfl⟩
abbrev main_v266 : Ref sig .tc := ⟨.hbm, 528, rfl⟩
abbrev main_cst_94 : Ref sig .tc := ⟨.hbm, 529, rfl⟩
abbrev main_v267 : Ref sig .tc := ⟨.hbm, 530, rfl⟩
abbrev main_v268 : Ref sig .tc := ⟨.hbm, 531, rfl⟩
abbrev main_v269 : Ref sig .tc := ⟨.hbm, 532, rfl⟩
abbrev main_v270 : Ref sig .tc := ⟨.hbm, 533, rfl⟩
abbrev main_v271 : Ref sig .tc := ⟨.hbm, 534, rfl⟩
abbrev main_v272 : Ref sig .tc := ⟨.hbm, 535, rfl⟩
abbrev main_v273 : Ref sig .tc := ⟨.hbm, 536, rfl⟩
abbrev main_v274 : Ref sig .tc := ⟨.hbm, 537, rfl⟩
abbrev main_cst_95 : Ref sig .tc := ⟨.hbm, 538, rfl⟩
abbrev main_cst_96 : Ref sig .tc := ⟨.hbm, 539, rfl⟩
abbrev main_call30_v0 : Ref sig .tc := ⟨.hbm, 540, rfl⟩
abbrev main_call30_v1 : Ref sig .tc := ⟨.hbm, 541, rfl⟩
abbrev main_call30_v2 : Ref sig .tc := ⟨.hbm, 542, rfl⟩
abbrev main_call30_v3 : Ref sig .tc := ⟨.hbm, 543, rfl⟩
abbrev main_call30_v4 : Ref sig .tc := ⟨.hbm, 544, rfl⟩
abbrev main_v275 : Ref sig .tc := ⟨.hbm, 545, rfl⟩
abbrev main_cst_97 : Ref sig .tc := ⟨.hbm, 546, rfl⟩
abbrev main_cst_98 : Ref sig .tc := ⟨.hbm, 547, rfl⟩
abbrev main_call31_v0 : Ref sig .tc := ⟨.hbm, 548, rfl⟩
abbrev main_call31_v1 : Ref sig .tc := ⟨.hbm, 549, rfl⟩
abbrev main_call31_v2 : Ref sig .tc := ⟨.hbm, 550, rfl⟩
abbrev main_call31_v3 : Ref sig .tc := ⟨.hbm, 551, rfl⟩
abbrev main_call31_v4 : Ref sig .tc := ⟨.hbm, 552, rfl⟩
abbrev main_v276 : Ref sig .tc := ⟨.hbm, 553, rfl⟩
abbrev main_v277 : Ref sig .tc := ⟨.hbm, 554, rfl⟩
abbrev main_v278 : Ref sig .tc := ⟨.hbm, 555, rfl⟩
abbrev main_v279 : Ref sig .tc := ⟨.hbm, 556, rfl⟩
abbrev main_cst_99 : Ref sig .tc := ⟨.hbm, 557, rfl⟩
abbrev main_v280 : Ref sig .tc := ⟨.hbm, 558, rfl⟩
abbrev main_v281 : Ref sig .tc := ⟨.hbm, 559, rfl⟩
abbrev main_v282 : Ref sig .tc := ⟨.hbm, 560, rfl⟩
abbrev main_v283 : Ref sig .tc := ⟨.hbm, 561, rfl⟩
abbrev main_v284 : Ref sig .tc := ⟨.hbm, 562, rfl⟩
abbrev main_v285 : Ref sig .tc := ⟨.hbm, 563, rfl⟩
abbrev main_v286 : Ref sig .tc := ⟨.hbm, 564, rfl⟩
abbrev main_v287 : Ref sig .tc := ⟨.hbm, 565, rfl⟩
abbrev main_cst_100 : Ref sig .tc := ⟨.hbm, 566, rfl⟩
abbrev main_cst_101 : Ref sig .tc := ⟨.hbm, 567, rfl⟩
abbrev main_call32_v0 : Ref sig .tc := ⟨.hbm, 568, rfl⟩
abbrev main_call32_v1 : Ref sig .tc := ⟨.hbm, 569, rfl⟩
abbrev main_call32_v2 : Ref sig .tc := ⟨.hbm, 570, rfl⟩
abbrev main_call32_v3 : Ref sig .tc := ⟨.hbm, 571, rfl⟩
abbrev main_call32_v4 : Ref sig .tc := ⟨.hbm, 572, rfl⟩
abbrev main_v288 : Ref sig .tc := ⟨.hbm, 573, rfl⟩
abbrev main_cst_102 : Ref sig .tc := ⟨.hbm, 574, rfl⟩
abbrev main_cst_103 : Ref sig .tc := ⟨.hbm, 575, rfl⟩
abbrev main_call33_v0 : Ref sig .tc := ⟨.hbm, 576, rfl⟩
abbrev main_call33_v1 : Ref sig .tc := ⟨.hbm, 577, rfl⟩
abbrev main_call33_v2 : Ref sig .tc := ⟨.hbm, 578, rfl⟩
abbrev main_call33_v3 : Ref sig .tc := ⟨.hbm, 579, rfl⟩
abbrev main_call33_v4 : Ref sig .tc := ⟨.hbm, 580, rfl⟩
abbrev main_v289 : Ref sig .tc := ⟨.hbm, 581, rfl⟩
abbrev main_v290 : Ref sig .tc := ⟨.hbm, 582, rfl⟩
abbrev main_v291 : Ref sig .tc := ⟨.hbm, 583, rfl⟩
abbrev main_v292 : Ref sig .tc := ⟨.hbm, 584, rfl⟩
abbrev main_cst_104 : Ref sig .tc := ⟨.hbm, 585, rfl⟩
abbrev main_v293 : Ref sig .tc := ⟨.hbm, 586, rfl⟩
abbrev main_v294 : Ref sig .tc := ⟨.hbm, 587, rfl⟩
abbrev main_v295 : Ref sig .tc := ⟨.hbm, 588, rfl⟩
abbrev main_v296 : Ref sig .tc := ⟨.hbm, 589, rfl⟩
abbrev main_v297 : Ref sig .tc := ⟨.hbm, 590, rfl⟩
abbrev main_v298 : Ref sig .tc := ⟨.hbm, 591, rfl⟩
abbrev main_v299 : Ref sig .tc := ⟨.hbm, 592, rfl⟩
abbrev main_v300 : Ref sig .tc := ⟨.hbm, 593, rfl⟩
abbrev main_cst_105 : Ref sig .tc := ⟨.hbm, 594, rfl⟩
abbrev main_cst_106 : Ref sig .tc := ⟨.hbm, 595, rfl⟩
abbrev main_call34_v0 : Ref sig .tc := ⟨.hbm, 596, rfl⟩
abbrev main_call34_v1 : Ref sig .tc := ⟨.hbm, 597, rfl⟩
abbrev main_call34_v2 : Ref sig .tc := ⟨.hbm, 598, rfl⟩
abbrev main_call34_v3 : Ref sig .tc := ⟨.hbm, 599, rfl⟩
abbrev main_call34_v4 : Ref sig .tc := ⟨.hbm, 600, rfl⟩
abbrev main_v301 : Ref sig .tc := ⟨.hbm, 601, rfl⟩
abbrev main_cst_107 : Ref sig .tc := ⟨.hbm, 602, rfl⟩
abbrev main_cst_108 : Ref sig .tc := ⟨.hbm, 603, rfl⟩
abbrev main_call35_v0 : Ref sig .tc := ⟨.hbm, 604, rfl⟩
abbrev main_call35_v1 : Ref sig .tc := ⟨.hbm, 605, rfl⟩
abbrev main_call35_v2 : Ref sig .tc := ⟨.hbm, 606, rfl⟩
abbrev main_call35_v3 : Ref sig .tc := ⟨.hbm, 607, rfl⟩
abbrev main_call35_v4 : Ref sig .tc := ⟨.hbm, 608, rfl⟩
abbrev main_v302 : Ref sig .tc := ⟨.hbm, 609, rfl⟩
abbrev main_v303 : Ref sig .tc := ⟨.hbm, 610, rfl⟩
abbrev main_v304 : Ref sig .tc := ⟨.hbm, 611, rfl⟩
abbrev main_v305 : Ref sig .tc := ⟨.hbm, 612, rfl⟩
abbrev main_cst_109 : Ref sig .tc := ⟨.hbm, 613, rfl⟩
abbrev main_v306 : Ref sig .tc := ⟨.hbm, 614, rfl⟩
abbrev main_v307 : Ref sig .tc := ⟨.hbm, 615, rfl⟩
abbrev main_v308 : Ref sig .tc := ⟨.hbm, 616, rfl⟩
abbrev main_cst_110 : Ref sig .tc := ⟨.hbm, 617, rfl⟩
abbrev main_v309 : Ref sig .tc := ⟨.hbm, 618, rfl⟩
abbrev main_v310 : Ref sig .tc := ⟨.hbm, 619, rfl⟩
abbrev main_v311 : Ref sig .tc := ⟨.hbm, 620, rfl⟩
abbrev main_v312 : Ref sig .tc := ⟨.hbm, 621, rfl⟩

abbrev nD : Nat := 1
abbrev τ : Topo := Topo.v7x

variable {F : FTy → Type} [FloatOps F]

class Facts₀ : Prop where
  bcast_S_S8x1x512x512 : S_.BroadcastsInDim S8x1x512x512 (![] : Fin 0 → Fin S8x1x512x512.rank)
  reducesTo_S8x1x512x512_S_d0_1_2_3 : S8x1x512x512.ReducesTo [0, 1, 2, 3] S_
  h_S_ : 0 < S_.numel
  slices_S8x9x512x512_S8x1x511x511_0_0_1_1 : S8x9x512x512.Slices ![0, 0, 1, 1] S8x1x511x511
  shapeCasts_S8x1x511x511_S8x511x511 : S8x1x511x511.ShapeCasts S8x511x511
  slices_S8x9x512x512_S8x1x511x511_0_8_0_0 : S8x9x512x512.Slices ![0, 8, 0, 0] S8x1x511x511
  slices_S8x1x512x512_S8x1x511x511_0_0_1_1 : S8x1x512x512.Slices ![0, 0, 1, 1] S8x1x511x511
  bcast_S_S8x511x511 : S_.BroadcastsInDim S8x511x511 (![] : Fin 0 → Fin S8x511x511.rank)
  reducesTo_S8x511x511_S_d0_1_2 : S8x511x511.ReducesTo [0, 1, 2] S_
  slices_S8x9x512x512_S8x1x511x512_0_1_1_0 : S8x9x512x512.Slices ![0, 1, 1, 0] S8x1x511x512
  shapeCasts_S8x1x511x512_S8x511x512 : S8x1x511x512.ShapeCasts S8x511x512
  slices_S8x9x512x512_S8x1x511x512_0_7_0_0 : S8x9x512x512.Slices ![0, 7, 0, 0] S8x1x511x512
  slices_S8x1x512x512_S8x1x511x512_0_0_1_0 : S8x1x512x512.Slices ![0, 0, 1, 0] S8x1x511x512
  bcast_S_S8x511x512 : S_.BroadcastsInDim S8x511x512 (![] : Fin 0 → Fin S8x511x512.rank)
  reducesTo_S8x511x512_S_d0_1_2 : S8x511x512.ReducesTo [0, 1, 2] S_
  slices_S8x9x512x512_S8x1x511x511_0_2_1_0 : S8x9x512x512.Slices ![0, 2, 1, 0] S8x1x511x511
  slices_S8x9x512x512_S8x1x511x511_0_6_0_1 : S8x9x512x512.Slices ![0, 6, 0, 1] S8x1x511x511
  slices_S8x1x512x512_S8x1x511x511_0_0_1_0 : S8x1x512x512.Slices ![0, 0, 1, 0] S8x1x511x511
  slices_S8x9x512x512_S8x1x512x511_0_3_0_1 : S8x9x512x512.Slices ![0, 3, 0, 1] S8x1x512x511
  shapeCasts_S8x1x512x511_S8x512x511 : S8x1x512x511.ShapeCasts S8x512x511
  slices_S8x9x512x512_S8x1x512x511_0_5_0_0 : S8x9x512x512.Slices ![0, 5, 0, 0] S8x1x512x511
  slices_S8x1x512x512_S8x1x512x511_0_0_0_1 : S8x1x512x512.Slices ![0, 0, 0, 1] S8x1x512x511
  bcast_S_S8x512x511 : S_.BroadcastsInDim S8x512x511 (![] : Fin 0 → Fin S8x512x511.rank)
  reducesTo_S8x512x511_S_d0_1_2 : S8x512x511.ReducesTo [0, 1, 2] S_
  slices_S8x9x512x512_S8x1x512x512_0_4_0_0 : S8x9x512x512.Slices ![0, 4, 0, 0] S8x1x512x512
  shapeCasts_S8x1x512x512_S8x512x512 : S8x1x512x512.ShapeCasts S8x512x512
  bcast_S_S8x512x512 : S_.BroadcastsInDim S8x512x512 (![] : Fin 0 → Fin S8x512x512.rank)
  reducesTo_S8x512x512_S_d0_1_2 : S8x512x512.ReducesTo [0, 1, 2] S_
  slices_S8x1x512x512_S8x1x512x511_0_0_0_0 : S8x1x512x512.Slices ![0, 0, 0, 0] S8x1x512x511
  slices_S8x1x512x512_S8x1x511x511_0_0_0_1 : S8x1x512x512.Slices ![0, 0, 0, 1] S8x1x511x511
  slices_S8x1x512x512_S8x1x511x512_0_0_0_0 : S8x1x512x512.Slices ![0, 0, 0, 0] S8x1x511x512
  slices_S8x1x512x512_S8x1x511x511_0_0_0_0 : S8x1x512x512.Slices ![0, 0, 0, 0] S8x1x511x511

variable [Facts₀]

class Facts : Prop extends Facts₀ where

variable [Facts]
-- ==== Proof.KernelRun.lean ====
import proofs.«131438_j61692910239837_2_alg».proof.Proof.Gen.KernelIdeal.Frame
import Idealize.ShloMosaic.Lib.StableHlo.Run

/-!
# The kernel program's run, with its result named

The program is three grid launches among four stretches of host operations.  Each launch writes one array
`[8, 1, 128]`; the host operations after a launch take entry `[b, 0, 0]` of every batch row `b`, and add the eight
entries onto `0.0` (`batchSum`).  The program returns the first launch's batch sum plus the other two launches'
batch sums added and divided by `9.0`.

`run_result`: every weakly fair execution terminates, nothing faulting, with the result buffer at the contents the
fold of buffer contents through the program's segments assigns it, and the arguments unchanged.
That content is opened in the module on the fold of contents.
-/

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

-- the launch theorem's implicit arguments are found by unifying its conclusion with this one, which takes unfolding
-- plain definitions in a metavariable's type
set_option backward.isDefEq.respectTransparency.types false in
/-- Every weakly fair execution of the program terminates without a fault; the result buffer then holds what the
    fold of contents through the segments assigns it, and every argument array is as launched. -/
theorem run_result : θ_run defs (onTc (τ := τ) (main (F := F))) ⟨m, fun _ => 0, ρ⟩ (fun r => ∀ c : Dev nD,
      r.2.mem ((c.tc : Thread nD τ).loc main_v14) = W6 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v14 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c)⟩)

end Cert.KernelIdeal.RunValue

end
-- ==== Proof.Fold.lean ====
import proofs.«131438_j61692910239837_2_alg».proof.Proof.Gen.KernelIdeal.Frame
import Idealize.ShloMosaic.Lib.StableHlo.Run

/-!
# The contents of the buffers at the program's segment boundaries

The program is three grid launches among stretches of host operations.  Each launch writes one array
`[8, 1, 128]`; the host operations after a launch take entry `[b, 0, 0]` of every batch row `b` and add the eight
entries onto `0.0` (`batchSum`).  The program returns the first launch's batch sum plus the other two launches'
batch sums added and divided by `9.0` (`result_eq`): a buffer that a later stretch or launch does not write is
carried through it unchanged, and a launch leaves its output array at what its write-backs leave.

The second and third launch read three of the program's arguments each; no host operation and no launch before them
writes an argument, so they find them as launched (`entry1_*`, `entry2_*`).
-/

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-- A buffer none of a stretch's host operations writes holds after the stretch what it held before. -/
local macro "host_keeps" ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

/-! ## The arguments as the second and third launch find them -/

theorem entry1_arg13 (c : Dev nD) : V2 m ρ c main_arg13 = m ((c : Thread nD τ).loc main_arg13) :=
  calc W2 m ρ c (Proc.devRef .tc main_arg13)
    _ = W1 m ρ c (Proc.devRef .tc main_arg13) := by host_keeps hostOps1
    _ = W0 m ρ c (Proc.devRef .tc main_arg13) := W1_of_ne m ρ c main_arg13 (by decide)
    _ = m ((c : Thread nD τ).loc main_arg13) := rfl

theorem entry1_arg14 (c : Dev nD) : V2 m ρ c main_arg14 = m ((c : Thread nD τ).loc main_arg14) :=
  calc W2 m ρ c (Proc.devRef .tc main_arg14)
    _ = W1 m ρ c (Proc.devRef .tc main_arg14) := by host_keeps hostOps1
    _ = W0 m ρ c (Proc.devRef .tc main_arg14) := W1_of_ne m ρ c main_arg14 (by decide)
    _ = m ((c : Thread nD τ).loc main_arg14) := rfl

theorem entry1_arg0 (c : Dev nD) : V2 m ρ c main_arg0 = m ((c : Thread nD τ).loc main_arg0) :=
  calc W2 m ρ c (Proc.devRef .tc main_arg0)
    _ = W1 m ρ c (Proc.devRef .tc main_arg0) := by host_keeps hostOps1
    _ = W0 m ρ c (Proc.devRef .tc main_arg0) :=
        (W1_arr m ρ c 0).trans (((dat0 (V0 m ρ) c).arrAt_in 0 rfl _).trans (A_eq0 (V0 m ρ) c 0))
    _ = m ((c : Thread nD τ).loc main_arg0) := rfl

theorem entry2_arg15 (c : Dev nD) : V4 m ρ c main_arg15 = m ((c : Thread nD τ).loc main_arg15) :=
  calc W4 m ρ c (Proc.devRef .tc main_arg15)
    _ = W3 m ρ c (Proc.devRef .tc main_arg15) := by host_keeps hostOps2
    _ = W2 m ρ c (Proc.devRef .tc main_arg15) := W3_of_ne m ρ c main_arg15 (by decide)
    _ = W1 m ρ c (Proc.devRef .tc main_arg15) := by host_keeps hostOps1
    _ = W0 m ρ c (Proc.devRef .tc main_arg15) := W1_of_ne m ρ c main_arg15 (by decide)
    _ = m ((c : Thread nD τ).loc main_arg15) := rfl

theorem entry2_arg16 (c : Dev nD) : V4 m ρ c main_arg16 = m ((c : Thread nD τ).loc main_arg16) :=
  calc W4 m ρ c (Proc.devRef .tc main_arg16)
    _ = W3 m ρ c (Proc.devRef .tc main_arg16) := by host_keeps hostOps2
    _ = W2 m ρ c (Proc.devRef .tc main_arg16) := W3_of_ne m ρ c main_arg16 (by decide)
    _ = W1 m ρ c (Proc.devRef .tc main_arg16) := by host_keeps hostOps1
    _ = W0 m ρ c (Proc.devRef .tc main_arg16) := W1_of_ne m ρ c main_arg16 (by decide)
    _ = m ((c : Thread nD τ).loc main_arg16) := rfl

theorem entry2_arg0 (c : Dev nD) : V4 m ρ c main_arg0 = m ((c : Thread nD τ).loc main_arg0) :=
  calc W4 m ρ c (Proc.devRef .tc main_arg0)
    _ = W3 m ρ c (Proc.devRef .tc main_arg0) := by host_keeps hostOps2
    _ = W2 m ρ c (Proc.devRef .tc main_arg0) :=
        (W3_arr m ρ c 2).trans (((dat1 (V2 m ρ) c).arrAt_in 2 rfl _).trans (A_eq1 (V2 m ρ) c 2))
    _ = m ((c : Thread nD τ).loc main_arg0) := entry1_arg0 m ρ c

/-! ## The result as a term of the three launches' arrays -/

/-- Entry `[b, 0, 0]` of every batch row of a `[8, 1, 128]` array, the eight added onto `0.0`. -/
def batchSum (a : (⟨S8x1x128, .f32⟩ : BufTy).Contents (Elt F)) : (⟨S_, .f32⟩ : BufTy).Contents (Elt F) :=
  Host.reduceAdd (shapeCast S8 (extractStridedSlice S8x1x1 ![0, 0, 0] a slices_S8x1x128_S8x1x1_0_0_0) shapeCasts_S8x1x1_S8)
    (constant S_ .f32 0x00000000#32) reducesTo_S8_S_d0 h_S_

/-- What the three launches leave in their output arrays. -/
abbrev arr0 (c : Dev nD) : (⟨S8x1x128, .f32⟩ : BufTy).Contents (Elt F) := (dat0 (V0 m ρ) c).arrAt 12 cfg0.N
abbrev arr1 (c : Dev nD) : (⟨S8x1x128, .f32⟩ : BufTy).Contents (Elt F) := (dat1 (V2 m ρ) c).arrAt 3 cfg1.N
abbrev arr2 (c : Dev nD) : (⟨S8x1x128, .f32⟩ : BufTy).Contents (Elt F) := (dat2 (V4 m ρ) c).arrAt 3 cfg2.N

/-- After the first launch's stretch the first sum's buffer holds the batch sum of the launch's array. -/
theorem sum0_eq (c : Dev nD) : W2 m ρ c (Proc.devRef .tc main_v3) = batchSum (arr0 m ρ c) := by
  show StableHlo.after hostOps1 (W1 m ρ c) (Proc.devRef .tc main_v3) = _
  after_results
  rw [show W1 m ρ c (Proc.tc.devRef main_v0) = arr0 m ρ c from W1_arr m ρ c 12]
  rfl

/-- After the second launch's stretch the second sum's buffer holds the batch sum of that launch's array. -/
theorem sum1_eq (c : Dev nD) : W4 m ρ c (Proc.devRef .tc main_v7) = batchSum (arr1 m ρ c) := by
  show StableHlo.after hostOps2 (W3 m ρ c) (Proc.devRef .tc main_v7) = _
  after_results
  rw [show W3 m ρ c (Proc.tc.devRef main_v4) = arr1 m ρ c from W3_arr m ρ c 3]
  rfl

/-- The first sum is carried unchanged through the second and third launch and the stretch between them. -/
theorem sum0_kept (c : Dev nD) : W5 m ρ c (Proc.devRef .tc main_v3) = batchSum (arr0 m ρ c) :=
  calc W5 m ρ c (Proc.devRef .tc main_v3)
    _ = W4 m ρ c (Proc.devRef .tc main_v3) := W5_of_ne m ρ c main_v3 (by decide)
    _ = W3 m ρ c (Proc.devRef .tc main_v3) := by host_keeps hostOps2
    _ = W2 m ρ c (Proc.devRef .tc main_v3) := W3_of_ne m ρ c main_v3 (by decide)
    _ = batchSum (arr0 m ρ c) := sum0_eq m ρ c

/-- The second sum is carried unchanged through the third launch. -/
theorem sum1_kept (c : Dev nD) : W5 m ρ c (Proc.devRef .tc main_v7) = batchSum (arr1 m ρ c) :=
  (W5_of_ne m ρ c main_v7 (by decide)).trans (sum1_eq m ρ c)

/-- The program's result: the first batch sum plus the other two added and divided by `9.0`. -/
theorem result_eq (c : Dev nD) : W6 m ρ c (Proc.devRef .tc main_v14)
    = addf (batchSum (arr0 m ρ c))
        (Host.divf (addf (batchSum (arr1 m ρ c)) (batchSum (arr2 m ρ c))) (constant S_ .f32 0x41100000#32)) := by
  show StableHlo.after hostOps3 (W5 m ρ c) (Proc.devRef .tc main_v14) = _
  after_results
  rw [show W5 m ρ c (Proc.tc.devRef main_v8) = arr2 m ρ c from W5_arr m ρ c 3,
    show W5 m ρ c (Proc.tc.devRef main_v3) = batchSum (arr0 m ρ c) from sum0_kept m ρ c,
    show W5 m ρ c (Proc.tc.devRef main_v7) = batchSum (arr1 m ρ c) from sum1_kept m ρ c]
  rfl

end Cert.KernelIdeal.Fold

end
-- ==== Proof.Spec.lean ====
import Idealize.ShloMosaic.PureOps.Ideal
import Idealize.ShloMosaic.PureOps.Ideal.Laws
import Idealize.ShloMosaic.Lib.ValueIdx

/-!
# A masked, reweighted squared-error loss with a flow-consistency term, as one number

Thirteen images `[8, 1, 512, 512]` and four nine-channel flows `[8, 9, 512, 512]` go in, one extended real comes
out.  The loss has two kinds of summand.

* For a prediction `P`, a target `T`, a mask `R` and a pair `A, B` whose absolute difference reweights the
  error, the pixel term is `l + 1·l·|A − B|` with `l = (P − T)² · R` (`wsq`), summed over the pixels of one batch
  entry (`mseB`).
* For a flow `Fa`, its inverse `Fb` and the mask, direction `i` of nine pairs channel `i` of `Fa`, shifted by
  one pixel or not along each image axis, with channel `8 − i` of `Fb` shifted the opposite way; both are clipped to
  `[ε, 1]`, and the pixel term is `(clip a − clip b)² · mask` (`csq`), summed over the overlap of the two shifted
  windows in one batch entry (`consB`).

Two arrangements of the same total are stated.  `lossRows` sums, batch entry by batch entry, a row that already
carries the weights `¼, ½, ½` of the three groups of squared-error terms, and adds the flow terms divided by nine.
`lossWhole` first sums every term over all batch entries, then divides each group's total by `4, 2, 2` and the flow
total by `9`.  They are equal on all extended reals (`lossRows_eq_lossWhole`): sums in a commutative monoid may be
regrouped freely, a product with a nonnegative finite constant distributes over any sum of extended reals, and
dividing by `4` or `2` is multiplying by `¼` or `½`.  No finiteness of the inputs is used.
-/

noncomputable section

open scoped BigOperators

namespace Cert.FlowLoss

open Idealize.ShloMosaic Idealize.ShloMosaic.ValueIdx

/-! ## Sums over array indices as sums over coordinates -/

/-- A sum over the indices of a rank-1 array is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- A sum over the indices of a rank-3 array is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp e.symm f, Fintype.sum_prod_type]
  refine Finset.sum_congr rfl fun a _ => ?_
  rw [Fintype.sum_prod_type]
  rfl

/-- A sum over the indices of a rank-4 array is the fourfold sum over its coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  let e : (⟨4, ![n0, n1, n2, n3]⟩ : Shape).Idx ≃ Fin n0 × Fin n1 × Fin n2 × Fin n3 :=
    { toFun := fun i => (i 0, i 1, i 2, i 3), invFun := fun p => ix4 p.1 p.2.1 p.2.2.1 p.2.2.2,
      left_inv := fun i => (eq_ix4 i).symm, right_inv := fun _ => rfl }
  rw [← Equiv.sum_comp e.symm f, Fintype.sum_prod_type]
  refine Finset.sum_congr rfl fun a _ => ?_
  rw [Fintype.sum_prod_type]
  refine Finset.sum_congr rfl fun b _ => ?_
  rw [Fintype.sum_prod_type]
  rfl

/-- With a leading axis of extent one, only the two trailing coordinates are summed. -/
theorem sum_idx3_unit {M : Type*} [AddCommMonoid M] {n1 n2 : Nat} (f : (⟨3, ![1, n1, n2]⟩ : Shape).Idx → M) :
    ∑ i, f i = ∑ b : Fin n1, ∑ c : Fin n2, f (ix3 0 b c) := by
  rw [sum_idx3, Fin.sum_univ_one]

/-- With a second axis of extent one, the batch coordinate and the two image coordinates are summed. -/
theorem sum_idx4_unit {M : Type*} [AddCommMonoid M] {n0 n2 n3 : Nat} (f : (⟨4, ![n0, 1, n2, n3]⟩ : Shape).Idx → M) :
    ∑ i, f i = ∑ a : Fin n0, ∑ c : Fin n2, ∑ d : Fin n3, f (ix4 a 0 c d) := by
  rw [sum_idx4]
  refine Finset.sum_congr rfl fun a _ => ?_
  rw [Fin.sum_univ_one]

/-! ## The constants -/

/-- The float `0.0`. -/
abbrev zero : EReal := Ideal.ofBits .f32 0x00000000#32
/-- The float `1.0`, the reweighting factor and the upper clipping bound. -/
abbrev one : EReal := Ideal.ofBits .f32 0x3F800000#32
/-- The float nearest `1e-10`, the lower clipping bound. -/
abbrev eps : EReal := Ideal.ofBits .f32 0x2EDBE6FF#32
/-- The floats `0.25` and `0.5`, the row weights. -/
abbrev quarter : EReal := Ideal.ofBits .f32 0x3E800000#32
abbrev half : EReal := Ideal.ofBits .f32 0x3F000000#32
/-- The floats `4.0`, `2.0` and `9.0`, the divisors. -/
abbrev four : EReal := Ideal.ofBits .f32 0x40800000#32
abbrev two : EReal := Ideal.ofBits .f32 0x40000000#32
abbrev nine : EReal := Ideal.ofBits .f32 0x41100000#32

theorem zero_eq : zero = 0 := by simp [zero, Ideal.ofBits, Ideal.ieee]
theorem quarter_eq : quarter = ((1 / 4 : ℝ) : EReal) := by
  simp [quarter, Ideal.ofBits, Ideal.ieee, -EReal.coe_mul]; norm_num
theorem half_eq : half = ((1 / 2 : ℝ) : EReal) := by
  simp [half, Ideal.ofBits, Ideal.ieee, -EReal.coe_mul]; norm_num
theorem four_eq : four = ((4 : ℝ) : EReal) := by
  simp [four, Ideal.ofBits, Ideal.ieee, -EReal.coe_mul]; norm_num
theorem two_eq : two = ((2 : ℝ) : EReal) := by
  simp [two, Ideal.ofBits, Ideal.ieee, -EReal.coe_mul]; norm_num

/-- Dividing by `4.0` is multiplying by `0.25`, on every extended real. -/
theorem div_four (x : EReal) : Ideal.div x four = x * quarter := by
  rw [four_eq, quarter_eq, Ideal.div_coe (by norm_num : (4 : ℝ) ≠ 0)]
/-- Dividing by `2.0` is multiplying by `0.5`, on every extended real. -/
theorem div_two (x : EReal) : Ideal.div x two = x * half := by
  rw [two_eq, half_eq, Ideal.div_coe (by norm_num : (2 : ℝ) ≠ 0)]

/-- A sum of extended reals times a nonnegative real is the sum of the products. -/
theorem sum_mul_coe {ι : Type*} (s : Finset ι) (f : ι → EReal) {q : ℝ} (hq : 0 ≤ q) :
    (∑ i ∈ s, f i) * (q : EReal) = ∑ i ∈ s, f i * (q : EReal) := by
  classical
  induction s using Finset.induction_on with
  | empty => simp
  | insert a s ha ih =>
    rw [Finset.sum_insert ha, Finset.sum_insert ha,
      EReal.right_distrib_of_nonneg_of_ne_top (by exact_mod_cast hq) (EReal.coe_ne_top q), ih]

theorem add_mul_coe (x y : EReal) {q : ℝ} (hq : 0 ≤ q) : (x + y) * (q : EReal) = x * q + y * q :=
  EReal.right_distrib_of_nonneg_of_ne_top (by exact_mod_cast hq) (EReal.coe_ne_top q) x y

/-! ## The pixel terms -/

/-- The absolute difference `|a − b|`, as the larger of the difference and its negative. -/
def dabs (a b : EReal) : EReal := max (a - b) (-(a - b))

/-- The masked squared error `l = (p − t)² · r`, plus `1 · l` reweighted by `w`. -/
def wsq (p t r w : EReal) : EReal := (p - t) * (p - t) * r + one * ((p - t) * (p - t) * r) * w

/-- Clipping to `[ε, 1]`: first from below, then from above. -/
def clip (x : EReal) : EReal := min one (max eps x)

/-- The masked squared difference of two clipped values. -/
def csq (a b k : EReal) : EReal := (clip a - clip b) * (clip a - clip b) * k

/-! ## One batch entry's images, and the per-batch sums -/

/-- One batch entry of an image stack: a `512 × 512` image of extended reals; of a flow stack: nine of them. -/
abbrev Pix : Type := Fin 512 → Fin 512 → EReal
abbrev Pix9 : Type := Fin 9 → Fin 512 → Fin 512 → EReal

/-- Coordinate `k` of a window of extent `n` that starts `d` pixels in, as a coordinate of the full axis. -/
def up (d : Nat) {n : Nat} (k : Fin n) (h : d + n ≤ 512) : Fin 512 := ⟨d + k.val, by have := k.isLt; omega⟩

/-- One batch entry's reweighted squared error of `P` against `T` under the mask `R`, reweighted by `|A − B|`. -/
def mseB (P T R A B : Pix) : EReal :=
  ∑ h : Fin 512, ∑ w : Fin 512, wsq (P h w) (T h w) (R h w) (dabs (A h w) (B h w))

/-- One batch entry's consistency term for one direction: channel `ca` of `Fa` and the mask in the window that
    starts at `(ay, ax)`, channel `cb` of `Fb` in the window that starts at `(by', bx)`, both of extent
    `ny × nx`. -/
def consB (ny nx ay ax by' bx : Nat) (hay : ay + ny ≤ 512) (hax : ax + nx ≤ 512) (hby : by' + ny ≤ 512)
    (hbx : bx + nx ≤ 512) (ca cb : Fin 9) (Fa Fb : Pix9) (R : Pix) : EReal :=
  ∑ h : Fin ny, ∑ w : Fin nx,
    csq (Fa ca (up ay h hay) (up ax w hax)) (Fb cb (up by' h hby) (up bx w hbx)) (R (up ay h hay) (up ax w hax))

/-- The nine directions: `(dy, dx)` runs over `{1, 0, −1}²` in row-major order; a shift by `+1` starts the
    window one pixel in and a shift by `−1` starts the partner's window one pixel in. -/
def cons0 := consB 511 511 1 1 0 0 (by omega) (by omega) (by omega) (by omega) 0 8
def cons1 := consB 511 512 1 0 0 0 (by omega) (by omega) (by omega) (by omega) 1 7
def cons2 := consB 511 511 1 0 0 1 (by omega) (by omega) (by omega) (by omega) 2 6
def cons3 := consB 512 511 0 1 0 0 (by omega) (by omega) (by omega) (by omega) 3 5
def cons4 := consB 512 512 0 0 0 0 (by omega) (by omega) (by omega) (by omega) 4 4
def cons5 := consB 512 511 0 0 0 1 (by omega) (by omega) (by omega) (by omega) 5 3
def cons6 := consB 511 511 0 1 1 0 (by omega) (by omega) (by omega) (by omega) 6 2
def cons7 := consB 511 512 0 0 1 0 (by omega) (by omega) (by omega) (by omega) 7 1
def cons8 := consB 511 511 0 0 1 1 (by omega) (by omega) (by omega) (by omega) 8 0

/-! ## The total, row by row -/

/-- One batch entry's weighted squared-error row: the four terms against the middle frame `H1` times `¼`, the two
    against `H0` times `½`, the two against `H2` times `½`. -/
def rowA (R H0 H1 H2 P1 P2 P3 P4 Q1 Q2 U1 U2 : Pix) : EReal :=
  ((((mseB P1 H1 R H0 H1 + mseB P2 H1 R H0 H1) + mseB P3 H1 R H1 H2) + mseB P4 H1 R H1 H2) * quarter
      + (mseB Q1 H0 R H0 H1 + mseB Q2 H0 R H0 H1) * half)
    + (mseB U1 H2 R H1 H2 + mseB U2 H2 R H1 H2) * half

/-- One batch entry's consistency row: the nine directions added in order onto `0.0`. -/
def rowB (Fa Fb : Pix9) (R : Pix) : EReal :=
  ((((((((zero + cons0 Fa Fb R) + cons1 Fa Fb R) + cons2 Fa Fb R) + cons3 Fa Fb R) + cons4 Fa Fb R)
    + cons5 Fa Fb R) + cons6 Fa Fb R) + cons7 Fa Fb R) + cons8 Fa Fb R

/-- The loss as the rows' sum: each row summed over the batch onto `0.0`, the two consistency sums added and divided
    by nine. -/
def lossRows (R H0 H1 H2 P1 P2 P3 P4 Q1 Q2 U1 U2 : Fin 8 → Pix) (F0 G0 F1 G1 : Fin 8 → Pix9) : EReal :=
  (zero + ∑ b : Fin 8, rowA (R b) (H0 b) (H1 b) (H2 b) (P1 b) (P2 b) (P3 b) (P4 b) (Q1 b) (Q2 b) (U1 b) (U2 b))
    + Ideal.div ((zero + ∑ b : Fin 8, rowB (F0 b) (G0 b) (R b)) + (zero + ∑ b : Fin 8, rowB (F1 b) (G1 b) (R b))) nine

/-! ## The total, term by term -/

/-- A squared-error term over the whole batch, onto `0.0`. -/
def mseAll (P T R A B : Fin 8 → Pix) : EReal := zero + ∑ b : Fin 8, mseB (P b) (T b) (R b) (A b) (B b)

/-- The consistency total of one flow pair: each direction summed over the whole batch onto `0.0`, the nine added in
    order onto `0.0`. -/
def consAll (Fa Fb : Fin 8 → Pix9) (R : Fin 8 → Pix) : EReal :=
  ((((((((zero + (zero + ∑ b : Fin 8, cons0 (Fa b) (Fb b) (R b))) + (zero + ∑ b : Fin 8, cons1 (Fa b) (Fb b) (R b)))
    + (zero + ∑ b : Fin 8, cons2 (Fa b) (Fb b) (R b))) + (zero + ∑ b : Fin 8, cons3 (Fa b) (Fb b) (R b)))
    + (zero + ∑ b : Fin 8, cons4 (Fa b) (Fb b) (R b))) + (zero + ∑ b : Fin 8, cons5 (Fa b) (Fb b) (R b)))
    + (zero + ∑ b : Fin 8, cons6 (Fa b) (Fb b) (R b))) + (zero + ∑ b : Fin 8, cons7 (Fa b) (Fb b) (R b)))
    + (zero + ∑ b : Fin 8, cons8 (Fa b) (Fb b) (R b))

/-- The loss as whole-batch totals: each group of squared-error totals divided by its count, the consistency totals
    added and divided by nine. -/
def lossWhole (R H0 H1 H2 P1 P2 P3 P4 Q1 Q2 U1 U2 : Fin 8 → Pix) (F0 G0 F1 G1 : Fin 8 → Pix9) : EReal :=
  ((Ideal.div (((mseAll P1 H1 R H0 H1 + mseAll P2 H1 R H0 H1) + mseAll P3 H1 R H1 H2) + mseAll P4 H1 R H1 H2) four
      + Ideal.div (mseAll Q1 H0 R H0 H1 + mseAll Q2 H0 R H0 H1) two)
    + Ideal.div (mseAll U1 H2 R H1 H2 + mseAll U2 H2 R H1 H2) two)
    + Ideal.div (consAll F0 G0 R + consAll F1 G1 R) nine

/-! ## The two arrangements agree -/

/-- The consistency rows summed over the batch are the consistency totals. -/
theorem sum_rowB (Fa Fb : Fin 8 → Pix9) (R : Fin 8 → Pix) :
    zero + ∑ b : Fin 8, rowB (Fa b) (Fb b) (R b) = consAll Fa Fb R := by
  simp only [rowB, consAll, zero_eq, zero_add, Finset.sum_add_distrib]

/-- The weighted rows summed over the batch are the weighted totals. -/
theorem sum_rowA (R H0 H1 H2 P1 P2 P3 P4 Q1 Q2 U1 U2 : Fin 8 → Pix) :
    zero + ∑ b : Fin 8, rowA (R b) (H0 b) (H1 b) (H2 b) (P1 b) (P2 b) (P3 b) (P4 b) (Q1 b) (Q2 b) (U1 b) (U2 b)
      = (Ideal.div (((mseAll P1 H1 R H0 H1 + mseAll P2 H1 R H0 H1) + mseAll P3 H1 R H1 H2) + mseAll P4 H1 R H1 H2) four
          + Ideal.div (mseAll Q1 H0 R H0 H1 + mseAll Q2 H0 R H0 H1) two)
        + Ideal.div (mseAll U1 H2 R H1 H2 + mseAll U2 H2 R H1 H2) two := by
  have hq : (0 : ℝ) ≤ 1 / 4 := by norm_num
  have hh : (0 : ℝ) ≤ 1 / 2 := by norm_num
  simp only [rowA, mseAll, div_four, div_two, zero_eq, zero_add, Finset.sum_add_distrib]
  rw [quarter_eq, half_eq]
  simp only [← sum_mul_coe _ _ hq, ← sum_mul_coe _ _ hh, Finset.sum_add_distrib]

/-- The two arrangements of the loss are one extended real. -/
theorem lossRows_eq_lossWhole (R H0 H1 H2 P1 P2 P3 P4 Q1 Q2 U1 U2 : Fin 8 → Pix) (F0 G0 F1 G1 : Fin 8 → Pix9) :
    lossRows R H0 H1 H2 P1 P2 P3 P4 Q1 Q2 U1 U2 F0 G0 F1 G1 = lossWhole R H0 H1 H2 P1 P2 P3 P4 Q1 Q2 U1 U2 F0 G0 F1 G1 := by
  unfold lossRows lossWhole
  rw [sum_rowA, sum_rowB, sum_rowB]

/-! ## Reading the arrays pixel by pixel -/

/-- An image stack `[8, 1, 512, 512]` as its eight images, a flow stack `[8, 9, 512, 512]` as its eight
    nine-channel entries; one block `[1, 1, 512, 512]` as its image, one block `[1, 9, 512, 512]` as its nine. -/
def pix (X : (⟨4, ![8, 1, 512, 512]⟩ : Shape).Idx → EReal) : Fin 8 → Pix := fun b h w => X (ix4 b 0 h w)
def pix9 (Y : (⟨4, ![8, 9, 512, 512]⟩ : Shape).Idx → EReal) : Fin 8 → Pix9 := fun b ch h w => Y (ix4 b ch h w)
def bpix (x : (⟨4, ![1, 1, 512, 512]⟩ : Shape).Idx → EReal) : Pix := fun h w => x (ix4 0 0 h w)
def bpix9 (y : (⟨4, ![1, 9, 512, 512]⟩ : Shape).Idx → EReal) : Pix9 := fun ch h w => y (ix4 0 ch h w)

end Cert.FlowLoss

end
-- ==== Proof.Blocks.lean ====
import proofs.«131438_j61692910239837_2_alg».proof.Proof.Fold
import proofs.«131438_j61692910239837_2_alg».proof.Proof.Spec
import Idealize.ShloMosaic.Lib.Pipeline.Value
import Idealize.ShloMosaic.Lib.ValueIdx

/-!
# The three launches' blocks

Each launch runs over the eight batch entries, one grid point per entry.  At point `t` an image window's block is
batch entry `t` of its array (`blk0_*`, `blk1_*`, `blk2_*`: the block read pixel by pixel is the array read at
batch coordinate `t`), and the output window's block is row `t` of the `[8, 1, 128]` output array.
-/

set_option maxRecDepth 16384

noncomputable section

namespace Cert.KernelIdeal.Blocks

open Cert.KernelIdeal Cert.KernelIdeal.Gen Cert.KernelIdeal.Fold Cert.FlowLoss
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- A grid point of the first launch as a batch coordinate. -/
def bt0 (t : Fin cfg0.N) : Fin 8 := ⟨t.val, by have h := t.isLt; have e : cfg0.N = 8 := N_0; omega⟩
def bt1 (t : Fin cfg1.N) : Fin 8 := ⟨t.val, by have h := t.isLt; have e : cfg1.N = 8 := N_1; omega⟩
def bt2 (t : Fin cfg2.N) : Fin 8 := ⟨t.val, by have h := t.isLt; have e : cfg2.N = 8 := N_2; omega⟩

/-- The arithmetic that places a pixel of point `t`'s block in the array: on every axis the array coordinate is the
    block's index times the block's extent plus the coordinate inside the block; the batch axis has index `t` and
    extent one, the other axes index zero. -/
local macro "place_pixel" t:ident "," w:term "," e0:ident "," e1:ident "," e2:ident "," e3:ident "," h:ident "," x:ident : tactic => `(tactic|
  (congr 1
   funext a
   apply Fin.ext
   match a with
   | ⟨0, _⟩ => (show Pipeline.Window.index $w $t (0 : Fin 4) * 1 + 1 * 0 = ($t).val; rw [$e0:ident] <;> omega)
   | ⟨1, _⟩ => (show Pipeline.Window.index $w $t (1 : Fin 4) * 1 + 1 * 0 = 0; rw [$e1:ident] <;> omega)
   | ⟨2, _⟩ => (show Pipeline.Window.index $w $t (2 : Fin 4) * 512 + 1 * ($h).val = ($h).val; rw [$e2:ident] <;> omega)
   | ⟨3, _⟩ => (show Pipeline.Window.index $w $t (3 : Fin 4) * 512 + 1 * ($x).val = ($x).val; rw [$e3:ident] <;> omega)))

/-- The same for a nine-channel block: the channel axis has index zero and extent nine. -/
local macro "place_pixel9" t:ident "," w:term "," e0:ident "," e1:ident "," e2:ident "," e3:ident "," ch:ident "," h:ident "," x:ident : tactic => `(tactic|
  (congr 1
   funext a
   apply Fin.ext
   match a with
   | ⟨0, _⟩ => (show Pipeline.Window.index $w $t (0 : Fin 4) * 1 + 1 * 0 = ($t).val; rw [$e0:ident] <;> omega)
   | ⟨1, _⟩ => (show Pipeline.Window.index $w $t (1 : Fin 4) * 9 + 1 * ($ch).val = ($ch).val; rw [$e1:ident] <;> omega)
   | ⟨2, _⟩ => (show Pipeline.Window.index $w $t (2 : Fin 4) * 512 + 1 * ($h).val = ($h).val; rw [$e2:ident] <;> omega)
   | ⟨3, _⟩ => (show Pipeline.Window.index $w $t (3 : Fin 4) * 512 + 1 * ($x).val = ($x).val; rw [$e3:ident] <;> omega)))

/-! ## The first launch's twelve image windows

Every window's index map sends point `t` to block `(t, 0, 0, 0)`; the windows are, in order, the mask, the three
frames, and the eight predictions. -/

theorem idx0_0 : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, _)
theorem blk0_0 (c : Dev nD) (t : Fin cfg0.N) :
    bpix (iblk0 (V0 m ρ) c 0 t) = pix (m ((c : Thread nD τ).loc main_arg0)) (bt0 t) := by
  obtain ⟨e0, e1, e2, e3⟩ := idx0_0 t
  funext h w
  show iblk0 (V0 m ρ) c 0 t (ix4 0 0 h w) = m ((c : Thread nD τ).loc main_arg0) (ix4 (bt0 t) 0 h w)
  unfold iblk0
  rw [View.read_apply]
  show m ((c : Thread nD τ).loc main_arg0) _ = _
  place_pixel t, win0_0, e0, e1, e2, e3, h, w

theorem idx0_1 : ∀ t : Fin cfg0.N, win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)
theorem blk0_1 (c : Dev nD) (t : Fin cfg0.N) :
    bpix (iblk0 (V0 m ρ) c 1 t) = pix (m ((c : Thread nD τ).loc main_arg2)) (bt0 t) := by
  obtain ⟨e0, e1, e2, e3⟩ := idx0_1 t
  funext h w
  show iblk0 (V0 m ρ) c 1 t (ix4 0 0 h w) = m ((c : Thread nD τ).loc main_arg2) (ix4 (bt0 t) 0 h w)
  unfold iblk0
  rw [View.read_apply]
  show m ((c : Thread nD τ).loc main_arg2) _ = _
  place_pixel t, win0_1, e0, e1, e2, e3, h, w

theorem idx0_2 : ∀ t : Fin cfg0.N, win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)
theorem blk0_2 (c : Dev nD) (t : Fin cfg0.N) :
    bpix (iblk0 (V0 m ρ) c 2 t) = pix (m ((c : Thread nD τ).loc main_arg3)) (bt0 t) := by
  obtain ⟨e0, e1, e2, e3⟩ := idx0_2 t
  funext h w
  show iblk0 (V0 m ρ) c 2 t (ix4 0 0 h w) = m ((c : Thread nD τ).loc main_arg3) (ix4 (bt0 t) 0 h w)
  unfold iblk0
  rw [View.read_apply]
  show m ((c : Thread nD τ).loc main_arg3) _ = _
  place_pixel t, win0_2, e0, e1, e2, e3, h, w

theorem idx0_3 : ∀ t : Fin cfg0.N, win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)
theorem blk0_3 (c : Dev nD) (t : Fin cfg0.N) :
    bpix (iblk0 (V0 m ρ) c 3 t) = pix (m ((c : Thread nD τ).loc main_arg4)) (bt0 t) := by
  obtain ⟨e0, e1, e2, e3⟩ := idx0_3 t
  funext h w
  show iblk0 (V0 m ρ) c 3 t (ix4 0 0 h w) = m ((c : Thread nD τ).loc main_arg4) (ix4 (bt0 t) 0 h w)
  unfold iblk0
  rw [View.read_apply]
  show m ((c : Thread nD τ).loc main_arg4) _ = _
  place_pixel t, win0_3, e0, e1, e2, e3, h, w

theorem idx0_4 : ∀ t : Fin cfg0.N, win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)
theorem blk0_4 (c : Dev nD) (t : Fin cfg0.N) :
    bpix (iblk0 (V0 m ρ) c 4 t) = pix (m ((c : Thread nD τ).loc main_arg5)) (bt0 t) := by
  obtain ⟨e0, e1, e2, e3⟩ := idx0_4 t
  funext h w
  show iblk0 (V0 m ρ) c 4 t (ix4 0 0 h w) = m ((c : Thread nD τ).loc main_arg5) (ix4 (bt0 t) 0 h w)
  unfold iblk0
  rw [View.read_apply]
  show m ((c : Thread nD τ).loc main_arg5) _ = _
  place_pixel t, win0_4, e0, e1, e2, e3, h, w

theorem idx0_5 : ∀ t : Fin cfg0.N, win0_5.index t (0 : Fin 4) = t.val ∧ win0_5.index t (1 : Fin 4) = 0 ∧ win0_5.index t (2 : Fin 4) = 0 ∧ win0_5.index t (3 : Fin 4) = 0 :=
  (by decide +kernel : ∀ t : Fin grid0.N, _)
theorem blk0_5 (c : Dev nD) (t : Fin cfg0.N) :
    bpix (iblk0 (V0 m ρ) c 5 t) = pix (m ((c : Thread nD τ).loc main_arg6)) (bt0 t) := by
  obtain ⟨e0, e1, e2, e3⟩ := idx0_5 t
  funext h w
  show iblk0 (V0 m ρ) c 5 t (ix4 0 0 h w) = m ((c : Thread nD τ).loc main_arg6) (ix4 (bt0 t) 0 h w)
  unfold iblk0
  rw [View.read_apply]
  show m ((c : Thread nD τ).loc main_arg6) _ = _
  place_pixel t, win0_5, e0, e1, e2, e3, h, w

theorem idx0_6 : ∀ t : Fin cfg0.N, win0_6.index t (0 : Fin 4) = t.val ∧ win0_6.index t (1 : Fin 4) = 0 ∧ win0_6.index t (2 : Fin 4) = 0 ∧ win0_6.index t (3 : Fin 4) = 0 :=
  (by decide +kernel : ∀ t : Fin grid0.N, _)
theorem blk0_6 (c : Dev nD) (t : Fin cfg0.N) :
    bpix (iblk0 (V0 m ρ) c 6 t) = pix (m ((c : Thread nD τ).loc main_arg7)) (bt0 t) := by
  obtain ⟨e0, e1, e2, e3⟩ := idx0_6 t
  funext h w
  show iblk0 (V0 m ρ) c 6 t (ix4 0 0 h w) = m ((c : Thread nD τ).loc main_arg7) (ix4 (bt0 t) 0 h w)
  unfold iblk0
  rw [View.read_apply]
  show m ((c : Thread nD τ).loc main_arg7) _ = _
  place_pixel t, win0_6, e0, e1, e2, e3, h, w

theorem idx0_7 : ∀ t : Fin cfg0.N, win0_7.index t (0 : Fin 4) = t.val ∧ win0_7.index t (1 : Fin 4) = 0 ∧ win0_7.index t (2 : Fin 4) = 0 ∧ win0_7.index t (3 : Fin 4) = 0 :=
  (by decide +kernel : ∀ t : Fin grid0.N, _)
theorem blk0_7 (c : Dev nD) (t : Fin cfg0.N) :
    bpix (iblk0 (V0 m ρ) c 7 t) = pix (m ((c : Thread nD τ).loc main_arg8)) (bt0 t) := by
  obtain ⟨e0, e1, e2, e3⟩ := idx0_7 t
  funext h w
  show iblk0 (V0 m ρ) c 7 t (ix4 0 0 h w) = m ((c : Thread nD τ).loc main_arg8) (ix4 (bt0 t) 0 h w)
  unfold iblk0
  rw [View.read_apply]
  show m ((c : Thread nD τ).loc main_arg8) _ = _
  place_pixel t, win0_7, e0, e1, e2, e3, h, w

theorem idx0_8 : ∀ t : Fin cfg0.N, win0_8.index t (0 : Fin 4) = t.val ∧ win0_8.index t (1 : Fin 4) = 0 ∧ win0_8.index t (2 : Fin 4) = 0 ∧ win0_8.index t (3 : Fin 4) = 0 :=
  (by decide +kernel : ∀ t : Fin grid0.N, _)
theorem blk0_8 (c : Dev nD) (t : Fin cfg0.N) :
    bpix (iblk0 (V0 m ρ) c 8 t) = pix (m ((c : Thread nD τ).loc main_arg9)) (bt0 t) := by
  obtain ⟨e0, e1, e2, e3⟩ := idx0_8 t
  funext h w
  show iblk0 (V0 m ρ) c 8 t (ix4 0 0 h w) = m ((c : Thread nD τ).loc main_arg9) (ix4 (bt0 t) 0 h w)
  unfold iblk0
  rw [View.read_apply]
  show m ((c : Thread nD τ).loc main_arg9) _ = _
  place_pixel t, win0_8, e0, e1, e2, e3, h, w

theorem idx0_9 : ∀ t : Fin cfg0.N, win0_9.index t (0 : Fin 4) = t.val ∧ win0_9.index t (1 : Fin 4) = 0 ∧ win0_9.index t (2 : Fin 4) = 0 ∧ win0_9.index t (3 : Fin 4) = 0 :=
  (by decide +kernel : ∀ t : Fin grid0.N, _)
theorem blk0_9 (c : Dev nD) (t : Fin cfg0.N) :
    bpix (iblk0 (V0 m ρ) c 9 t) = pix (m ((c : Thread nD τ).loc main_arg10)) (bt0 t) := by
  obtain ⟨e0, e1, e2, e3⟩ := idx0_9 t
  funext h w
  show iblk0 (V0 m ρ) c 9 t (ix4 0 0 h w) = m ((c : Thread nD τ).loc main_arg10) (ix4 (bt0 t) 0 h w)
  unfold iblk0
  rw [View.read_apply]
  show m ((c : Thread nD τ).loc main_arg10) _ = _
  place_pixel t, win0_9, e0, e1, e2, e3, h, w

theorem idx0_10 : ∀ t : Fin cfg0.N, win0_10.index t (0 : Fin 4) = t.val ∧ win0_10.index t (1 : Fin 4) = 0 ∧ win0_10.index t (2 : Fin 4) = 0 ∧ win0_10.index t (3 : Fin 4) = 0 :=
  (by decide +kernel : ∀ t : Fin grid0.N, _)
theorem blk0_10 (c : Dev nD) (t : Fin cfg0.N) :
    bpix (iblk0 (V0 m ρ) c 10 t) = pix (m ((c : Thread nD τ).loc main_arg11)) (bt0 t) := by
  obtain ⟨e0, e1, e2, e3⟩ := idx0_10 t
  funext h w
  show iblk0 (V0 m ρ) c 10 t (ix4 0 0 h w) = m ((c : Thread nD τ).loc main_arg11) (ix4 (bt0 t) 0 h w)
  unfold iblk0
  rw [View.read_apply]
  show m ((c : Thread nD τ).loc main_arg11) _ = _
  place_pixel t, win0_10, e0, e1, e2, e3, h, w

theorem idx0_11 : ∀ t : Fin cfg0.N, win0_11.index t (0 : Fin 4) = t.val ∧ win0_11.index t (1 : Fin 4) = 0 ∧ win0_11.index t (2 : Fin 4) = 0 ∧ win0_11.index t (3 : Fin 4) = 0 :=
  (by decide +kernel : ∀ t : Fin grid0.N, _)
theorem blk0_11 (c : Dev nD) (t : Fin cfg0.N) :
    bpix (iblk0 (V0 m ρ) c 11 t) = pix (m ((c : Thread nD τ).loc main_arg12)) (bt0 t) := by
  obtain ⟨e0, e1, e2, e3⟩ := idx0_11 t
  funext h w
  show iblk0 (V0 m ρ) c 11 t (ix4 0 0 h w) = m ((c : Thread nD τ).loc main_arg12) (ix4 (bt0 t) 0 h w)
  unfold iblk0
  rw [View.read_apply]
  show m ((c : Thread nD τ).loc main_arg12) _ = _
  place_pixel t, win0_11, e0, e1, e2, e3, h, w

/-! ## The second launch's windows: a flow, its inverse, the mask -/

theorem idx1_0 : ∀ t : Fin cfg1.N, win1_0.index t (0 : Fin 4) = t.val ∧ win1_0.index t (1 : Fin 4) = 0 ∧ win1_0.index t (2 : Fin 4) = 0 ∧ win1_0.index t (3 : Fin 4) = 0 :=
  (by decide +kernel : ∀ t : Fin grid1.N, _)
theorem blk1_0 (c : Dev nD) (t : Fin cfg1.N) :
    bpix9 (iblk1 (V2 m ρ) c 0 t) = pix9 (m ((c : Thread nD τ).loc main_arg13)) (bt1 t) := by
  obtain ⟨e0, e1, e2, e3⟩ := idx1_0 t
  funext ch h w
  show iblk1 (V2 m ρ) c 0 t (ix4 0 ch h w) = m ((c : Thread nD τ).loc main_arg13) (ix4 (bt1 t) ch h w)
  unfold iblk1
  rw [View.read_apply]
  show V2 m ρ c main_arg13 _ = _
  rw [entry1_arg13 m ρ c]
  place_pixel9 t, win1_0, e0, e1, e2, e3, ch, h, w

theorem idx1_1 : ∀ t : Fin cfg1.N, win1_1.index t (0 : Fin 4) = t.val ∧ win1_1.index t (1 : Fin 4) = 0 ∧ win1_1.index t (2 : Fin 4) = 0 ∧ win1_1.index t (3 : Fin 4) = 0 :=
  (by decide +kernel : ∀ t : Fin grid1.N, _)
theorem blk1_1 (c : Dev nD) (t : Fin cfg1.N) :
    bpix9 (iblk1 (V2 m ρ) c 1 t) = pix9 (m ((c : Thread nD τ).loc main_arg14)) (bt1 t) := by
  obtain ⟨e0, e1, e2, e3⟩ := idx1_1 t
  funext ch h w
  show iblk1 (V2 m ρ) c 1 t (ix4 0 ch h w) = m ((c : Thread nD τ).loc main_arg14) (ix4 (bt1 t) ch h w)
  unfold iblk1
  rw [View.read_apply]
  show V2 m ρ c main_arg14 _ = _
  rw [entry1_arg14 m ρ c]
  place_pixel9 t, win1_1, e0, e1, e2, e3, ch, h, w

theorem idx1_2 : ∀ t : Fin cfg1.N, win1_2.index t (0 : Fin 4) = t.val ∧ win1_2.index t (1 : Fin 4) = 0 ∧ win1_2.index t (2 : Fin 4) = 0 ∧ win1_2.index t (3 : Fin 4) = 0 :=
  (by decide +kernel : ∀ t : Fin grid1.N, _)
theorem blk1_2 (c : Dev nD) (t : Fin cfg1.N) :
    bpix (iblk1 (V2 m ρ) c 2 t) = pix (m ((c : Thread nD τ).loc main_arg0)) (bt1 t) := by
  obtain ⟨e0, e1, e2, e3⟩ := idx1_2 t
  funext h w
  show iblk1 (V2 m ρ) c 2 t (ix4 0 0 h w) = m ((c : Thread nD τ).loc main_arg0) (ix4 (bt1 t) 0 h w)
  unfold iblk1
  rw [View.read_apply]
  show V2 m ρ c main_arg0 _ = _
  rw [entry1_arg0 m ρ c]
  place_pixel t, win1_2, e0, e1, e2, e3, h, w

/-! ## The third launch's windows: the other flow, its inverse, the mask -/

theorem idx2_0 : ∀ t : Fin cfg2.N, win2_0.index t (0 : Fin 4) = t.val ∧ win2_0.index t (1 : Fin 4) = 0 ∧ win2_0.index t (2 : Fin 4) = 0 ∧ win2_0.index t (3 : Fin 4) = 0 :=
  (by decide +kernel : ∀ t : Fin grid2.N, _)
theorem blk2_0 (c : Dev nD) (t : Fin cfg2.N) :
    bpix9 (iblk2 (V4 m ρ) c 0 t) = pix9 (m ((c : Thread nD τ).loc main_arg15)) (bt2 t) := by
  obtain ⟨e0, e1, e2, e3⟩ := idx2_0 t
  funext ch h w
  show iblk2 (V4 m ρ) c 0 t (ix4 0 ch h w) = m ((c : Thread nD τ).loc main_arg15) (ix4 (bt2 t) ch h w)
  unfold iblk2
  rw [View.read_apply]
  show V4 m ρ c main_arg15 _ = _
  rw [entry2_arg15 m ρ c]
  place_pixel9 t, win2_0, e0, e1, e2, e3, ch, h, w

theorem idx2_1 : ∀ t : Fin cfg2.N, win2_1.index t (0 : Fin 4) = t.val ∧ win2_1.index t (1 : Fin 4) = 0 ∧ win2_1.index t (2 : Fin 4) = 0 ∧ win2_1.index t (3 : Fin 4) = 0 :=
  (by decide +kernel : ∀ t : Fin grid2.N, _)
theorem blk2_1 (c : Dev nD) (t : Fin cfg2.N) :
    bpix9 (iblk2 (V4 m ρ) c 1 t) = pix9 (m ((c : Thread nD τ).loc main_arg16)) (bt2 t) := by
  obtain ⟨e0, e1, e2, e3⟩ := idx2_1 t
  funext ch h w
  show iblk2 (V4 m ρ) c 1 t (ix4 0 ch h w) = m ((c : Thread nD τ).loc main_arg16) (ix4 (bt2 t) ch h w)
  unfold iblk2
  rw [View.read_apply]
  show V4 m ρ c main_arg16 _ = _
  rw [entry2_arg16 m ρ c]
  place_pixel9 t, win2_1, e0, e1, e2, e3, ch, h, w

theorem idx2_2 : ∀ t : Fin cfg2.N, win2_2.index t (0 : Fin 4) = t.val ∧ win2_2.index t (1 : Fin 4) = 0 ∧ win2_2.index t (2 : Fin 4) = 0 ∧ win2_2.index t (3 : Fin 4) = 0 :=
  (by decide +kernel : ∀ t : Fin grid2.N, _)
theorem blk2_2 (c : Dev nD) (t : Fin cfg2.N) :
    bpix (iblk2 (V4 m ρ) c 2 t) = pix (m ((c : Thread nD τ).loc main_arg0)) (bt2 t) := by
  obtain ⟨e0, e1, e2, e3⟩ := idx2_2 t
  funext h w
  show iblk2 (V4 m ρ) c 2 t (ix4 0 0 h w) = m ((c : Thread nD τ).loc main_arg0) (ix4 (bt2 t) 0 h w)
  unfold iblk2
  rw [View.read_apply]
  show V4 m ρ c main_arg0 _ = _
  rw [entry2_arg0 m ρ c]
  place_pixel t, win2_2, e0, e1, e2, e3, h, w

end Cert.KernelIdeal.Blocks

end
-- ==== Proof.Rows.lean ====
import proofs.«131438_j61692910239837_2_alg».proof.Proof.Blocks
import Idealize.ShloMosaic.PureOps.Ideal.Laws

/-!
# The three launches' output arrays

Each launch's output window at point `t` is row `t` of its `[8, 1, 128]` array; the body leaves there the batch
entry's row total, the same on all 128 lanes.  The rows tile the array, so after the launch the array holds, at
`[b, 0, l]`, the row total of batch entry `b` (`final0`, `final1`, `final2`).  What the body leaves is taken as a
hypothesis here (`hA`, `hB`): the row function of the body's input blocks.
-/

set_option maxRecDepth 16384

noncomputable section

namespace Cert.KernelIdeal.Rows

open Cert.KernelIdeal Cert.KernelIdeal.Gen Cert.KernelIdeal.Fold Cert.KernelIdeal.Blocks Cert.FlowLoss
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The row totals as functions of the program's arguments and the batch coordinate. -/
def rowOf0 (c : Dev nD) (b : Fin 8) : EReal :=
  rowA (pix (m ((c : Thread nD τ).loc main_arg0)) b) (pix (m ((c : Thread nD τ).loc main_arg2)) b)
    (pix (m ((c : Thread nD τ).loc main_arg3)) b) (pix (m ((c : Thread nD τ).loc main_arg4)) b)
    (pix (m ((c : Thread nD τ).loc main_arg5)) b) (pix (m ((c : Thread nD τ).loc main_arg6)) b)
    (pix (m ((c : Thread nD τ).loc main_arg7)) b) (pix (m ((c : Thread nD τ).loc main_arg8)) b)
    (pix (m ((c : Thread nD τ).loc main_arg9)) b) (pix (m ((c : Thread nD τ).loc main_arg10)) b)
    (pix (m ((c : Thread nD τ).loc main_arg11)) b) (pix (m ((c : Thread nD τ).loc main_arg12)) b)
def rowOf1 (c : Dev nD) (b : Fin 8) : EReal :=
  rowB (pix9 (m ((c : Thread nD τ).loc main_arg13)) b) (pix9 (m ((c : Thread nD τ).loc main_arg14)) b)
    (pix (m ((c : Thread nD τ).loc main_arg0)) b)
def rowOf2 (c : Dev nD) (b : Fin 8) : EReal :=
  rowB (pix9 (m ((c : Thread nD τ).loc main_arg15)) b) (pix9 (m ((c : Thread nD τ).loc main_arg16)) b)
    (pix (m ((c : Thread nD τ).loc main_arg0)) b)

/-- An output array `[8, 1, 128]` whose entry `[b, 0, l]` is row `b`'s total. -/
def lanes (row : Fin 8 → EReal) : S8x1x128.Idx → EReal := fun i => row ⟨(i 0).val, (i 0).isLt⟩

/-! ## The first launch -/

theorem idx0_12 : ∀ t : Fin cfg0.N, win0_12.index t (0 : Fin 3) = t.val ∧ win0_12.index t (1 : Fin 3) = 0 ∧ win0_12.index t (2 : Fin 3) = 0 :=
  (by decide +kernel : ∀ t : Fin grid0.N, _)

/-- What point `t` writes back is row `t` of the array of row totals. -/
theorem flushed0
    (hA : ∀ (x0 x1 x2 x3 x4 x5 x6 x7 x8 x9 x10 x11 : Vec Ideal S1x1x512x512 .f32) (y : S1x1x128.Idx),
      out0_12 (F := Ideal) x0 x1 x2 x3 x4 x5 x6 x7 x8 x9 x10 x11 y
        = rowA (bpix x0) (bpix x1) (bpix x2) (bpix x3) (bpix x4) (bpix x5) (bpix x6) (bpix x7) (bpix x8) (bpix x9) (bpix x10) (bpix x11))
    (c : Dev nD) (t : Fin cfg0.N) :
    (dat0 (V0 m ρ) c).flushed 12 t = ((cfg0.win 12).blk t).view.read (Elt Ideal) (lanes (rowOf0 m c)) := by
  show (cfg0.win 12).cut (grid0.coords t) ((dat0 (V0 m ρ) c).after 12 t) = _
  rw [after0_12]
  funext j
  show out0_12 (iblk0 (V0 m ρ) c 0 t) (iblk0 (V0 m ρ) c 1 t) (iblk0 (V0 m ρ) c 2 t) (iblk0 (V0 m ρ) c 3 t) (iblk0 (V0 m ρ) c 4 t) (iblk0 (V0 m ρ) c 5 t) (iblk0 (V0 m ρ) c 6 t) (iblk0 (V0 m ρ) c 7 t) (iblk0 (V0 m ρ) c 8 t) (iblk0 (V0 m ρ) c 9 t) (iblk0 (V0 m ρ) c 10 t) (iblk0 (V0 m ρ) c 11 t) j
      = lanes (rowOf0 m c) (((cfg0.win 12).blk t).view.emb j)
  rw [hA, blk0_0 m ρ c t, blk0_1 m ρ c t, blk0_2 m ρ c t, blk0_3 m ρ c t, blk0_4 m ρ c t, blk0_5 m ρ c t, blk0_6 m ρ c t,
    blk0_7 m ρ c t, blk0_8 m ρ c t, blk0_9 m ρ c t, blk0_10 m ρ c t, blk0_11 m ρ c t]
  show rowOf0 m c (bt0 t) = rowOf0 m c _
  congr 1
  apply Fin.ext
  obtain ⟨e0, e1, e2⟩ := idx0_12 t
  have hj : (j 0).val < 1 := (j 0).isLt
  show t.val = win0_12.index t (0 : Fin 3) * 1 + 1 * (j 0).val
  rw [e0]; omega

/-- An index of the array is in point `t`'s block iff each coordinate is in the block's range on its axis. -/
theorem mem_blk0 (t : Fin cfg0.N) (i : S8x1x128.Idx) :
    i ∈ ((cfg0.win 12).blk t).view.set ↔ ∀ a : Fin 3, win0_12.index t a * S1x1x128.size a ≤ (i a).val ∧ (i a).val < win0_12.index t a * S1x1x128.size a + S1x1x128.size a := by
  show i ∈ ((View.whole main_v0).slice (win0_12.rect t)).set ↔ _
  rw [View.set_slice_whole, Rect.mem_set_unit]
  exact Iff.rfl

/-- After the first launch its array holds every batch entry's row total. -/
theorem final0
    (hA : ∀ (x0 x1 x2 x3 x4 x5 x6 x7 x8 x9 x10 x11 : Vec Ideal S1x1x512x512 .f32) (y : S1x1x128.Idx),
      out0_12 (F := Ideal) x0 x1 x2 x3 x4 x5 x6 x7 x8 x9 x10 x11 y
        = rowA (bpix x0) (bpix x1) (bpix x2) (bpix x3) (bpix x4) (bpix x5) (bpix x6) (bpix x7) (bpix x8) (bpix x9) (bpix x10) (bpix x11))
    (c : Dev nD) : arr0 m ρ c = lanes (rowOf0 m c) :=
  (dat0 (V0 m ρ) c).arrAt_eq_of_cover 12 (lanes (rowOf0 m c)) (fun t _ => flushed0 m ρ hA c t) fun i => by
    have h0 : (i 0).val < 8 := (i 0).isLt
    have h1 : (i 1).val < 1 := (i 1).isLt
    have h2 : (i 2).val < 128 := (i 2).isLt
    have hN : cfg0.N = 8 := N_0
    obtain ⟨t0, ht0⟩ : ∃ t0 : Fin cfg0.N, t0.val = (i 0).val := ⟨⟨(i 0).val, by omega⟩, rfl⟩
    refine ⟨t0, flush0_12 t0, ?_⟩
    rw [mem_blk0]
    obtain ⟨e0, e1, e2⟩ := idx0_12 t0
    intro a
    match a with
    | ⟨0, _⟩ => show win0_12.index t0 (0 : Fin 3) * 1 ≤ (i 0).val ∧ (i 0).val < win0_12.index t0 (0 : Fin 3) * 1 + 1; rw [e0]; omega
    | ⟨1, _⟩ => show win0_12.index t0 (1 : Fin 3) * 1 ≤ (i 1).val ∧ (i 1).val < win0_12.index t0 (1 : Fin 3) * 1 + 1; rw [e1]; omega
    | ⟨2, _⟩ => show win0_12.index t0 (2 : Fin 3) * 128 ≤ (i 2).val ∧ (i 2).val < win0_12.index t0 (2 : Fin 3) * 128 + 128; rw [e2]; omega

/-! ## The second launch -/

theorem idx1_3 : ∀ t : Fin cfg1.N, win1_3.index t (0 : Fin 3) = t.val ∧ win1_3.index t (1 : Fin 3) = 0 ∧ win1_3.index t (2 : Fin 3) = 0 :=
  (by decide +kernel : ∀ t : Fin grid1.N, _)

/-- What point `t` writes back is row `t` of the array of row totals. -/
theorem flushed1
    (hB : ∀ (x0 x1 : Vec Ideal S1x9x512x512 .f32) (x2 : Vec Ideal S1x1x512x512 .f32) (y : S1x1x128.Idx),
      out1_3 (F := Ideal) x0 x1 x2 y = rowB (bpix9 x0) (bpix9 x1) (bpix x2))
    (c : Dev nD) (t : Fin cfg1.N) :
    (dat1 (V2 m ρ) c).flushed 3 t = ((cfg1.win 3).blk t).view.read (Elt Ideal) (lanes (rowOf1 m c)) := by
  show (cfg1.win 3).cut (grid1.coords t) ((dat1 (V2 m ρ) c).after 3 t) = _
  rw [after1_3]
  funext j
  show out1_3 (iblk1 (V2 m ρ) c 0 t) (iblk1 (V2 m ρ) c 1 t) (iblk1 (V2 m ρ) c 2 t) j
      = lanes (rowOf1 m c) (((cfg1.win 3).blk t).view.emb j)
  rw [hB, blk1_0 m ρ c t, blk1_1 m ρ c t, blk1_2 m ρ c t]
  show rowOf1 m c (bt1 t) = rowOf1 m c _
  congr 1
  apply Fin.ext
  obtain ⟨e0, e1, e2⟩ := idx1_3 t
  have hj : (j 0).val < 1 := (j 0).isLt
  show t.val = win1_3.index t (0 : Fin 3) * 1 + 1 * (j 0).val
  rw [e0]; omega

/-- An index of the array is in point `t`'s block iff each coordinate is in the block's range on its axis. -/
theorem mem_blk1 (t : Fin cfg1.N) (i : S8x1x128.Idx) :
    i ∈ ((cfg1.win 3).blk t).view.set ↔ ∀ a : Fin 3, win1_3.index t a * S1x1x128.size a ≤ (i a).val ∧ (i a).val < win1_3.index t a * S1x1x128.size a + S1x1x128.size a := by
  show i ∈ ((View.whole main_v4).slice (win1_3.rect t)).set ↔ _
  rw [View.set_slice_whole, Rect.mem_set_unit]
  exact Iff.rfl

/-- After the launch its array holds every batch entry's row total. -/
theorem final1
    (hB : ∀ (x0 x1 : Vec Ideal S1x9x512x512 .f32) (x2 : Vec Ideal S1x1x512x512 .f32) (y : S1x1x128.Idx),
      out1_3 (F := Ideal) x0 x1 x2 y = rowB (bpix9 x0) (bpix9 x1) (bpix x2))
    (c : Dev nD) : arr1 m ρ c = lanes (rowOf1 m c) :=
  (dat1 (V2 m ρ) c).arrAt_eq_of_cover 3 (lanes (rowOf1 m c)) (fun t _ => flushed1 m ρ hB c t) fun i => by
    have h0 : (i 0).val < 8 := (i 0).isLt
    have h1 : (i 1).val < 1 := (i 1).isLt
    have h2 : (i 2).val < 128 := (i 2).isLt
    have hN : cfg1.N = 8 := N_1
    obtain ⟨t0, ht0⟩ : ∃ t0 : Fin cfg1.N, t0.val = (i 0).val := ⟨⟨(i 0).val, by omega⟩, rfl⟩
    refine ⟨t0, flush1_3 t0, ?_⟩
    rw [mem_blk1]
    obtain ⟨e0, e1, e2⟩ := idx1_3 t0
    intro a
    match a with
    | ⟨0, _⟩ => show win1_3.index t0 (0 : Fin 3) * 1 ≤ (i 0).val ∧ (i 0).val < win1_3.index t0 (0 : Fin 3) * 1 + 1; rw [e0]; omega
    | ⟨1, _⟩ => show win1_3.index t0 (1 : Fin 3) * 1 ≤ (i 1).val ∧ (i 1).val < win1_3.index t0 (1 : Fin 3) * 1 + 1; rw [e1]; omega
    | ⟨2, _⟩ => show win1_3.index t0 (2 : Fin 3) * 128 ≤ (i 2).val ∧ (i 2).val < win1_3.index t0 (2 : Fin 3) * 128 + 128; rw [e2]; omega

/-! ## The third launch -/

theorem idx2_3 : ∀ t : Fin cfg2.N, win2_3.index t (0 : Fin 3) = t.val ∧ win2_3.index t (1 : Fin 3) = 0 ∧ win2_3.index t (2 : Fin 3) = 0 :=
  (by decide +kernel : ∀ t : Fin grid2.N, _)

/-- What point `t` writes back is row `t` of the array of row totals. -/
theorem flushed2
    (hB : ∀ (x0 x1 : Vec Ideal S1x9x512x512 .f32) (x2 : Vec Ideal S1x1x512x512 .f32) (y : S1x1x128.Idx),
      out2_3 (F := Ideal) x0 x1 x2 y = rowB (bpix9 x0) (bpix9 x1) (bpix x2))
    (c : Dev nD) (t : Fin cfg2.N) :
    (dat2 (V4 m ρ) c).flushed 3 t = ((cfg2.win 3).blk t).view.read (Elt Ideal) (lanes (rowOf2 m c)) := by
  show (cfg2.win 3).cut (grid2.coords t) ((dat2 (V4 m ρ) c).after 3 t) = _
  rw [after2_3]
  funext j
  show out2_3 (iblk2 (V4 m ρ) c 0 t) (iblk2 (V4 m ρ) c 1 t) (iblk2 (V4 m ρ) c 2 t) j
      = lanes (rowOf2 m c) (((cfg2.win 3).blk t).view.emb j)
  rw [hB, blk2_0 m ρ c t, blk2_1 m ρ c t, blk2_2 m ρ c t]
  show rowOf2 m c (bt2 t) = rowOf2 m c _
  congr 1
  apply Fin.ext
  obtain ⟨e0, e1, e2⟩ := idx2_3 t
  have hj : (j 0).val < 1 := (j 0).isLt
  show t.val = win2_3.index t (0 : Fin 3) * 1 + 1 * (j 0).val
  rw [e0]; omega

/-- An index of the array is in point `t`'s block iff each coordinate is in the block's range on its axis. -/
theorem mem_blk2 (t : Fin cfg2.N) (i : S8x1x128.Idx) :
    i ∈ ((cfg2.win 3).blk t).view.set ↔ ∀ a : Fin 3, win2_3.index t a * S1x1x128.size a ≤ (i a).val ∧ (i a).val < win2_3.index t a * S1x1x128.size a + S1x1x128.size a := by
  show i ∈ ((View.whole main_v8).slice (win2_3.rect t)).set ↔ _
  rw [View.set_slice_whole, Rect.mem_set_unit]
  exact Iff.rfl

/-- After the launch its array holds every batch entry's row total. -/
theorem final2
    (hB : ∀ (x0 x1 : Vec Ideal S1x9x512x512 .f32) (x2 : Vec Ideal S1x1x512x512 .f32) (y : S1x1x128.Idx),
      out2_3 (F := Ideal) x0 x1 x2 y = rowB (bpix9 x0) (bpix9 x1) (bpix x2))
    (c : Dev nD) : arr2 m ρ c = lanes (rowOf2 m c) :=
  (dat2 (V4 m ρ) c).arrAt_eq_of_cover 3 (lanes (rowOf2 m c)) (fun t _ => flushed2 m ρ hB c t) fun i => by
    have h0 : (i 0).val < 8 := (i 0).isLt
    have h1 : (i 1).val < 1 := (i 1).isLt
    have h2 : (i 2).val < 128 := (i 2).isLt
    have hN : cfg2.N = 8 := N_2
    obtain ⟨t0, ht0⟩ : ∃ t0 : Fin cfg2.N, t0.val = (i 0).val := ⟨⟨(i 0).val, by omega⟩, rfl⟩
    refine ⟨t0, flush2_3 t0, ?_⟩
    rw [mem_blk2]
    obtain ⟨e0, e1, e2⟩ := idx2_3 t0
    intro a
    match a with
    | ⟨0, _⟩ => show win2_3.index t0 (0 : Fin 3) * 1 ≤ (i 0).val ∧ (i 0).val < win2_3.index t0 (0 : Fin 3) * 1 + 1; rw [e0]; omega
    | ⟨1, _⟩ => show win2_3.index t0 (1 : Fin 3) * 1 ≤ (i 1).val ∧ (i 1).val < win2_3.index t0 (1 : Fin 3) * 1 + 1; rw [e1]; omega
    | ⟨2, _⟩ => show win2_3.index t0 (2 : Fin 3) * 128 ≤ (i 2).val ∧ (i 2).val < win2_3.index t0 (2 : Fin 3) * 128 + 128; rw [e2]; omega

/-! ## The batch sums and the result -/

/-- The batch sum of an array of row totals is the rows' sum onto `0.0`. -/
theorem batchSum_lanes (row : Fin 8 → EReal) (i : S_.Idx) : batchSum (F := Ideal) (lanes row) i = zero + ∑ b : Fin 8, row b := by
  unfold batchSum
  simp only [Host.reduceAdd, Ideal.hostReduceAdd_def]
  rw [Ideal.hostReduceAdd_total reducesTo_S8_S_d0 (fun b => b.elim0) _ _ i, sum_idx1]
  congr 1

/-- The program's result is the loss as the rows' sum, of the arguments read pixel by pixel. -/
theorem result_value
    (hA : ∀ (x0 x1 x2 x3 x4 x5 x6 x7 x8 x9 x10 x11 : Vec Ideal S1x1x512x512 .f32) (y : S1x1x128.Idx),
      out0_12 (F := Ideal) x0 x1 x2 x3 x4 x5 x6 x7 x8 x9 x10 x11 y
        = rowA (bpix x0) (bpix x1) (bpix x2) (bpix x3) (bpix x4) (bpix x5) (bpix x6) (bpix x7) (bpix x8) (bpix x9) (bpix x10) (bpix x11))
    (hB1 : ∀ (x0 x1 : Vec Ideal S1x9x512x512 .f32) (x2 : Vec Ideal S1x1x512x512 .f32) (y : S1x1x128.Idx),
      out1_3 (F := Ideal) x0 x1 x2 y = rowB (bpix9 x0) (bpix9 x1) (bpix x2))
    (hB2 : ∀ (x0 x1 : Vec Ideal S1x9x512x512 .f32) (x2 : Vec Ideal S1x1x512x512 .f32) (y : S1x1x128.Idx),
      out2_3 (F := Ideal) x0 x1 x2 y = rowB (bpix9 x0) (bpix9 x1) (bpix x2))
    (c : Dev nD) :
    W6 m ρ c (Proc.devRef .tc main_v14) = fun _ =>
      lossRows (pix (m ((c : Thread nD τ).loc main_arg0))) (pix (m ((c : Thread nD τ).loc main_arg2)))
        (pix (m ((c : Thread nD τ).loc main_arg3))) (pix (m ((c : Thread nD τ).loc main_arg4)))
        (pix (m ((c : Thread nD τ).loc main_arg5))) (pix (m ((c : Thread nD τ).loc main_arg6)))
        (pix (m ((c : Thread nD τ).loc main_arg7))) (pix (m ((c : Thread nD τ).loc main_arg8)))
        (pix (m ((c : Thread nD τ).loc main_arg9))) (pix (m ((c : Thread nD τ).loc main_arg10)))
        (pix (m ((c : Thread nD τ).loc main_arg11))) (pix (m ((c : Thread nD τ).loc main_arg12)))
        (pix9 (m ((c : Thread nD τ).loc main_arg13))) (pix9 (m ((c : Thread nD τ).loc main_arg14)))
        (pix9 (m ((c : Thread nD τ).loc main_arg15))) (pix9 (m ((c : Thread nD τ).loc main_arg16))) := by
  rw [result_eq m ρ c, final0 m ρ hA c, final1 m ρ hB1 c, final2 m ρ hB2 c]
  funext i
  show batchSum (F := Ideal) (lanes (rowOf0 m c)) i
      + Ideal.div (batchSum (F := Ideal) (lanes (rowOf1 m c)) i + batchSum (F := Ideal) (lanes (rowOf2 m c)) i) nine = _
  rw [batchSum_lanes, batchSum_lanes, batchSum_lanes]
  rfl

end Cert.KernelIdeal.Rows

end
-- ==== Proof.BodyA.lean ====
import proofs.«131438_j61692910239837_2_alg».proof.Proof.Gen.KernelIdeal.Frame
import proofs.«131438_j61692910239837_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The first kernel's output block is the weighted squared-error row

One grid point of the first kernel reads twelve `[1, 1, 512, 512]` blocks — the mask, three heat maps and eight
reconstructions — and stores one number, spread over the 128 lanes of its `[1, 1, 128]` output block. That number is

  `(((m₁ + m₂) + m₃) + m₄) · ¼ + (m₅ + m₆) · ½ + (m₇ + m₈) · ½`

where each `mₖ` is the sum over the 512 × 512 pixels of `l + 1·l·|A − B|`, `l = (P − T)²·R`, for one reconstruction
`P`, its target heat map `T`, the mask `R` and the two heat maps `A, B` whose absolute difference reweights the error:
exactly `Cert.FlowLoss.rowA` of the twelve blocks read as images.

The proof reads the kernel's operations at an index. A shape cast between `[1, 1, 512, 512]` and `[512, 512]` keeps
the row-major position, so it reads `(0, 0, h, w)` at `(h, w)`. The sum over both axes of an image is taken by the
kernel as a reduction of a `[1, 512, 512]` vector over its two trailing axes into one entry; at the ideal values that
is the sum over all indices, which splits into the double sum over the two coordinates. The elementwise operations are
those of the extended reals. No law of arithmetic is used: the kernel's order of operations is the row's.
-/

noncomputable section

open scoped BigOperators

namespace Cert.KernelIdeal.BodyA

open Idealize.ShloMosaic Idealize.ShloMosaic.ValueIdx Cert.FlowLoss Cert.KernelIdeal Cert.KernelIdeal.Gen

/-! ## Reading the layout operations at an index -/

/-- A `[1, 1, 512, 512]` block viewed as a `[512, 512]` image reads `(0, 0, h, w)` at `(h, w)`. -/
theorem cast_block (x : Vec Ideal S1x1x512x512 .f32) (hc : S1x1x512x512.ShapeCasts S512x512) (h w : Fin 512) :
    shapeCast S512x512 x hc (ix2 h w) = x (ix4 0 0 h w) :=
  shapeCast_apply x hc _ _ (by
    rw [Shape.rowMajor_val_four, Shape.rowMajor_val_two]
    show ((0 * 1 + 0) * 512 + h.val) * 512 + w.val = h.val * 512 + w.val
    omega)

/-- One value held by a `[1, 1]` vector, spread over the 128 lanes of the output block, is read at every lane. -/
theorem lanes_apply (v : FVec Ideal S1x1 .f32) (hc : S1x1.ShapeCasts S1x1x1) (hb : S1x1x1.Broadcasts S1x1x128) (y : S1x1x128.Idx) :
    broadcastTo S1x1x128 (shapeCast S1x1x1 v hc) hb y = v (ix2 0 0) := by
  rw [broadcastTo_apply _ hb y (ix3 0 0 0) (fun a => match a with | ⟨0, _⟩ => rfl | ⟨1, _⟩ => rfl | ⟨2, _⟩ => rfl)]
  exact shapeCast_apply v hc _ _ (by rw [Shape.rowMajor_val_two, Shape.rowMajor_val_three]; rfl)

/-- The sum of an `[n, m]` vector over both axes, as the kernel takes it (a unit axis in front, the reduction over the
    two trailing axes into one entry, that entry extracted), is the double sum over the coordinates. -/
theorem sum2_apply {n m : Nat} (v : FVec Ideal ⟨2, ![n, m]⟩ .f32)
    (hc : (⟨2, ![n, m]⟩ : Shape).ShapeCasts ⟨3, ![1, n, m]⟩)
    (hr : (⟨3, ![1, n, m]⟩ : Shape).Reduces [1, 2] S1) (hφ : FKind.Formats .f32)
    (hacc : (0x00000000#32 : BitVec 32) = FKind.add.neutral .f32 hφ)
    (hc' : S1.ShapeCasts S1x1x1) (hp : ∀ a, (![0, 0, 0] : Fin 3 → Nat) a < S1x1x1.size a) :
    extractAt ![0, 0, 0] (shapeCast S1x1x1 (multiReduction (F := Ideal) .add [1, 2] S1 (shapeCast ⟨3, ![1, n, m]⟩ v hc) 0x00000000#32 hr hφ hacc) hc') hp
      = ∑ h : Fin n, ∑ w : Fin m, v (ix2 h w) := by
  unfold extractAt
  rw [shapeCast_apply _ hc' _ (ix1 0) (by rw [Shape.rowMajor_val_one, Shape.rowMajor_val_three]; rfl)]
  rw [Ideal.multiReduction_add_total _ _ hr (fun b => by fin_cases b; rfl) hφ hacc]
  rw [sum_idx3_unit]
  refine Finset.sum_congr rfl fun h _ => Finset.sum_congr rfl fun w _ => ?_
  exact shapeCast_ab_1ab_apply v hc 0 h w

/-- A `[512, 512]` vector as an image. -/
def pix2 (v : FVec Ideal S512x512 .f32) : Pix := fun h w => v (ix2 h w)

theorem pix2_cast (x : Vec Ideal S1x1x512x512 .f32) (hc : S1x1x512x512.ShapeCasts S512x512) :
    pix2 (shapeCast S512x512 x hc) = bpix x :=
  funext fun h => funext fun w => cast_block x hc h w

/-! ## The squared-error terms of the first kernel -/

/-- The reweighted squared error summed over the image, the weight image given directly. -/
def mseW (P T R W : Pix) : EReal := ∑ h : Fin 512, ∑ w : Fin 512, wsq (P h w) (T h w) (R h w) (W h w)

/-- The same sum with the masked squared error `L` and the constant factor `C` given as images. -/
def lsum (L C W : Pix) : EReal := ∑ h : Fin 512, ∑ w : Fin 512, (L h w + C h w * L h w * W h w)

theorem mseB_eq (P T R A B : Pix) : mseB P T R A B = mseW P T R (fun h w => dabs (A h w) (B h w)) := rfl

/-! ## The first kernel's arithmetic, named -/

/-- The kernel's sum of an `[n, m]` vector over both axes. -/
def redS {n m : Nat} (v : FVec Ideal ⟨2, ![n, m]⟩ .f32) (hc : (⟨2, ![n, m]⟩ : Shape).ShapeCasts ⟨3, ![1, n, m]⟩)
    (hr : (⟨3, ![1, n, m]⟩ : Shape).Reduces [1, 2] S1) : EReal :=
  extractAt ![0, 0, 0] (shapeCast S1x1x1 (multiReduction (F := Ideal) .add [1, 2] S1 (shapeCast ⟨3, ![1, n, m]⟩ v hc)
    0x00000000#32 hr (.inl rfl) rfl) shapeCasts_S1_S1x1x1) inpos_S1x1x1_p0_0_0

theorem redS_eq {n m : Nat} (v : FVec Ideal ⟨2, ![n, m]⟩ .f32) (hc : (⟨2, ![n, m]⟩ : Shape).ShapeCasts ⟨3, ![1, n, m]⟩)
    (hr : (⟨3, ![1, n, m]⟩ : Shape).Reduces [1, 2] S1) : redS v hc hr = ∑ h : Fin n, ∑ w : Fin m, v (ix2 h w) :=
  sum2_apply v hc hr _ _ _ _

/-- The pixel term `l + 1·l·w` with `l = (p − t)²·r`, on whole images. -/
def wterm (P T R W : FVec Ideal S512x512 .f32) : FVec Ideal S512x512 .f32 :=
  addf (mulf (mulf (subf P T) (subf P T)) R)
    (mulf (mulf (broadcast S512x512 (Scalar.ofBits .f32 0x3F800000#32)) (mulf (mulf (subf P T) (subf P T)) R)) W)

theorem redS_wterm (P T R W : FVec Ideal S512x512 .f32) (hc : S512x512.ShapeCasts S1x512x512)
    (hr : S1x512x512.Reduces [1, 2] S1) : redS (wterm P T R W) hc hr = mseW (pix2 P) (pix2 T) (pix2 R) (pix2 W) :=
  redS_eq _ hc hr

theorem redS_lsum (L C W : FVec Ideal S512x512 .f32) (hc : S512x512.ShapeCasts S1x512x512)
    (hr : S1x512x512.Reduces [1, 2] S1) : redS (addf L (mulf (mulf C L) W)) hc hr = lsum (pix2 L) (pix2 C) (pix2 W) :=
  redS_eq _ hc hr

/-! ## The first kernel's payloads

Each payload of the first kernel is, by unfolding, a short term over the named pieces above; it is then read by the
lemmas on those pieces. The masks and heat maps arrive as `[512, 512]` views of their blocks (`cast2`). -/

/-- A `[1, 1, 512, 512]` block as a `[512, 512]` vector. -/
def cast2 (x : Vec Ideal S1x1x512x512 .f32) : FVec Ideal S512x512 .f32 :=
  shapeCast S512x512 x shapeCasts_S1x1x512x512_S512x512

theorem pix2_cast2 (x : Vec Ideal S1x1x512x512 .f32) : pix2 (cast2 x) = bpix x := pix2_cast x _

/-- The kernel's sum of a whole image. -/
def sumS (v : FVec Ideal S512x512 .f32) : EReal := redS v shapeCasts_S512x512_S1x512x512 reduces_S1x512x512_S1

theorem sumS_wterm (P T R W : FVec Ideal S512x512 .f32) :
    sumS (wterm P T R W) = mseW (pix2 P) (pix2 T) (pix2 R) (pix2 W) := redS_wterm P T R W _ _

theorem sumS_lsum (L C W : FVec Ideal S512x512 .f32) :
    sumS (addf L (mulf (mulf C L) W)) = lsum (pix2 L) (pix2 C) (pix2 W) := redS_lsum L C W _ _

theorem pix2_absdiff (A B : FVec Ideal S512x512 .f32) :
    pix2 (absf (subf A B)) = fun h w => dabs (pix2 A h w) (pix2 B h w) := rfl

theorem pix2_sqmask (P T R : FVec Ideal S512x512 .f32) :
    pix2 (mulf (mulf (subf P T) (subf P T)) R)
      = fun h w => (pix2 P h w - pix2 T h w) * (pix2 P h w - pix2 T h w) * pix2 R h w := rfl

theorem pix2_one : pix2 (broadcast S512x512 (Scalar.ofBits (F := Ideal) .f32 0x3F800000#32)) = fun _ _ => one := rfl

theorem pay2_eq (v : Vec Ideal S1x1x512x512 .f32) : k0_pay2 v = cast2 v := rfl
theorem pay3_eq (v : Vec Ideal S1x1x512x512 .f32) : k0_pay3 v = cast2 v := rfl
theorem pay4_eq (v : Vec Ideal S1x1x512x512 .f32) : k0_pay4 v = cast2 v := rfl
theorem pay5_eq (v : Vec Ideal S1x1x512x512 .f32) : k0_pay5 v = cast2 v := rfl
theorem pay6_eq (a b : Vec Ideal S1x1x512x512 .f32) : k0_pay6 a b = absf (subf (cast2 a) (cast2 b)) := rfl
theorem pay7_eq (a b : Vec Ideal S1x1x512x512 .f32) : k0_pay7 a b = absf (subf (cast2 a) (cast2 b)) := rfl
theorem pay9_eq (r t p : Vec Ideal S1x1x512x512 .f32) :
    k0_pay9 r t p = mulf (mulf (subf (cast2 p) (cast2 t)) (subf (cast2 p) (cast2 t))) (cast2 r) := rfl
theorem pay10_eq : k0_pay10 (F := Ideal) = broadcast S512x512 (Scalar.ofBits .f32 0x3F800000#32) := rfl

theorem pix2_pay2 (v : Vec Ideal S1x1x512x512 .f32) : pix2 (k0_pay2 v) = bpix v := by rw [pay2_eq, pix2_cast2]
theorem pix2_pay3 (v : Vec Ideal S1x1x512x512 .f32) : pix2 (k0_pay3 v) = bpix v := by rw [pay3_eq, pix2_cast2]
theorem pix2_pay4 (v : Vec Ideal S1x1x512x512 .f32) : pix2 (k0_pay4 v) = bpix v := by rw [pay4_eq, pix2_cast2]
theorem pix2_pay5 (v : Vec Ideal S1x1x512x512 .f32) : pix2 (k0_pay5 v) = bpix v := by rw [pay5_eq, pix2_cast2]
theorem pix2_pay6 (a b : Vec Ideal S1x1x512x512 .f32) :
    pix2 (k0_pay6 a b) = fun h w => dabs (bpix a h w) (bpix b h w) := by
  rw [pay6_eq, pix2_absdiff, pix2_cast2, pix2_cast2]
theorem pix2_pay7 (a b : Vec Ideal S1x1x512x512 .f32) :
    pix2 (k0_pay7 a b) = fun h w => dabs (bpix a h w) (bpix b h w) := by
  rw [pay7_eq, pix2_absdiff, pix2_cast2, pix2_cast2]
theorem pix2_pay9 (r t p : Vec Ideal S1x1x512x512 .f32) :
    pix2 (k0_pay9 r t p) = fun h w => (bpix p h w - bpix t h w) * (bpix p h w - bpix t h w) * bpix r h w := by
  rw [pay9_eq, pix2_sqmask, pix2_cast2, pix2_cast2, pix2_cast2]
theorem pix2_pay10 : pix2 (k0_pay10 (F := Ideal)) = fun _ _ => one := by rw [pay10_eq, pix2_one]

/-- The first squared-error sum: one reconstruction against the middle frame. -/
theorem pay8_eq (v0 v2 v4 v12 : Vec Ideal S1x1x512x512 .f32) :
    k0_pay8 v0 v2 v4 v12 = broadcast S1x1 (sumS (wterm (cast2 v12) (k0_pay4 v4) (k0_pay2 v0) (k0_pay6 v2 v4))) := rfl

theorem pay8_apply (v0 v2 v4 v12 : Vec Ideal S1x1x512x512 .f32) (i : S1x1.Idx) :
    k0_pay8 v0 v2 v4 v12 i = mseW (bpix v12) (pix2 (k0_pay4 v4)) (pix2 (k0_pay2 v0)) (pix2 (k0_pay6 v2 v4)) := by
  rw [pay8_eq, broadcast_apply, sumS_wterm, pix2_cast2]

/-- The four sums against the middle frame, added in order and weighted by a quarter. -/
theorem pay11_eq (v1 v5 v9 v11 : FVec Ideal S512x512 .f32) (v25 : FVec Ideal S1x1 .f32) (v30 v31 : FVec Ideal S512x512 .f32)
    (v41 v56 : Vec Ideal S1x1x512x512 .f32) :
    k0_pay11 v1 v5 v9 v11 v25 v30 v31 v41 v56
      = mulf (addf (addf (addf v25 (broadcast S1x1 (sumS (addf v30 (mulf (mulf v31 v30) v9)))))
            (broadcast S1x1 (sumS (wterm (cast2 v41) v5 v1 v11))))
          (broadcast S1x1 (sumS (wterm (cast2 v56) v5 v1 v11))))
        (broadcast S1x1 (Scalar.ofBits .f32 0x3E800000#32)) := rfl

theorem pay11_apply (v1 v5 v9 v11 : FVec Ideal S512x512 .f32) (v25 : FVec Ideal S1x1 .f32) (v30 v31 : FVec Ideal S512x512 .f32)
    (v41 v56 : Vec Ideal S1x1x512x512 .f32) (i : S1x1.Idx) :
    k0_pay11 v1 v5 v9 v11 v25 v30 v31 v41 v56 i
      = (((v25 i + lsum (pix2 v30) (pix2 v31) (pix2 v9)) + mseW (bpix v41) (pix2 v5) (pix2 v1) (pix2 v11))
          + mseW (bpix v56) (pix2 v5) (pix2 v1) (pix2 v11)) * quarter := by
  rw [pay11_eq]
  show (((v25 i + sumS _) + sumS _) + sumS _) * quarter = _
  rw [sumS_lsum, sumS_wterm, sumS_wterm, pix2_cast2, pix2_cast2]

/-- The two sums against the first frame, weighted by a half. -/
theorem pay12_eq (v1 v3 v9 : FVec Ideal S512x512 .f32) (v73 v87 : Vec Ideal S1x1x512x512 .f32) :
    k0_pay12 v1 v3 v9 v73 v87
      = mulf (addf (broadcast S1x1 (sumS (wterm (cast2 v73) v3 v1 v9))) (broadcast S1x1 (sumS (wterm (cast2 v87) v3 v1 v9))))
        (broadcast S1x1 (Scalar.ofBits .f32 0x3F000000#32)) := rfl

theorem pay12_apply (v1 v3 v9 : FVec Ideal S512x512 .f32) (v73 v87 : Vec Ideal S1x1x512x512 .f32) (i : S1x1.Idx) :
    k0_pay12 v1 v3 v9 v73 v87 i
      = (mseW (bpix v73) (pix2 v3) (pix2 v1) (pix2 v9) + mseW (bpix v87) (pix2 v3) (pix2 v1) (pix2 v9)) * half := by
  rw [pay12_eq]
  show (sumS _ + sumS _) * half = _
  rw [sumS_wterm, sumS_wterm, pix2_cast2, pix2_cast2]

/-- The first of the two sums against the last frame. -/
theorem pay13_eq (v1 v7 v11 : FVec Ideal S512x512 .f32) (v104 : Vec Ideal S1x1x512x512 .f32) :
    k0_pay13 v1 v7 v11 v104 = broadcast S1x1 (sumS (wterm (cast2 v104) v7 v1 v11)) := rfl

theorem pay13_apply (v1 v7 v11 : FVec Ideal S512x512 .f32) (v104 : Vec Ideal S1x1x512x512 .f32) (i : S1x1.Idx) :
    k0_pay13 v1 v7 v11 v104 i = mseW (bpix v104) (pix2 v7) (pix2 v1) (pix2 v11) := by
  rw [pay13_eq, broadcast_apply, sumS_wterm, pix2_cast2]

/-- The stored row: the three weighted groups added, read at any lane. -/
theorem pay1_eq (v1 v7 v11 : FVec Ideal S512x512 .f32) (v72 v103 v117 : FVec Ideal S1x1 .f32) (v118 : Vec Ideal S1x1x512x512 .f32) :
    k0_pay1 v1 v7 v11 v72 v103 v117 v118
      = broadcastTo S1x1x128 (shapeCast S1x1x1
          (addf (addf v72 v103) (mulf (addf v117 (broadcast S1x1 (sumS (wterm (cast2 v118) v7 v1 v11))))
            (broadcast S1x1 (Scalar.ofBits .f32 0x3F000000#32))))
          shapeCasts_S1x1_S1x1x1) broadcasts_S1x1x1_S1x1x128 := rfl

theorem pay1_apply (v1 v7 v11 : FVec Ideal S512x512 .f32) (v72 v103 v117 : FVec Ideal S1x1 .f32) (v118 : Vec Ideal S1x1x512x512 .f32)
    (y : S1x1x128.Idx) :
    k0_pay1 v1 v7 v11 v72 v103 v117 v118 y
      = (v72 (ix2 0 0) + v103 (ix2 0 0)) + (v117 (ix2 0 0) + mseW (bpix v118) (pix2 v7) (pix2 v1) (pix2 v11)) * half := by
  rw [pay1_eq, lanes_apply]
  show (v72 (ix2 0 0) + v103 (ix2 0 0)) + (v117 (ix2 0 0) + sumS _) * half = _
  rw [sumS_wterm, pix2_cast2]

/-! ## The first kernel's output block -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A whole-block load reads the block. -/
theorem ld0 (x : Vec Ideal S1x1x512x512 .f32) : View.ld x r0_0 = x :=
  View.ld_unit_zero (S := S1x1x512x512) hz4 _ x

/-- The second sum against the middle frame, whose masked squared error and unit factor arrive as separate images. -/
theorem lsum_pay (x0 x1 x2 x5 : Vec Ideal S1x1x512x512 .f32) :
    lsum (pix2 (k0_pay9 x0 x2 x5)) (pix2 (k0_pay10 (F := Ideal))) (pix2 (k0_pay6 x1 x2))
      = mseW (bpix x5) (bpix x2) (bpix x0) (fun h w => dabs (bpix x1 h w) (bpix x2 h w)) := by
  rw [pix2_pay9, pix2_pay10, pix2_pay6]
  rfl

/-- Every lane of the first kernel's output block holds the weighted squared-error row of its twelve input blocks. -/
theorem outA_apply (x0 x1 x2 x3 x4 x5 x6 x7 x8 x9 x10 x11 : Vec Ideal S1x1x512x512 .f32) (y : S1x1x128.Idx) :
    Cert.KernelIdeal.Gen.out0_12 (F := Ideal) x0 x1 x2 x3 x4 x5 x6 x7 x8 x9 x10 x11 y
      = Cert.FlowLoss.rowA (bpix x0) (bpix x1) (bpix x2) (bpix x3) (bpix x4) (bpix x5) (bpix x6) (bpix x7) (bpix x8)
          (bpix x9) (bpix x10) (bpix x11) := by
  unfold out0_12
  rw [View.canon_unit_zero hz3]
  rw [ld0 x0, ld0 x1, ld0 x2, ld0 x3, ld0 x4, ld0 x5, ld0 x6, ld0 x7, ld0 x8, ld0 x9, ld0 x10, ld0 x11]
  rw [pay1_apply, pay11_apply, pay12_apply, pay13_apply, pay8_apply, lsum_pay]
  rw [pix2_pay2, pix2_pay3, pix2_pay4, pix2_pay5, pix2_pay6, pix2_pay7]
  simp only [rowA, mseB_eq]

end Cert.KernelIdeal.BodyA

end
-- ==== Proof.BodyB.lean ====
import proofs.«131438_j61692910239837_2_alg».proof.Proof.Gen.KernelIdeal.Frame
import proofs.«131438_j61692910239837_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The second and third kernels' output blocks are the consistency row

One grid point of the second kernel reads a flow block and an inverse-flow block, each `[1, 9, 512, 512]`, and the mask's
`[1, 1, 512, 512]` block, and stores one number, spread over the 128 lanes of its `[1, 1, 128]` output block. That number
is `0.0` with nine sums added in order, one per direction `(dy, dx) ∈ {1, 0, −1}²`: direction `i` pairs channel `i` of the
flow with channel `8 − i` of the inverse flow, each read through a window shifted by one pixel or not along each image
axis, the two shifted opposite ways; both are clipped to `[ε, 1]`, and the pixel term `(clip a − clip b)²·mask` is summed
over the window. That is exactly `Cert.FlowLoss.rowB` of the three blocks. The third kernel is the same body on the other
flow pair.

The proof reads the kernel's operations at an index. A load of one channel of the nine-channel block reads that
channel; a shape cast between `[1, 1, 512, 512]` and `[512, 512]` keeps the row-major position; a window read at
`(h, w)` is the image at `(oy + h, ox + w)`; the sum over both axes of an `[n, m]` vector, taken as a reduction of a
`[1, n, m]` vector over its two trailing axes into one entry, is at the ideal values the double sum over the
coordinates. The kernel clips the middle direction's second operand in two steps shared with nothing else; the two steps
together are the clipping. No law of arithmetic is used: the kernel's order of operations is the row's.
-/

noncomputable section

open scoped BigOperators

namespace Cert.KernelIdeal.BodyB

open Idealize.ShloMosaic Idealize.ShloMosaic.ValueIdx Cert.FlowLoss Cert.KernelIdeal Cert.KernelIdeal.Gen

/-! ## Reading the layout operations at an index -/

/-- A `[1, 1, 512, 512]` block viewed as a `[512, 512]` image reads `(0, 0, h, w)` at `(h, w)`. -/
theorem cast_block (x : Vec Ideal S1x1x512x512 .f32) (hc : S1x1x512x512.ShapeCasts S512x512) (h w : Fin 512) :
    shapeCast S512x512 x hc (ix2 h w) = x (ix4 0 0 h w) :=
  shapeCast_apply x hc _ _ (by
    rw [Shape.rowMajor_val_four, Shape.rowMajor_val_two]
    show ((0 * 1 + 0) * 512 + h.val) * 512 + w.val = h.val * 512 + w.val
    omega)

/-- A window of an image that starts `(oy, ox)` pixels in reads the image at the shifted coordinates. -/
theorem slice2_apply {n m : Nat} (oy ox : Nat) (X : FVec Ideal S512x512 .f32)
    (hs : S512x512.Slices ![oy, ox] ⟨2, ![n, m]⟩) (hy : oy + n ≤ 512) (hx : ox + m ≤ 512) (p : Fin n) (q : Fin m) :
    extractStridedSlice ⟨2, ![n, m]⟩ ![oy, ox] X hs (ix2 p q) = X (ix2 (up oy p hy) (up ox q hx)) :=
  extractStridedSlice_apply _ X hs _ _ fun a => match a with | ⟨0, _⟩ => rfl | ⟨1, _⟩ => rfl

/-- One value held by a `[1, 1]` vector, spread over the 128 lanes of the output block, is read at every lane. -/
theorem lanes_apply (v : FVec Ideal S1x1 .f32) (hc : S1x1.ShapeCasts S1x1x1) (hb : S1x1x1.Broadcasts S1x1x128) (y : S1x1x128.Idx) :
    broadcastTo S1x1x128 (shapeCast S1x1x1 v hc) hb y = v (ix2 0 0) := by
  rw [broadcastTo_apply _ hb y (ix3 0 0 0) (fun a => match a with | ⟨0, _⟩ => rfl | ⟨1, _⟩ => rfl | ⟨2, _⟩ => rfl)]
  exact shapeCast_apply v hc _ _ (by rw [Shape.rowMajor_val_two, Shape.rowMajor_val_three]; rfl)

/-- The sum of an `[n, m]` vector over both axes, as the kernel takes it (a unit axis in front, the reduction over the
    two trailing axes into one entry, that entry extracted), is the double sum over the coordinates. -/
theorem sum2_apply {n m : Nat} (v : FVec Ideal ⟨2, ![n, m]⟩ .f32)
    (hc : (⟨2, ![n, m]⟩ : Shape).ShapeCasts ⟨3, ![1, n, m]⟩)
    (hr : (⟨3, ![1, n, m]⟩ : Shape).Reduces [1, 2] S1) (hφ : FKind.Formats .f32)
    (hacc : (0x00000000#32 : BitVec 32) = FKind.add.neutral .f32 hφ)
    (hc' : S1.ShapeCasts S1x1x1) (hp : ∀ a, (![0, 0, 0] : Fin 3 → Nat) a < S1x1x1.size a) :
    extractAt ![0, 0, 0] (shapeCast S1x1x1 (multiReduction (F := Ideal) .add [1, 2] S1 (shapeCast ⟨3, ![1, n, m]⟩ v hc) 0x00000000#32 hr hφ hacc) hc') hp
      = ∑ h : Fin n, ∑ w : Fin m, v (ix2 h w) := by
  unfold extractAt
  rw [shapeCast_apply _ hc' _ (ix1 0) (by rw [Shape.rowMajor_val_one, Shape.rowMajor_val_three]; rfl)]
  rw [Ideal.multiReduction_add_total _ _ hr (fun b => by fin_cases b; rfl) hφ hacc]
  rw [sum_idx3_unit]
  refine Finset.sum_congr rfl fun h _ => Finset.sum_congr rfl fun w _ => ?_
  exact shapeCast_ab_1ab_apply v hc 0 h w

/-- A `[512, 512]` vector as an image. -/
def pix2 (v : FVec Ideal S512x512 .f32) : Pix := fun h w => v (ix2 h w)

theorem pix2_cast (x : Vec Ideal S1x1x512x512 .f32) (hc : S1x1x512x512.ShapeCasts S512x512) :
    pix2 (shapeCast S512x512 x hc) = bpix x :=
  funext fun h => funext fun w => cast_block x hc h w

/-! ## The kernel's two-axis sum, named -/

/-- The kernel's sum of an `[n, m]` vector over both axes. -/
def redS {n m : Nat} (v : FVec Ideal ⟨2, ![n, m]⟩ .f32) (hc : (⟨2, ![n, m]⟩ : Shape).ShapeCasts ⟨3, ![1, n, m]⟩)
    (hr : (⟨3, ![1, n, m]⟩ : Shape).Reduces [1, 2] S1) : EReal :=
  extractAt ![0, 0, 0] (shapeCast S1x1x1 (multiReduction (F := Ideal) .add [1, 2] S1 (shapeCast ⟨3, ![1, n, m]⟩ v hc)
    0x00000000#32 hr (.inl rfl) rfl) shapeCasts_S1_S1x1x1) inpos_S1x1x1_p0_0_0

theorem redS_eq {n m : Nat} (v : FVec Ideal ⟨2, ![n, m]⟩ .f32) (hc : (⟨2, ![n, m]⟩ : Shape).ShapeCasts ⟨3, ![1, n, m]⟩)
    (hr : (⟨3, ![1, n, m]⟩ : Shape).Reduces [1, 2] S1) : redS v hc hr = ∑ h : Fin n, ∑ w : Fin m, v (ix2 h w) :=
  sum2_apply v hc hr _ _ _ _

/-! ## The consistency terms -/

/-- The squared difference of two clipped images under a mask, summed over an `n × m` window. -/
def consG {n m : Nat} (a b k : Fin n → Fin m → EReal) : EReal := ∑ h : Fin n, ∑ w : Fin m, csq (a h w) (b h w) (k h w)

/-- One direction's consistency sum of three images: `A` and the mask `R` in the window that starts at `(ay, ax)`,
    `B` in the window that starts at `(by', bx)`. -/
def consT (ny nx ay ax by' bx : Nat) (hay : ay + ny ≤ 512) (hax : ax + nx ≤ 512) (hby : by' + ny ≤ 512)
    (hbx : bx + nx ≤ 512) (A B R : Pix) : EReal :=
  ∑ h : Fin ny, ∑ w : Fin nx,
    csq (A (up ay h hay) (up ax w hax)) (B (up by' h hby) (up bx w hbx)) (R (up ay h hay) (up ax w hax))

theorem consB_eq (ny nx ay ax by' bx : Nat) (hay : ay + ny ≤ 512) (hax : ax + nx ≤ 512) (hby : by' + ny ≤ 512)
    (hbx : bx + nx ≤ 512) (ca cb : Fin 9) (Fa Fb : Pix9) (R : Pix) :
    consB ny nx ay ax by' bx hay hax hby hbx ca cb Fa Fb R = consT ny nx ay ax by' bx hay hax hby hbx (Fa ca) (Fb cb) R := rfl

/-- A window that starts at the origin and has the full extent is the image itself. -/
theorem up_zero (k : Fin 512) (h : 0 + 512 ≤ 512) : up 0 k h = k := Fin.ext (Nat.zero_add k.val)

theorem consT_full (A B R : Pix) (h1 h2 h3 h4 : 0 + 512 ≤ 512) :
    consT 512 512 0 0 0 0 h1 h2 h3 h4 A B R = consG A B R := by
  unfold consT consG
  simp only [up_zero]

/-- An `[n, m]` vector as a function of its two coordinates. -/
def pixG {n m : Nat} (v : FVec Ideal ⟨2, ![n, m]⟩ .f32) : Fin n → Fin m → EReal := fun h w => v (ix2 h w)

theorem pixG_slice {n m : Nat} (oy ox : Nat) (X : FVec Ideal S512x512 .f32)
    (hs : S512x512.Slices ![oy, ox] ⟨2, ![n, m]⟩) (hy : oy + n ≤ 512) (hx : ox + m ≤ 512) :
    pixG (extractStridedSlice ⟨2, ![n, m]⟩ ![oy, ox] X hs) = fun h w => pix2 X (up oy h hy) (up ox w hx) :=
  funext fun h => funext fun w => slice2_apply oy ox X hs hy hx h w

/-- Clipping a vector to `[ε, 1]`: first from below, then from above. -/
def clipV {s : Shape} (a : FVec Ideal s .f32) : FVec Ideal s .f32 :=
  minimumf (broadcast s (Scalar.ofBits .f32 0x3F800000#32)) (maximumf (broadcast s (Scalar.ofBits .f32 0x2EDBE6FF#32)) a)

/-- The masked squared difference of two clipped vectors. -/
def cterm {s : Shape} (a b k : FVec Ideal s .f32) : FVec Ideal s .f32 :=
  mulf (mulf (subf (clipV a) (clipV b)) (subf (clipV a) (clipV b))) k

theorem redS_cterm {n m : Nat} (a b k : FVec Ideal ⟨2, ![n, m]⟩ .f32)
    (hc : (⟨2, ![n, m]⟩ : Shape).ShapeCasts ⟨3, ![1, n, m]⟩) (hr : (⟨3, ![1, n, m]⟩ : Shape).Reduces [1, 2] S1) :
    redS (cterm a b k) hc hr = consG (pixG a) (pixG b) (pixG k) := redS_eq _ hc hr

/-- The kernel's sum of one direction's term, all three operands windows of whole images. -/
theorem redS_cterm_slices {n m : Nat} (ay ax by' bx : Nat) (A B R : FVec Ideal S512x512 .f32)
    (hsA : S512x512.Slices ![ay, ax] ⟨2, ![n, m]⟩) (hsB : S512x512.Slices ![by', bx] ⟨2, ![n, m]⟩)
    (hsR : S512x512.Slices ![ay, ax] ⟨2, ![n, m]⟩)
    (hay : ay + n ≤ 512) (hax : ax + m ≤ 512) (hby : by' + n ≤ 512) (hbx : bx + m ≤ 512)
    (hc : (⟨2, ![n, m]⟩ : Shape).ShapeCasts ⟨3, ![1, n, m]⟩) (hr : (⟨3, ![1, n, m]⟩ : Shape).Reduces [1, 2] S1) :
    redS (cterm (extractStridedSlice ⟨2, ![n, m]⟩ ![ay, ax] A hsA) (extractStridedSlice ⟨2, ![n, m]⟩ ![by', bx] B hsB)
        (extractStridedSlice ⟨2, ![n, m]⟩ ![ay, ax] R hsR)) hc hr
      = consT n m ay ax by' bx hay hax hby hbx (pix2 A) (pix2 B) (pix2 R) := by
  rw [redS_cterm, pixG_slice ay ax A hsA hay hax, pixG_slice by' bx B hsB hby hbx, pixG_slice ay ax R hsR hay hax]
  rfl

/-- The middle direction's sum, its operands clipped before they meet: the first fully, the second from below only. -/
def csum4 (a c e k : Pix) : EReal :=
  ∑ h : Fin 512, ∑ w : Fin 512, (a h w - min (c h w) (e h w)) * (a h w - min (c h w) (e h w)) * k h w

theorem redS_c4 (a c e k : FVec Ideal S512x512 .f32) (hc : S512x512.ShapeCasts S1x512x512)
    (hr : S1x512x512.Reduces [1, 2] S1) :
    redS (mulf (mulf (subf a (minimumf c e)) (subf a (minimumf c e))) k) hc hr
      = csum4 (pix2 a) (pix2 c) (pix2 e) (pix2 k) := redS_eq _ hc hr

/-! ## The second kernel's payloads

Each payload is, by unfolding, a short term over the named pieces above. The nine directions run through
`(dy, dx) ∈ {1, 0, −1}²`; a shift by `+1` starts the flow's and the mask's window one pixel in, a shift by `−1` starts
the inverse flow's window one pixel in. -/

/-- A `[1, 1, 512, 512]` block as a `[512, 512]` vector. -/
def cast2 (x : Vec Ideal S1x1x512x512 .f32) : FVec Ideal S512x512 .f32 :=
  shapeCast S512x512 x shapeCasts_S1x1x512x512_S512x512

theorem pix2_cast2 (x : Vec Ideal S1x1x512x512 .f32) : pix2 (cast2 x) = bpix x := pix2_cast x _

theorem pay2_eq (v : Vec Ideal S1x1x512x512 .f32) : k1_pay2 v = cast2 v := rfl
theorem pix2_pay2 (v : Vec Ideal S1x1x512x512 .f32) : pix2 (k1_pay2 v) = bpix v := by rw [pay2_eq, pix2_cast2]

/-- Direction 0, `(1, 1)`, added onto `0.0`. -/
theorem pay3_eq (v0 v2 v5 : Vec Ideal S1x1x512x512 .f32) :
    k1_pay3 v0 v2 v5 = addf (broadcast S1x1 (Scalar.ofBits .f32 0x00000000#32))
      (broadcast S1x1 (redS (cterm (extractStridedSlice S511x511 ![1, 1] (cast2 v2) slices_S512x512_o1_1_S511x511)
        (extractStridedSlice S511x511 ![0, 0] (cast2 v5) slices_S512x512_o0_0_S511x511)
        (extractStridedSlice S511x511 ![1, 1] (k1_pay2 v0) slices_S512x512_o1_1_S511x511))
        shapeCasts_S511x511_S1x511x511 reduces_S1x511x511_S1)) := rfl

theorem pay3_apply (v0 v2 v5 : Vec Ideal S1x1x512x512 .f32) (i : S1x1.Idx) :
    k1_pay3 v0 v2 v5 i
      = zero + consT 511 511 1 1 0 0 (by omega) (by omega) (by omega) (by omega) (bpix v2) (bpix v5) (bpix v0) := by
  rw [pay3_eq]
  show zero + redS _ _ _ = _
  rw [redS_cterm_slices 1 1 0 0 _ _ _ _ _ _ (by omega) (by omega) (by omega) (by omega), pix2_cast2, pix2_cast2, pix2_pay2]

theorem pay4_eq (v : Vec Ideal S1x1x512x512 .f32) :
    k1_pay4 v = extractStridedSlice S511x512 ![1, 0] (cast2 v) slices_S512x512_o1_0_S511x512 := rfl
theorem pay5_eq (v : Vec Ideal S1x1x512x512 .f32) :
    k1_pay5 v = extractStridedSlice S511x512 ![0, 0] (cast2 v) slices_S512x512_o0_0_S511x512 := rfl
theorem pay12_eq (v : Vec Ideal S1x1x512x512 .f32) :
    k1_pay12 v = extractStridedSlice S511x511 ![0, 1] (cast2 v) slices_S512x512_o0_1_S511x511 := rfl

theorem pixG_pay4 (v : Vec Ideal S1x1x512x512 .f32) :
    pixG (k1_pay4 v) = fun h w => bpix v (up 1 h (by omega)) (up 0 w (by omega)) := by
  rw [pay4_eq, pixG_slice 1 0 _ _ (by omega) (by omega), pix2_cast2]
theorem pixG_pay5 (v : Vec Ideal S1x1x512x512 .f32) :
    pixG (k1_pay5 v) = fun h w => bpix v (up 0 h (by omega)) (up 0 w (by omega)) := by
  rw [pay5_eq, pixG_slice 0 0 _ _ (by omega) (by omega), pix2_cast2]
theorem pixG_pay12 (v : Vec Ideal S1x1x512x512 .f32) :
    pixG (k1_pay12 v) = fun h w => bpix v (up 0 h (by omega)) (up 1 w (by omega)) := by
  rw [pay12_eq, pixG_slice 0 1 _ _ (by omega) (by omega), pix2_cast2]

/-- Directions 1, `(1, 0)`, whose two flow windows arrive cut, and 2, `(1, −1)`. -/
theorem pay6_eq (v1 : FVec Ideal S512x512 .f32) (v26 : FVec Ideal S1x1 .f32) (v29 v32 : FVec Ideal S511x512 .f32)
    (v51 v54 : Vec Ideal S1x1x512x512 .f32) :
    k1_pay6 v1 v26 v29 v32 v51 v54
      = addf (addf v26 (broadcast S1x1 (redS (cterm v29 v32
            (extractStridedSlice S511x512 ![1, 0] v1 slices_S512x512_o1_0_S511x512))
            shapeCasts_S511x512_S1x511x512 reduces_S1x511x512_S1)))
          (broadcast S1x1 (redS (cterm (extractStridedSlice S511x511 ![1, 0] (cast2 v51) slices_S512x512_o1_0_S511x511)
            (extractStridedSlice S511x511 ![0, 1] (cast2 v54) slices_S512x512_o0_1_S511x511)
            (extractStridedSlice S511x511 ![1, 0] v1 slices_S512x512_o1_0_S511x511))
            shapeCasts_S511x511_S1x511x511 reduces_S1x511x511_S1)) := rfl

theorem pay6_apply (v1 : FVec Ideal S512x512 .f32) (v26 : FVec Ideal S1x1 .f32) (v29 v32 : FVec Ideal S511x512 .f32)
    (v51 v54 : Vec Ideal S1x1x512x512 .f32) (i : S1x1.Idx) :
    k1_pay6 v1 v26 v29 v32 v51 v54 i
      = (v26 i + consG (pixG v29) (pixG v32) (fun h w => pix2 v1 (up 1 h (by omega)) (up 0 w (by omega))))
        + consT 511 511 1 0 0 1 (by omega) (by omega) (by omega) (by omega) (bpix v51) (bpix v54) (pix2 v1) := by
  rw [pay6_eq]
  show (v26 i + redS _ _ _) + redS _ _ _ = _
  rw [redS_cterm_slices 1 0 0 1 _ _ _ _ _ _ (by omega) (by omega) (by omega) (by omega), pix2_cast2, pix2_cast2,
    redS_cterm, pixG_slice 1 0 v1 _ (by omega) (by omega)]

/-- Direction 3, `(0, 1)`. -/
theorem pay7_eq (v1 : FVec Ideal S512x512 .f32) (v74 : FVec Ideal S1x1 .f32) (v75 v78 : Vec Ideal S1x1x512x512 .f32) :
    k1_pay7 v1 v74 v75 v78
      = addf v74 (broadcast S1x1 (redS (cterm (extractStridedSlice S512x511 ![0, 1] (cast2 v75) slices_S512x512_o0_1_S512x511)
          (extractStridedSlice S512x511 ![0, 0] (cast2 v78) slices_S512x512_o0_0_S512x511)
          (extractStridedSlice S512x511 ![0, 1] v1 slices_S512x512_o0_1_S512x511))
          shapeCasts_S512x511_S1x512x511 reduces_S1x512x511_S1)) := rfl

theorem pay7_apply (v1 : FVec Ideal S512x512 .f32) (v74 : FVec Ideal S1x1 .f32) (v75 v78 : Vec Ideal S1x1x512x512 .f32)
    (i : S1x1.Idx) :
    k1_pay7 v1 v74 v75 v78 i
      = v74 i + consT 512 511 0 1 0 0 (by omega) (by omega) (by omega) (by omega) (bpix v75) (bpix v78) (pix2 v1) := by
  rw [pay7_eq]
  show v74 i + redS _ _ _ = _
  rw [redS_cterm_slices 0 1 0 0 _ _ _ _ _ _ (by omega) (by omega) (by omega) (by omega), pix2_cast2, pix2_cast2]

/-- The middle direction's operands: the flow clipped, the inverse flow clipped from below, and the upper bound. -/
theorem pay8_eq (v : Vec Ideal S1x1x512x512 .f32) : k1_pay8 v = clipV (cast2 v) := rfl
theorem pay9_eq (v : Vec Ideal S1x1x512x512 .f32) :
    k1_pay9 v = maximumf (broadcast S512x512 (Scalar.ofBits .f32 0x2EDBE6FF#32)) (cast2 v) := rfl
theorem pay10_eq : k1_pay10 (F := Ideal) = broadcast S512x512 (Scalar.ofBits .f32 0x3F800000#32) := rfl

theorem pix2_clipV (a : FVec Ideal S512x512 .f32) : pix2 (clipV a) = fun h w => clip (pix2 a h w) := rfl
theorem pix2_maxeps (a : FVec Ideal S512x512 .f32) :
    pix2 (maximumf (broadcast S512x512 (Scalar.ofBits .f32 0x2EDBE6FF#32)) a) = fun h w => max eps (pix2 a h w) := rfl
theorem pix2_one : pix2 (broadcast S512x512 (Scalar.ofBits (F := Ideal) .f32 0x3F800000#32)) = fun _ _ => one := rfl

theorem pix2_pay8 (v : Vec Ideal S1x1x512x512 .f32) : pix2 (k1_pay8 v) = fun h w => clip (bpix v h w) := by
  rw [pay8_eq, pix2_clipV, pix2_cast2]
theorem pix2_pay9 (v : Vec Ideal S1x1x512x512 .f32) : pix2 (k1_pay9 v) = fun h w => max eps (bpix v h w) := by
  rw [pay9_eq, pix2_maxeps, pix2_cast2]
theorem pix2_pay10 : pix2 (k1_pay10 (F := Ideal)) = fun _ _ => one := by rw [pay10_eq, pix2_one]

/-- Directions 4, `(0, 0)`, on the whole image, and 5, `(0, −1)`. -/
theorem pay11_eq (v1 : FVec Ideal S512x512 .f32) (v98 : FVec Ideal S1x1 .f32) (v106 v108 v109 : FVec Ideal S512x512 .f32)
    (v120 v123 : Vec Ideal S1x1x512x512 .f32) :
    k1_pay11 v1 v98 v106 v108 v109 v120 v123
      = addf (addf v98 (broadcast S1x1 (redS (mulf (mulf (subf v106 (minimumf v109 v108)) (subf v106 (minimumf v109 v108))) v1)
            shapeCasts_S512x512_S1x512x512 reduces_S1x512x512_S1)))
          (broadcast S1x1 (redS (cterm (extractStridedSlice S512x511 ![0, 0] (cast2 v120) slices_S512x512_o0_0_S512x511)
            (extractStridedSlice S512x511 ![0, 1] (cast2 v123) slices_S512x512_o0_1_S512x511)
            (extractStridedSlice S512x511 ![0, 0] v1 slices_S512x512_o0_0_S512x511))
            shapeCasts_S512x511_S1x512x511 reduces_S1x512x511_S1)) := rfl

theorem pay11_apply (v1 : FVec Ideal S512x512 .f32) (v98 : FVec Ideal S1x1 .f32) (v106 v108 v109 : FVec Ideal S512x512 .f32)
    (v120 v123 : Vec Ideal S1x1x512x512 .f32) (i : S1x1.Idx) :
    k1_pay11 v1 v98 v106 v108 v109 v120 v123 i
      = (v98 i + csum4 (pix2 v106) (pix2 v109) (pix2 v108) (pix2 v1))
        + consT 512 511 0 0 0 1 (by omega) (by omega) (by omega) (by omega) (bpix v120) (bpix v123) (pix2 v1) := by
  rw [pay11_eq]
  show (v98 i + redS _ _ _) + redS _ _ _ = _
  rw [redS_cterm_slices 0 0 0 1 _ _ _ _ _ _ (by omega) (by omega) (by omega) (by omega), pix2_cast2, pix2_cast2, redS_c4]

/-- Direction 6, `(−1, 1)`, whose flow window arrives cut. -/
theorem pay13_eq (v1 : FVec Ideal S512x512 .f32) (v143 : FVec Ideal S1x1 .f32) (v146 : FVec Ideal S511x511 .f32)
    (v147 : Vec Ideal S1x1x512x512 .f32) :
    k1_pay13 v1 v143 v146 v147
      = addf v143 (broadcast S1x1 (redS (cterm v146
          (extractStridedSlice S511x511 ![1, 0] (cast2 v147) slices_S512x512_o1_0_S511x511)
          (extractStridedSlice S511x511 ![0, 1] v1 slices_S512x512_o0_1_S511x511))
          shapeCasts_S511x511_S1x511x511 reduces_S1x511x511_S1)) := rfl

theorem pay13_apply (v1 : FVec Ideal S512x512 .f32) (v143 : FVec Ideal S1x1 .f32) (v146 : FVec Ideal S511x511 .f32)
    (v147 : Vec Ideal S1x1x512x512 .f32) (i : S1x1.Idx) :
    k1_pay13 v1 v143 v146 v147 i
      = v143 i + consG (pixG v146) (fun h w => bpix v147 (up 1 h (by omega)) (up 0 w (by omega)))
          (fun h w => pix2 v1 (up 0 h (by omega)) (up 1 w (by omega))) := by
  rw [pay13_eq]
  show v143 i + redS _ _ _ = _
  rw [redS_cterm, pixG_slice 1 0 _ _ (by omega) (by omega), pixG_slice 0 1 v1 _ (by omega) (by omega), pix2_cast2]

/-- Direction 7, `(−1, 0)`. -/
theorem pay14_eq (v1 : FVec Ideal S512x512 .f32) (v168 v171 : Vec Ideal S1x1x512x512 .f32) :
    k1_pay14 v1 v168 v171
      = redS (cterm (extractStridedSlice S511x512 ![0, 0] (cast2 v168) slices_S512x512_o0_0_S511x512)
          (extractStridedSlice S511x512 ![1, 0] (cast2 v171) slices_S512x512_o1_0_S511x512)
          (extractStridedSlice S511x512 ![0, 0] v1 slices_S512x512_o0_0_S511x512))
          shapeCasts_S511x512_S1x511x512 reduces_S1x511x512_S1 := rfl

theorem pay14_apply (v1 : FVec Ideal S512x512 .f32) (v168 v171 : Vec Ideal S1x1x512x512 .f32) :
    k1_pay14 v1 v168 v171
      = consT 511 512 0 0 1 0 (by omega) (by omega) (by omega) (by omega) (bpix v168) (bpix v171) (pix2 v1) := by
  rw [pay14_eq, redS_cterm_slices 0 0 1 0 _ _ _ _ _ _ (by omega) (by omega) (by omega) (by omega), pix2_cast2, pix2_cast2]

/-- The stored row: direction 7 and direction 8, `(−1, −1)`, added on, read at any lane. -/
theorem pay1_eq (v1 : FVec Ideal S512x512 .f32) (v167 : FVec Ideal S1x1 .f32) (v189 : Ideal .f32)
    (v192 v195 : Vec Ideal S1x1x512x512 .f32) :
    k1_pay1 v1 v167 v189 v192 v195
      = broadcastTo S1x1x128 (shapeCast S1x1x1
          (addf (addf v167 (broadcast S1x1 v189))
            (broadcast S1x1 (redS (cterm (extractStridedSlice S511x511 ![0, 0] (cast2 v192) slices_S512x512_o0_0_S511x511)
              (extractStridedSlice S511x511 ![1, 1] (cast2 v195) slices_S512x512_o1_1_S511x511)
              (extractStridedSlice S511x511 ![0, 0] v1 slices_S512x512_o0_0_S511x511))
              shapeCasts_S511x511_S1x511x511 reduces_S1x511x511_S1)))
          shapeCasts_S1x1_S1x1x1) broadcasts_S1x1x1_S1x1x128 := rfl

theorem pay1_apply (v1 : FVec Ideal S512x512 .f32) (v167 : FVec Ideal S1x1 .f32) (v189 : Ideal .f32)
    (v192 v195 : Vec Ideal S1x1x512x512 .f32) (y : S1x1x128.Idx) :
    k1_pay1 v1 v167 v189 v192 v195 y
      = (v167 (ix2 0 0) + v189)
        + consT 511 511 0 0 1 1 (by omega) (by omega) (by omega) (by omega) (bpix v192) (bpix v195) (pix2 v1) := by
  rw [pay1_eq, lanes_apply]
  show (v167 (ix2 0 0) + v189) + redS _ _ _ = _
  rw [redS_cterm_slices 0 0 1 1 _ _ _ _ _ _ (by omega) (by omega) (by omega) (by omega), pix2_cast2, pix2_cast2]

/-! ## The second kernel's output block -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The mask's whole-block load reads the block. -/
theorem ld0 (x : Vec Ideal S1x1x512x512 .f32) : View.ld x r1_0 = x :=
  View.ld_unit_zero (S := S1x1x512x512) hz4 _ x

/-- A load of channel `c` of a nine-channel block reads, at `(0, 0, h, w)`, the block at `(0, c, h, w)`. -/
theorem ld_chan (x : Vec Ideal S1x9x512x512 .f32) (c : Nat) (hc : c < 9)
    (inb : ∀ a, (![0, c, 0, 0] : Fin 4 → Nat) a + S1x1x512x512.size a ≤ S1x9x512x512.size a) (h w : Fin 512) :
    View.ld x (Rect.unit (s := S1x9x512x512) ![0, c, 0, 0] S1x1x512x512.size inb) (ix4 0 0 h w) = x (ix4 0 ⟨c, hc⟩ h w) := by
  show x _ = x _
  refine congrArg x (funext fun a => Fin.ext ?_)
  match a with
  | ⟨0, _⟩ => rfl
  | ⟨1, _⟩ => show c + 1 * 0 = c; omega
  | ⟨2, _⟩ => show 0 + 1 * h.val = h.val; omega
  | ⟨3, _⟩ => show 0 + 1 * w.val = w.val; omega

theorem bpix_ld (x : Vec Ideal S1x9x512x512 .f32) (c : Nat) (hc : c < 9)
    (inb : ∀ a, (![0, c, 0, 0] : Fin 4 → Nat) a + S1x1x512x512.size a ≤ S1x9x512x512.size a) :
    bpix (View.ld x (Rect.unit (s := S1x9x512x512) ![0, c, 0, 0] S1x1x512x512.size inb)) = bpix9 x ⟨c, hc⟩ :=
  funext fun h => funext fun w => ld_chan x c hc inb h w

theorem bpix_ld0 (x : Vec Ideal S1x9x512x512 .f32) : bpix (View.ld x r1_1) = bpix9 x 0 := bpix_ld x 0 (by decide) _
theorem bpix_ld8 (x : Vec Ideal S1x9x512x512 .f32) : bpix (View.ld x r1_2) = bpix9 x 8 := bpix_ld x 8 (by decide) _
theorem bpix_ld1 (x : Vec Ideal S1x9x512x512 .f32) : bpix (View.ld x r1_3) = bpix9 x 1 := bpix_ld x 1 (by decide) _
theorem bpix_ld7 (x : Vec Ideal S1x9x512x512 .f32) : bpix (View.ld x r1_4) = bpix9 x 7 := bpix_ld x 7 (by decide) _
theorem bpix_ld2 (x : Vec Ideal S1x9x512x512 .f32) : bpix (View.ld x r1_5) = bpix9 x 2 := bpix_ld x 2 (by decide) _
theorem bpix_ld6 (x : Vec Ideal S1x9x512x512 .f32) : bpix (View.ld x r1_6) = bpix9 x 6 := bpix_ld x 6 (by decide) _
theorem bpix_ld3 (x : Vec Ideal S1x9x512x512 .f32) : bpix (View.ld x r1_7) = bpix9 x 3 := bpix_ld x 3 (by decide) _
theorem bpix_ld5 (x : Vec Ideal S1x9x512x512 .f32) : bpix (View.ld x r1_8) = bpix9 x 5 := bpix_ld x 5 (by decide) _
theorem bpix_ld4 (x : Vec Ideal S1x9x512x512 .f32) : bpix (View.ld x r1_9) = bpix9 x 4 := bpix_ld x 4 (by decide) _

/-- Direction 1 from its cut windows. -/
theorem cons1_pay (x2 a b : Vec Ideal S1x1x512x512 .f32) :
    consG (pixG (k1_pay4 a)) (pixG (k1_pay5 b)) (fun h w => pix2 (k1_pay2 x2) (up 1 h (by omega)) (up 0 w (by omega)))
      = consT 511 512 1 0 0 0 (by omega) (by omega) (by omega) (by omega) (bpix a) (bpix b) (bpix x2) := by
  rw [pixG_pay4, pixG_pay5, pix2_pay2]
  rfl

/-- Direction 4 from its clipped operands: clipping the second from below and then bounding it by one is clipping it. -/
theorem cons4_pay (x2 a b : Vec Ideal S1x1x512x512 .f32) :
    csum4 (pix2 (k1_pay8 a)) (pix2 (k1_pay10 (F := Ideal))) (pix2 (k1_pay9 b)) (pix2 (k1_pay2 x2))
      = consT 512 512 0 0 0 0 (by omega) (by omega) (by omega) (by omega) (bpix a) (bpix b) (bpix x2) := by
  rw [pix2_pay8, pix2_pay10, pix2_pay9, pix2_pay2, consT_full]
  rfl

/-- Direction 6 from its cut flow window. -/
theorem cons6_pay (x2 a b : Vec Ideal S1x1x512x512 .f32) :
    consG (pixG (k1_pay12 a)) (fun h w => bpix b (up 1 h (by omega)) (up 0 w (by omega)))
        (fun h w => pix2 (k1_pay2 x2) (up 0 h (by omega)) (up 1 w (by omega)))
      = consT 511 511 0 1 1 0 (by omega) (by omega) (by omega) (by omega) (bpix a) (bpix b) (bpix x2) := by
  rw [pixG_pay12, pix2_pay2]
  rfl

/-- Every lane of the second kernel's output block holds the consistency row of its two flow blocks and the mask. -/
theorem outB1_apply (x0 x1 : Vec Ideal S1x9x512x512 .f32) (x2 : Vec Ideal S1x1x512x512 .f32) (y : S1x1x128.Idx) :
    Cert.KernelIdeal.Gen.out1_3 (F := Ideal) x0 x1 x2 y = Cert.FlowLoss.rowB (bpix9 x0) (bpix9 x1) (bpix x2) := by
  unfold out1_3
  rw [View.canon_unit_zero hz3]
  rw [ld0 x2]
  rw [pay1_apply, pay13_apply, pay11_apply, pay7_apply, pay6_apply, pay3_apply, pay14_apply]
  rw [cons1_pay, cons4_pay, cons6_pay, pix2_pay2]
  rw [bpix_ld0 x0, bpix_ld1 x0, bpix_ld2 x0, bpix_ld3 x0, bpix_ld4 x0, bpix_ld5 x0, bpix_ld6 x0, bpix_ld7 x0, bpix_ld8 x0]
  rw [bpix_ld0 x1, bpix_ld1 x1, bpix_ld2 x1, bpix_ld3 x1, bpix_ld4 x1, bpix_ld5 x1, bpix_ld6 x1, bpix_ld7 x1, bpix_ld8 x1]
  simp only [rowB, cons0, cons1, cons2, cons3, cons4, cons5, cons6, cons7, cons8, consB_eq]

/-! ## The third kernel is the second, on the other flow pair

Its payloads are the same terms under other names, so its output block is the same function of its three blocks. -/

theorem pay1_two : k2_pay1 (F := Ideal) = k1_pay1 (F := Ideal) := rfl
theorem pay2_two : k2_pay2 (F := Ideal) = k1_pay2 (F := Ideal) := rfl
theorem pay3_two : k2_pay3 (F := Ideal) = k1_pay3 (F := Ideal) := rfl
theorem pay4_two : k2_pay4 (F := Ideal) = k1_pay4 (F := Ideal) := rfl
theorem pay5_two : k2_pay5 (F := Ideal) = k1_pay5 (F := Ideal) := rfl
theorem pay6_two : k2_pay6 (F := Ideal) = k1_pay6 (F := Ideal) := rfl
theorem pay7_two : k2_pay7 (F := Ideal) = k1_pay7 (F := Ideal) := rfl
theorem pay8_two : k2_pay8 (F := Ideal) = k1_pay8 (F := Ideal) := rfl
theorem pay9_two : k2_pay9 (F := Ideal) = k1_pay9 (F := Ideal) := rfl
theorem pay10_two : k2_pay10 (F := Ideal) = k1_pay10 (F := Ideal) := rfl
theorem pay11_two : k2_pay11 (F := Ideal) = k1_pay11 (F := Ideal) := rfl
theorem pay12_two : k2_pay12 (F := Ideal) = k1_pay12 (F := Ideal) := rfl
theorem pay13_two : k2_pay13 (F := Ideal) = k1_pay13 (F := Ideal) := rfl
theorem pay14_two : k2_pay14 (F := Ideal) = k1_pay14 (F := Ideal) := rfl

theorem out2_eq (x0 x1 : Vec Ideal S1x9x512x512 .f32) (x2 : Vec Ideal S1x1x512x512 .f32) :
    Cert.KernelIdeal.Gen.out2_3 (F := Ideal) x0 x1 x2 = Cert.KernelIdeal.Gen.out1_3 (F := Ideal) x0 x1 x2 := by
  unfold out2_3 out1_3
  rw [pay1_two, pay2_two, pay3_two, pay4_two, pay5_two, pay6_two, pay7_two, pay8_two, pay9_two, pay10_two, pay11_two,
    pay12_two, pay13_two, pay14_two]

/-- Every lane of the third kernel's output block holds the consistency row of its two flow blocks and the mask. -/
theorem outB2_apply (x0 x1 : Vec Ideal S1x9x512x512 .f32) (x2 : Vec Ideal S1x1x512x512 .f32) (y : S1x1x128.Idx) :
    Cert.KernelIdeal.Gen.out2_3 (F := Ideal) x0 x1 x2 y = Cert.FlowLoss.rowB (bpix9 x0) (bpix9 x1) (bpix x2) := by
  rw [out2_eq]
  exact outB1_apply x0 x1 x2 y

end Cert.KernelIdeal.BodyB

end
-- ==== Proof.RefTerm.lean ====
import proofs.«131438_j61692910239837_2_alg».proof.Proof.RefRead
import proofs.«131438_j61692910239837_2_alg».proof.Proof.Spec

/-!
# The reference program's result is the loss, term by term

The reference program computes one number from thirteen image stacks and four nine-channel flow stacks in 605
operations.  Twenty-six of them are sums over a whole array onto `0.0`; everything before a sum is pointwise
arithmetic, or a window cut out of a stack, and everything after the sums is a handful of additions and four
divisions of numbers.

* Eight sums are squared-error terms: over every pixel of the stack, `l + 1·l·|A − B|` with `l = (P − T)²·R`.
  Read pixel by pixel this is `wsq`, so the sum is `mseAll` (`mse_term`).
* Eighteen sums are consistency directions: one channel of a flow in a window shifted by at most one pixel along
  each image axis, the partner's channel in the window shifted the opposite way, and the mask in the first window,
  each flattened to rank three; both flow windows are clipped to `[ε, 1]`, subtracted, squared, masked and
  summed.  A window read at `(b, h, w)` is the stack read at `(b, channel, oy + h, ox + w)` (`win_read`): flattening
  `[8, 1, ny, nx]` to `[8, ny, nx]` keeps the row-major position, and the cut adds its offsets.  So the sum is the
  batch total of `consB` with the window's offsets (`cons_term`).  The middle direction has no shift at all and the
  program flattens the mask without cutting it (`cons_mid`).

The rest is the order in which the program adds: the first four squared-error totals and a division by `4.0`, two
pairs and divisions by `2.0`, the nine directions of each flow pair onto `0.0`, the two flow totals and a division
by `9.0`.  That is `lossWhole` as written.  Nothing here uses a law of arithmetic beyond unfolding: both sides are
the same expression in the same order.
-/

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open Cert.FlowLoss (pix pix9 up wsq dabs clip csq mseB mseAll consB consAll lossWhole cons0 cons1 cons2 cons3 cons4 cons5
  cons6 cons7 cons8 sum_idx3 sum_idx4_unit)

/-- The scalar shape, an image stack, a flow stack and a flattened window, and their contents as functions to the
    extended reals. -/
abbrev Sc : Shape := ⟨0, ![]⟩
abbrev Img4 : Shape := ⟨4, ![8, 1, 512, 512]⟩
abbrev Flow4 : Shape := ⟨4, ![8, 9, 512, 512]⟩
abbrev Win4 (ny nx : Nat) : Shape := ⟨4, ![8, 1, ny, nx]⟩
abbrev Win3 (ny nx : Nat) : Shape := ⟨3, ![8, ny, nx]⟩
abbrev Img : Type := (⟨S8x1x512x512, .f32⟩ : BufTy).Contents (Elt Ideal)
abbrev Flow : Type := (⟨S8x9x512x512, .f32⟩ : BufTy).Contents (Elt Ideal)

/-! ## A window read at a pixel -/

/-- A channel's window, cut out of a stack and flattened to rank three, read at a pixel of the window: the stack
    at that channel and at the pixel moved by the window's offsets. -/
theorem win_read {C ny nx : Nat} (X : (⟨4, ![8, C, 512, 512]⟩ : Shape).Idx → EReal) (c oy ox : Nat) (hc : c < C)
    (hy : oy + ny ≤ 512) (hx : ox + nx ≤ 512)
    (hs : (⟨4, ![8, C, 512, 512]⟩ : Shape).Slices ![0, c, oy, ox] (Win4 ny nx))
    (hr : (Win4 ny nx).ShapeCasts (Win3 ny nx)) (b : Fin 8) (h : Fin ny) (w : Fin nx) :
    shapeCast (Win3 ny nx) (extractStridedSlice (Win4 ny nx) ![0, c, oy, ox] X hs) hr (ix3 b h w)
      = X (ix4 b ⟨c, hc⟩ (up oy h hy) (up ox w hx)) := by
  refine (shapeCast_apply _ hr (ix3 b h w) (ix4 b 0 h w) ?_).trans ?_
  · rw [Shape.rowMajor_val_four, Shape.rowMajor_val_three]
    show ((b.val * 1 + 0) * ny + h.val) * nx + w.val = (b.val * ny + h.val) * nx + w.val
    rw [Nat.mul_one, Nat.add_zero]
  · refine extractStridedSlice_apply _ X hs (ix4 b 0 h w) _ fun a => ?_
    match a with
    | ⟨0, _⟩ => show b.val = 0 + b.val; omega
    | ⟨1, _⟩ => show c = c + 0; omega
    | ⟨2, _⟩ => show oy + h.val = oy + h.val; rfl
    | ⟨3, _⟩ => show ox + w.val = ox + w.val; rfl

/-- A whole image stack flattened to rank three, read at a pixel: the stack at that pixel, written as the pixel of
    the window that starts at `(0, 0)`. -/
theorem whole_read (X : Img4.Idx → EReal) (hr : Img4.ShapeCasts (Win3 512 512)) (hy : 0 + 512 ≤ 512)
    (hx : 0 + 512 ≤ 512) (b : Fin 8) (h w : Fin 512) :
    shapeCast (Win3 512 512) X hr (ix3 b h w) = X (ix4 b 0 (up 0 h hy) (up 0 w hx)) := by
  refine shapeCast_apply _ hr (ix3 b h w) _ ?_
  rw [Shape.rowMajor_val_four, Shape.rowMajor_val_three]
  show ((b.val * 1 + 0) * 512 + (0 + h.val)) * 512 + (0 + w.val) = (b.val * 512 + h.val) * 512 + w.val
  omega

/-! ## A squared-error term -/

/-- One squared-error term of the program: the sum, onto `0.0`, over the whole stack of `l + 1·l·|A − B|` with
    `l = (P − T)²·R`, is the term's whole-batch total. -/
theorem mse_term (P T R A B : Img4.Idx → EReal) (hb : Sc.BroadcastsInDim Img4 ![])
    (hred : Img4.ReducesTo [0, 1, 2, 3] Sc) (h0 : 0 < Sc.numel) (i : Sc.Idx) :
    Host.reduceAdd (F := Ideal) (φ := .f32)
        (addf (mulf (mulf (subf P T) (subf P T)) R)
          (mulf
            (mulf (broadcastInDim Img4 ![] hb (constant (F := Ideal) Sc .f32 0x3F800000#32))
              (mulf (mulf (subf P T) (subf P T)) R))
            (Host.absf (subf A B))))
        (constant (F := Ideal) Sc .f32 0x00000000#32) hred h0 i
      = mseAll (pix P) (pix T) (pix R) (pix A) (pix B) := by
  simp only [Host.reduceAdd, Ideal.hostReduceAdd_def]
  rw [Ideal.hostReduceAdd_total hred (fun b => b.elim0), sum_idx4_unit]
  unfold mseAll mseB
  refine congrArg (fun s : EReal => Cert.FlowLoss.zero + s) ?_
  refine Finset.sum_congr rfl fun b _ => Finset.sum_congr rfl fun h _ => Finset.sum_congr rfl fun w _ => ?_
  rfl

/-! ## A consistency direction -/

/-- Clipping to `[ε, 1]` on a whole window, as the program spells it: the larger of `ε` and the value, then the
    smaller of `1` and that, both bounds spread over the window from one number. -/
abbrev clipV {ny nx : Nat} (hb : Sc.BroadcastsInDim (Win3 ny nx) ![]) (v : (Win3 ny nx).Idx → EReal) :
    (Win3 ny nx).Idx → EReal :=
  minimumf (F := Ideal) (φ := .f32)
    (broadcastInDim (Win3 ny nx) ![] hb (id (constant (F := Ideal) Sc .f32 0x3F800000#32)))
    (maximumf (F := Ideal) (φ := .f32)
      (broadcastInDim (Win3 ny nx) ![] hb (id (constant (F := Ideal) Sc .f32 0x2EDBE6FF#32))) v)

/-- The sum, onto `0.0`, over a flattened window stack of `(clip a − clip b)²·k`, when `a`, `b`, `k` read at
    `(n, h, w)` are `A n h w`, `B n h w`, `K n h w`: the sum of `csq` over the batch and the window. -/
theorem cons_sum {ny nx : Nat} (a b k : (Win3 ny nx).Idx → EReal) (A B K : Fin 8 → Fin ny → Fin nx → EReal)
    (ha : ∀ n h w, a (ix3 n h w) = A n h w) (hb : ∀ n h w, b (ix3 n h w) = B n h w)
    (hk : ∀ n h w, k (ix3 n h w) = K n h w) (hbc : Sc.BroadcastsInDim (Win3 ny nx) ![])
    (hred : (Win3 ny nx).ReducesTo [0, 1, 2] Sc) (h0 : 0 < Sc.numel) (i : Sc.Idx) :
    Host.reduceAdd (F := Ideal) (φ := .f32)
        (mulf (mulf (subf (clipV hbc a) (clipV hbc b)) (subf (clipV hbc a) (clipV hbc b))) k)
        (constant (F := Ideal) Sc .f32 0x00000000#32) hred h0 i
      = Cert.FlowLoss.zero + ∑ n : Fin 8, ∑ h : Fin ny, ∑ w : Fin nx, csq (A n h w) (B n h w) (K n h w) := by
  simp only [Host.reduceAdd, Ideal.hostReduceAdd_def]
  rw [Ideal.hostReduceAdd_total hred (fun b => b.elim0), sum_idx3]
  refine congrArg (fun s : EReal => Cert.FlowLoss.zero + s) ?_
  refine Finset.sum_congr rfl fun n _ => Finset.sum_congr rfl fun h _ => Finset.sum_congr rfl fun w _ => ?_
  rw [← ha n h w, ← hb n h w, ← hk n h w]
  rfl

/-- One shifted consistency direction of the program: channel `ca` of `Fa` and the mask in the window at
    `(ay, ax)`, channel `cb` of `Fb` in the window at `(by', bx)`, is the direction's whole-batch total. -/
theorem cons_term {ny nx : Nat} (Fa Fb : Flow4.Idx → EReal) (R : Img4.Idx → EReal) (ca cb ay ax by' bx : Nat)
    (hca : ca < 9) (hcb : cb < 9) (hay : ay + ny ≤ 512) (hax : ax + nx ≤ 512) (hby : by' + ny ≤ 512)
    (hbx : bx + nx ≤ 512) (hsa : Flow4.Slices ![0, ca, ay, ax] (Win4 ny nx))
    (hsb : Flow4.Slices ![0, cb, by', bx] (Win4 ny nx)) (hsr : Img4.Slices ![0, 0, ay, ax] (Win4 ny nx))
    (hr : (Win4 ny nx).ShapeCasts (Win3 ny nx)) (hbc : Sc.BroadcastsInDim (Win3 ny nx) ![])
    (hred : (Win3 ny nx).ReducesTo [0, 1, 2] Sc) (h0 : 0 < Sc.numel) (i : Sc.Idx) :
    Host.reduceAdd (F := Ideal) (φ := .f32)
        (mulf
          (mulf
            (subf
              (clipV hbc (shapeCast (Win3 ny nx) (extractStridedSlice (Win4 ny nx) ![0, ca, ay, ax] Fa hsa) hr))
              (clipV hbc (shapeCast (Win3 ny nx) (extractStridedSlice (Win4 ny nx) ![0, cb, by', bx] Fb hsb) hr)))
            (subf
              (clipV hbc (shapeCast (Win3 ny nx) (extractStridedSlice (Win4 ny nx) ![0, ca, ay, ax] Fa hsa) hr))
              (clipV hbc (shapeCast (Win3 ny nx) (extractStridedSlice (Win4 ny nx) ![0, cb, by', bx] Fb hsb) hr))))
          (shapeCast (Win3 ny nx) (extractStridedSlice (Win4 ny nx) ![0, 0, ay, ax] R hsr) hr))
        (constant (F := Ideal) Sc .f32 0x00000000#32) hred h0 i
      = Cert.FlowLoss.zero + ∑ b : Fin 8,
          consB ny nx ay ax by' bx hay hax hby hbx ⟨ca, hca⟩ ⟨cb, hcb⟩ (pix9 Fa b) (pix9 Fb b) (pix R b) :=
  cons_sum _ _ _ (fun n h w => pix9 Fa n ⟨ca, hca⟩ (up ay h hay) (up ax w hax))
    (fun n h w => pix9 Fb n ⟨cb, hcb⟩ (up by' h hby) (up bx w hbx)) (fun n h w => pix R n (up ay h hay) (up ax w hax))
    (fun n h w => win_read Fa ca ay ax hca hay hax hsa hr n h w)
    (fun n h w => win_read Fb cb by' bx hcb hby hbx hsb hr n h w)
    (fun n h w => win_read R 0 ay ax Nat.one_pos hay hax hsr hr n h w) hbc hred h0 i

/-- The middle consistency direction: no shift, the same channel window of both flows, and the mask flattened
    whole. -/
theorem cons_mid (Fa Fb : Flow4.Idx → EReal) (R : Img4.Idx → EReal) (ca cb : Nat) (hca : ca < 9) (hcb : cb < 9)
    (hw : 0 + 512 ≤ 512) (hsa : Flow4.Slices ![0, ca, 0, 0] (Win4 512 512))
    (hsb : Flow4.Slices ![0, cb, 0, 0] (Win4 512 512)) (hr : (Win4 512 512).ShapeCasts (Win3 512 512))
    (hbc : Sc.BroadcastsInDim (Win3 512 512) ![]) (hred : (Win3 512 512).ReducesTo [0, 1, 2] Sc)
    (h0 : 0 < Sc.numel) (i : Sc.Idx) :
    Host.reduceAdd (F := Ideal) (φ := .f32)
        (mulf
          (mulf
            (subf
              (clipV hbc (shapeCast (Win3 512 512) (extractStridedSlice (Win4 512 512) ![0, ca, 0, 0] Fa hsa) hr))
              (clipV hbc (shapeCast (Win3 512 512) (extractStridedSlice (Win4 512 512) ![0, cb, 0, 0] Fb hsb) hr)))
            (subf
              (clipV hbc (shapeCast (Win3 512 512) (extractStridedSlice (Win4 512 512) ![0, ca, 0, 0] Fa hsa) hr))
              (clipV hbc (shapeCast (Win3 512 512) (extractStridedSlice (Win4 512 512) ![0, cb, 0, 0] Fb hsb) hr))))
          (shapeCast (Win3 512 512) R hr))
        (constant (F := Ideal) Sc .f32 0x00000000#32) hred h0 i
      = Cert.FlowLoss.zero + ∑ b : Fin 8,
          consB 512 512 0 0 0 0 hw hw hw hw ⟨ca, hca⟩ ⟨cb, hcb⟩ (pix9 Fa b) (pix9 Fb b) (pix R b) :=
  cons_sum _ _ _ (fun n h w => pix9 Fa n ⟨ca, hca⟩ (up 0 h hw) (up 0 w hw))
    (fun n h w => pix9 Fb n ⟨cb, hcb⟩ (up 0 h hw) (up 0 w hw)) (fun n h w => pix R n (up 0 h hw) (up 0 w hw))
    (fun n h w => win_read Fa ca 0 0 hca hw hw hsa hr n h w)
    (fun n h w => win_read Fb cb 0 0 hcb hw hw hsb hr n h w)
    (fun n h w => whole_read R hr hw hw n h w) hbc hred h0 i

/-! ## The twenty-six sums of the program -/

theorem sum11 (x0 x2 x3 x5 : Img) (i : S_.Idx) :
    val_main_v11 (F := Ideal) x0 x2 x3 x5 i = mseAll (pix x5) (pix x3) (pix x0) (pix x2) (pix x3) :=
  mse_term x5 x3 x0 x2 x3 _ _ _ i
theorem sum19 (x0 x2 x3 x6 : Img) (i : S_.Idx) :
    val_main_v19 (F := Ideal) x0 x2 x3 x6 i = mseAll (pix x6) (pix x3) (pix x0) (pix x2) (pix x3) :=
  mse_term x6 x3 x0 x2 x3 _ _ _ i
theorem sum28 (x0 x3 x4 x7 : Img) (i : S_.Idx) :
    val_main_v28 (F := Ideal) x0 x3 x4 x7 i = mseAll (pix x7) (pix x3) (pix x0) (pix x3) (pix x4) :=
  mse_term x7 x3 x0 x3 x4 _ _ _ i
theorem sum37 (x0 x3 x4 x8 : Img) (i : S_.Idx) :
    val_main_v37 (F := Ideal) x0 x3 x4 x8 i = mseAll (pix x8) (pix x3) (pix x0) (pix x3) (pix x4) :=
  mse_term x8 x3 x0 x3 x4 _ _ _ i
theorem sum47 (x0 x2 x3 x9 : Img) (i : S_.Idx) :
    val_main_v47 (F := Ideal) x0 x2 x3 x9 i = mseAll (pix x9) (pix x2) (pix x0) (pix x2) (pix x3) :=
  mse_term x9 x2 x0 x2 x3 _ _ _ i
theorem sum55 (x0 x2 x3 x10 : Img) (i : S_.Idx) :
    val_main_v55 (F := Ideal) x0 x2 x3 x10 i = mseAll (pix x10) (pix x2) (pix x0) (pix x2) (pix x3) :=
  mse_term x10 x2 x0 x2 x3 _ _ _ i
theorem sum65 (x0 x3 x4 x11 : Img) (i : S_.Idx) :
    val_main_v65 (F := Ideal) x0 x3 x4 x11 i = mseAll (pix x11) (pix x4) (pix x0) (pix x3) (pix x4) :=
  mse_term x11 x4 x0 x3 x4 _ _ _ i
theorem sum73 (x0 x3 x4 x12 : Img) (i : S_.Idx) :
    val_main_v73 (F := Ideal) x0 x3 x4 x12 i = mseAll (pix x12) (pix x4) (pix x0) (pix x3) (pix x4) :=
  mse_term x12 x4 x0 x3 x4 _ _ _ i

theorem sum87 (x0 : Img) (x13 x14 : Flow) (i : S_.Idx) :
    val_main_v87 (F := Ideal) x0 x13 x14 i
      = Cert.FlowLoss.zero + ∑ b : Fin 8, cons0 (pix9 x13 b) (pix9 x14 b) (pix x0 b) :=
  cons_term (ny := 511) (nx := 511) x13 x14 x0 0 8 1 1 0 0 (by omega) (by omega) (by omega) (by omega) (by omega)
    (by omega) _ _ _ _ _ _ _ i
theorem sum100 (x0 : Img) (x13 x14 : Flow) (i : S_.Idx) :
    val_main_v100 (F := Ideal) x0 x13 x14 i
      = Cert.FlowLoss.zero + ∑ b : Fin 8, cons1 (pix9 x13 b) (pix9 x14 b) (pix x0 b) :=
  cons_term (ny := 511) (nx := 512) x13 x14 x0 1 7 1 0 0 0 (by omega) (by omega) (by omega) (by omega) (by omega)
    (by omega) _ _ _ _ _ _ _ i
theorem sum113 (x0 : Img) (x13 x14 : Flow) (i : S_.Idx) :
    val_main_v113 (F := Ideal) x0 x13 x14 i
      = Cert.FlowLoss.zero + ∑ b : Fin 8, cons2 (pix9 x13 b) (pix9 x14 b) (pix x0 b) :=
  cons_term (ny := 511) (nx := 511) x13 x14 x0 2 6 1 0 0 1 (by omega) (by omega) (by omega) (by omega) (by omega)
    (by omega) _ _ _ _ _ _ _ i
theorem sum126 (x0 : Img) (x13 x14 : Flow) (i : S_.Idx) :
    val_main_v126 (F := Ideal) x0 x13 x14 i
      = Cert.FlowLoss.zero + ∑ b : Fin 8, cons3 (pix9 x13 b) (pix9 x14 b) (pix x0 b) :=
  cons_term (ny := 512) (nx := 511) x13 x14 x0 3 5 0 1 0 0 (by omega) (by omega) (by omega) (by omega) (by omega)
    (by omega) _ _ _ _ _ _ _ i
theorem sum138 (x0 : Img) (x13 x14 : Flow) (i : S_.Idx) :
    val_main_v138 (F := Ideal) x0 x13 x14 i
      = Cert.FlowLoss.zero + ∑ b : Fin 8, cons4 (pix9 x13 b) (pix9 x14 b) (pix x0 b) :=
  cons_mid x13 x14 x0 4 4 (by omega) (by omega) (by omega) _ _ _ _ _ _ i
theorem sum151 (x0 : Img) (x13 x14 : Flow) (i : S_.Idx) :
    val_main_v151 (F := Ideal) x0 x13 x14 i
      = Cert.FlowLoss.zero + ∑ b : Fin 8, cons5 (pix9 x13 b) (pix9 x14 b) (pix x0 b) :=
  cons_term (ny := 512) (nx := 511) x13 x14 x0 5 3 0 0 0 1 (by omega) (by omega) (by omega) (by omega) (by omega)
    (by omega) _ _ _ _ _ _ _ i
theorem sum164 (x0 : Img) (x13 x14 : Flow) (i : S_.Idx) :
    val_main_v164 (F := Ideal) x0 x13 x14 i
      = Cert.FlowLoss.zero + ∑ b : Fin 8, cons6 (pix9 x13 b) (pix9 x14 b) (pix x0 b) :=
  cons_term (ny := 511) (nx := 511) x13 x14 x0 6 2 0 1 1 0 (by omega) (by omega) (by omega) (by omega) (by omega)
    (by omega) _ _ _ _ _ _ _ i
theorem sum177 (x0 : Img) (x13 x14 : Flow) (i : S_.Idx) :
    val_main_v177 (F := Ideal) x0 x13 x14 i
      = Cert.FlowLoss.zero + ∑ b : Fin 8, cons7 (pix9 x13 b) (pix9 x14 b) (pix x0 b) :=
  cons_term (ny := 511) (nx := 512) x13 x14 x0 7 1 0 0 1 0 (by omega) (by omega) (by omega) (by omega) (by omega)
    (by omega) _ _ _ _ _ _ _ i
theorem sum190 (x0 : Img) (x13 x14 : Flow) (i : S_.Idx) :
    val_main_v190 (F := Ideal) x0 x13 x14 i
      = Cert.FlowLoss.zero + ∑ b : Fin 8, cons8 (pix9 x13 b) (pix9 x14 b) (pix x0 b) :=
  cons_term (ny := 511) (nx := 511) x13 x14 x0 8 0 0 0 1 1 (by omega) (by omega) (by omega) (by omega) (by omega)
    (by omega) _ _ _ _ _ _ _ i

theorem sum203 (x0 : Img) (x15 x16 : Flow) (i : S_.Idx) :
    val_main_v203 (F := Ideal) x0 x15 x16 i
      = Cert.FlowLoss.zero + ∑ b : Fin 8, cons0 (pix9 x15 b) (pix9 x16 b) (pix x0 b) :=
  cons_term (ny := 511) (nx := 511) x15 x16 x0 0 8 1 1 0 0 (by omega) (by omega) (by omega) (by omega) (by omega)
    (by omega) _ _ _ _ _ _ _ i
theorem sum216 (x0 : Img) (x15 x16 : Flow) (i : S_.Idx) :
    val_main_v216 (F := Ideal) x0 x15 x16 i
      = Cert.FlowLoss.zero + ∑ b : Fin 8, cons1 (pix9 x15 b) (pix9 x16 b) (pix x0 b) :=
  cons_term (ny := 511) (nx := 512) x15 x16 x0 1 7 1 0 0 0 (by omega) (by omega) (by omega) (by omega) (by omega)
    (by omega) _ _ _ _ _ _ _ i
theorem sum229 (x0 : Img) (x15 x16 : Flow) (i : S_.Idx) :
    val_main_v229 (F := Ideal) x0 x15 x16 i
      = Cert.FlowLoss.zero + ∑ b : Fin 8, cons2 (pix9 x15 b) (pix9 x16 b) (pix x0 b) :=
  cons_term (ny := 511) (nx := 511) x15 x16 x0 2 6 1 0 0 1 (by omega) (by omega) (by omega) (by omega) (by omega)
    (by omega) _ _ _ _ _ _ _ i
theorem sum242 (x0 : Img) (x15 x16 : Flow) (i : S_.Idx) :
    val_main_v242 (F := Ideal) x0 x15 x16 i
      = Cert.FlowLoss.zero + ∑ b : Fin 8, cons3 (pix9 x15 b) (pix9 x16 b) (pix x0 b) :=
  cons_term (ny := 512) (nx := 511) x15 x16 x0 3 5 0 1 0 0 (by omega) (by omega) (by omega) (by omega) (by omega)
    (by omega) _ _ _ _ _ _ _ i
theorem sum254 (x0 : Img) (x15 x16 : Flow) (i : S_.Idx) :
    val_main_v254 (F := Ideal) x0 x15 x16 i
      = Cert.FlowLoss.zero + ∑ b : Fin 8, cons4 (pix9 x15 b) (pix9 x16 b) (pix x0 b) :=
  cons_mid x15 x16 x0 4 4 (by omega) (by omega) (by omega) _ _ _ _ _ _ i
theorem sum267 (x0 : Img) (x15 x16 : Flow) (i : S_.Idx) :
    val_main_v267 (F := Ideal) x0 x15 x16 i
      = Cert.FlowLoss.zero + ∑ b : Fin 8, cons5 (pix9 x15 b) (pix9 x16 b) (pix x0 b) :=
  cons_term (ny := 512) (nx := 511) x15 x16 x0 5 3 0 0 0 1 (by omega) (by omega) (by omega) (by omega) (by omega)
    (by omega) _ _ _ _ _ _ _ i
theorem sum280 (x0 : Img) (x15 x16 : Flow) (i : S_.Idx) :
    val_main_v280 (F := Ideal) x0 x15 x16 i
      = Cert.FlowLoss.zero + ∑ b : Fin 8, cons6 (pix9 x15 b) (pix9 x16 b) (pix x0 b) :=
  cons_term (ny := 511) (nx := 511) x15 x16 x0 6 2 0 1 1 0 (by omega) (by omega) (by omega) (by omega) (by omega)
    (by omega) _ _ _ _ _ _ _ i
theorem sum293 (x0 : Img) (x15 x16 : Flow) (i : S_.Idx) :
    val_main_v293 (F := Ideal) x0 x15 x16 i
      = Cert.FlowLoss.zero + ∑ b : Fin 8, cons7 (pix9 x15 b) (pix9 x16 b) (pix x0 b) :=
  cons_term (ny := 511) (nx := 512) x15 x16 x0 7 1 0 0 1 0 (by omega) (by omega) (by omega) (by omega) (by omega)
    (by omega) _ _ _ _ _ _ _ i
theorem sum306 (x0 : Img) (x15 x16 : Flow) (i : S_.Idx) :
    val_main_v306 (F := Ideal) x0 x15 x16 i
      = Cert.FlowLoss.zero + ∑ b : Fin 8, cons8 (pix9 x15 b) (pix9 x16 b) (pix x0 b) :=
  cons_term (ny := 511) (nx := 511) x15 x16 x0 8 0 0 0 1 1 (by omega) (by omega) (by omega) (by omega) (by omega)
    (by omega) _ _ _ _ _ _ _ i

/-! ## The additions and divisions after the sums -/

/-- The program's last stage, over any sixteen arrays, is `lossWhole` of them. -/
theorem val_eq (x0 x2 x3 x4 x5 x6 x7 x8 x9 x10 x11 x12 : Img) (x13 x14 x15 x16 : Flow) (i : S_.Idx) :
    val_main_v312 (F := Ideal) x0 x2 x3 x4 x5 x6 x7 x8 x9 x10 x11 x12 x13 x14 x15 x16 i
      = lossWhole (pix x0) (pix x2) (pix x3) (pix x4) (pix x5) (pix x6) (pix x7) (pix x8) (pix x9) (pix x10)
          (pix x11) (pix x12) (pix9 x13) (pix9 x14) (pix9 x15) (pix9 x16) := by
  simp only [val_main_v312_apply, val_main_v311_apply, val_main_v310_apply, val_main_v309_apply,
    val_main_v308_apply, val_main_v39_apply, val_main_v38_apply, val_main_v29_apply, val_main_v20_apply,
    val_main_v57_apply, val_main_v56_apply, val_main_v75_apply, val_main_v74_apply, val_main_v191_apply,
    val_main_v178_apply, val_main_v165_apply, val_main_v152_apply, val_main_v139_apply, val_main_v127_apply,
    val_main_v114_apply, val_main_v101_apply, val_main_v88_apply, val_main_v307_apply, val_main_v294_apply,
    val_main_v281_apply, val_main_v268_apply, val_main_v255_apply, val_main_v243_apply, val_main_v230_apply,
    val_main_v217_apply, val_main_v204_apply, val_main_cst_7_apply, val_main_cst_12_apply,
    val_main_cst_17_apply, val_main_cst_110_apply, val_main_cst_23_apply, val_main_cst_69_apply, sum11, sum19,
    sum28, sum37, sum47, sum55, sum65, sum73, sum87, sum100, sum113, sum126, sum138, sum151, sum164, sum177,
    sum190, sum203, sum216, sum229, sum242, sum254, sum267, sum280, sum293, sum306, Ideal.addf_def,
    Ideal.hostDivf_def, Ideal.ofBits_def]
  rfl

/-- The same for the stage as a function of the scalar index: it is constant. -/
theorem val_fun_eq (x0 x2 x3 x4 x5 x6 x7 x8 x9 x10 x11 x12 : Img) (x13 x14 x15 x16 : Flow) :
    val_main_v312 (F := Ideal) x0 x2 x3 x4 x5 x6 x7 x8 x9 x10 x11 x12 x13 x14 x15 x16
      = fun _ => lossWhole (pix x0) (pix x2) (pix x3) (pix x4) (pix x5) (pix x6) (pix x7) (pix x8) (pix x9) (pix x10)
          (pix x11) (pix x12) (pix9 x13) (pix9 x14) (pix9 x15) (pix9 x16) :=
  funext fun i => val_eq x0 x2 x3 x4 x5 x6 x7 x8 x9 x10 x11 x12 x13 x14 x15 x16 i

end Cert.ReferenceIdeal.RefValue

end
-- ==== Proof.RefRunInv.lean ====
/- What the device's buffers hold between the windows of the reference program: the seventeen arguments, and after each
    window the buffers written so far that a later window still reads, each at its stage of the arguments. A table, one line
    per buffer. -/
import proofs.«131438_j61692910239837_2_alg».proof.Proof.RefRead

noncomputable section

namespace Cert.ReferenceIdeal.RunParts

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

/-- The seventeen arguments, at a valuation of the device's buffers. -/
def ArgsAt (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) : Prop :=
  W (Proc.devRef .tc main_arg0) = x0
  ∧ W (Proc.devRef .tc main_arg1) = x1
  ∧ W (Proc.devRef .tc main_arg2) = x2
  ∧ W (Proc.devRef .tc main_arg3) = x3
  ∧ W (Proc.devRef .tc main_arg4) = x4
  ∧ W (Proc.devRef .tc main_arg5) = x5
  ∧ W (Proc.devRef .tc main_arg6) = x6
  ∧ W (Proc.devRef .tc main_arg7) = x7
  ∧ W (Proc.devRef .tc main_arg8) = x8
  ∧ W (Proc.devRef .tc main_arg9) = x9
  ∧ W (Proc.devRef .tc main_arg10) = x10
  ∧ W (Proc.devRef .tc main_arg11) = x11
  ∧ W (Proc.devRef .tc main_arg12) = x12
  ∧ W (Proc.devRef .tc main_arg13) = x13
  ∧ W (Proc.devRef .tc main_arg14) = x14
  ∧ W (Proc.devRef .tc main_arg15) = x15
  ∧ W (Proc.devRef .tc main_arg16) = x16

/-- The buffers written by the first 1 window that a later window reads, each at its stage. -/
def Live1 (W : Valuation τ sig (Elt F)) (x0 x2 x3 x4 x5 x6 x7 x8 x9 x10 x11 x12 : (⟨S8x1x512x512, .f32⟩ : BufTy).Contents (Elt F)) (x13 x14 x15 x16 : (⟨S8x9x512x512, .f32⟩ : BufTy).Contents (Elt F)) : Prop :=
  W (Proc.devRef .tc main_v1) = val_main_v1 (F := F) x2 x3
  ∧ W (Proc.devRef .tc main_v3) = val_main_v3 (F := F) x3 x4
  ∧ W (Proc.devRef .tc main_v39) = val_main_v39 (F := F) x0 x2 x3 x4 x5 x6 x7 x8
  ∧ W (Proc.devRef .tc main_v47) = val_main_v47 (F := F) x0 x2 x3 x9
  ∧ W (Proc.devRef .tc main_v48) = val_main_v48 (F := F) x2 x10

/-- The buffers written by the first 2 windows that a later window reads, each at its stage. -/
def Live2 (W : Valuation τ sig (Elt F)) (x0 x2 x3 x4 x5 x6 x7 x8 x9 x10 x11 x12 : (⟨S8x1x512x512, .f32⟩ : BufTy).Contents (Elt F)) (x13 x14 x15 x16 : (⟨S8x9x512x512, .f32⟩ : BufTy).Contents (Elt F)) : Prop :=
  W (Proc.devRef .tc main_v39) = val_main_v39 (F := F) x0 x2 x3 x4 x5 x6 x7 x8
  ∧ W (Proc.devRef .tc main_v57) = val_main_v57 (F := F) x0 x2 x3 x9 x10
  ∧ W (Proc.devRef .tc main_v75) = val_main_v75 (F := F) x0 x3 x4 x11 x12
  ∧ W (Proc.devRef .tc main_v88) = val_main_v88 (F := F) x0 x13 x14
  ∧ W (Proc.devRef .tc main_v90) = val_main_v90 (F := F) x13
  ∧ W (Proc.devRef .tc main_v92) = val_main_v92 (F := F) x14
  ∧ W (Proc.devRef .tc main_v94) = val_main_v94 (F := F) x0

/-- The buffers written by the first 3 windows that a later window reads, each at its stage. -/
def Live3 (W : Valuation τ sig (Elt F)) (x0 x2 x3 x4 x5 x6 x7 x8 x9 x10 x11 x12 : (⟨S8x1x512x512, .f32⟩ : BufTy).Contents (Elt F)) (x13 x14 x15 x16 : (⟨S8x9x512x512, .f32⟩ : BufTy).Contents (Elt F)) : Prop :=
  W (Proc.devRef .tc main_v39) = val_main_v39 (F := F) x0 x2 x3 x4 x5 x6 x7 x8
  ∧ W (Proc.devRef .tc main_v57) = val_main_v57 (F := F) x0 x2 x3 x9 x10
  ∧ W (Proc.devRef .tc main_v75) = val_main_v75 (F := F) x0 x3 x4 x11 x12
  ∧ W (Proc.devRef .tc main_v127) = val_main_v127 (F := F) x0 x13 x14
  ∧ W (Proc.devRef .tc main_v132) = val_main_v132 (F := F) x0
  ∧ W (Proc.devRef .tc main_v135) = val_main_v135 (F := F) x13 x14

/-- The buffers written by the first 4 windows that a later window reads, each at its stage. -/
def Live4 (W : Valuation τ sig (Elt F)) (x0 x2 x3 x4 x5 x6 x7 x8 x9 x10 x11 x12 : (⟨S8x1x512x512, .f32⟩ : BufTy).Contents (Elt F)) (x13 x14 x15 x16 : (⟨S8x9x512x512, .f32⟩ : BufTy).Contents (Elt F)) : Prop :=
  W (Proc.devRef .tc main_v39) = val_main_v39 (F := F) x0 x2 x3 x4 x5 x6 x7 x8
  ∧ W (Proc.devRef .tc main_v57) = val_main_v57 (F := F) x0 x2 x3 x9 x10
  ∧ W (Proc.devRef .tc main_v75) = val_main_v75 (F := F) x0 x3 x4 x11 x12
  ∧ W (Proc.devRef .tc main_v178) = val_main_v178 (F := F) x0 x13 x14
  ∧ W (Proc.devRef .tc main_v179) = val_main_v179 (F := F) x13

/-- The buffers written by the first 5 windows that a later window reads, each at its stage. -/
def Live5 (W : Valuation τ sig (Elt F)) (x0 x2 x3 x4 x5 x6 x7 x8 x9 x10 x11 x12 : (⟨S8x1x512x512, .f32⟩ : BufTy).Contents (Elt F)) (x13 x14 x15 x16 : (⟨S8x9x512x512, .f32⟩ : BufTy).Contents (Elt F)) : Prop :=
  W (Proc.devRef .tc main_v39) = val_main_v39 (F := F) x0 x2 x3 x4 x5 x6 x7 x8
  ∧ W (Proc.devRef .tc main_v57) = val_main_v57 (F := F) x0 x2 x3 x9 x10
  ∧ W (Proc.devRef .tc main_v75) = val_main_v75 (F := F) x0 x3 x4 x11 x12
  ∧ W (Proc.devRef .tc main_v191) = val_main_v191 (F := F) x0 x13 x14
  ∧ W (Proc.devRef .tc main_v217) = val_main_v217 (F := F) x0 x15 x16
  ∧ W (Proc.devRef .tc main_v219) = val_main_v219 (F := F) x15
  ∧ W (Proc.devRef .tc main_v221) = val_main_v221 (F := F) x16
  ∧ W (Proc.devRef .tc main_v223) = val_main_v223 (F := F) x0

/-- The buffers written by the first 6 windows that a later window reads, each at its stage. -/
def Live6 (W : Valuation τ sig (Elt F)) (x0 x2 x3 x4 x5 x6 x7 x8 x9 x10 x11 x12 : (⟨S8x1x512x512, .f32⟩ : BufTy).Contents (Elt F)) (x13 x14 x15 x16 : (⟨S8x9x512x512, .f32⟩ : BufTy).Contents (Elt F)) : Prop :=
  W (Proc.devRef .tc main_v39) = val_main_v39 (F := F) x0 x2 x3 x4 x5 x6 x7 x8
  ∧ W (Proc.devRef .tc main_v57) = val_main_v57 (F := F) x0 x2 x3 x9 x10
  ∧ W (Proc.devRef .tc main_v75) = val_main_v75 (F := F) x0 x3 x4 x11 x12
  ∧ W (Proc.devRef .tc main_v191) = val_main_v191 (F := F) x0 x13 x14
  ∧ W (Proc.devRef .tc main_v255) = val_main_v255 (F := F) x0 x15 x16
  ∧ W (Proc.devRef .tc main_v261) = val_main_v261 (F := F) x0
  ∧ W (Proc.devRef .tc main_v264) = val_main_v264 (F := F) x15 x16

/-- The buffers written by the first 7 windows that a later window reads, each at its stage. -/
def Live7 (W : Valuation τ sig (Elt F)) (x0 x2 x3 x4 x5 x6 x7 x8 x9 x10 x11 x12 : (⟨S8x1x512x512, .f32⟩ : BufTy).Contents (Elt F)) (x13 x14 x15 x16 : (⟨S8x9x512x512, .f32⟩ : BufTy).Contents (Elt F)) : Prop :=
  W (Proc.devRef .tc main_v39) = val_main_v39 (F := F) x0 x2 x3 x4 x5 x6 x7 x8
  ∧ W (Proc.devRef .tc main_v57) = val_main_v57 (F := F) x0 x2 x3 x9 x10
  ∧ W (Proc.devRef .tc main_v75) = val_main_v75 (F := F) x0 x3 x4 x11 x12
  ∧ W (Proc.devRef .tc main_v308) = val_main_v308 (F := F) x0 x13 x14 x15 x16

end Cert.ReferenceIdeal.RunParts

end
-- ==== Proof.RefRunLib.lean ====
import Idealize.ShloMosaic.Lib.StableHlo.Run

/-!
# Straight lines of host operations, cut into pieces

A line of host operations run from contents `V` leaves `after ops V`.  Cutting the line in two runs the second piece from
what the first leaves (`after_append`); a property of every operation of both pieces is a property of every operation of
the line (`forall_append`, `forall_mem_append`); and the one buffer an operation writes is among a list of references as
soon as its reference is (`wmem`), which is how a piece's written buffers are listed once and a buffer outside the list
is shown to keep its contents.
-/

noncomputable section

namespace Cert.ReferenceIdeal.RunParts

open Idealize.ShloMosaic Idealize.ShloMosaic.StableHlo

variable {τ : Topo} {sig : RefSig} {Val : EltTy → Type}

/-- Two pieces run one after the other: the second runs from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every operation of two pieces holds of every operation of the two put together. -/
theorem forall_append {p : HloOp τ sig Val → Prop} {l₁ l₂ : List (HloOp τ sig Val)} (h₁ : l₁.Forall p)
    (h₂ : l₂.Forall p) : (l₁ ++ l₂).Forall p :=
  List.forall_iff_forall_mem.2 fun x hx =>
    (List.mem_append.1 hx).elim (List.forall_iff_forall_mem.1 h₁ x) (List.forall_iff_forall_mem.1 h₂ x)

/-- The same for a property stated over membership. -/
theorem forall_mem_append {p : HloOp τ sig Val → Prop} {l₁ l₂ : List (HloOp τ sig Val)} (h₁ : ∀ x ∈ l₁, p x)
    (h₂ : ∀ x ∈ l₂, p x) : ∀ x ∈ l₁ ++ l₂, p x :=
  fun x hx => (List.mem_append.1 hx).elim (h₁ x) (h₂ x)

/-- A single written buffer lies in a list of references' buffers as soon as its reference is in the list. -/
theorem wmem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

end Cert.ReferenceIdeal.RunParts

end
-- ==== Proof.RefRunPart0.lean ====
/- Window 0 of the reference program (operations 0 … 59 of 605): its operations as a list, that the printed
    window is that list run in order, which buffers it writes, and what it leaves in the buffers a later window reads, given
    what it found. -/
import proofs.«131438_j61692910239837_2_alg».proof.Proof.RefRunInv
import proofs.«131438_j61692910239837_2_alg».proof.Proof.RefRunLib

noncomputable section

namespace Cert.ReferenceIdeal.RunParts

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

set_option maxHeartbeats 4000000 in
/-- The window's operations, in order (a called function's six operations stand in its call's place). -/
abbrev ops0 : List (HloOp τ sig (Elt F)) :=
  [ binary main_arg2 main_arg3 main_v0 (subf : (⟨S8x1x512x512, .f32⟩ : BufTy).Contents (Elt F) → (⟨S8x1x512x512, .f32⟩ : BufTy).Contents (Elt F) → (⟨S8x1x512x512, .f32⟩ : BufTy).Contents (Elt F)),
    unary main_v0 main_v1 (Host.absf : (⟨S8x1x512x512, .f32⟩ : BufTy).Contents (Elt F) → (⟨S8x1x512x512, .f32⟩ : BufTy).Contents (Elt F)),
    binary main_arg3 main_arg4 main_v2 (subf : (⟨S8x1x512x512, .f32⟩ : BufTy).Contents (Elt F) → (⟨S8x1x512x512, .f32⟩ : BufTy).Contents (Elt F) → (⟨S8x1x512x512, .f32⟩ : BufTy).Contents (Elt F)),
    unary main_v2 main_v3 (Host.absf : (⟨S8x1x512x512, .f32⟩ : BufTy).Contents (Elt F) → (⟨S8x1x512x512, .f32⟩ : BufTy).Contents (Elt F)),
    binary main_arg5 main_arg3 main_v4 (subf : (⟨S8x1x512x512, .f32⟩ : BufTy).Contents (Elt F) → (⟨S8x1x512x512, .f32⟩ : BufTy).Contents (Elt F) → (⟨S8x1x512x512, .f32⟩ : BufTy).Contents (Elt F)),
    binary main_v4 main_v4 main_v5 (mulf : (⟨S8x1x512x512, .f32⟩ : BufTy).Contents (Elt F) → (⟨S8x1x512x512, .f32⟩ : BufTy).Contents (Elt F) → (⟨S8x1x512x512, .f32⟩ : BufTy).Contents (Elt F)),
    binary main_v5 main_arg0 main_v6 (mulf : (⟨S8x1x512x512, .f32⟩ : BufTy).Contents (Elt F) → (⟨S8x1x512x512, .f32⟩ : BufTy).Contents (Elt F) → (⟨S8x1x512x512, .f32⟩ : BufTy).Contents (Elt F)),
    nullary main_cst (constant S_ .f32 0x3F800000#32),
    unary main_cst main_v7 (broadcastInDim S8x1x512x512 ![] bcast_S_S8x1x512x512 : (⟨S_, .f32⟩ : BufTy).Contents (Elt F) → (⟨S8x1x512x512, .f32⟩ : BufTy).Contents (Elt F)),
    binary main_v7 main_v6 main_v8 (mulf : (⟨S8x1x512x512, .f32⟩ : BufTy).Contents (Elt F) → (⟨S8x1x512x512, .f32⟩ : BufTy).Contents (Elt F) → (⟨S8x1x512x512, .f32⟩ : BufTy).Contents (Elt F)),
    binary main_v8 main_v1 main_v9 (mulf : (⟨S8x1x512x512, .f32⟩ : BufTy).Contents (Elt F) → (⟨S8x1x512x512, .f32⟩ : BufTy).Contents (Elt F) → (⟨S8x1x512x512, .f32⟩ : BufTy).Contents (Elt F)),
    binary main_v6 main_v9 main_v10 (addf : (⟨S8x1x512x512, .f32⟩ : BufTy).Contents (Elt F) → (⟨S8x1x512x512, .f32⟩ : BufTy).Contents (Elt F) → (⟨S8x1x512x512, .f32⟩ : BufTy).Contents (Elt F)),
    nullary main_cst_0 (constant S_ .f32 0x00000000#32),
    binary main_v10 main_cst_0 main_v11 ((fun x v => Host.reduceAdd x v reducesTo_S8x1x512x512_S_d0_1_2_3 h_S_) : (⟨S8x1x512x512, .f32⟩ : BufTy).Contents (Elt F) → (⟨S_, .f32⟩ : BufTy).Contents (Elt F) → (⟨S_, .f32⟩ : BufTy).Contents (Elt F)),
    binary main_arg6 main_arg3 main_v12 (subf : (⟨S8x1x512x512, .f32⟩ : BufTy).Contents (Elt F) → (⟨S8x1x512x512, .f32⟩ : BufTy).Contents (Elt F) → (⟨S8x1x512x512, .f32⟩ : BufTy).Contents (Elt F)),
    binary main_v12 main_v12 main_v13 (mulf : (⟨S8x1x512x512, .f32⟩ : BufTy).Contents (Elt F) → (⟨S8x1x512x512, .f32⟩ : BufTy).Contents (Elt F) → (⟨S8x1x512x512, .f32⟩ : BufTy).Contents (Elt F)),
    binary main_v13 main_arg0 main_v14 (mulf : (⟨S8x1x512x512, .f32⟩ : BufTy).Contents (Elt F) → (⟨S8x1x512x512, .f32⟩ : BufTy).Contents (Elt F) → (⟨S8x1x512x512, .f32⟩ : BufTy).Contents (Elt F)),
    nullary main_cst_1 (constant S_ .f32 0x3F800000#32),
    unary main_cst_1 main_v15 (broadcastInDim S8x1x512x512 ![] bcast_S_S8x1x512x512 : (⟨S_, .f32⟩ : BufTy).Contents (Elt F) → (⟨S8x1x512x512, .f32⟩ : BufTy).Contents (Elt F)),
    binary main_v15 main_v14 main_v16 (mulf : (⟨S8x1x512x512, .f32⟩ : BufTy).Contents (Elt F) → (⟨S8x1x512x512, .f32⟩ : BufTy).Contents (Elt F) → (⟨S8x1x512x512, .f32⟩ : BufTy).Contents (Elt F)),
    binary main_v16 main_v1 main_v17 (mulf : (⟨S8x1x512x512, .f32⟩ : BufTy).Contents (Elt F) → (⟨S8x1x512x512, .f32⟩ : BufTy).Contents (Elt F) → (⟨S8x1x512x512, .f32⟩ : BufTy).Contents (Elt F)),
    binary main_v14 main_v17 main_v18 (addf : (⟨S8x1x512x512, .f32⟩ : BufTy).Contents (Elt F) → (⟨S8x1x512x512, .f32⟩ : BufTy).Contents (Elt F) → (⟨S8x1x512x512, .f32⟩ : BufTy).Contents (Elt F)),
    nullary main_cst_2 (constant S_ .f32 0x00000000#32),
    binary main_v18 main_cst_2 main_v19 ((fun x v => Host.reduceAdd x v reducesTo_S8x1x512x512_S_d0_1_2_3 h_S_) : (⟨S8x1x512x512, .f32⟩ : BufTy).Contents (Elt F) → (⟨S_, .f32⟩ : BufTy).Contents (Elt F) → (⟨S_, .f32⟩ : BufTy).Contents (Elt F)),
    binary main_v11 main_v19 main_v20 (addf : (⟨S_, .f32⟩ : BufTy).Contents (Elt F) → (⟨S_, .f32⟩ : BufTy).Contents (Elt F) → (⟨S_, .f32⟩ : BufTy).Contents (Elt F)),
    binary main_arg7 main_arg3 main_v21 (subf : (⟨S8x1x512x512, .f32⟩ : BufTy).Contents (Elt F) → (⟨S8x1x512x512, .f32⟩ : BufTy).Contents (Elt F) → (⟨S8x1x512x512, .f32⟩ : BufTy).Contents (Elt F)),
    binary main_v21 main_v21 main_v22 (mulf : (⟨S8x1x512x512, .f32⟩ : BufTy).Contents (Elt F) → (⟨S8x1x512x512, .f32⟩ : BufTy).Contents (Elt F) → (⟨S8x1x512x512, .f32⟩ : BufTy).Contents (Elt F)),
    binary main_v22 main_arg0 main_v23 (mulf : (⟨S8x1x512x512, .f32⟩ : BufTy).Contents (Elt F) → (⟨S8x1x512x512, .f32⟩ : BufTy).Contents (Elt F) → (⟨S8x1x512x512, .f32⟩ : BufTy).Contents (Elt F)),
    nullary main_cst_3 (constant S_ .f32 0x3F800000#32),
    unary main_cst_3 main_v24 (broadcastInDim S8x1x512x512 ![] bcast_S_S8x1x512x512 : (⟨S_, .f32⟩ : BufTy).Contents (Elt F) → (⟨S8x1x512x512, .f32⟩ : BufTy).Contents (Elt F)),
    binary main_v24 main_v23 main_v25 (mulf : (⟨S8x1x512x512, .f32⟩ : BufTy).Contents (Elt F) → (⟨S8x1x512x512, .f32⟩ : BufTy).Contents (Elt F) → (⟨S8x1x512x512, .f32⟩ : BufTy).Contents (Elt F)),
    binary main_v25 main_v3 main_v26 (mulf : (⟨S8x1x512x512, .f32⟩ : BufTy).Contents (Elt F) → (⟨S8x1x512x512, .f32⟩ : BufTy).Contents (Elt F) → (⟨S8x1x512x512, .f32⟩ : BufTy).Contents (Elt F)),
    binary main_v23 main_v26 main_v27 (addf : (⟨S8x1x512x512, .f32⟩ : BufTy).Contents (Elt F) → (⟨S8x1x512x512, .f32⟩ : BufTy).Contents (Elt F) → (⟨S8x1x512x512, .f32⟩ : BufTy).Contents (Elt F)),
    nullary main_cst_4 (constant S_ .f32 0x00000000#32),
    binary main_v27 main_cst_4 main_v28 ((fun x v => Host.reduceAdd x v reducesTo_S8x1x512x512_S_d0_1_2_3 h_S_) : (⟨S8x1x512x512, .f32⟩ : BufTy).Contents (Elt F) → (⟨S_, .f32⟩ : BufTy).Contents (Elt F) → (⟨S_, .f32⟩ : BufTy).Contents (Elt F)),
    binary main_v20 main_v28 main_v29 (addf : (⟨S_, .f32⟩ : BufTy).Contents (Elt F) → (⟨S_, .f32⟩ : BufTy).Contents (Elt F) → (⟨S_, .f32⟩ : BufTy).Contents (Elt F)),
    binary main_arg8 main_arg3 main_v30 (subf : (⟨S8x1x512x512, .f32⟩ : BufTy).Contents (Elt F) → (⟨S8x1x512x512, .f32⟩ : BufTy).Contents (Elt F) → (⟨S8x1x512x512, .f32⟩ : BufTy).Contents (Elt F)),
    binary main_v30 main_v30 main_v31 (mulf : (⟨S8x1x512x512, .f32⟩ : BufTy).Contents (Elt F) → (⟨S8x1x512x512, .f32⟩ : BufTy).Contents (Elt F) → (⟨S8x1x512x512, .f32⟩ : BufTy).Contents (Elt F)),
    binary main_v31 main_arg0 main_v32 (mulf : (⟨S8x1x512x512, .f32⟩ : BufTy).Contents (Elt F) → (⟨S8x1x512x512, .f32⟩ : BufTy).Contents (Elt F) → (⟨S8x1x512x512, .f32⟩ : BufTy).Contents (Elt F)),
    nullary main_cst_5 (constant S_ .f32 0x3F800000#32),
    unary main_cst_5 main_v33 (broadcastInDim S8x1x512x512 ![] bcast_S_S8x1x512x512 : (⟨S_, .f32⟩ : BufTy).Contents (Elt F) → (⟨S8x1x512x512, .f32⟩ : BufTy).Contents (Elt F)),
    binary main_v33 main_v32 main_v34 (mulf : (⟨S8x1x512x512, .f32⟩ : BufTy).Contents (Elt F) → (⟨S8x1x512x512, .f32⟩ : BufTy).Contents (Elt F) → (⟨S8x1x512x512, .f32⟩ : BufTy).Contents (Elt F)),
    binary main_v34 main_v3 main_v35 (mulf : (⟨S8x1x512x512, .f32⟩ : BufTy).Contents (Elt F) → (⟨S8x1x512x512, .f32⟩ : BufTy).Contents (Elt F) → (⟨S8x1x512x512, .f32⟩ : BufTy).Contents (Elt F)),
    binary main_v32 main_v35 main_v36 (addf : (⟨S8x1x512x512, .f32⟩ : BufTy).Contents (Elt F) → (⟨S8x1x512x512, .f32⟩ : BufTy).Contents (Elt F) → (⟨S8x1x512x512, .f32⟩ : BufTy).Contents (Elt F)),
    nullary main_cst_6 (constant S_ .f32 0x00000000#32),
    binary main_v36 main_cst_6 main_v37 ((fun x v => Host.reduceAdd x v reducesTo_S8x1x512x512_S_d0_1_2_3 h_S_) : (⟨S8x1x512x512, .f32⟩ : BufTy).Contents (Elt F) → (⟨S_, .f32⟩ : BufTy).Contents (Elt F) → (⟨S_, .f32⟩ : BufTy).Contents (Elt F)),
    binary main_v29 main_v37 main_v38 (addf : (⟨S_, .f32⟩ : BufTy).Contents (Elt F) → (⟨S_, .f32⟩ : BufTy).Contents (Elt F) → (⟨S_, .f32⟩ : BufTy).Contents (Elt F)),
    nullary main_cst_7 (constant S_ .f32 0x40800000#32),
    binary main_v38 main_cst_7 main_v39 (Host.divf : (⟨S_, .f32⟩ : BufTy).Contents (Elt F) → (⟨S_, .f32⟩ : BufTy).Contents (Elt F) → (⟨S_, .f32⟩ : BufTy).Contents (Elt F)),
    binary main_arg9 main_arg2 main_v40 (subf : (⟨S8x1x512x512, .f32⟩ : BufTy).Contents (Elt F) → (⟨S8x1x512x512, .f32⟩ : BufTy).Contents (Elt F) → (⟨S8x1x512x512, .f32⟩ : BufTy).Contents (Elt F)),
    binary main_v40 main_v40 main_v41 (mulf : (⟨S8x1x512x512, .f32⟩ : BufTy).Contents (Elt F) → (⟨S8x1x512x512, .f32⟩ : BufTy).Contents (Elt F) → (⟨S8x1x512x512, .f32⟩ : BufTy).Contents (Elt F)),
    binary main_v41 main_arg0 main_v42 (mulf : (⟨S8x1x512x512, .f32⟩ : BufTy).Contents (Elt F) → (⟨S8x1x512x512, .f32⟩ : BufTy).Contents (Elt F) → (⟨S8x1x512x512, .f32⟩ : BufTy).Contents (Elt F)),
    nullary main_cst_8 (constant S_ .f32 0x3F800000#32),
    unary main_cst_8 main_v43 (broadcastInDim S8x1x512x512 ![] bcast_S_S8x1x512x512 : (⟨S_, .f32⟩ : BufTy).Contents (Elt F) → (⟨S8x1x512x512, .f32⟩ : BufTy).Contents (Elt F)),
    binary main_v43 main_v42 main_v44 (mulf : (⟨S8x1x512x512, .f32⟩ : BufTy).Contents (Elt F) → (⟨S8x1x512x512, .f32⟩ : BufTy).Contents (Elt F) → (⟨S8x1x512x512, .f32⟩ : BufTy).Contents (Elt F)),
    binary main_v44 main_v1 main_v45 (mulf : (⟨S8x1x512x512, .f32⟩ : BufTy).Contents (Elt F) → (⟨S8x1x512x512, .f32⟩ : BufTy).Contents (Elt F) → (⟨S8x1x512x512, .f32⟩ : BufTy).Contents (Elt F)),
    binary main_v42 main_v45 main_v46 (addf : (⟨S8x1x512x512, .f32⟩ : BufTy).Contents (Elt F) → (⟨S8x1x512x512, .f32⟩ : BufTy).Contents (Elt F) → (⟨S8x1x512x512, .f32⟩ : BufTy).Contents (Elt F)),
    nullary main_cst_9 (constant S_ .f32 0x00000000#32),
    binary main_v46 main_cst_9 main_v47 ((fun x v => Host.reduceAdd x v reducesTo_S8x1x512x512_S_d0_1_2_3 h_S_) : (⟨S8x1x512x512, .f32⟩ : BufTy).Contents (Elt F) → (⟨S_, .f32⟩ : BufTy).Contents (Elt F) → (⟨S_, .f32⟩ : BufTy).Contents (Elt F)),
    binary main_arg10 main_arg2 main_v48 (subf : (⟨S8x1x512x512, .f32⟩ : BufTy).Contents (Elt F) → (⟨S8x1x512x512, .f32⟩ : BufTy).Contents (Elt F) → (⟨S8x1x512x512, .f32⟩ : BufTy).Contents (Elt F)) ]

set_option maxRecDepth 8192 in
set_option maxHeartbeats 4000000 in
theorem part_eq0 (c : Dev nD) : main_part0 (F := F) c = seq ops0 := rfl

set_option maxRecDepth 8192 in
theorem ops0_sub : (ops0 : List (HloOp τ sig (Elt F))).Forall fun op => op.bufs ⊆ tcRefs τ sig :=
  ⟨binary_bufs_sub .., unary_bufs_sub .., binary_bufs_sub .., unary_bufs_sub .., binary_bufs_sub .., binary_bufs_sub .., binary_bufs_sub .., nullary_bufs_sub .., unary_bufs_sub .., binary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., binary_bufs_sub .., nullary_bufs_sub .., binary_bufs_sub .., binary_bufs_sub .., binary_bufs_sub .., binary_bufs_sub .., binary_bufs_sub .., nullary_bufs_sub .., unary_bufs_sub .., binary_bufs_sub .., binary_bufs_sub .., binary_bufs_sub .., nullary_bufs_sub .., binary_bufs_sub .., binary_bufs_sub .., binary_bufs_sub .., binary_bufs_sub .., binary_bufs_sub .., nullary_bufs_sub .., unary_bufs_sub .., binary_bufs_sub .., binary_bufs_sub .., binary_bufs_sub .., nullary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., binary_bufs_sub .., nullary_bufs_sub .., binary_bufs_sub .., binary_bufs_sub ..⟩

set_option maxRecDepth 8192 in
theorem ops0_fresh : ∀ op ∈ (ops0 : List (HloOp τ sig (Elt F))), op.fresh = ∅ :=
  List.forall_iff_forall_mem.1 (show (ops0 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window writes. -/
abbrev W0 : List (Ref sig .tc) := [main_v0, main_v1, main_v2, main_v3, main_v4, main_v5, main_v6, main_cst, main_v7, main_v8, main_v9, main_v10, main_cst_0, main_v11, main_v12, main_v13, main_v14, main_cst_1, main_v15, main_v16, main_v17, main_v18, main_cst_2, main_v19, main_v20, main_v21, main_v22, main_v23, main_cst_3, main_v24, main_v25, main_v26, main_v27, main_cst_4, main_v28, main_v29, main_v30, main_v31, main_v32, main_cst_5, main_v33, main_v34, main_v35, main_v36, main_cst_6, main_v37, main_v38, main_cst_7, main_v39, main_v40, main_v41, main_v42, main_cst_8, main_v43, main_v44, main_v45, main_v46, main_cst_9, main_v47, main_v48]

set_option maxRecDepth 8192 in
theorem ops0_writes : (ops0 : List (HloOp τ sig (Elt F))).Forall fun op =>
    op.writes ⊆ (W0.map (Proc.devRef (τ := τ) .tc)).toFinset :=
  ⟨wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide)⟩

/-- A buffer the window does not write keeps its contents through it. -/
theorem keep0 (W : Valuation τ sig (Elt F)) (r : Ref sig .tc) (h : r ∉ W0) :
    after ops0 W (Proc.devRef .tc r) = W (Proc.devRef .tc r) :=
  after_of_writes_sub ops0 W ops0_writes h

/-- The arguments are not written. -/
theorem args0 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) :
    ArgsAt (after ops0 W) x0 x1 x2 x3 x4 x5 x6 x7 x8 x9 x10 x11 x12 x13 x14 x15 x16 := by
  obtain ⟨a0, a1, a2, a3, a4, a5, a6, a7, a8, a9, a10, a11, a12, a13, a14, a15, a16⟩ := hA
  exact ⟨(keep0 W main_arg0 (by decide)).trans a0,
    (keep0 W main_arg1 (by decide)).trans a1,
    (keep0 W main_arg2 (by decide)).trans a2,
    (keep0 W main_arg3 (by decide)).trans a3,
    (keep0 W main_arg4 (by decide)).trans a4,
    (keep0 W main_arg5 (by decide)).trans a5,
    (keep0 W main_arg6 (by decide)).trans a6,
    (keep0 W main_arg7 (by decide)).trans a7,
    (keep0 W main_arg8 (by decide)).trans a8,
    (keep0 W main_arg9 (by decide)).trans a9,
    (keep0 W main_arg10 (by decide)).trans a10,
    (keep0 W main_arg11 (by decide)).trans a11,
    (keep0 W main_arg12 (by decide)).trans a12,
    (keep0 W main_arg13 (by decide)).trans a13,
    (keep0 W main_arg14 (by decide)).trans a14,
    (keep0 W main_arg15 (by decide)).trans a15,
    (keep0 W main_arg16 (by decide)).trans a16⟩

set_option maxRecDepth 8192 in
set_option maxHeartbeats 4000000 in
/-- What the window leaves, from what it found. -/
theorem step0 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) :
    Live1 (after ops0 W) x0 x2 x3 x4 x5 x6 x7 x8 x9 x10 x11 x12 x13 x14 x15 x16 := by
  obtain ⟨rfl, rfl, rfl, rfl, rfl, rfl, rfl, rfl, rfl, rfl, rfl, rfl, rfl, rfl, rfl, rfl, rfl⟩ := hA
  refine ⟨?_, ?_, ?_, ?_, ?_⟩
  · -- main_v1
    simp only [ops0]
    after_results_simp
    rfl
  · -- main_v3
    simp only [ops0]
    after_results_simp
    rfl
  · -- main_v39
    simp only [ops0]
    after_results_simp
    rfl
  · -- main_v47
    simp only [ops0]
    after_results_simp
    rfl
  · -- main_v48
    simp only [ops0]
    after_results_simp
    rfl

end Cert.ReferenceIdeal.RunParts

end
-- ==== Proof.RefRunPart1.lean ====
/- Window 1 of the reference program (operations 60 … 129 of 605): its operations as a list, that the printed
    window is that list run in order, which buffers it writes, and what it leaves in the buffers a later window reads, given
    what it found. -/
import proofs.«131438_j61692910239837_2_alg».proof.Proof.RefRunInv
import proofs.«131438_j61692910239837_2_alg».proof.Proof.RefRunLib

noncomputable section

namespace Cert.ReferenceIdeal.RunParts

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

set_option maxHeartbeats 4000000 in
/-- The window's operations, in order (a called function's six operations stand in its call's place). -/
abbrev ops1 : List (HloOp τ sig (Elt F)) :=
  [ binary main_v48 main_v48 main_v49 (mulf : (⟨S8x1x512x512, .f32⟩ : BufTy).Contents (Elt F) → (⟨S8x1x512x512, .f32⟩ : BufTy).Contents (Elt F) → (⟨S8x1x512x512, .f32⟩ : BufTy).Contents (Elt F)),
    binary main_v49 main_arg0 main_v50 (mulf : (⟨S8x1x512x512, .f32⟩ : BufTy).Contents (Elt F) → (⟨S8x1x512x512, .f32⟩ : BufTy).Contents (Elt F) → (⟨S8x1x512x512, .f32⟩ : BufTy).Contents (Elt F)),
    nullary main_cst_10 (constant S_ .f32 0x3F800000#32),
    unary main_cst_10 main_v51 (broadcastInDim S8x1x512x512 ![] bcast_S_S8x1x512x512 : (⟨S_, .f32⟩ : BufTy).Contents (Elt F) → (⟨S8x1x512x512, .f32⟩ : BufTy).Contents (Elt F)),
    binary main_v51 main_v50 main_v52 (mulf : (⟨S8x1x512x512, .f32⟩ : BufTy).Contents (Elt F) → (⟨S8x1x512x512, .f32⟩ : BufTy).Contents (Elt F) → (⟨S8x1x512x512, .f32⟩ : BufTy).Contents (Elt F)),
    binary main_v52 main_v1 main_v53 (mulf : (⟨S8x1x512x512, .f32⟩ : BufTy).Contents (Elt F) → (⟨S8x1x512x512, .f32⟩ : BufTy).Contents (Elt F) → (⟨S8x1x512x512, .f32⟩ : BufTy).Contents (Elt F)),
    binary main_v50 main_v53 main_v54 (addf : (⟨S8x1x512x512, .f32⟩ : BufTy).Contents (Elt F) → (⟨S8x1x512x512, .f32⟩ : BufTy).Contents (Elt F) → (⟨S8x1x512x512, .f32⟩ : BufTy).Contents (Elt F)),
    nullary main_cst_11 (constant S_ .f32 0x00000000#32),
    binary main_v54 main_cst_11 main_v55 ((fun x v => Host.reduceAdd x v reducesTo_S8x1x512x512_S_d0_1_2_3 h_S_) : (⟨S8x1x512x512, .f32⟩ : BufTy).Contents (Elt F) → (⟨S_, .f32⟩ : BufTy).Contents (Elt F) → (⟨S_, .f32⟩ : BufTy).Contents (Elt F)),
    binary main_v47 main_v55 main_v56 (addf : (⟨S_, .f32⟩ : BufTy).Contents (Elt F) → (⟨S_, .f32⟩ : BufTy).Contents (Elt F) → (⟨S_, .f32⟩ : BufTy).Contents (Elt F)),
    nullary main_cst_12 (constant S_ .f32 0x40000000#32),
    binary main_v56 main_cst_12 main_v57 (Host.divf : (⟨S_, .f32⟩ : BufTy).Contents (Elt F) → (⟨S_, .f32⟩ : BufTy).Contents (Elt F) → (⟨S_, .f32⟩ : BufTy).Contents (Elt F)),
    binary main_arg11 main_arg4 main_v58 (subf : (⟨S8x1x512x512, .f32⟩ : BufTy).Contents (Elt F) → (⟨S8x1x512x512, .f32⟩ : BufTy).Contents (Elt F) → (⟨S8x1x512x512, .f32⟩ : BufTy).Contents (Elt F)),
    binary main_v58 main_v58 main_v59 (mulf : (⟨S8x1x512x512, .f32⟩ : BufTy).Contents (Elt F) → (⟨S8x1x512x512, .f32⟩ : BufTy).Contents (Elt F) → (⟨S8x1x512x512, .f32⟩ : BufTy).Contents (Elt F)),
    binary main_v59 main_arg0 main_v60 (mulf : (⟨S8x1x512x512, .f32⟩ : BufTy).Contents (Elt F) → (⟨S8x1x512x512, .f32⟩ : BufTy).Contents (Elt F) → (⟨S8x1x512x512, .f32⟩ : BufTy).Contents (Elt F)),
    nullary main_cst_13 (constant S_ .f32 0x3F800000#32),
    unary main_cst_13 main_v61 (broadcastInDim S8x1x512x512 ![] bcast_S_S8x1x512x512 : (⟨S_, .f32⟩ : BufTy).Contents (Elt F) → (⟨S8x1x512x512, .f32⟩ : BufTy).Contents (Elt F)),
    binary main_v61 main_v60 main_v62 (mulf : (⟨S8x1x512x512, .f32⟩ : BufTy).Contents (Elt F) → (⟨S8x1x512x512, .f32⟩ : BufTy).Contents (Elt F) → (⟨S8x1x512x512, .f32⟩ : BufTy).Contents (Elt F)),
    binary main_v62 main_v3 main_v63 (mulf : (⟨S8x1x512x512, .f32⟩ : BufTy).Contents (Elt F) → (⟨S8x1x512x512, .f32⟩ : BufTy).Contents (Elt F) → (⟨S8x1x512x512, .f32⟩ : BufTy).Contents (Elt F)),
    binary main_v60 main_v63 main_v64 (addf : (⟨S8x1x512x512, .f32⟩ : BufTy).Contents (Elt F) → (⟨S8x1x512x512, .f32⟩ : BufTy).Contents (Elt F) → (⟨S8x1x512x512, .f32⟩ : BufTy).Contents (Elt F)),
    nullary main_cst_14 (constant S_ .f32 0x00000000#32),
    binary main_v64 main_cst_14 main_v65 ((fun x v => Host.reduceAdd x v reducesTo_S8x1x512x512_S_d0_1_2_3 h_S_) : (⟨S8x1x512x512, .f32⟩ : BufTy).Contents (Elt F) → (⟨S_, .f32⟩ : BufTy).Contents (Elt F) → (⟨S_, .f32⟩ : BufTy).Contents (Elt F)),
    binary main_arg12 main_arg4 main_v66 (subf : (⟨S8x1x512x512, .f32⟩ : BufTy).Contents (Elt F) → (⟨S8x1x512x512, .f32⟩ : BufTy).Contents (Elt F) → (⟨S8x1x512x512, .f32⟩ : BufTy).Contents (Elt F)),
    binary main_v66 main_v66 main_v67 (mulf : (⟨S8x1x512x512, .f32⟩ : BufTy).Contents (Elt F) → (⟨S8x1x512x512, .f32⟩ : BufTy).Contents (Elt F) → (⟨S8x1x512x512, .f32⟩ : BufTy).Contents (Elt F)),
    binary main_v67 main_arg0 main_v68 (mulf : (⟨S8x1x512x512, .f32⟩ : BufTy).Contents (Elt F) → (⟨S8x1x512x512, .f32⟩ : BufTy).Contents (Elt F) → (⟨S8x1x512x512, .f32⟩ : BufTy).Contents (Elt F)),
    nullary main_cst_15 (constant S_ .f32 0x3F800000#32),
    unary main_cst_15 main_v69 (broadcastInDim S8x1x512x512 ![] bcast_S_S8x1x512x512 : (⟨S_, .f32⟩ : BufTy).Contents (Elt F) → (⟨S8x1x512x512, .f32⟩ : BufTy).Contents (Elt F)),
    binary main_v69 main_v68 main_v70 (mulf : (⟨S8x1x512x512, .f32⟩ : BufTy).Contents (Elt F) → (⟨S8x1x512x512, .f32⟩ : BufTy).Contents (Elt F) → (⟨S8x1x512x512, .f32⟩ : BufTy).Contents (Elt F)),
    binary main_v70 main_v3 main_v71 (mulf : (⟨S8x1x512x512, .f32⟩ : BufTy).Contents (Elt F) → (⟨S8x1x512x512, .f32⟩ : BufTy).Contents (Elt F) → (⟨S8x1x512x512, .f32⟩ : BufTy).Contents (Elt F)),
    binary main_v68 main_v71 main_v72 (addf : (⟨S8x1x512x512, .f32⟩ : BufTy).Contents (Elt F) → (⟨S8x1x512x512, .f32⟩ : BufTy).Contents (Elt F) → (⟨S8x1x512x512, .f32⟩ : BufTy).Contents (Elt F)),
    nullary main_cst_16 (constant S_ .f32 0x00000000#32),
    binary main_v72 main_cst_16 main_v73 ((fun x v => Host.reduceAdd x v reducesTo_S8x1x512x512_S_d0_1_2_3 h_S_) : (⟨S8x1x512x512, .f32⟩ : BufTy).Contents (Elt F) → (⟨S_, .f32⟩ : BufTy).Contents (Elt F) → (⟨S_, .f32⟩ : BufTy).Contents (Elt F)),
    binary main_v65 main_v73 main_v74 (addf : (⟨S_, .f32⟩ : BufTy).Contents (Elt F) → (⟨S_, .f32⟩ : BufTy).Contents (Elt F) → (⟨S_, .f32⟩ : BufTy).Contents (Elt F)),
    nullary main_cst_17 (constant S_ .f32 0x40000000#32),
    binary main_v74 main_cst_17 main_v75 (Host.divf : (⟨S_, .f32⟩ : BufTy).Contents (Elt F) → (⟨S_, .f32⟩ : BufTy).Contents (Elt F) → (⟨S_, .f32⟩ : BufTy).Contents (Elt F)),
    unary main_arg13 main_v76 ((extractStridedSlice S8x1x511x511 ![0, 0, 1, 1] · slices_S8x9x512x512_S8x1x511x511_0_0_1_1) : (⟨S8x9x512x512, .f32⟩ : BufTy).Contents (Elt F) → (⟨S8x1x511x511, .f32⟩ : BufTy).Contents (Elt F)),
    reshape main_v76 main_v77 rfl shapeCasts_S8x1x511x511_S8x511x511,
    unary main_arg14 main_v78 ((extractStridedSlice S8x1x511x511 ![0, 8, 0, 0] · slices_S8x9x512x512_S8x1x511x511_0_8_0_0) : (⟨S8x9x512x512, .f32⟩ : BufTy).Contents (Elt F) → (⟨S8x1x511x511, .f32⟩ : BufTy).Contents (Elt F)),
    reshape main_v78 main_v79 rfl shapeCasts_S8x1x511x511_S8x511x511,
    unary main_arg0 main_v80 ((extractStridedSlice S8x1x511x511 ![0, 0, 1, 1] · slices_S8x1x512x512_S8x1x511x511_0_0_1_1) : (⟨S8x1x512x512, .f32⟩ : BufTy).Contents (Elt F) → (⟨S8x1x511x511, .f32⟩ : BufTy).Contents (Elt F)),
    reshape main_v80 main_v81 rfl shapeCasts_S8x1x511x511_S8x511x511,
    nullary main_cst_18 (constant S_ .f32 0x2EDBE6FF#32),
    nullary main_cst_19 (constant S_ .f32 0x3F800000#32),
    TRef.unary (TRef.of (T := ⟨S_, .f32⟩) main_cst_18) (TRef.of (T := ⟨S_, .f32⟩) main_call0_v0) id,
    TRef.unary (TRef.of (T := ⟨S_, .f32⟩) main_call0_v0) (TRef.of (T := ⟨S8x511x511, .f32⟩) main_call0_v1) (broadcastInDim S8x511x511 ![] bcast_S_S8x511x511),
    TRef.binary (TRef.of (T := ⟨S8x511x511, .f32⟩) main_call0_v1) (TRef.of (T := ⟨S8x511x511, .f32⟩) main_v77) (TRef.of (T := ⟨S8x511x511, .f32⟩) main_call0_v2) maximumf,
    TRef.unary (TRef.of (T := ⟨S_, .f32⟩) main_cst_19) (TRef.of (T := ⟨S_, .f32⟩) main_call0_v3) id,
    TRef.unary (TRef.of (T := ⟨S_, .f32⟩) main_call0_v3) (TRef.of (T := ⟨S8x511x511, .f32⟩) main_call0_v4) (broadcastInDim S8x511x511 ![] bcast_S_S8x511x511),
    TRef.binary (TRef.of (T := ⟨S8x511x511, .f32⟩) main_call0_v4) (TRef.of (T := ⟨S8x511x511, .f32⟩) main_call0_v2) (TRef.of (T := ⟨S8x511x511, .f32⟩) main_v82) minimumf,
    nullary main_cst_20 (constant S_ .f32 0x2EDBE6FF#32),
    nullary main_cst_21 (constant S_ .f32 0x3F800000#32),
    TRef.unary (TRef.of (T := ⟨S_, .f32⟩) main_cst_20) (TRef.of (T := ⟨S_, .f32⟩) main_call1_v0) id,
    TRef.unary (TRef.of (T := ⟨S_, .f32⟩) main_call1_v0) (TRef.of (T := ⟨S8x511x511, .f32⟩) main_call1_v1) (broadcastInDim S8x511x511 ![] bcast_S_S8x511x511),
    TRef.binary (TRef.of (T := ⟨S8x511x511, .f32⟩) main_call1_v1) (TRef.of (T := ⟨S8x511x511, .f32⟩) main_v79) (TRef.of (T := ⟨S8x511x511, .f32⟩) main_call1_v2) maximumf,
    TRef.unary (TRef.of (T := ⟨S_, .f32⟩) main_cst_21) (TRef.of (T := ⟨S_, .f32⟩) main_call1_v3) id,
    TRef.unary (TRef.of (T := ⟨S_, .f32⟩) main_call1_v3) (TRef.of (T := ⟨S8x511x511, .f32⟩) main_call1_v4) (broadcastInDim S8x511x511 ![] bcast_S_S8x511x511),
    TRef.binary (TRef.of (T := ⟨S8x511x511, .f32⟩) main_call1_v4) (TRef.of (T := ⟨S8x511x511, .f32⟩) main_call1_v2) (TRef.of (T := ⟨S8x511x511, .f32⟩) main_v83) minimumf,
    binary main_v82 main_v83 main_v84 (subf : (⟨S8x511x511, .f32⟩ : BufTy).Contents (Elt F) → (⟨S8x511x511, .f32⟩ : BufTy).Contents (Elt F) → (⟨S8x511x511, .f32⟩ : BufTy).Contents (Elt F)),
    binary main_v84 main_v84 main_v85 (mulf : (⟨S8x511x511, .f32⟩ : BufTy).Contents (Elt F) → (⟨S8x511x511, .f32⟩ : BufTy).Contents (Elt F) → (⟨S8x511x511, .f32⟩ : BufTy).Contents (Elt F)),
    binary main_v85 main_v81 main_v86 (mulf : (⟨S8x511x511, .f32⟩ : BufTy).Contents (Elt F) → (⟨S8x511x511, .f32⟩ : BufTy).Contents (Elt F) → (⟨S8x511x511, .f32⟩ : BufTy).Contents (Elt F)),
    nullary main_cst_22 (constant S_ .f32 0x00000000#32),
    binary main_v86 main_cst_22 main_v87 ((fun x v => Host.reduceAdd x v reducesTo_S8x511x511_S_d0_1_2 h_S_) : (⟨S8x511x511, .f32⟩ : BufTy).Contents (Elt F) → (⟨S_, .f32⟩ : BufTy).Contents (Elt F) → (⟨S_, .f32⟩ : BufTy).Contents (Elt F)),
    nullary main_cst_23 (constant S_ .f32 0x00000000#32),
    binary main_cst_23 main_v87 main_v88 (addf : (⟨S_, .f32⟩ : BufTy).Contents (Elt F) → (⟨S_, .f32⟩ : BufTy).Contents (Elt F) → (⟨S_, .f32⟩ : BufTy).Contents (Elt F)),
    unary main_arg13 main_v89 ((extractStridedSlice S8x1x511x512 ![0, 1, 1, 0] · slices_S8x9x512x512_S8x1x511x512_0_1_1_0) : (⟨S8x9x512x512, .f32⟩ : BufTy).Contents (Elt F) → (⟨S8x1x511x512, .f32⟩ : BufTy).Contents (Elt F)),
    reshape main_v89 main_v90 rfl shapeCasts_S8x1x511x512_S8x511x512,
    unary main_arg14 main_v91 ((extractStridedSlice S8x1x511x512 ![0, 7, 0, 0] · slices_S8x9x512x512_S8x1x511x512_0_7_0_0) : (⟨S8x9x512x512, .f32⟩ : BufTy).Contents (Elt F) → (⟨S8x1x511x512, .f32⟩ : BufTy).Contents (Elt F)),
    reshape main_v91 main_v92 rfl shapeCasts_S8x1x511x512_S8x511x512,
    unary main_arg0 main_v93 ((extractStridedSlice S8x1x511x512 ![0, 0, 1, 0] · slices_S8x1x512x512_S8x1x511x512_0_0_1_0) : (⟨S8x1x512x512, .f32⟩ : BufTy).Contents (Elt F) → (⟨S8x1x511x512, .f32⟩ : BufTy).Contents (Elt F)),
    reshape main_v93 main_v94 rfl shapeCasts_S8x1x511x512_S8x511x512 ]

set_option maxRecDepth 8192 in
set_option maxHeartbeats 4000000 in
theorem part_eq1 (c : Dev nD) : main_part1 (F := F) c = seq ops1 := rfl

set_option maxRecDepth 8192 in
theorem ops1_sub : (ops1 : List (HloOp τ sig (Elt F))).Forall fun op => op.bufs ⊆ tcRefs τ sig :=
  ⟨binary_bufs_sub .., binary_bufs_sub .., nullary_bufs_sub .., unary_bufs_sub .., binary_bufs_sub .., binary_bufs_sub .., binary_bufs_sub .., nullary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., binary_bufs_sub .., nullary_bufs_sub .., binary_bufs_sub .., binary_bufs_sub .., binary_bufs_sub .., binary_bufs_sub .., nullary_bufs_sub .., unary_bufs_sub .., binary_bufs_sub .., binary_bufs_sub .., binary_bufs_sub .., nullary_bufs_sub .., binary_bufs_sub .., binary_bufs_sub .., nullary_bufs_sub .., binary_bufs_sub .., unary_bufs_sub .., reshape_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., nullary_bufs_sub .., binary_bufs_sub .., unary_bufs_sub .., reshape_bufs_sub .., unary_bufs_sub .., reshape_bufs_sub .., unary_bufs_sub .., reshape_bufs_sub ..⟩

set_option maxRecDepth 8192 in
theorem ops1_fresh : ∀ op ∈ (ops1 : List (HloOp τ sig (Elt F))), op.fresh = ∅ :=
  List.forall_iff_forall_mem.1 (show (ops1 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window writes. -/
abbrev W1 : List (Ref sig .tc) := [main_v49, main_v50, main_cst_10, main_v51, main_v52, main_v53, main_v54, main_cst_11, main_v55, main_v56, main_cst_12, main_v57, main_v58, main_v59, main_v60, main_cst_13, main_v61, main_v62, main_v63, main_v64, main_cst_14, main_v65, main_v66, main_v67, main_v68, main_cst_15, main_v69, main_v70, main_v71, main_v72, main_cst_16, main_v73, main_v74, main_cst_17, main_v75, main_v76, main_v77, main_v78, main_v79, main_v80, main_v81, main_cst_18, main_cst_19, main_call0_v0, main_call0_v1, main_call0_v2, main_call0_v3, main_call0_v4, main_v82, main_cst_20, main_cst_21, main_call1_v0, main_call1_v1, main_call1_v2, main_call1_v3, main_call1_v4, main_v83, main_v84, main_v85, main_v86, main_cst_22, main_v87, main_cst_23, main_v88, main_v89, main_v90, main_v91, main_v92, main_v93, main_v94]

set_option maxRecDepth 8192 in
theorem ops1_writes : (ops1 : List (HloOp τ sig (Elt F))).Forall fun op =>
    op.writes ⊆ (W1.map (Proc.devRef (τ := τ) .tc)).toFinset :=
  ⟨wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide)⟩

/-- A buffer the window does not write keeps its contents through it. -/
theorem keep1 (W : Valuation τ sig (Elt F)) (r : Ref sig .tc) (h : r ∉ W1) :
    after ops1 W (Proc.devRef .tc r) = W (Proc.devRef .tc r) :=
  after_of_writes_sub ops1 W ops1_writes h

/-- The arguments are not written. -/
theorem args1 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) :
    ArgsAt (after ops1 W) x0 x1 x2 x3 x4 x5 x6 x7 x8 x9 x10 x11 x12 x13 x14 x15 x16 := by
  obtain ⟨a0, a1, a2, a3, a4, a5, a6, a7, a8, a9, a10, a11, a12, a13, a14, a15, a16⟩ := hA
  exact ⟨(keep1 W main_arg0 (by decide)).trans a0,
    (keep1 W main_arg1 (by decide)).trans a1,
    (keep1 W main_arg2 (by decide)).trans a2,
    (keep1 W main_arg3 (by decide)).trans a3,
    (keep1 W main_arg4 (by decide)).trans a4,
    (keep1 W main_arg5 (by decide)).trans a5,
    (keep1 W main_arg6 (by decide)).trans a6,
    (keep1 W main_arg7 (by decide)).trans a7,
    (keep1 W main_arg8 (by decide)).trans a8,
    (keep1 W main_arg9 (by decide)).trans a9,
    (keep1 W main_arg10 (by decide)).trans a10,
    (keep1 W main_arg11 (by decide)).trans a11,
    (keep1 W main_arg12 (by decide)).trans a12,
    (keep1 W main_arg13 (by decide)).trans a13,
    (keep1 W main_arg14 (by decide)).trans a14,
    (keep1 W main_arg15 (by decide)).trans a15,
    (keep1 W main_arg16 (by decide)).trans a16⟩

set_option maxRecDepth 8192 in
set_option maxHeartbeats 4000000 in
/-- What the window leaves, from what it found. -/
theorem step1 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) (hL : Live1 W x0 x2 x3 x4 x5 x6 x7 x8 x9 x10 x11 x12 x13 x14 x15 x16) :
    Live2 (after ops1 W) x0 x2 x3 x4 x5 x6 x7 x8 x9 x10 x11 x12 x13 x14 x15 x16 := by
  obtain ⟨rfl, rfl, rfl, rfl, rfl, rfl, rfl, rfl, rfl, rfl, rfl, rfl, rfl, rfl, rfl, rfl, rfl⟩ := hA
  obtain ⟨h_v1, h_v3, h_v39, h_v47, h_v48⟩ := hL
  refine ⟨?_, ?_, ?_, ?_, ?_, ?_, ?_⟩
  · exact (keep1 W main_v39 (by decide)).trans h_v39
  · -- main_v57
    simp only [ops1]
    after_results_simp
    simp only [h_v1, h_v48, h_v47] <;> rfl
  · -- main_v75
    simp only [ops1]
    after_results_simp
    simp only [h_v3] <;> rfl
  · -- main_v88
    simp only [ops1]
    after_results_simp
    rfl
  · -- main_v90
    simp only [ops1]
    after_results_simp
    rfl
  · -- main_v92
    simp only [ops1]
    after_results_simp
    rfl
  · -- main_v94
    simp only [ops1]
    after_results_simp
    rfl

end Cert.ReferenceIdeal.RunParts

end
-- ==== Proof.RefRunPart2.lean ====
/- Window 2 of the reference program (operations 130 … 229 of 605): its operations as a list, that the printed
    window is that list run in order, which buffers it writes, and what it leaves in the buffers a later window reads, given
    what it found. -/
import proofs.«131438_j61692910239837_2_alg».proof.Proof.RefRunInv
import proofs.«131438_j61692910239837_2_alg».proof.Proof.RefRunLib

noncomputable section

namespace Cert.ReferenceIdeal.RunParts

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

set_option maxHeartbeats 4000000 in
/-- The window's operations, in order (a called function's six operations stand in its call's place). -/
abbrev ops2 : List (HloOp τ sig (Elt F)) :=
  [ nullary main_cst_24 (constant S_ .f32 0x2EDBE6FF#32),
    nullary main_cst_25 (constant S_ .f32 0x3F800000#32),
    TRef.unary (TRef.of (T := ⟨S_, .f32⟩) main_cst_24) (TRef.of (T := ⟨S_, .f32⟩) main_call2_v0) id,
    TRef.unary (TRef.of (T := ⟨S_, .f32⟩) main_call2_v0) (TRef.of (T := ⟨S8x511x512, .f32⟩) main_call2_v1) (broadcastInDim S8x511x512 ![] bcast_S_S8x511x512),
    TRef.binary (TRef.of (T := ⟨S8x511x512, .f32⟩) main_call2_v1) (TRef.of (T := ⟨S8x511x512, .f32⟩) main_v90) (TRef.of (T := ⟨S8x511x512, .f32⟩) main_call2_v2) maximumf,
    TRef.unary (TRef.of (T := ⟨S_, .f32⟩) main_cst_25) (TRef.of (T := ⟨S_, .f32⟩) main_call2_v3) id,
    TRef.unary (TRef.of (T := ⟨S_, .f32⟩) main_call2_v3) (TRef.of (T := ⟨S8x511x512, .f32⟩) main_call2_v4) (broadcastInDim S8x511x512 ![] bcast_S_S8x511x512),
    TRef.binary (TRef.of (T := ⟨S8x511x512, .f32⟩) main_call2_v4) (TRef.of (T := ⟨S8x511x512, .f32⟩) main_call2_v2) (TRef.of (T := ⟨S8x511x512, .f32⟩) main_v95) minimumf,
    nullary main_cst_26 (constant S_ .f32 0x2EDBE6FF#32),
    nullary main_cst_27 (constant S_ .f32 0x3F800000#32),
    TRef.unary (TRef.of (T := ⟨S_, .f32⟩) main_cst_26) (TRef.of (T := ⟨S_, .f32⟩) main_call3_v0) id,
    TRef.unary (TRef.of (T := ⟨S_, .f32⟩) main_call3_v0) (TRef.of (T := ⟨S8x511x512, .f32⟩) main_call3_v1) (broadcastInDim S8x511x512 ![] bcast_S_S8x511x512),
    TRef.binary (TRef.of (T := ⟨S8x511x512, .f32⟩) main_call3_v1) (TRef.of (T := ⟨S8x511x512, .f32⟩) main_v92) (TRef.of (T := ⟨S8x511x512, .f32⟩) main_call3_v2) maximumf,
    TRef.unary (TRef.of (T := ⟨S_, .f32⟩) main_cst_27) (TRef.of (T := ⟨S_, .f32⟩) main_call3_v3) id,
    TRef.unary (TRef.of (T := ⟨S_, .f32⟩) main_call3_v3) (TRef.of (T := ⟨S8x511x512, .f32⟩) main_call3_v4) (broadcastInDim S8x511x512 ![] bcast_S_S8x511x512),
    TRef.binary (TRef.of (T := ⟨S8x511x512, .f32⟩) main_call3_v4) (TRef.of (T := ⟨S8x511x512, .f32⟩) main_call3_v2) (TRef.of (T := ⟨S8x511x512, .f32⟩) main_v96) minimumf,
    binary main_v95 main_v96 main_v97 (subf : (⟨S8x511x512, .f32⟩ : BufTy).Contents (Elt F) → (⟨S8x511x512, .f32⟩ : BufTy).Contents (Elt F) → (⟨S8x511x512, .f32⟩ : BufTy).Contents (Elt F)),
    binary main_v97 main_v97 main_v98 (mulf : (⟨S8x511x512, .f32⟩ : BufTy).Contents (Elt F) → (⟨S8x511x512, .f32⟩ : BufTy).Contents (Elt F) → (⟨S8x511x512, .f32⟩ : BufTy).Contents (Elt F)),
    binary main_v98 main_v94 main_v99 (mulf : (⟨S8x511x512, .f32⟩ : BufTy).Contents (Elt F) → (⟨S8x511x512, .f32⟩ : BufTy).Contents (Elt F) → (⟨S8x511x512, .f32⟩ : BufTy).Contents (Elt F)),
    nullary main_cst_28 (constant S_ .f32 0x00000000#32),
    binary main_v99 main_cst_28 main_v100 ((fun x v => Host.reduceAdd x v reducesTo_S8x511x512_S_d0_1_2 h_S_) : (⟨S8x511x512, .f32⟩ : BufTy).Contents (Elt F) → (⟨S_, .f32⟩ : BufTy).Contents (Elt F) → (⟨S_, .f32⟩ : BufTy).Contents (Elt F)),
    binary main_v88 main_v100 main_v101 (addf : (⟨S_, .f32⟩ : BufTy).Contents (Elt F) → (⟨S_, .f32⟩ : BufTy).Contents (Elt F) → (⟨S_, .f32⟩ : BufTy).Contents (Elt F)),
    unary main_arg13 main_v102 ((extractStridedSlice S8x1x511x511 ![0, 2, 1, 0] · slices_S8x9x512x512_S8x1x511x511_0_2_1_0) : (⟨S8x9x512x512, .f32⟩ : BufTy).Contents (Elt F) → (⟨S8x1x511x511, .f32⟩ : BufTy).Contents (Elt F)),
    reshape main_v102 main_v103 rfl shapeCasts_S8x1x511x511_S8x511x511,
    unary main_arg14 main_v104 ((extractStridedSlice S8x1x511x511 ![0, 6, 0, 1] · slices_S8x9x512x512_S8x1x511x511_0_6_0_1) : (⟨S8x9x512x512, .f32⟩ : BufTy).Contents (Elt F) → (⟨S8x1x511x511, .f32⟩ : BufTy).Contents (Elt F)),
    reshape main_v104 main_v105 rfl shapeCasts_S8x1x511x511_S8x511x511,
    unary main_arg0 main_v106 ((extractStridedSlice S8x1x511x511 ![0, 0, 1, 0] · slices_S8x1x512x512_S8x1x511x511_0_0_1_0) : (⟨S8x1x512x512, .f32⟩ : BufTy).Contents (Elt F) → (⟨S8x1x511x511, .f32⟩ : BufTy).Contents (Elt F)),
    reshape main_v106 main_v107 rfl shapeCasts_S8x1x511x511_S8x511x511,
    nullary main_cst_29 (constant S_ .f32 0x2EDBE6FF#32),
    nullary main_cst_30 (constant S_ .f32 0x3F800000#32),
    TRef.unary (TRef.of (T := ⟨S_, .f32⟩) main_cst_29) (TRef.of (T := ⟨S_, .f32⟩) main_call4_v0) id,
    TRef.unary (TRef.of (T := ⟨S_, .f32⟩) main_call4_v0) (TRef.of (T := ⟨S8x511x511, .f32⟩) main_call4_v1) (broadcastInDim S8x511x511 ![] bcast_S_S8x511x511),
    TRef.binary (TRef.of (T := ⟨S8x511x511, .f32⟩) main_call4_v1) (TRef.of (T := ⟨S8x511x511, .f32⟩) main_v103) (TRef.of (T := ⟨S8x511x511, .f32⟩) main_call4_v2) maximumf,
    TRef.unary (TRef.of (T := ⟨S_, .f32⟩) main_cst_30) (TRef.of (T := ⟨S_, .f32⟩) main_call4_v3) id,
    TRef.unary (TRef.of (T := ⟨S_, .f32⟩) main_call4_v3) (TRef.of (T := ⟨S8x511x511, .f32⟩) main_call4_v4) (broadcastInDim S8x511x511 ![] bcast_S_S8x511x511),
    TRef.binary (TRef.of (T := ⟨S8x511x511, .f32⟩) main_call4_v4) (TRef.of (T := ⟨S8x511x511, .f32⟩) main_call4_v2) (TRef.of (T := ⟨S8x511x511, .f32⟩) main_v108) minimumf,
    nullary main_cst_31 (constant S_ .f32 0x2EDBE6FF#32),
    nullary main_cst_32 (constant S_ .f32 0x3F800000#32),
    TRef.unary (TRef.of (T := ⟨S_, .f32⟩) main_cst_31) (TRef.of (T := ⟨S_, .f32⟩) main_call5_v0) id,
    TRef.unary (TRef.of (T := ⟨S_, .f32⟩) main_call5_v0) (TRef.of (T := ⟨S8x511x511, .f32⟩) main_call5_v1) (broadcastInDim S8x511x511 ![] bcast_S_S8x511x511),
    TRef.binary (TRef.of (T := ⟨S8x511x511, .f32⟩) main_call5_v1) (TRef.of (T := ⟨S8x511x511, .f32⟩) main_v105) (TRef.of (T := ⟨S8x511x511, .f32⟩) main_call5_v2) maximumf,
    TRef.unary (TRef.of (T := ⟨S_, .f32⟩) main_cst_32) (TRef.of (T := ⟨S_, .f32⟩) main_call5_v3) id,
    TRef.unary (TRef.of (T := ⟨S_, .f32⟩) main_call5_v3) (TRef.of (T := ⟨S8x511x511, .f32⟩) main_call5_v4) (broadcastInDim S8x511x511 ![] bcast_S_S8x511x511),
    TRef.binary (TRef.of (T := ⟨S8x511x511, .f32⟩) main_call5_v4) (TRef.of (T := ⟨S8x511x511, .f32⟩) main_call5_v2) (TRef.of (T := ⟨S8x511x511, .f32⟩) main_v109) minimumf,
    binary main_v108 main_v109 main_v110 (subf : (⟨S8x511x511, .f32⟩ : BufTy).Contents (Elt F) → (⟨S8x511x511, .f32⟩ : BufTy).Contents (Elt F) → (⟨S8x511x511, .f32⟩ : BufTy).Contents (Elt F)),
    binary main_v110 main_v110 main_v111 (mulf : (⟨S8x511x511, .f32⟩ : BufTy).Contents (Elt F) → (⟨S8x511x511, .f32⟩ : BufTy).Contents (Elt F) → (⟨S8x511x511, .f32⟩ : BufTy).Contents (Elt F)),
    binary main_v111 main_v107 main_v112 (mulf : (⟨S8x511x511, .f32⟩ : BufTy).Contents (Elt F) → (⟨S8x511x511, .f32⟩ : BufTy).Contents (Elt F) → (⟨S8x511x511, .f32⟩ : BufTy).Contents (Elt F)),
    nullary main_cst_33 (constant S_ .f32 0x00000000#32),
    binary main_v112 main_cst_33 main_v113 ((fun x v => Host.reduceAdd x v reducesTo_S8x511x511_S_d0_1_2 h_S_) : (⟨S8x511x511, .f32⟩ : BufTy).Contents (Elt F) → (⟨S_, .f32⟩ : BufTy).Contents (Elt F) → (⟨S_, .f32⟩ : BufTy).Contents (Elt F)),
    binary main_v101 main_v113 main_v114 (addf : (⟨S_, .f32⟩ : BufTy).Contents (Elt F) → (⟨S_, .f32⟩ : BufTy).Contents (Elt F) → (⟨S_, .f32⟩ : BufTy).Contents (Elt F)),
    unary main_arg13 main_v115 ((extractStridedSlice S8x1x512x511 ![0, 3, 0, 1] · slices_S8x9x512x512_S8x1x512x511_0_3_0_1) : (⟨S8x9x512x512, .f32⟩ : BufTy).Contents (Elt F) → (⟨S8x1x512x511, .f32⟩ : BufTy).Contents (Elt F)),
    reshape main_v115 main_v116 rfl shapeCasts_S8x1x512x511_S8x512x511,
    unary main_arg14 main_v117 ((extractStridedSlice S8x1x512x511 ![0, 5, 0, 0] · slices_S8x9x512x512_S8x1x512x511_0_5_0_0) : (⟨S8x9x512x512, .f32⟩ : BufTy).Contents (Elt F) → (⟨S8x1x512x511, .f32⟩ : BufTy).Contents (Elt F)),
    reshape main_v117 main_v118 rfl shapeCasts_S8x1x512x511_S8x512x511,
    unary main_arg0 main_v119 ((extractStridedSlice S8x1x512x511 ![0, 0, 0, 1] · slices_S8x1x512x512_S8x1x512x511_0_0_0_1) : (⟨S8x1x512x512, .f32⟩ : BufTy).Contents (Elt F) → (⟨S8x1x512x511, .f32⟩ : BufTy).Contents (Elt F)),
    reshape main_v119 main_v120 rfl shapeCasts_S8x1x512x511_S8x512x511,
    nullary main_cst_34 (constant S_ .f32 0x2EDBE6FF#32),
    nullary main_cst_35 (constant S_ .f32 0x3F800000#32),
    TRef.unary (TRef.of (T := ⟨S_, .f32⟩) main_cst_34) (TRef.of (T := ⟨S_, .f32⟩) main_call6_v0) id,
    TRef.unary (TRef.of (T := ⟨S_, .f32⟩) main_call6_v0) (TRef.of (T := ⟨S8x512x511, .f32⟩) main_call6_v1) (broadcastInDim S8x512x511 ![] bcast_S_S8x512x511),
    TRef.binary (TRef.of (T := ⟨S8x512x511, .f32⟩) main_call6_v1) (TRef.of (T := ⟨S8x512x511, .f32⟩) main_v116) (TRef.of (T := ⟨S8x512x511, .f32⟩) main_call6_v2) maximumf,
    TRef.unary (TRef.of (T := ⟨S_, .f32⟩) main_cst_35) (TRef.of (T := ⟨S_, .f32⟩) main_call6_v3) id,
    TRef.unary (TRef.of (T := ⟨S_, .f32⟩) main_call6_v3) (TRef.of (T := ⟨S8x512x511, .f32⟩) main_call6_v4) (broadcastInDim S8x512x511 ![] bcast_S_S8x512x511),
    TRef.binary (TRef.of (T := ⟨S8x512x511, .f32⟩) main_call6_v4) (TRef.of (T := ⟨S8x512x511, .f32⟩) main_call6_v2) (TRef.of (T := ⟨S8x512x511, .f32⟩) main_v121) minimumf,
    nullary main_cst_36 (constant S_ .f32 0x2EDBE6FF#32),
    nullary main_cst_37 (constant S_ .f32 0x3F800000#32),
    TRef.unary (TRef.of (T := ⟨S_, .f32⟩) main_cst_36) (TRef.of (T := ⟨S_, .f32⟩) main_call7_v0) id,
    TRef.unary (TRef.of (T := ⟨S_, .f32⟩) main_call7_v0) (TRef.of (T := ⟨S8x512x511, .f32⟩) main_call7_v1) (broadcastInDim S8x512x511 ![] bcast_S_S8x512x511),
    TRef.binary (TRef.of (T := ⟨S8x512x511, .f32⟩) main_call7_v1) (TRef.of (T := ⟨S8x512x511, .f32⟩) main_v118) (TRef.of (T := ⟨S8x512x511, .f32⟩) main_call7_v2) maximumf,
    TRef.unary (TRef.of (T := ⟨S_, .f32⟩) main_cst_37) (TRef.of (T := ⟨S_, .f32⟩) main_call7_v3) id,
    TRef.unary (TRef.of (T := ⟨S_, .f32⟩) main_call7_v3) (TRef.of (T := ⟨S8x512x511, .f32⟩) main_call7_v4) (broadcastInDim S8x512x511 ![] bcast_S_S8x512x511),
    TRef.binary (TRef.of (T := ⟨S8x512x511, .f32⟩) main_call7_v4) (TRef.of (T := ⟨S8x512x511, .f32⟩) main_call7_v2) (TRef.of (T := ⟨S8x512x511, .f32⟩) main_v122) minimumf,
    binary main_v121 main_v122 main_v123 (subf : (⟨S8x512x511, .f32⟩ : BufTy).Contents (Elt F) → (⟨S8x512x511, .f32⟩ : BufTy).Contents (Elt F) → (⟨S8x512x511, .f32⟩ : BufTy).Contents (Elt F)),
    binary main_v123 main_v123 main_v124 (mulf : (⟨S8x512x511, .f32⟩ : BufTy).Contents (Elt F) → (⟨S8x512x511, .f32⟩ : BufTy).Contents (Elt F) → (⟨S8x512x511, .f32⟩ : BufTy).Contents (Elt F)),
    binary main_v124 main_v120 main_v125 (mulf : (⟨S8x512x511, .f32⟩ : BufTy).Contents (Elt F) → (⟨S8x512x511, .f32⟩ : BufTy).Contents (Elt F) → (⟨S8x512x511, .f32⟩ : BufTy).Contents (Elt F)),
    nullary main_cst_38 (constant S_ .f32 0x00000000#32),
    binary main_v125 main_cst_38 main_v126 ((fun x v => Host.reduceAdd x v reducesTo_S8x512x511_S_d0_1_2 h_S_) : (⟨S8x512x511, .f32⟩ : BufTy).Contents (Elt F) → (⟨S_, .f32⟩ : BufTy).Contents (Elt F) → (⟨S_, .f32⟩ : BufTy).Contents (Elt F)),
    binary main_v114 main_v126 main_v127 (addf : (⟨S_, .f32⟩ : BufTy).Contents (Elt F) → (⟨S_, .f32⟩ : BufTy).Contents (Elt F) → (⟨S_, .f32⟩ : BufTy).Contents (Elt F)),
    unary main_arg13 main_v128 ((extractStridedSlice S8x1x512x512 ![0, 4, 0, 0] · slices_S8x9x512x512_S8x1x512x512_0_4_0_0) : (⟨S8x9x512x512, .f32⟩ : BufTy).Contents (Elt F) → (⟨S8x1x512x512, .f32⟩ : BufTy).Contents (Elt F)),
    reshape main_v128 main_v129 rfl shapeCasts_S8x1x512x512_S8x512x512,
    unary main_arg14 main_v130 ((extractStridedSlice S8x1x512x512 ![0, 4, 0, 0] · slices_S8x9x512x512_S8x1x512x512_0_4_0_0) : (⟨S8x9x512x512, .f32⟩ : BufTy).Contents (Elt F) → (⟨S8x1x512x512, .f32⟩ : BufTy).Contents (Elt F)),
    reshape main_v130 main_v131 rfl shapeCasts_S8x1x512x512_S8x512x512,
    reshape main_arg0 main_v132 rfl shapeCasts_S8x1x512x512_S8x512x512,
    nullary main_cst_39 (constant S_ .f32 0x2EDBE6FF#32),
    nullary main_cst_40 (constant S_ .f32 0x3F800000#32),
    TRef.unary (TRef.of (T := ⟨S_, .f32⟩) main_cst_39) (TRef.of (T := ⟨S_, .f32⟩) main_call8_v0) id,
    TRef.unary (TRef.of (T := ⟨S_, .f32⟩) main_call8_v0) (TRef.of (T := ⟨S8x512x512, .f32⟩) main_call8_v1) (broadcastInDim S8x512x512 ![] bcast_S_S8x512x512),
    TRef.binary (TRef.of (T := ⟨S8x512x512, .f32⟩) main_call8_v1) (TRef.of (T := ⟨S8x512x512, .f32⟩) main_v129) (TRef.of (T := ⟨S8x512x512, .f32⟩) main_call8_v2) maximumf,
    TRef.unary (TRef.of (T := ⟨S_, .f32⟩) main_cst_40) (TRef.of (T := ⟨S_, .f32⟩) main_call8_v3) id,
    TRef.unary (TRef.of (T := ⟨S_, .f32⟩) main_call8_v3) (TRef.of (T := ⟨S8x512x512, .f32⟩) main_call8_v4) (broadcastInDim S8x512x512 ![] bcast_S_S8x512x512),
    TRef.binary (TRef.of (T := ⟨S8x512x512, .f32⟩) main_call8_v4) (TRef.of (T := ⟨S8x512x512, .f32⟩) main_call8_v2) (TRef.of (T := ⟨S8x512x512, .f32⟩) main_v133) minimumf,
    nullary main_cst_41 (constant S_ .f32 0x2EDBE6FF#32),
    nullary main_cst_42 (constant S_ .f32 0x3F800000#32),
    TRef.unary (TRef.of (T := ⟨S_, .f32⟩) main_cst_41) (TRef.of (T := ⟨S_, .f32⟩) main_call9_v0) id,
    TRef.unary (TRef.of (T := ⟨S_, .f32⟩) main_call9_v0) (TRef.of (T := ⟨S8x512x512, .f32⟩) main_call9_v1) (broadcastInDim S8x512x512 ![] bcast_S_S8x512x512),
    TRef.binary (TRef.of (T := ⟨S8x512x512, .f32⟩) main_call9_v1) (TRef.of (T := ⟨S8x512x512, .f32⟩) main_v131) (TRef.of (T := ⟨S8x512x512, .f32⟩) main_call9_v2) maximumf,
    TRef.unary (TRef.of (T := ⟨S_, .f32⟩) main_cst_42) (TRef.of (T := ⟨S_, .f32⟩) main_call9_v3) id,
    TRef.unary (TRef.of (T := ⟨S_, .f32⟩) main_call9_v3) (TRef.of (T := ⟨S8x512x512, .f32⟩) main_call9_v4) (broadcastInDim S8x512x512 ![] bcast_S_S8x512x512),
    TRef.binary (TRef.of (T := ⟨S8x512x512, .f32⟩) main_call9_v4) (TRef.of (T := ⟨S8x512x512, .f32⟩) main_call9_v2) (TRef.of (T := ⟨S8x512x512, .f32⟩) main_v134) minimumf,
    binary main_v133 main_v134 main_v135 (subf : (⟨S8x512x512, .f32⟩ : BufTy).Contents (Elt F) → (⟨S8x512x512, .f32⟩ : BufTy).Contents (Elt F) → (⟨S8x512x512, .f32⟩ : BufTy).Contents (Elt F)) ]

set_option maxRecDepth 8192 in
set_option maxHeartbeats 4000000 in
theorem part_eq2 (c : Dev nD) : main_part2 (F := F) c = seq ops2 := rfl

set_option maxRecDepth 8192 in
theorem ops2_sub : (ops2 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., binary_bufs_sub .., unary_bufs_sub .., reshape_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., binary_bufs_sub .., unary_bufs_sub .., reshape_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., binary_bufs_sub .., unary_bufs_sub .., reshape_bufs_sub .., unary_bufs_sub .., reshape_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub ..⟩

set_option maxRecDepth 8192 in
theorem ops2_fresh : ∀ op ∈ (ops2 : List (HloOp τ sig (Elt F))), op.fresh = ∅ :=
  List.forall_iff_forall_mem.1 (show (ops2 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window writes. -/
abbrev W2 : List (Ref sig .tc) := [main_cst_24, main_cst_25, main_call2_v0, main_call2_v1, main_call2_v2, main_call2_v3, main_call2_v4, main_v95, main_cst_26, main_cst_27, main_call3_v0, main_call3_v1, main_call3_v2, main_call3_v3, main_call3_v4, main_v96, main_v97, main_v98, main_v99, main_cst_28, main_v100, main_v101, main_v102, main_v103, main_v104, main_v105, main_v106, main_v107, main_cst_29, main_cst_30, main_call4_v0, main_call4_v1, main_call4_v2, main_call4_v3, main_call4_v4, main_v108, main_cst_31, main_cst_32, main_call5_v0, main_call5_v1, main_call5_v2, main_call5_v3, main_call5_v4, main_v109, main_v110, main_v111, main_v112, main_cst_33, main_v113, main_v114, main_v115, main_v116, main_v117, main_v118, main_v119, main_v120, main_cst_34, main_cst_35, main_call6_v0, main_call6_v1, main_call6_v2, main_call6_v3, main_call6_v4, main_v121, main_cst_36, main_cst_37, main_call7_v0, main_call7_v1, main_call7_v2, main_call7_v3, main_call7_v4, main_v122, main_v123, main_v124, main_v125, main_cst_38, main_v126, main_v127, main_v128, main_v129, main_v130, main_v131, main_v132, main_cst_39, main_cst_40, main_call8_v0, main_call8_v1, main_call8_v2, main_call8_v3, main_call8_v4, main_v133, main_cst_41, main_cst_42, main_call9_v0, main_call9_v1, main_call9_v2, main_call9_v3, main_call9_v4, main_v134, main_v135]

set_option maxRecDepth 8192 in
theorem ops2_writes : (ops2 : List (HloOp τ sig (Elt F))).Forall fun op =>
    op.writes ⊆ (W2.map (Proc.devRef (τ := τ) .tc)).toFinset :=
  ⟨wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide)⟩

/-- A buffer the window does not write keeps its contents through it. -/
theorem keep2 (W : Valuation τ sig (Elt F)) (r : Ref sig .tc) (h : r ∉ W2) :
    after ops2 W (Proc.devRef .tc r) = W (Proc.devRef .tc r) :=
  after_of_writes_sub ops2 W ops2_writes h

/-- The arguments are not written. -/
theorem args2 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) :
    ArgsAt (after ops2 W) x0 x1 x2 x3 x4 x5 x6 x7 x8 x9 x10 x11 x12 x13 x14 x15 x16 := by
  obtain ⟨a0, a1, a2, a3, a4, a5, a6, a7, a8, a9, a10, a11, a12, a13, a14, a15, a16⟩ := hA
  exact ⟨(keep2 W main_arg0 (by decide)).trans a0,
    (keep2 W main_arg1 (by decide)).trans a1,
    (keep2 W main_arg2 (by decide)).trans a2,
    (keep2 W main_arg3 (by decide)).trans a3,
    (keep2 W main_arg4 (by decide)).trans a4,
    (keep2 W main_arg5 (by decide)).trans a5,
    (keep2 W main_arg6 (by decide)).trans a6,
    (keep2 W main_arg7 (by decide)).trans a7,
    (keep2 W main_arg8 (by decide)).trans a8,
    (keep2 W main_arg9 (by decide)).trans a9,
    (keep2 W main_arg10 (by decide)).trans a10,
    (keep2 W main_arg11 (by decide)).trans a11,
    (keep2 W main_arg12 (by decide)).trans a12,
    (keep2 W main_arg13 (by decide)).trans a13,
    (keep2 W main_arg14 (by decide)).trans a14,
    (keep2 W main_arg15 (by decide)).trans a15,
    (keep2 W main_arg16 (by decide)).trans a16⟩

set_option maxRecDepth 8192 in
set_option maxHeartbeats 4000000 in
/-- What the window leaves, from what it found. -/
theorem step2 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) (hL : Live2 W x0 x2 x3 x4 x5 x6 x7 x8 x9 x10 x11 x12 x13 x14 x15 x16) :
    Live3 (after ops2 W) x0 x2 x3 x4 x5 x6 x7 x8 x9 x10 x11 x12 x13 x14 x15 x16 := by
  obtain ⟨rfl, rfl, rfl, rfl, rfl, rfl, rfl, rfl, rfl, rfl, rfl, rfl, rfl, rfl, rfl, rfl, rfl⟩ := hA
  obtain ⟨h_v39, h_v57, h_v75, h_v88, h_v90, h_v92, h_v94⟩ := hL
  refine ⟨?_, ?_, ?_, ?_, ?_, ?_⟩
  · exact (keep2 W main_v39 (by decide)).trans h_v39
  · exact (keep2 W main_v57 (by decide)).trans h_v57
  · exact (keep2 W main_v75 (by decide)).trans h_v75
  · -- main_v127
    simp only [ops2]
    after_results_simp
    simp only [h_v94, h_v92, h_v90, h_v88] <;> rfl
  · -- main_v132
    simp only [ops2]
    after_results_simp
    rfl
  · -- main_v135
    simp only [ops2]
    after_results_simp
    rfl

end Cert.ReferenceIdeal.RunParts

end
-- ==== Proof.RefRunPart3.lean ====
/- Window 3 of the reference program (operations 230 … 319 of 605): its operations as a list, that the printed
    window is that list run in order, which buffers it writes, and what it leaves in the buffers a later window reads, given
    what it found. -/
import proofs.«131438_j61692910239837_2_alg».proof.Proof.RefRunInv
import proofs.«131438_j61692910239837_2_alg».proof.Proof.RefRunLib

noncomputable section

namespace Cert.ReferenceIdeal.RunParts

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

set_option maxHeartbeats 4000000 in
/-- The window's operations, in order (a called function's six operations stand in its call's place). -/
abbrev ops3 : List (HloOp τ sig (Elt F)) :=
  [ binary main_v135 main_v135 main_v136 (mulf : (⟨S8x512x512, .f32⟩ : BufTy).Contents (Elt F) → (⟨S8x512x512, .f32⟩ : BufTy).Contents (Elt F) → (⟨S8x512x512, .f32⟩ : BufTy).Contents (Elt F)),
    binary main_v136 main_v132 main_v137 (mulf : (⟨S8x512x512, .f32⟩ : BufTy).Contents (Elt F) → (⟨S8x512x512, .f32⟩ : BufTy).Contents (Elt F) → (⟨S8x512x512, .f32⟩ : BufTy).Contents (Elt F)),
    nullary main_cst_43 (constant S_ .f32 0x00000000#32),
    binary main_v137 main_cst_43 main_v138 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
    binary main_v127 main_v138 main_v139 (addf : (⟨S_, .f32⟩ : BufTy).Contents (Elt F) → (⟨S_, .f32⟩ : BufTy).Contents (Elt F) → (⟨S_, .f32⟩ : BufTy).Contents (Elt F)),
    unary main_arg13 main_v140 ((extractStridedSlice S8x1x512x511 ![0, 5, 0, 0] · slices_S8x9x512x512_S8x1x512x511_0_5_0_0) : (⟨S8x9x512x512, .f32⟩ : BufTy).Contents (Elt F) → (⟨S8x1x512x511, .f32⟩ : BufTy).Contents (Elt F)),
    reshape main_v140 main_v141 rfl shapeCasts_S8x1x512x511_S8x512x511,
    unary main_arg14 main_v142 ((extractStridedSlice S8x1x512x511 ![0, 3, 0, 1] · slices_S8x9x512x512_S8x1x512x511_0_3_0_1) : (⟨S8x9x512x512, .f32⟩ : BufTy).Contents (Elt F) → (⟨S8x1x512x511, .f32⟩ : BufTy).Contents (Elt F)),
    reshape main_v142 main_v143 rfl shapeCasts_S8x1x512x511_S8x512x511,
    unary main_arg0 main_v144 ((extractStridedSlice S8x1x512x511 ![0, 0, 0, 0] · slices_S8x1x512x512_S8x1x512x511_0_0_0_0) : (⟨S8x1x512x512, .f32⟩ : BufTy).Contents (Elt F) → (⟨S8x1x512x511, .f32⟩ : BufTy).Contents (Elt F)),
    reshape main_v144 main_v145 rfl shapeCasts_S8x1x512x511_S8x512x511,
    nullary main_cst_44 (constant S_ .f32 0x2EDBE6FF#32),
    nullary main_cst_45 (constant S_ .f32 0x3F800000#32),
    TRef.unary (TRef.of (T := ⟨S_, .f32⟩) main_cst_44) (TRef.of (T := ⟨S_, .f32⟩) main_call10_v0) id,
    TRef.unary (TRef.of (T := ⟨S_, .f32⟩) main_call10_v0) (TRef.of (T := ⟨S8x512x511, .f32⟩) main_call10_v1) (broadcastInDim S8x512x511 ![] bcast_S_S8x512x511),
    TRef.binary (TRef.of (T := ⟨S8x512x511, .f32⟩) main_call10_v1) (TRef.of (T := ⟨S8x512x511, .f32⟩) main_v141) (TRef.of (T := ⟨S8x512x511, .f32⟩) main_call10_v2) maximumf,
    TRef.unary (TRef.of (T := ⟨S_, .f32⟩) main_cst_45) (TRef.of (T := ⟨S_, .f32⟩) main_call10_v3) id,
    TRef.unary (TRef.of (T := ⟨S_, .f32⟩) main_call10_v3) (TRef.of (T := ⟨S8x512x511, .f32⟩) main_call10_v4) (broadcastInDim S8x512x511 ![] bcast_S_S8x512x511),
    TRef.binary (TRef.of (T := ⟨S8x512x511, .f32⟩) main_call10_v4) (TRef.of (T := ⟨S8x512x511, .f32⟩) main_call10_v2) (TRef.of (T := ⟨S8x512x511, .f32⟩) main_v146) minimumf,
    nullary main_cst_46 (constant S_ .f32 0x2EDBE6FF#32),
    nullary main_cst_47 (constant S_ .f32 0x3F800000#32),
    TRef.unary (TRef.of (T := ⟨S_, .f32⟩) main_cst_46) (TRef.of (T := ⟨S_, .f32⟩) main_call11_v0) id,
    TRef.unary (TRef.of (T := ⟨S_, .f32⟩) main_call11_v0) (TRef.of (T := ⟨S8x512x511, .f32⟩) main_call11_v1) (broadcastInDim S8x512x511 ![] bcast_S_S8x512x511),
    TRef.binary (TRef.of (T := ⟨S8x512x511, .f32⟩) main_call11_v1) (TRef.of (T := ⟨S8x512x511, .f32⟩) main_v143) (TRef.of (T := ⟨S8x512x511, .f32⟩) main_call11_v2) maximumf,
    TRef.unary (TRef.of (T := ⟨S_, .f32⟩) main_cst_47) (TRef.of (T := ⟨S_, .f32⟩) main_call11_v3) id,
    TRef.unary (TRef.of (T := ⟨S_, .f32⟩) main_call11_v3) (TRef.of (T := ⟨S8x512x511, .f32⟩) main_call11_v4) (broadcastInDim S8x512x511 ![] bcast_S_S8x512x511),
    TRef.binary (TRef.of (T := ⟨S8x512x511, .f32⟩) main_call11_v4) (TRef.of (T := ⟨S8x512x511, .f32⟩) main_call11_v2) (TRef.of (T := ⟨S8x512x511, .f32⟩) main_v147) minimumf,
    binary main_v146 main_v147 main_v148 (subf : (⟨S8x512x511, .f32⟩ : BufTy).Contents (Elt F) → (⟨S8x512x511, .f32⟩ : BufTy).Contents (Elt F) → (⟨S8x512x511, .f32⟩ : BufTy).Contents (Elt F)),
    binary main_v148 main_v148 main_v149 (mulf : (⟨S8x512x511, .f32⟩ : BufTy).Contents (Elt F) → (⟨S8x512x511, .f32⟩ : BufTy).Contents (Elt F) → (⟨S8x512x511, .f32⟩ : BufTy).Contents (Elt F)),
    binary main_v149 main_v145 main_v150 (mulf : (⟨S8x512x511, .f32⟩ : BufTy).Contents (Elt F) → (⟨S8x512x511, .f32⟩ : BufTy).Contents (Elt F) → (⟨S8x512x511, .f32⟩ : BufTy).Contents (Elt F)),
    nullary main_cst_48 (constant S_ .f32 0x00000000#32),
    binary main_v150 main_cst_48 main_v151 ((fun x v => Host.reduceAdd x v reducesTo_S8x512x511_S_d0_1_2 h_S_) : (⟨S8x512x511, .f32⟩ : BufTy).Contents (Elt F) → (⟨S_, .f32⟩ : BufTy).Contents (Elt F) → (⟨S_, .f32⟩ : BufTy).Contents (Elt F)),
    binary main_v139 main_v151 main_v152 (addf : (⟨S_, .f32⟩ : BufTy).Contents (Elt F) → (⟨S_, .f32⟩ : BufTy).Contents (Elt F) → (⟨S_, .f32⟩ : BufTy).Contents (Elt F)),
    unary main_arg13 main_v153 ((extractStridedSlice S8x1x511x511 ![0, 6, 0, 1] · slices_S8x9x512x512_S8x1x511x511_0_6_0_1) : (⟨S8x9x512x512, .f32⟩ : BufTy).Contents (Elt F) → (⟨S8x1x511x511, .f32⟩ : BufTy).Contents (Elt F)),
    reshape main_v153 main_v154 rfl shapeCasts_S8x1x511x511_S8x511x511,
    unary main_arg14 main_v155 ((extractStridedSlice S8x1x511x511 ![0, 2, 1, 0] · slices_S8x9x512x512_S8x1x511x511_0_2_1_0) : (⟨S8x9x512x512, .f32⟩ : BufTy).Contents (Elt F) → (⟨S8x1x511x511, .f32⟩ : BufTy).Contents (Elt F)),
    reshape main_v155 main_v156 rfl shapeCasts_S8x1x511x511_S8x511x511,
    unary main_arg0 main_v157 ((extractStridedSlice S8x1x511x511 ![0, 0, 0, 1] · slices_S8x1x512x512_S8x1x511x511_0_0_0_1) : (⟨S8x1x512x512, .f32⟩ : BufTy).Contents (Elt F) → (⟨S8x1x511x511, .f32⟩ : BufTy).Contents (Elt F)),
    reshape main_v157 main_v158 rfl shapeCasts_S8x1x511x511_S8x511x511,
    nullary main_cst_49 (constant S_ .f32 0x2EDBE6FF#32),
    nullary main_cst_50 (constant S_ .f32 0x3F800000#32),
    TRef.unary (TRef.of (T := ⟨S_, .f32⟩) main_cst_49) (TRef.of (T := ⟨S_, .f32⟩) main_call12_v0) id,
    TRef.unary (TRef.of (T := ⟨S_, .f32⟩) main_call12_v0) (TRef.of (T := ⟨S8x511x511, .f32⟩) main_call12_v1) (broadcastInDim S8x511x511 ![] bcast_S_S8x511x511),
    TRef.binary (TRef.of (T := ⟨S8x511x511, .f32⟩) main_call12_v1) (TRef.of (T := ⟨S8x511x511, .f32⟩) main_v154) (TRef.of (T := ⟨S8x511x511, .f32⟩) main_call12_v2) maximumf,
    TRef.unary (TRef.of (T := ⟨S_, .f32⟩) main_cst_50) (TRef.of (T := ⟨S_, .f32⟩) main_call12_v3) id,
    TRef.unary (TRef.of (T := ⟨S_, .f32⟩) main_call12_v3) (TRef.of (T := ⟨S8x511x511, .f32⟩) main_call12_v4) (broadcastInDim S8x511x511 ![] bcast_S_S8x511x511),
    TRef.binary (TRef.of (T := ⟨S8x511x511, .f32⟩) main_call12_v4) (TRef.of (T := ⟨S8x511x511, .f32⟩) main_call12_v2) (TRef.of (T := ⟨S8x511x511, .f32⟩) main_v159) minimumf,
    nullary main_cst_51 (constant S_ .f32 0x2EDBE6FF#32),
    nullary main_cst_52 (constant S_ .f32 0x3F800000#32),
    TRef.unary (TRef.of (T := ⟨S_, .f32⟩) main_cst_51) (TRef.of (T := ⟨S_, .f32⟩) main_call13_v0) id,
    TRef.unary (TRef.of (T := ⟨S_, .f32⟩) main_call13_v0) (TRef.of (T := ⟨S8x511x511, .f32⟩) main_call13_v1) (broadcastInDim S8x511x511 ![] bcast_S_S8x511x511),
    TRef.binary (TRef.of (T := ⟨S8x511x511, .f32⟩) main_call13_v1) (TRef.of (T := ⟨S8x511x511, .f32⟩) main_v156) (TRef.of (T := ⟨S8x511x511, .f32⟩) main_call13_v2) maximumf,
    TRef.unary (TRef.of (T := ⟨S_, .f32⟩) main_cst_52) (TRef.of (T := ⟨S_, .f32⟩) main_call13_v3) id,
    TRef.unary (TRef.of (T := ⟨S_, .f32⟩) main_call13_v3) (TRef.of (T := ⟨S8x511x511, .f32⟩) main_call13_v4) (broadcastInDim S8x511x511 ![] bcast_S_S8x511x511),
    TRef.binary (TRef.of (T := ⟨S8x511x511, .f32⟩) main_call13_v4) (TRef.of (T := ⟨S8x511x511, .f32⟩) main_call13_v2) (TRef.of (T := ⟨S8x511x511, .f32⟩) main_v160) minimumf,
    binary main_v159 main_v160 main_v161 (subf : (⟨S8x511x511, .f32⟩ : BufTy).Contents (Elt F) → (⟨S8x511x511, .f32⟩ : BufTy).Contents (Elt F) → (⟨S8x511x511, .f32⟩ : BufTy).Contents (Elt F)),
    binary main_v161 main_v161 main_v162 (mulf : (⟨S8x511x511, .f32⟩ : BufTy).Contents (Elt F) → (⟨S8x511x511, .f32⟩ : BufTy).Contents (Elt F) → (⟨S8x511x511, .f32⟩ : BufTy).Contents (Elt F)),
    binary main_v162 main_v158 main_v163 (mulf : (⟨S8x511x511, .f32⟩ : BufTy).Contents (Elt F) → (⟨S8x511x511, .f32⟩ : BufTy).Contents (Elt F) → (⟨S8x511x511, .f32⟩ : BufTy).Contents (Elt F)),
    nullary main_cst_53 (constant S_ .f32 0x00000000#32),
    binary main_v163 main_cst_53 main_v164 ((fun x v => Host.reduceAdd x v reducesTo_S8x511x511_S_d0_1_2 h_S_) : (⟨S8x511x511, .f32⟩ : BufTy).Contents (Elt F) → (⟨S_, .f32⟩ : BufTy).Contents (Elt F) → (⟨S_, .f32⟩ : BufTy).Contents (Elt F)),
    binary main_v152 main_v164 main_v165 (addf : (⟨S_, .f32⟩ : BufTy).Contents (Elt F) → (⟨S_, .f32⟩ : BufTy).Contents (Elt F) → (⟨S_, .f32⟩ : BufTy).Contents (Elt F)),
    unary main_arg13 main_v166 ((extractStridedSlice S8x1x511x512 ![0, 7, 0, 0] · slices_S8x9x512x512_S8x1x511x512_0_7_0_0) : (⟨S8x9x512x512, .f32⟩ : BufTy).Contents (Elt F) → (⟨S8x1x511x512, .f32⟩ : BufTy).Contents (Elt F)),
    reshape main_v166 main_v167 rfl shapeCasts_S8x1x511x512_S8x511x512,
    unary main_arg14 main_v168 ((extractStridedSlice S8x1x511x512 ![0, 1, 1, 0] · slices_S8x9x512x512_S8x1x511x512_0_1_1_0) : (⟨S8x9x512x512, .f32⟩ : BufTy).Contents (Elt F) → (⟨S8x1x511x512, .f32⟩ : BufTy).Contents (Elt F)),
    reshape main_v168 main_v169 rfl shapeCasts_S8x1x511x512_S8x511x512,
    unary main_arg0 main_v170 ((extractStridedSlice S8x1x511x512 ![0, 0, 0, 0] · slices_S8x1x512x512_S8x1x511x512_0_0_0_0) : (⟨S8x1x512x512, .f32⟩ : BufTy).Contents (Elt F) → (⟨S8x1x511x512, .f32⟩ : BufTy).Contents (Elt F)),
    reshape main_v170 main_v171 rfl shapeCasts_S8x1x511x512_S8x511x512,
    nullary main_cst_54 (constant S_ .f32 0x2EDBE6FF#32),
    nullary main_cst_55 (constant S_ .f32 0x3F800000#32),
    TRef.unary (TRef.of (T := ⟨S_, .f32⟩) main_cst_54) (TRef.of (T := ⟨S_, .f32⟩) main_call14_v0) id,
    TRef.unary (TRef.of (T := ⟨S_, .f32⟩) main_call14_v0) (TRef.of (T := ⟨S8x511x512, .f32⟩) main_call14_v1) (broadcastInDim S8x511x512 ![] bcast_S_S8x511x512),
    TRef.binary (TRef.of (T := ⟨S8x511x512, .f32⟩) main_call14_v1) (TRef.of (T := ⟨S8x511x512, .f32⟩) main_v167) (TRef.of (T := ⟨S8x511x512, .f32⟩) main_call14_v2) maximumf,
    TRef.unary (TRef.of (T := ⟨S_, .f32⟩) main_cst_55) (TRef.of (T := ⟨S_, .f32⟩) main_call14_v3) id,
    TRef.unary (TRef.of (T := ⟨S_, .f32⟩) main_call14_v3) (TRef.of (T := ⟨S8x511x512, .f32⟩) main_call14_v4) (broadcastInDim S8x511x512 ![] bcast_S_S8x511x512),
    TRef.binary (TRef.of (T := ⟨S8x511x512, .f32⟩) main_call14_v4) (TRef.of (T := ⟨S8x511x512, .f32⟩) main_call14_v2) (TRef.of (T := ⟨S8x511x512, .f32⟩) main_v172) minimumf,
    nullary main_cst_56 (constant S_ .f32 0x2EDBE6FF#32),
    nullary main_cst_57 (constant S_ .f32 0x3F800000#32),
    TRef.unary (TRef.of (T := ⟨S_, .f32⟩) main_cst_56) (TRef.of (T := ⟨S_, .f32⟩) main_call15_v0) id,
    TRef.unary (TRef.of (T := ⟨S_, .f32⟩) main_call15_v0) (TRef.of (T := ⟨S8x511x512, .f32⟩) main_call15_v1) (broadcastInDim S8x511x512 ![] bcast_S_S8x511x512),
    TRef.binary (TRef.of (T := ⟨S8x511x512, .f32⟩) main_call15_v1) (TRef.of (T := ⟨S8x511x512, .f32⟩) main_v169) (TRef.of (T := ⟨S8x511x512, .f32⟩) main_call15_v2) maximumf,
    TRef.unary (TRef.of (T := ⟨S_, .f32⟩) main_cst_57) (TRef.of (T := ⟨S_, .f32⟩) main_call15_v3) id,
    TRef.unary (TRef.of (T := ⟨S_, .f32⟩) main_call15_v3) (TRef.of (T := ⟨S8x511x512, .f32⟩) main_call15_v4) (broadcastInDim S8x511x512 ![] bcast_S_S8x511x512),
    TRef.binary (TRef.of (T := ⟨S8x511x512, .f32⟩) main_call15_v4) (TRef.of (T := ⟨S8x511x512, .f32⟩) main_call15_v2) (TRef.of (T := ⟨S8x511x512, .f32⟩) main_v173) minimumf,
    binary main_v172 main_v173 main_v174 (subf : (⟨S8x511x512, .f32⟩ : BufTy).Contents (Elt F) → (⟨S8x511x512, .f32⟩ : BufTy).Contents (Elt F) → (⟨S8x511x512, .f32⟩ : BufTy).Contents (Elt F)),
    binary main_v174 main_v174 main_v175 (mulf : (⟨S8x511x512, .f32⟩ : BufTy).Contents (Elt F) → (⟨S8x511x512, .f32⟩ : BufTy).Contents (Elt F) → (⟨S8x511x512, .f32⟩ : BufTy).Contents (Elt F)),
    binary main_v175 main_v171 main_v176 (mulf : (⟨S8x511x512, .f32⟩ : BufTy).Contents (Elt F) → (⟨S8x511x512, .f32⟩ : BufTy).Contents (Elt F) → (⟨S8x511x512, .f32⟩ : BufTy).Contents (Elt F)),
    nullary main_cst_58 (constant S_ .f32 0x00000000#32),
    binary main_v176 main_cst_58 main_v177 ((fun x v => Host.reduceAdd x v reducesTo_S8x511x512_S_d0_1_2 h_S_) : (⟨S8x511x512, .f32⟩ : BufTy).Contents (Elt F) → (⟨S_, .f32⟩ : BufTy).Contents (Elt F) → (⟨S_, .f32⟩ : BufTy).Contents (Elt F)),
    binary main_v165 main_v177 main_v178 (addf : (⟨S_, .f32⟩ : BufTy).Contents (Elt F) → (⟨S_, .f32⟩ : BufTy).Contents (Elt F) → (⟨S_, .f32⟩ : BufTy).Contents (Elt F)),
    unary main_arg13 main_v179 ((extractStridedSlice S8x1x511x511 ![0, 8, 0, 0] · slices_S8x9x512x512_S8x1x511x511_0_8_0_0) : (⟨S8x9x512x512, .f32⟩ : BufTy).Contents (Elt F) → (⟨S8x1x511x511, .f32⟩ : BufTy).Contents (Elt F)) ]

set_option maxRecDepth 8192 in
set_option maxHeartbeats 4000000 in
theorem part_eq3 (c : Dev nD) : main_part3 (F := F) c = seq ops3 := rfl

set_option maxRecDepth 8192 in
theorem ops3_sub : (ops3 : List (HloOp τ sig (Elt F))).Forall fun op => op.bufs ⊆ tcRefs τ sig :=
  ⟨binary_bufs_sub .., binary_bufs_sub .., nullary_bufs_sub .., binary_bufs_sub .., binary_bufs_sub .., unary_bufs_sub .., reshape_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., binary_bufs_sub .., unary_bufs_sub .., reshape_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., binary_bufs_sub .., unary_bufs_sub .., reshape_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., binary_bufs_sub .., unary_bufs_sub ..⟩

set_option maxRecDepth 8192 in
theorem ops3_fresh : ∀ op ∈ (ops3 : List (HloOp τ sig (Elt F))), op.fresh = ∅ :=
  List.forall_iff_forall_mem.1 (show (ops3 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window writes. -/
abbrev W3 : List (Ref sig .tc) := [main_v136, main_v137, main_cst_43, main_v138, main_v139, main_v140, main_v141, main_v142, main_v143, main_v144, main_v145, main_cst_44, main_cst_45, main_call10_v0, main_call10_v1, main_call10_v2, main_call10_v3, main_call10_v4, main_v146, main_cst_46, main_cst_47, main_call11_v0, main_call11_v1, main_call11_v2, main_call11_v3, main_call11_v4, main_v147, main_v148, main_v149, main_v150, main_cst_48, main_v151, main_v152, main_v153, main_v154, main_v155, main_v156, main_v157, main_v158, main_cst_49, main_cst_50, main_call12_v0, main_call12_v1, main_call12_v2, main_call12_v3, main_call12_v4, main_v159, main_cst_51, main_cst_52, main_call13_v0, main_call13_v1, main_call13_v2, main_call13_v3, main_call13_v4, main_v160, main_v161, main_v162, main_v163, main_cst_53, main_v164, main_v165, main_v166, main_v167, main_v168, main_v169, main_v170, main_v171, main_cst_54, main_cst_55, main_call14_v0, main_call14_v1, main_call14_v2, main_call14_v3, main_call14_v4, main_v172, main_cst_56, main_cst_57, main_call15_v0, main_call15_v1, main_call15_v2, main_call15_v3, main_call15_v4, main_v173, main_v174, main_v175, main_v176, main_cst_58, main_v177, main_v178, main_v179]

set_option maxRecDepth 8192 in
theorem ops3_writes : (ops3 : List (HloOp τ sig (Elt F))).Forall fun op =>
    op.writes ⊆ (W3.map (Proc.devRef (τ := τ) .tc)).toFinset :=
  ⟨wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide)⟩

/-- A buffer the window does not write keeps its contents through it. -/
theorem keep3 (W : Valuation τ sig (Elt F)) (r : Ref sig .tc) (h : r ∉ W3) :
    after ops3 W (Proc.devRef .tc r) = W (Proc.devRef .tc r) :=
  after_of_writes_sub ops3 W ops3_writes h

/-- The arguments are not written. -/
theorem args3 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) :
    ArgsAt (after ops3 W) x0 x1 x2 x3 x4 x5 x6 x7 x8 x9 x10 x11 x12 x13 x14 x15 x16 := by
  obtain ⟨a0, a1, a2, a3, a4, a5, a6, a7, a8, a9, a10, a11, a12, a13, a14, a15, a16⟩ := hA
  exact ⟨(keep3 W main_arg0 (by decide)).trans a0,
    (keep3 W main_arg1 (by decide)).trans a1,
    (keep3 W main_arg2 (by decide)).trans a2,
    (keep3 W main_arg3 (by decide)).trans a3,
    (keep3 W main_arg4 (by decide)).trans a4,
    (keep3 W main_arg5 (by decide)).trans a5,
    (keep3 W main_arg6 (by decide)).trans a6,
    (keep3 W main_arg7 (by decide)).trans a7,
    (keep3 W main_arg8 (by decide)).trans a8,
    (keep3 W main_arg9 (by decide)).trans a9,
    (keep3 W main_arg10 (by decide)).trans a10,
    (keep3 W main_arg11 (by decide)).trans a11,
    (keep3 W main_arg12 (by decide)).trans a12,
    (keep3 W main_arg13 (by decide)).trans a13,
    (keep3 W main_arg14 (by decide)).trans a14,
    (keep3 W main_arg15 (by decide)).trans a15,
    (keep3 W main_arg16 (by decide)).trans a16⟩

set_option maxRecDepth 8192 in
set_option maxHeartbeats 4000000 in
/-- What the window leaves, from what it found. -/
theorem step3 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) (hL : Live3 W x0 x2 x3 x4 x5 x6 x7 x8 x9 x10 x11 x12 x13 x14 x15 x16) :
    Live4 (after ops3 W) x0 x2 x3 x4 x5 x6 x7 x8 x9 x10 x11 x12 x13 x14 x15 x16 := by
  obtain ⟨rfl, rfl, rfl, rfl, rfl, rfl, rfl, rfl, rfl, rfl, rfl, rfl, rfl, rfl, rfl, rfl, rfl⟩ := hA
  obtain ⟨h_v39, h_v57, h_v75, h_v127, h_v132, h_v135⟩ := hL
  refine ⟨?_, ?_, ?_, ?_, ?_⟩
  · exact (keep3 W main_v39 (by decide)).trans h_v39
  · exact (keep3 W main_v57 (by decide)).trans h_v57
  · exact (keep3 W main_v75 (by decide)).trans h_v75
  · -- main_v178
    simp only [ops3]
    after_results_simp
    simp only [h_v132, h_v135, h_v127] <;> rfl
  · -- main_v179
    simp only [ops3]
    after_results_simp
    rfl

end Cert.ReferenceIdeal.RunParts

end
-- ==== Proof.RefRunPart4.lean ====
/- Window 4 of the reference program (operations 320 … 409 of 605): its operations as a list, that the printed
    window is that list run in order, which buffers it writes, and what it leaves in the buffers a later window reads, given
    what it found. -/
import proofs.«131438_j61692910239837_2_alg».proof.Proof.RefRunInv
import proofs.«131438_j61692910239837_2_alg».proof.Proof.RefRunLib

noncomputable section

namespace Cert.ReferenceIdeal.RunParts

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

set_option maxHeartbeats 4000000 in
/-- The window's operations, in order (a called function's six operations stand in its call's place). -/
abbrev ops4 : List (HloOp τ sig (Elt F)) :=
  [ reshape main_v179 main_v180 rfl shapeCasts_S8x1x511x511_S8x511x511,
    unary main_arg14 main_v181 ((extractStridedSlice S8x1x511x511 ![0, 0, 1, 1] · slices_S8x9x512x512_S8x1x511x511_0_0_1_1) : (⟨S8x9x512x512, .f32⟩ : BufTy).Contents (Elt F) → (⟨S8x1x511x511, .f32⟩ : BufTy).Contents (Elt F)),
    reshape main_v181 main_v182 rfl shapeCasts_S8x1x511x511_S8x511x511,
    unary main_arg0 main_v183 ((extractStridedSlice S8x1x511x511 ![0, 0, 0, 0] · slices_S8x1x512x512_S8x1x511x511_0_0_0_0) : (⟨S8x1x512x512, .f32⟩ : BufTy).Contents (Elt F) → (⟨S8x1x511x511, .f32⟩ : BufTy).Contents (Elt F)),
    reshape main_v183 main_v184 rfl shapeCasts_S8x1x511x511_S8x511x511,
    nullary main_cst_59 (constant S_ .f32 0x2EDBE6FF#32),
    nullary main_cst_60 (constant S_ .f32 0x3F800000#32),
    TRef.unary (TRef.of (T := ⟨S_, .f32⟩) main_cst_59) (TRef.of (T := ⟨S_, .f32⟩) main_call16_v0) id,
    TRef.unary (TRef.of (T := ⟨S_, .f32⟩) main_call16_v0) (TRef.of (T := ⟨S8x511x511, .f32⟩) main_call16_v1) (broadcastInDim S8x511x511 ![] bcast_S_S8x511x511),
    TRef.binary (TRef.of (T := ⟨S8x511x511, .f32⟩) main_call16_v1) (TRef.of (T := ⟨S8x511x511, .f32⟩) main_v180) (TRef.of (T := ⟨S8x511x511, .f32⟩) main_call16_v2) maximumf,
    TRef.unary (TRef.of (T := ⟨S_, .f32⟩) main_cst_60) (TRef.of (T := ⟨S_, .f32⟩) main_call16_v3) id,
    TRef.unary (TRef.of (T := ⟨S_, .f32⟩) main_call16_v3) (TRef.of (T := ⟨S8x511x511, .f32⟩) main_call16_v4) (broadcastInDim S8x511x511 ![] bcast_S_S8x511x511),
    TRef.binary (TRef.of (T := ⟨S8x511x511, .f32⟩) main_call16_v4) (TRef.of (T := ⟨S8x511x511, .f32⟩) main_call16_v2) (TRef.of (T := ⟨S8x511x511, .f32⟩) main_v185) minimumf,
    nullary main_cst_61 (constant S_ .f32 0x2EDBE6FF#32),
    nullary main_cst_62 (constant S_ .f32 0x3F800000#32),
    TRef.unary (TRef.of (T := ⟨S_, .f32⟩) main_cst_61) (TRef.of (T := ⟨S_, .f32⟩) main_call17_v0) id,
    TRef.unary (TRef.of (T := ⟨S_, .f32⟩) main_call17_v0) (TRef.of (T := ⟨S8x511x511, .f32⟩) main_call17_v1) (broadcastInDim S8x511x511 ![] bcast_S_S8x511x511),
    TRef.binary (TRef.of (T := ⟨S8x511x511, .f32⟩) main_call17_v1) (TRef.of (T := ⟨S8x511x511, .f32⟩) main_v182) (TRef.of (T := ⟨S8x511x511, .f32⟩) main_call17_v2) maximumf,
    TRef.unary (TRef.of (T := ⟨S_, .f32⟩) main_cst_62) (TRef.of (T := ⟨S_, .f32⟩) main_call17_v3) id,
    TRef.unary (TRef.of (T := ⟨S_, .f32⟩) main_call17_v3) (TRef.of (T := ⟨S8x511x511, .f32⟩) main_call17_v4) (broadcastInDim S8x511x511 ![] bcast_S_S8x511x511),
    TRef.binary (TRef.of (T := ⟨S8x511x511, .f32⟩) main_call17_v4) (TRef.of (T := ⟨S8x511x511, .f32⟩) main_call17_v2) (TRef.of (T := ⟨S8x511x511, .f32⟩) main_v186) minimumf,
    binary main_v185 main_v186 main_v187 (subf : (⟨S8x511x511, .f32⟩ : BufTy).Contents (Elt F) → (⟨S8x511x511, .f32⟩ : BufTy).Contents (Elt F) → (⟨S8x511x511, .f32⟩ : BufTy).Contents (Elt F)),
    binary main_v187 main_v187 main_v188 (mulf : (⟨S8x511x511, .f32⟩ : BufTy).Contents (Elt F) → (⟨S8x511x511, .f32⟩ : BufTy).Contents (Elt F) → (⟨S8x511x511, .f32⟩ : BufTy).Contents (Elt F)),
    binary main_v188 main_v184 main_v189 (mulf : (⟨S8x511x511, .f32⟩ : BufTy).Contents (Elt F) → (⟨S8x511x511, .f32⟩ : BufTy).Contents (Elt F) → (⟨S8x511x511, .f32⟩ : BufTy).Contents (Elt F)),
    nullary main_cst_63 (constant S_ .f32 0x00000000#32),
    binary main_v189 main_cst_63 main_v190 ((fun x v => Host.reduceAdd x v reducesTo_S8x511x511_S_d0_1_2 h_S_) : (⟨S8x511x511, .f32⟩ : BufTy).Contents (Elt F) → (⟨S_, .f32⟩ : BufTy).Contents (Elt F) → (⟨S_, .f32⟩ : BufTy).Contents (Elt F)),
    binary main_v178 main_v190 main_v191 (addf : (⟨S_, .f32⟩ : BufTy).Contents (Elt F) → (⟨S_, .f32⟩ : BufTy).Contents (Elt F) → (⟨S_, .f32⟩ : BufTy).Contents (Elt F)),
    unary main_arg15 main_v192 ((extractStridedSlice S8x1x511x511 ![0, 0, 1, 1] · slices_S8x9x512x512_S8x1x511x511_0_0_1_1) : (⟨S8x9x512x512, .f32⟩ : BufTy).Contents (Elt F) → (⟨S8x1x511x511, .f32⟩ : BufTy).Contents (Elt F)),
    reshape main_v192 main_v193 rfl shapeCasts_S8x1x511x511_S8x511x511,
    unary main_arg16 main_v194 ((extractStridedSlice S8x1x511x511 ![0, 8, 0, 0] · slices_S8x9x512x512_S8x1x511x511_0_8_0_0) : (⟨S8x9x512x512, .f32⟩ : BufTy).Contents (Elt F) → (⟨S8x1x511x511, .f32⟩ : BufTy).Contents (Elt F)),
    reshape main_v194 main_v195 rfl shapeCasts_S8x1x511x511_S8x511x511,
    unary main_arg0 main_v196 ((extractStridedSlice S8x1x511x511 ![0, 0, 1, 1] · slices_S8x1x512x512_S8x1x511x511_0_0_1_1) : (⟨S8x1x512x512, .f32⟩ : BufTy).Contents (Elt F) → (⟨S8x1x511x511, .f32⟩ : BufTy).Contents (Elt F)),
    reshape main_v196 main_v197 rfl shapeCasts_S8x1x511x511_S8x511x511,
    nullary main_cst_64 (constant S_ .f32 0x2EDBE6FF#32),
    nullary main_cst_65 (constant S_ .f32 0x3F800000#32),
    TRef.unary (TRef.of (T := ⟨S_, .f32⟩) main_cst_64) (TRef.of (T := ⟨S_, .f32⟩) main_call18_v0) id,
    TRef.unary (TRef.of (T := ⟨S_, .f32⟩) main_call18_v0) (TRef.of (T := ⟨S8x511x511, .f32⟩) main_call18_v1) (broadcastInDim S8x511x511 ![] bcast_S_S8x511x511),
    TRef.binary (TRef.of (T := ⟨S8x511x511, .f32⟩) main_call18_v1) (TRef.of (T := ⟨S8x511x511, .f32⟩) main_v193) (TRef.of (T := ⟨S8x511x511, .f32⟩) main_call18_v2) maximumf,
    TRef.unary (TRef.of (T := ⟨S_, .f32⟩) main_cst_65) (TRef.of (T := ⟨S_, .f32⟩) main_call18_v3) id,
    TRef.unary (TRef.of (T := ⟨S_, .f32⟩) main_call18_v3) (TRef.of (T := ⟨S8x511x511, .f32⟩) main_call18_v4) (broadcastInDim S8x511x511 ![] bcast_S_S8x511x511),
    TRef.binary (TRef.of (T := ⟨S8x511x511, .f32⟩) main_call18_v4) (TRef.of (T := ⟨S8x511x511, .f32⟩) main_call18_v2) (TRef.of (T := ⟨S8x511x511, .f32⟩) main_v198) minimumf,
    nullary main_cst_66 (constant S_ .f32 0x2EDBE6FF#32),
    nullary main_cst_67 (constant S_ .f32 0x3F800000#32),
    TRef.unary (TRef.of (T := ⟨S_, .f32⟩) main_cst_66) (TRef.of (T := ⟨S_, .f32⟩) main_call19_v0) id,
    TRef.unary (TRef.of (T := ⟨S_, .f32⟩) main_call19_v0) (TRef.of (T := ⟨S8x511x511, .f32⟩) main_call19_v1) (broadcastInDim S8x511x511 ![] bcast_S_S8x511x511),
    TRef.binary (TRef.of (T := ⟨S8x511x511, .f32⟩) main_call19_v1) (TRef.of (T := ⟨S8x511x511, .f32⟩) main_v195) (TRef.of (T := ⟨S8x511x511, .f32⟩) main_call19_v2) maximumf,
    TRef.unary (TRef.of (T := ⟨S_, .f32⟩) main_cst_67) (TRef.of (T := ⟨S_, .f32⟩) main_call19_v3) id,
    TRef.unary (TRef.of (T := ⟨S_, .f32⟩) main_call19_v3) (TRef.of (T := ⟨S8x511x511, .f32⟩) main_call19_v4) (broadcastInDim S8x511x511 ![] bcast_S_S8x511x511),
    TRef.binary (TRef.of (T := ⟨S8x511x511, .f32⟩) main_call19_v4) (TRef.of (T := ⟨S8x511x511, .f32⟩) main_call19_v2) (TRef.of (T := ⟨S8x511x511, .f32⟩) main_v199) minimumf,
    binary main_v198 main_v199 main_v200 (subf : (⟨S8x511x511, .f32⟩ : BufTy).Contents (Elt F) → (⟨S8x511x511, .f32⟩ : BufTy).Contents (Elt F) → (⟨S8x511x511, .f32⟩ : BufTy).Contents (Elt F)),
    binary main_v200 main_v200 main_v201 (mulf : (⟨S8x511x511, .f32⟩ : BufTy).Contents (Elt F) → (⟨S8x511x511, .f32⟩ : BufTy).Contents (Elt F) → (⟨S8x511x511, .f32⟩ : BufTy).Contents (Elt F)),
    binary main_v201 main_v197 main_v202 (mulf : (⟨S8x511x511, .f32⟩ : BufTy).Contents (Elt F) → (⟨S8x511x511, .f32⟩ : BufTy).Contents (Elt F) → (⟨S8x511x511, .f32⟩ : BufTy).Contents (Elt F)),
    nullary main_cst_68 (constant S_ .f32 0x00000000#32),
    binary main_v202 main_cst_68 main_v203 ((fun x v => Host.reduceAdd x v reducesTo_S8x511x511_S_d0_1_2 h_S_) : (⟨S8x511x511, .f32⟩ : BufTy).Contents (Elt F) → (⟨S_, .f32⟩ : BufTy).Contents (Elt F) → (⟨S_, .f32⟩ : BufTy).Contents (Elt F)),
    nullary main_cst_69 (constant S_ .f32 0x00000000#32),
    binary main_cst_69 main_v203 main_v204 (addf : (⟨S_, .f32⟩ : BufTy).Contents (Elt F) → (⟨S_, .f32⟩ : BufTy).Contents (Elt F) → (⟨S_, .f32⟩ : BufTy).Contents (Elt F)),
    unary main_arg15 main_v205 ((extractStridedSlice S8x1x511x512 ![0, 1, 1, 0] · slices_S8x9x512x512_S8x1x511x512_0_1_1_0) : (⟨S8x9x512x512, .f32⟩ : BufTy).Contents (Elt F) → (⟨S8x1x511x512, .f32⟩ : BufTy).Contents (Elt F)),
    reshape main_v205 main_v206 rfl shapeCasts_S8x1x511x512_S8x511x512,
    unary main_arg16 main_v207 ((extractStridedSlice S8x1x511x512 ![0, 7, 0, 0] · slices_S8x9x512x512_S8x1x511x512_0_7_0_0) : (⟨S8x9x512x512, .f32⟩ : BufTy).Contents (Elt F) → (⟨S8x1x511x512, .f32⟩ : BufTy).Contents (Elt F)),
    reshape main_v207 main_v208 rfl shapeCasts_S8x1x511x512_S8x511x512,
    unary main_arg0 main_v209 ((extractStridedSlice S8x1x511x512 ![0, 0, 1, 0] · slices_S8x1x512x512_S8x1x511x512_0_0_1_0) : (⟨S8x1x512x512, .f32⟩ : BufTy).Contents (Elt F) → (⟨S8x1x511x512, .f32⟩ : BufTy).Contents (Elt F)),
    reshape main_v209 main_v210 rfl shapeCasts_S8x1x511x512_S8x511x512,
    nullary main_cst_70 (constant S_ .f32 0x2EDBE6FF#32),
    nullary main_cst_71 (constant S_ .f32 0x3F800000#32),
    TRef.unary (TRef.of (T := ⟨S_, .f32⟩) main_cst_70) (TRef.of (T := ⟨S_, .f32⟩) main_call20_v0) id,
    TRef.unary (TRef.of (T := ⟨S_, .f32⟩) main_call20_v0) (TRef.of (T := ⟨S8x511x512, .f32⟩) main_call20_v1) (broadcastInDim S8x511x512 ![] bcast_S_S8x511x512),
    TRef.binary (TRef.of (T := ⟨S8x511x512, .f32⟩) main_call20_v1) (TRef.of (T := ⟨S8x511x512, .f32⟩) main_v206) (TRef.of (T := ⟨S8x511x512, .f32⟩) main_call20_v2) maximumf,
    TRef.unary (TRef.of (T := ⟨S_, .f32⟩) main_cst_71) (TRef.of (T := ⟨S_, .f32⟩) main_call20_v3) id,
    TRef.unary (TRef.of (T := ⟨S_, .f32⟩) main_call20_v3) (TRef.of (T := ⟨S8x511x512, .f32⟩) main_call20_v4) (broadcastInDim S8x511x512 ![] bcast_S_S8x511x512),
    TRef.binary (TRef.of (T := ⟨S8x511x512, .f32⟩) main_call20_v4) (TRef.of (T := ⟨S8x511x512, .f32⟩) main_call20_v2) (TRef.of (T := ⟨S8x511x512, .f32⟩) main_v211) minimumf,
    nullary main_cst_72 (constant S_ .f32 0x2EDBE6FF#32),
    nullary main_cst_73 (constant S_ .f32 0x3F800000#32),
    TRef.unary (TRef.of (T := ⟨S_, .f32⟩) main_cst_72) (TRef.of (T := ⟨S_, .f32⟩) main_call21_v0) id,
    TRef.unary (TRef.of (T := ⟨S_, .f32⟩) main_call21_v0) (TRef.of (T := ⟨S8x511x512, .f32⟩) main_call21_v1) (broadcastInDim S8x511x512 ![] bcast_S_S8x511x512),
    TRef.binary (TRef.of (T := ⟨S8x511x512, .f32⟩) main_call21_v1) (TRef.of (T := ⟨S8x511x512, .f32⟩) main_v208) (TRef.of (T := ⟨S8x511x512, .f32⟩) main_call21_v2) maximumf,
    TRef.unary (TRef.of (T := ⟨S_, .f32⟩) main_cst_73) (TRef.of (T := ⟨S_, .f32⟩) main_call21_v3) id,
    TRef.unary (TRef.of (T := ⟨S_, .f32⟩) main_call21_v3) (TRef.of (T := ⟨S8x511x512, .f32⟩) main_call21_v4) (broadcastInDim S8x511x512 ![] bcast_S_S8x511x512),
    TRef.binary (TRef.of (T := ⟨S8x511x512, .f32⟩) main_call21_v4) (TRef.of (T := ⟨S8x511x512, .f32⟩) main_call21_v2) (TRef.of (T := ⟨S8x511x512, .f32⟩) main_v212) minimumf,
    binary main_v211 main_v212 main_v213 (subf : (⟨S8x511x512, .f32⟩ : BufTy).Contents (Elt F) → (⟨S8x511x512, .f32⟩ : BufTy).Contents (Elt F) → (⟨S8x511x512, .f32⟩ : BufTy).Contents (Elt F)),
    binary main_v213 main_v213 main_v214 (mulf : (⟨S8x511x512, .f32⟩ : BufTy).Contents (Elt F) → (⟨S8x511x512, .f32⟩ : BufTy).Contents (Elt F) → (⟨S8x511x512, .f32⟩ : BufTy).Contents (Elt F)),
    binary main_v214 main_v210 main_v215 (mulf : (⟨S8x511x512, .f32⟩ : BufTy).Contents (Elt F) → (⟨S8x511x512, .f32⟩ : BufTy).Contents (Elt F) → (⟨S8x511x512, .f32⟩ : BufTy).Contents (Elt F)),
    nullary main_cst_74 (constant S_ .f32 0x00000000#32),
    binary main_v215 main_cst_74 main_v216 ((fun x v => Host.reduceAdd x v reducesTo_S8x511x512_S_d0_1_2 h_S_) : (⟨S8x511x512, .f32⟩ : BufTy).Contents (Elt F) → (⟨S_, .f32⟩ : BufTy).Contents (Elt F) → (⟨S_, .f32⟩ : BufTy).Contents (Elt F)),
    binary main_v204 main_v216 main_v217 (addf : (⟨S_, .f32⟩ : BufTy).Contents (Elt F) → (⟨S_, .f32⟩ : BufTy).Contents (Elt F) → (⟨S_, .f32⟩ : BufTy).Contents (Elt F)),
    unary main_arg15 main_v218 ((extractStridedSlice S8x1x511x511 ![0, 2, 1, 0] · slices_S8x9x512x512_S8x1x511x511_0_2_1_0) : (⟨S8x9x512x512, .f32⟩ : BufTy).Contents (Elt F) → (⟨S8x1x511x511, .f32⟩ : BufTy).Contents (Elt F)),
    reshape main_v218 main_v219 rfl shapeCasts_S8x1x511x511_S8x511x511,
    unary main_arg16 main_v220 ((extractStridedSlice S8x1x511x511 ![0, 6, 0, 1] · slices_S8x9x512x512_S8x1x511x511_0_6_0_1) : (⟨S8x9x512x512, .f32⟩ : BufTy).Contents (Elt F) → (⟨S8x1x511x511, .f32⟩ : BufTy).Contents (Elt F)),
    reshape main_v220 main_v221 rfl shapeCasts_S8x1x511x511_S8x511x511,
    unary main_arg0 main_v222 ((extractStridedSlice S8x1x511x511 ![0, 0, 1, 0] · slices_S8x1x512x512_S8x1x511x511_0_0_1_0) : (⟨S8x1x512x512, .f32⟩ : BufTy).Contents (Elt F) → (⟨S8x1x511x511, .f32⟩ : BufTy).Contents (Elt F)),
    reshape main_v222 main_v223 rfl shapeCasts_S8x1x511x511_S8x511x511 ]

set_option maxRecDepth 8192 in
set_option maxHeartbeats 4000000 in
theorem part_eq4 (c : Dev nD) : main_part4 (F := F) c = seq ops4 := rfl

set_option maxRecDepth 8192 in
theorem ops4_sub : (ops4 : List (HloOp τ sig (Elt F))).Forall fun op => op.bufs ⊆ tcRefs τ sig :=
  ⟨reshape_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., binary_bufs_sub .., unary_bufs_sub .., reshape_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., nullary_bufs_sub .., binary_bufs_sub .., unary_bufs_sub .., reshape_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., binary_bufs_sub .., unary_bufs_sub .., reshape_bufs_sub .., unary_bufs_sub .., reshape_bufs_sub .., unary_bufs_sub .., reshape_bufs_sub ..⟩

set_option maxRecDepth 8192 in
theorem ops4_fresh : ∀ op ∈ (ops4 : List (HloOp τ sig (Elt F))), op.fresh = ∅ :=
  List.forall_iff_forall_mem.1 (show (ops4 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window writes. -/
abbrev W4 : List (Ref sig .tc) := [main_v180, main_v181, main_v182, main_v183, main_v184, main_cst_59, main_cst_60, main_call16_v0, main_call16_v1, main_call16_v2, main_call16_v3, main_call16_v4, main_v185, main_cst_61, main_cst_62, main_call17_v0, main_call17_v1, main_call17_v2, main_call17_v3, main_call17_v4, main_v186, main_v187, main_v188, main_v189, main_cst_63, main_v190, main_v191, main_v192, main_v193, main_v194, main_v195, main_v196, main_v197, main_cst_64, main_cst_65, main_call18_v0, main_call18_v1, main_call18_v2, main_call18_v3, main_call18_v4, main_v198, main_cst_66, main_cst_67, main_call19_v0, main_call19_v1, main_call19_v2, main_call19_v3, main_call19_v4, main_v199, main_v200, main_v201, main_v202, main_cst_68, main_v203, main_cst_69, main_v204, main_v205, main_v206, main_v207, main_v208, main_v209, main_v210, main_cst_70, main_cst_71, main_call20_v0, main_call20_v1, main_call20_v2, main_call20_v3, main_call20_v4, main_v211, main_cst_72, main_cst_73, main_call21_v0, main_call21_v1, main_call21_v2, main_call21_v3, main_call21_v4, main_v212, main_v213, main_v214, main_v215, main_cst_74, main_v216, main_v217, main_v218, main_v219, main_v220, main_v221, main_v222, main_v223]

set_option maxRecDepth 8192 in
theorem ops4_writes : (ops4 : List (HloOp τ sig (Elt F))).Forall fun op =>
    op.writes ⊆ (W4.map (Proc.devRef (τ := τ) .tc)).toFinset :=
  ⟨wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide)⟩

/-- A buffer the window does not write keeps its contents through it. -/
theorem keep4 (W : Valuation τ sig (Elt F)) (r : Ref sig .tc) (h : r ∉ W4) :
    after ops4 W (Proc.devRef .tc r) = W (Proc.devRef .tc r) :=
  after_of_writes_sub ops4 W ops4_writes h

/-- The arguments are not written. -/
theorem args4 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) :
    ArgsAt (after ops4 W) x0 x1 x2 x3 x4 x5 x6 x7 x8 x9 x10 x11 x12 x13 x14 x15 x16 := by
  obtain ⟨a0, a1, a2, a3, a4, a5, a6, a7, a8, a9, a10, a11, a12, a13, a14, a15, a16⟩ := hA
  exact ⟨(keep4 W main_arg0 (by decide)).trans a0,
    (keep4 W main_arg1 (by decide)).trans a1,
    (keep4 W main_arg2 (by decide)).trans a2,
    (keep4 W main_arg3 (by decide)).trans a3,
    (keep4 W main_arg4 (by decide)).trans a4,
    (keep4 W main_arg5 (by decide)).trans a5,
    (keep4 W main_arg6 (by decide)).trans a6,
    (keep4 W main_arg7 (by decide)).trans a7,
    (keep4 W main_arg8 (by decide)).trans a8,
    (keep4 W main_arg9 (by decide)).trans a9,
    (keep4 W main_arg10 (by decide)).trans a10,
    (keep4 W main_arg11 (by decide)).trans a11,
    (keep4 W main_arg12 (by decide)).trans a12,
    (keep4 W main_arg13 (by decide)).trans a13,
    (keep4 W main_arg14 (by decide)).trans a14,
    (keep4 W main_arg15 (by decide)).trans a15,
    (keep4 W main_arg16 (by decide)).trans a16⟩

set_option maxRecDepth 8192 in
set_option maxHeartbeats 4000000 in
/-- What the window leaves, from what it found. -/
theorem step4 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) (hL : Live4 W x0 x2 x3 x4 x5 x6 x7 x8 x9 x10 x11 x12 x13 x14 x15 x16) :
    Live5 (after ops4 W) x0 x2 x3 x4 x5 x6 x7 x8 x9 x10 x11 x12 x13 x14 x15 x16 := by
  obtain ⟨rfl, rfl, rfl, rfl, rfl, rfl, rfl, rfl, rfl, rfl, rfl, rfl, rfl, rfl, rfl, rfl, rfl⟩ := hA
  obtain ⟨h_v39, h_v57, h_v75, h_v178, h_v179⟩ := hL
  refine ⟨?_, ?_, ?_, ?_, ?_, ?_, ?_, ?_⟩
  · exact (keep4 W main_v39 (by decide)).trans h_v39
  · exact (keep4 W main_v57 (by decide)).trans h_v57
  · exact (keep4 W main_v75 (by decide)).trans h_v75
  · -- main_v191
    simp only [ops4]
    after_results_simp
    simp only [h_v179, h_v178] <;> rfl
  · -- main_v217
    simp only [ops4]
    after_results_simp
    rfl
  · -- main_v219
    simp only [ops4]
    after_results_simp
    rfl
  · -- main_v221
    simp only [ops4]
    after_results_simp
    rfl
  · -- main_v223
    simp only [ops4]
    after_results_simp
    rfl

end Cert.ReferenceIdeal.RunParts

end
-- ==== Proof.RefRunPart5.lean ====
/- Window 5 of the reference program (operations 410 … 509 of 605): its operations as a list, that the printed
    window is that list run in order, which buffers it writes, and what it leaves in the buffers a later window reads, given
    what it found. -/
import proofs.«131438_j61692910239837_2_alg».proof.Proof.RefRunInv
import proofs.«131438_j61692910239837_2_alg».proof.Proof.RefRunLib

noncomputable section

namespace Cert.ReferenceIdeal.RunParts

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

set_option maxHeartbeats 4000000 in
/-- The window's operations, in order (a called function's six operations stand in its call's place). -/
abbrev ops5 : List (HloOp τ sig (Elt F)) :=
  [ nullary main_cst_75 (constant S_ .f32 0x2EDBE6FF#32),
    nullary main_cst_76 (constant S_ .f32 0x3F800000#32),
    TRef.unary (TRef.of (T := ⟨S_, .f32⟩) main_cst_75) (TRef.of (T := ⟨S_, .f32⟩) main_call22_v0) id,
    TRef.unary (TRef.of (T := ⟨S_, .f32⟩) main_call22_v0) (TRef.of (T := ⟨S8x511x511, .f32⟩) main_call22_v1) (broadcastInDim S8x511x511 ![] bcast_S_S8x511x511),
    TRef.binary (TRef.of (T := ⟨S8x511x511, .f32⟩) main_call22_v1) (TRef.of (T := ⟨S8x511x511, .f32⟩) main_v219) (TRef.of (T := ⟨S8x511x511, .f32⟩) main_call22_v2) maximumf,
    TRef.unary (TRef.of (T := ⟨S_, .f32⟩) main_cst_76) (TRef.of (T := ⟨S_, .f32⟩) main_call22_v3) id,
    TRef.unary (TRef.of (T := ⟨S_, .f32⟩) main_call22_v3) (TRef.of (T := ⟨S8x511x511, .f32⟩) main_call22_v4) (broadcastInDim S8x511x511 ![] bcast_S_S8x511x511),
    TRef.binary (TRef.of (T := ⟨S8x511x511, .f32⟩) main_call22_v4) (TRef.of (T := ⟨S8x511x511, .f32⟩) main_call22_v2) (TRef.of (T := ⟨S8x511x511, .f32⟩) main_v224) minimumf,
    nullary main_cst_77 (constant S_ .f32 0x2EDBE6FF#32),
    nullary main_cst_78 (constant S_ .f32 0x3F800000#32),
    TRef.unary (TRef.of (T := ⟨S_, .f32⟩) main_cst_77) (TRef.of (T := ⟨S_, .f32⟩) main_call23_v0) id,
    TRef.unary (TRef.of (T := ⟨S_, .f32⟩) main_call23_v0) (TRef.of (T := ⟨S8x511x511, .f32⟩) main_call23_v1) (broadcastInDim S8x511x511 ![] bcast_S_S8x511x511),
    TRef.binary (TRef.of (T := ⟨S8x511x511, .f32⟩) main_call23_v1) (TRef.of (T := ⟨S8x511x511, .f32⟩) main_v221) (TRef.of (T := ⟨S8x511x511, .f32⟩) main_call23_v2) maximumf,
    TRef.unary (TRef.of (T := ⟨S_, .f32⟩) main_cst_78) (TRef.of (T := ⟨S_, .f32⟩) main_call23_v3) id,
    TRef.unary (TRef.of (T := ⟨S_, .f32⟩) main_call23_v3) (TRef.of (T := ⟨S8x511x511, .f32⟩) main_call23_v4) (broadcastInDim S8x511x511 ![] bcast_S_S8x511x511),
    TRef.binary (TRef.of (T := ⟨S8x511x511, .f32⟩) main_call23_v4) (TRef.of (T := ⟨S8x511x511, .f32⟩) main_call23_v2) (TRef.of (T := ⟨S8x511x511, .f32⟩) main_v225) minimumf,
    binary main_v224 main_v225 main_v226 (subf : (⟨S8x511x511, .f32⟩ : BufTy).Contents (Elt F) → (⟨S8x511x511, .f32⟩ : BufTy).Contents (Elt F) → (⟨S8x511x511, .f32⟩ : BufTy).Contents (Elt F)),
    binary main_v226 main_v226 main_v227 (mulf : (⟨S8x511x511, .f32⟩ : BufTy).Contents (Elt F) → (⟨S8x511x511, .f32⟩ : BufTy).Contents (Elt F) → (⟨S8x511x511, .f32⟩ : BufTy).Contents (Elt F)),
    binary main_v227 main_v223 main_v228 (mulf : (⟨S8x511x511, .f32⟩ : BufTy).Contents (Elt F) → (⟨S8x511x511, .f32⟩ : BufTy).Contents (Elt F) → (⟨S8x511x511, .f32⟩ : BufTy).Contents (Elt F)),
    nullary main_cst_79 (constant S_ .f32 0x00000000#32),
    binary main_v228 main_cst_79 main_v229 ((fun x v => Host.reduceAdd x v reducesTo_S8x511x511_S_d0_1_2 h_S_) : (⟨S8x511x511, .f32⟩ : BufTy).Contents (Elt F) → (⟨S_, .f32⟩ : BufTy).Contents (Elt F) → (⟨S_, .f32⟩ : BufTy).Contents (Elt F)),
    binary main_v217 main_v229 main_v230 (addf : (⟨S_, .f32⟩ : BufTy).Contents (Elt F) → (⟨S_, .f32⟩ : BufTy).Contents (Elt F) → (⟨S_, .f32⟩ : BufTy).Contents (Elt F)),
    unary main_arg15 main_v231 ((extractStridedSlice S8x1x512x511 ![0, 3, 0, 1] · slices_S8x9x512x512_S8x1x512x511_0_3_0_1) : (⟨S8x9x512x512, .f32⟩ : BufTy).Contents (Elt F) → (⟨S8x1x512x511, .f32⟩ : BufTy).Contents (Elt F)),
    reshape main_v231 main_v232 rfl shapeCasts_S8x1x512x511_S8x512x511,
    unary main_arg16 main_v233 ((extractStridedSlice S8x1x512x511 ![0, 5, 0, 0] · slices_S8x9x512x512_S8x1x512x511_0_5_0_0) : (⟨S8x9x512x512, .f32⟩ : BufTy).Contents (Elt F) → (⟨S8x1x512x511, .f32⟩ : BufTy).Contents (Elt F)),
    reshape main_v233 main_v234 rfl shapeCasts_S8x1x512x511_S8x512x511,
    unary main_arg0 main_v235 ((extractStridedSlice S8x1x512x511 ![0, 0, 0, 1] · slices_S8x1x512x512_S8x1x512x511_0_0_0_1) : (⟨S8x1x512x512, .f32⟩ : BufTy).Contents (Elt F) → (⟨S8x1x512x511, .f32⟩ : BufTy).Contents (Elt F)),
    reshape main_v235 main_v236 rfl shapeCasts_S8x1x512x511_S8x512x511,
    nullary main_cst_80 (constant S_ .f32 0x2EDBE6FF#32),
    nullary main_cst_81 (constant S_ .f32 0x3F800000#32),
    TRef.unary (TRef.of (T := ⟨S_, .f32⟩) main_cst_80) (TRef.of (T := ⟨S_, .f32⟩) main_call24_v0) id,
    TRef.unary (TRef.of (T := ⟨S_, .f32⟩) main_call24_v0) (TRef.of (T := ⟨S8x512x511, .f32⟩) main_call24_v1) (broadcastInDim S8x512x511 ![] bcast_S_S8x512x511),
    TRef.binary (TRef.of (T := ⟨S8x512x511, .f32⟩) main_call24_v1) (TRef.of (T := ⟨S8x512x511, .f32⟩) main_v232) (TRef.of (T := ⟨S8x512x511, .f32⟩) main_call24_v2) maximumf,
    TRef.unary (TRef.of (T := ⟨S_, .f32⟩) main_cst_81) (TRef.of (T := ⟨S_, .f32⟩) main_call24_v3) id,
    TRef.unary (TRef.of (T := ⟨S_, .f32⟩) main_call24_v3) (TRef.of (T := ⟨S8x512x511, .f32⟩) main_call24_v4) (broadcastInDim S8x512x511 ![] bcast_S_S8x512x511),
    TRef.binary (TRef.of (T := ⟨S8x512x511, .f32⟩) main_call24_v4) (TRef.of (T := ⟨S8x512x511, .f32⟩) main_call24_v2) (TRef.of (T := ⟨S8x512x511, .f32⟩) main_v237) minimumf,
    nullary main_cst_82 (constant S_ .f32 0x2EDBE6FF#32),
    nullary main_cst_83 (constant S_ .f32 0x3F800000#32),
    TRef.unary (TRef.of (T := ⟨S_, .f32⟩) main_cst_82) (TRef.of (T := ⟨S_, .f32⟩) main_call25_v0) id,
    TRef.unary (TRef.of (T := ⟨S_, .f32⟩) main_call25_v0) (TRef.of (T := ⟨S8x512x511, .f32⟩) main_call25_v1) (broadcastInDim S8x512x511 ![] bcast_S_S8x512x511),
    TRef.binary (TRef.of (T := ⟨S8x512x511, .f32⟩) main_call25_v1) (TRef.of (T := ⟨S8x512x511, .f32⟩) main_v234) (TRef.of (T := ⟨S8x512x511, .f32⟩) main_call25_v2) maximumf,
    TRef.unary (TRef.of (T := ⟨S_, .f32⟩) main_cst_83) (TRef.of (T := ⟨S_, .f32⟩) main_call25_v3) id,
    TRef.unary (TRef.of (T := ⟨S_, .f32⟩) main_call25_v3) (TRef.of (T := ⟨S8x512x511, .f32⟩) main_call25_v4) (broadcastInDim S8x512x511 ![] bcast_S_S8x512x511),
    TRef.binary (TRef.of (T := ⟨S8x512x511, .f32⟩) main_call25_v4) (TRef.of (T := ⟨S8x512x511, .f32⟩) main_call25_v2) (TRef.of (T := ⟨S8x512x511, .f32⟩) main_v238) minimumf,
    binary main_v237 main_v238 main_v239 (subf : (⟨S8x512x511, .f32⟩ : BufTy).Contents (Elt F) → (⟨S8x512x511, .f32⟩ : BufTy).Contents (Elt F) → (⟨S8x512x511, .f32⟩ : BufTy).Contents (Elt F)),
    binary main_v239 main_v239 main_v240 (mulf : (⟨S8x512x511, .f32⟩ : BufTy).Contents (Elt F) → (⟨S8x512x511, .f32⟩ : BufTy).Contents (Elt F) → (⟨S8x512x511, .f32⟩ : BufTy).Contents (Elt F)),
    binary main_v240 main_v236 main_v241 (mulf : (⟨S8x512x511, .f32⟩ : BufTy).Contents (Elt F) → (⟨S8x512x511, .f32⟩ : BufTy).Contents (Elt F) → (⟨S8x512x511, .f32⟩ : BufTy).Contents (Elt F)),
    nullary main_cst_84 (constant S_ .f32 0x00000000#32),
    binary main_v241 main_cst_84 main_v242 ((fun x v => Host.reduceAdd x v reducesTo_S8x512x511_S_d0_1_2 h_S_) : (⟨S8x512x511, .f32⟩ : BufTy).Contents (Elt F) → (⟨S_, .f32⟩ : BufTy).Contents (Elt F) → (⟨S_, .f32⟩ : BufTy).Contents (Elt F)),
    binary main_v230 main_v242 main_v243 (addf : (⟨S_, .f32⟩ : BufTy).Contents (Elt F) → (⟨S_, .f32⟩ : BufTy).Contents (Elt F) → (⟨S_, .f32⟩ : BufTy).Contents (Elt F)),
    unary main_arg15 main_v244 ((extractStridedSlice S8x1x512x512 ![0, 4, 0, 0] · slices_S8x9x512x512_S8x1x512x512_0_4_0_0) : (⟨S8x9x512x512, .f32⟩ : BufTy).Contents (Elt F) → (⟨S8x1x512x512, .f32⟩ : BufTy).Contents (Elt F)),
    reshape main_v244 main_v245 rfl shapeCasts_S8x1x512x512_S8x512x512,
    unary main_arg16 main_v246 ((extractStridedSlice S8x1x512x512 ![0, 4, 0, 0] · slices_S8x9x512x512_S8x1x512x512_0_4_0_0) : (⟨S8x9x512x512, .f32⟩ : BufTy).Contents (Elt F) → (⟨S8x1x512x512, .f32⟩ : BufTy).Contents (Elt F)),
    reshape main_v246 main_v247 rfl shapeCasts_S8x1x512x512_S8x512x512,
    reshape main_arg0 main_v248 rfl shapeCasts_S8x1x512x512_S8x512x512,
    nullary main_cst_85 (constant S_ .f32 0x2EDBE6FF#32),
    nullary main_cst_86 (constant S_ .f32 0x3F800000#32),
    TRef.unary (TRef.of (T := ⟨S_, .f32⟩) main_cst_85) (TRef.of (T := ⟨S_, .f32⟩) main_call26_v0) id,
    TRef.unary (TRef.of (T := ⟨S_, .f32⟩) main_call26_v0) (TRef.of (T := ⟨S8x512x512, .f32⟩) main_call26_v1) (broadcastInDim S8x512x512 ![] bcast_S_S8x512x512),
    TRef.binary (TRef.of (T := ⟨S8x512x512, .f32⟩) main_call26_v1) (TRef.of (T := ⟨S8x512x512, .f32⟩) main_v245) (TRef.of (T := ⟨S8x512x512, .f32⟩) main_call26_v2) maximumf,
    TRef.unary (TRef.of (T := ⟨S_, .f32⟩) main_cst_86) (TRef.of (T := ⟨S_, .f32⟩) main_call26_v3) id,
    TRef.unary (TRef.of (T := ⟨S_, .f32⟩) main_call26_v3) (TRef.of (T := ⟨S8x512x512, .f32⟩) main_call26_v4) (broadcastInDim S8x512x512 ![] bcast_S_S8x512x512),
    TRef.binary (TRef.of (T := ⟨S8x512x512, .f32⟩) main_call26_v4) (TRef.of (T := ⟨S8x512x512, .f32⟩) main_call26_v2) (TRef.of (T := ⟨S8x512x512, .f32⟩) main_v249) minimumf,
    nullary main_cst_87 (constant S_ .f32 0x2EDBE6FF#32),
    nullary main_cst_88 (constant S_ .f32 0x3F800000#32),
    TRef.unary (TRef.of (T := ⟨S_, .f32⟩) main_cst_87) (TRef.of (T := ⟨S_, .f32⟩) main_call27_v0) id,
    TRef.unary (TRef.of (T := ⟨S_, .f32⟩) main_call27_v0) (TRef.of (T := ⟨S8x512x512, .f32⟩) main_call27_v1) (broadcastInDim S8x512x512 ![] bcast_S_S8x512x512),
    TRef.binary (TRef.of (T := ⟨S8x512x512, .f32⟩) main_call27_v1) (TRef.of (T := ⟨S8x512x512, .f32⟩) main_v247) (TRef.of (T := ⟨S8x512x512, .f32⟩) main_call27_v2) maximumf,
    TRef.unary (TRef.of (T := ⟨S_, .f32⟩) main_cst_88) (TRef.of (T := ⟨S_, .f32⟩) main_call27_v3) id,
    TRef.unary (TRef.of (T := ⟨S_, .f32⟩) main_call27_v3) (TRef.of (T := ⟨S8x512x512, .f32⟩) main_call27_v4) (broadcastInDim S8x512x512 ![] bcast_S_S8x512x512),
    TRef.binary (TRef.of (T := ⟨S8x512x512, .f32⟩) main_call27_v4) (TRef.of (T := ⟨S8x512x512, .f32⟩) main_call27_v2) (TRef.of (T := ⟨S8x512x512, .f32⟩) main_v250) minimumf,
    binary main_v249 main_v250 main_v251 (subf : (⟨S8x512x512, .f32⟩ : BufTy).Contents (Elt F) → (⟨S8x512x512, .f32⟩ : BufTy).Contents (Elt F) → (⟨S8x512x512, .f32⟩ : BufTy).Contents (Elt F)),
    binary main_v251 main_v251 main_v252 (mulf : (⟨S8x512x512, .f32⟩ : BufTy).Contents (Elt F) → (⟨S8x512x512, .f32⟩ : BufTy).Contents (Elt F) → (⟨S8x512x512, .f32⟩ : BufTy).Contents (Elt F)),
    binary main_v252 main_v248 main_v253 (mulf : (⟨S8x512x512, .f32⟩ : BufTy).Contents (Elt F) → (⟨S8x512x512, .f32⟩ : BufTy).Contents (Elt F) → (⟨S8x512x512, .f32⟩ : BufTy).Contents (Elt F)),
    nullary main_cst_89 (constant S_ .f32 0x00000000#32),
    binary main_v253 main_cst_89 main_v254 ((fun x v => Host.reduceAdd x v reducesTo_S8x512x512_S_d0_1_2 h_S_) : (⟨S8x512x512, .f32⟩ : BufTy).Contents (Elt F) → (⟨S_, .f32⟩ : BufTy).Contents (Elt F) → (⟨S_, .f32⟩ : BufTy).Contents (Elt F)),
    binary main_v243 main_v254 main_v255 (addf : (⟨S_, .f32⟩ : BufTy).Contents (Elt F) → (⟨S_, .f32⟩ : BufTy).Contents (Elt F) → (⟨S_, .f32⟩ : BufTy).Contents (Elt F)),
    unary main_arg15 main_v256 ((extractStridedSlice S8x1x512x511 ![0, 5, 0, 0] · slices_S8x9x512x512_S8x1x512x511_0_5_0_0) : (⟨S8x9x512x512, .f32⟩ : BufTy).Contents (Elt F) → (⟨S8x1x512x511, .f32⟩ : BufTy).Contents (Elt F)),
    reshape main_v256 main_v257 rfl shapeCasts_S8x1x512x511_S8x512x511,
    unary main_arg16 main_v258 ((extractStridedSlice S8x1x512x511 ![0, 3, 0, 1] · slices_S8x9x512x512_S8x1x512x511_0_3_0_1) : (⟨S8x9x512x512, .f32⟩ : BufTy).Contents (Elt F) → (⟨S8x1x512x511, .f32⟩ : BufTy).Contents (Elt F)),
    reshape main_v258 main_v259 rfl shapeCasts_S8x1x512x511_S8x512x511,
    unary main_arg0 main_v260 ((extractStridedSlice S8x1x512x511 ![0, 0, 0, 0] · slices_S8x1x512x512_S8x1x512x511_0_0_0_0) : (⟨S8x1x512x512, .f32⟩ : BufTy).Contents (Elt F) → (⟨S8x1x512x511, .f32⟩ : BufTy).Contents (Elt F)),
    reshape main_v260 main_v261 rfl shapeCasts_S8x1x512x511_S8x512x511,
    nullary main_cst_90 (constant S_ .f32 0x2EDBE6FF#32),
    nullary main_cst_91 (constant S_ .f32 0x3F800000#32),
    TRef.unary (TRef.of (T := ⟨S_, .f32⟩) main_cst_90) (TRef.of (T := ⟨S_, .f32⟩) main_call28_v0) id,
    TRef.unary (TRef.of (T := ⟨S_, .f32⟩) main_call28_v0) (TRef.of (T := ⟨S8x512x511, .f32⟩) main_call28_v1) (broadcastInDim S8x512x511 ![] bcast_S_S8x512x511),
    TRef.binary (TRef.of (T := ⟨S8x512x511, .f32⟩) main_call28_v1) (TRef.of (T := ⟨S8x512x511, .f32⟩) main_v257) (TRef.of (T := ⟨S8x512x511, .f32⟩) main_call28_v2) maximumf,
    TRef.unary (TRef.of (T := ⟨S_, .f32⟩) main_cst_91) (TRef.of (T := ⟨S_, .f32⟩) main_call28_v3) id,
    TRef.unary (TRef.of (T := ⟨S_, .f32⟩) main_call28_v3) (TRef.of (T := ⟨S8x512x511, .f32⟩) main_call28_v4) (broadcastInDim S8x512x511 ![] bcast_S_S8x512x511),
    TRef.binary (TRef.of (T := ⟨S8x512x511, .f32⟩) main_call28_v4) (TRef.of (T := ⟨S8x512x511, .f32⟩) main_call28_v2) (TRef.of (T := ⟨S8x512x511, .f32⟩) main_v262) minimumf,
    nullary main_cst_92 (constant S_ .f32 0x2EDBE6FF#32),
    nullary main_cst_93 (constant S_ .f32 0x3F800000#32),
    TRef.unary (TRef.of (T := ⟨S_, .f32⟩) main_cst_92) (TRef.of (T := ⟨S_, .f32⟩) main_call29_v0) id,
    TRef.unary (TRef.of (T := ⟨S_, .f32⟩) main_call29_v0) (TRef.of (T := ⟨S8x512x511, .f32⟩) main_call29_v1) (broadcastInDim S8x512x511 ![] bcast_S_S8x512x511),
    TRef.binary (TRef.of (T := ⟨S8x512x511, .f32⟩) main_call29_v1) (TRef.of (T := ⟨S8x512x511, .f32⟩) main_v259) (TRef.of (T := ⟨S8x512x511, .f32⟩) main_call29_v2) maximumf,
    TRef.unary (TRef.of (T := ⟨S_, .f32⟩) main_cst_93) (TRef.of (T := ⟨S_, .f32⟩) main_call29_v3) id,
    TRef.unary (TRef.of (T := ⟨S_, .f32⟩) main_call29_v3) (TRef.of (T := ⟨S8x512x511, .f32⟩) main_call29_v4) (broadcastInDim S8x512x511 ![] bcast_S_S8x512x511),
    TRef.binary (TRef.of (T := ⟨S8x512x511, .f32⟩) main_call29_v4) (TRef.of (T := ⟨S8x512x511, .f32⟩) main_call29_v2) (TRef.of (T := ⟨S8x512x511, .f32⟩) main_v263) minimumf,
    binary main_v262 main_v263 main_v264 (subf : (⟨S8x512x511, .f32⟩ : BufTy).Contents (Elt F) → (⟨S8x512x511, .f32⟩ : BufTy).Contents (Elt F) → (⟨S8x512x511, .f32⟩ : BufTy).Contents (Elt F)) ]

set_option maxRecDepth 8192 in
set_option maxHeartbeats 4000000 in
theorem part_eq5 (c : Dev nD) : main_part5 (F := F) c = seq ops5 := rfl

set_option maxRecDepth 8192 in
theorem ops5_sub : (ops5 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., binary_bufs_sub .., unary_bufs_sub .., reshape_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., binary_bufs_sub .., unary_bufs_sub .., reshape_bufs_sub .., unary_bufs_sub .., reshape_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., binary_bufs_sub .., unary_bufs_sub .., reshape_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub ..⟩

set_option maxRecDepth 8192 in
theorem ops5_fresh : ∀ op ∈ (ops5 : List (HloOp τ sig (Elt F))), op.fresh = ∅ :=
  List.forall_iff_forall_mem.1 (show (ops5 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window writes. -/
abbrev W5 : List (Ref sig .tc) := [main_cst_75, main_cst_76, main_call22_v0, main_call22_v1, main_call22_v2, main_call22_v3, main_call22_v4, main_v224, main_cst_77, main_cst_78, main_call23_v0, main_call23_v1, main_call23_v2, main_call23_v3, main_call23_v4, main_v225, main_v226, main_v227, main_v228, main_cst_79, main_v229, main_v230, main_v231, main_v232, main_v233, main_v234, main_v235, main_v236, main_cst_80, main_cst_81, main_call24_v0, main_call24_v1, main_call24_v2, main_call24_v3, main_call24_v4, main_v237, main_cst_82, main_cst_83, main_call25_v0, main_call25_v1, main_call25_v2, main_call25_v3, main_call25_v4, main_v238, main_v239, main_v240, main_v241, main_cst_84, main_v242, main_v243, main_v244, main_v245, main_v246, main_v247, main_v248, main_cst_85, main_cst_86, main_call26_v0, main_call26_v1, main_call26_v2, main_call26_v3, main_call26_v4, main_v249, main_cst_87, main_cst_88, main_call27_v0, main_call27_v1, main_call27_v2, main_call27_v3, main_call27_v4, main_v250, main_v251, main_v252, main_v253, main_cst_89, main_v254, main_v255, main_v256, main_v257, main_v258, main_v259, main_v260, main_v261, main_cst_90, main_cst_91, main_call28_v0, main_call28_v1, main_call28_v2, main_call28_v3, main_call28_v4, main_v262, main_cst_92, main_cst_93, main_call29_v0, main_call29_v1, main_call29_v2, main_call29_v3, main_call29_v4, main_v263, main_v264]

set_option maxRecDepth 8192 in
theorem ops5_writes : (ops5 : List (HloOp τ sig (Elt F))).Forall fun op =>
    op.writes ⊆ (W5.map (Proc.devRef (τ := τ) .tc)).toFinset :=
  ⟨wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide)⟩

/-- A buffer the window does not write keeps its contents through it. -/
theorem keep5 (W : Valuation τ sig (Elt F)) (r : Ref sig .tc) (h : r ∉ W5) :
    after ops5 W (Proc.devRef .tc r) = W (Proc.devRef .tc r) :=
  after_of_writes_sub ops5 W ops5_writes h

/-- The arguments are not written. -/
theorem args5 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) :
    ArgsAt (after ops5 W) x0 x1 x2 x3 x4 x5 x6 x7 x8 x9 x10 x11 x12 x13 x14 x15 x16 := by
  obtain ⟨a0, a1, a2, a3, a4, a5, a6, a7, a8, a9, a10, a11, a12, a13, a14, a15, a16⟩ := hA
  exact ⟨(keep5 W main_arg0 (by decide)).trans a0,
    (keep5 W main_arg1 (by decide)).trans a1,
    (keep5 W main_arg2 (by decide)).trans a2,
    (keep5 W main_arg3 (by decide)).trans a3,
    (keep5 W main_arg4 (by decide)).trans a4,
    (keep5 W main_arg5 (by decide)).trans a5,
    (keep5 W main_arg6 (by decide)).trans a6,
    (keep5 W main_arg7 (by decide)).trans a7,
    (keep5 W main_arg8 (by decide)).trans a8,
    (keep5 W main_arg9 (by decide)).trans a9,
    (keep5 W main_arg10 (by decide)).trans a10,
    (keep5 W main_arg11 (by decide)).trans a11,
    (keep5 W main_arg12 (by decide)).trans a12,
    (keep5 W main_arg13 (by decide)).trans a13,
    (keep5 W main_arg14 (by decide)).trans a14,
    (keep5 W main_arg15 (by decide)).trans a15,
    (keep5 W main_arg16 (by decide)).trans a16⟩

set_option maxRecDepth 8192 in
set_option maxHeartbeats 4000000 in
/-- What the window leaves, from what it found. -/
theorem step5 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) (hL : Live5 W x0 x2 x3 x4 x5 x6 x7 x8 x9 x10 x11 x12 x13 x14 x15 x16) :
    Live6 (after ops5 W) x0 x2 x3 x4 x5 x6 x7 x8 x9 x10 x11 x12 x13 x14 x15 x16 := by
  obtain ⟨rfl, rfl, rfl, rfl, rfl, rfl, rfl, rfl, rfl, rfl, rfl, rfl, rfl, rfl, rfl, rfl, rfl⟩ := hA
  obtain ⟨h_v39, h_v57, h_v75, h_v191, h_v217, h_v219, h_v221, h_v223⟩ := hL
  refine ⟨?_, ?_, ?_, ?_, ?_, ?_, ?_⟩
  · exact (keep5 W main_v39 (by decide)).trans h_v39
  · exact (keep5 W main_v57 (by decide)).trans h_v57
  · exact (keep5 W main_v75 (by decide)).trans h_v75
  · exact (keep5 W main_v191 (by decide)).trans h_v191
  · -- main_v255
    simp only [ops5]
    after_results_simp
    simp only [h_v223, h_v221, h_v219, h_v217] <;> rfl
  · -- main_v261
    simp only [ops5]
    after_results_simp
    rfl
  · -- main_v264
    simp only [ops5]
    after_results_simp
    rfl

end Cert.ReferenceIdeal.RunParts

end
-- ==== Proof.RefRunPart6.lean ====
/- Window 6 of the reference program (operations 510 … 599 of 605): its operations as a list, that the printed
    window is that list run in order, which buffers it writes, and what it leaves in the buffers a later window reads, given
    what it found. -/
import proofs.«131438_j61692910239837_2_alg».proof.Proof.RefRunInv
import proofs.«131438_j61692910239837_2_alg».proof.Proof.RefRunLib

noncomputable section

namespace Cert.ReferenceIdeal.RunParts

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

set_option maxHeartbeats 4000000 in
/-- The window's operations, in order (a called function's six operations stand in its call's place). -/
abbrev ops6 : List (HloOp τ sig (Elt F)) :=
  [ binary main_v264 main_v264 main_v265 (mulf : (⟨S8x512x511, .f32⟩ : BufTy).Contents (Elt F) → (⟨S8x512x511, .f32⟩ : BufTy).Contents (Elt F) → (⟨S8x512x511, .f32⟩ : BufTy).Contents (Elt F)),
    binary main_v265 main_v261 main_v266 (mulf : (⟨S8x512x511, .f32⟩ : BufTy).Contents (Elt F) → (⟨S8x512x511, .f32⟩ : BufTy).Contents (Elt F) → (⟨S8x512x511, .f32⟩ : BufTy).Contents (Elt F)),
    nullary main_cst_94 (constant S_ .f32 0x00000000#32),
    binary main_v266 main_cst_94 main_v267 ((fun x v => Host.reduceAdd x v reducesTo_S8x512x511_S_d0_1_2 h_S_) : (⟨S8x512x511, .f32⟩ : BufTy).Contents (Elt F) → (⟨S_, .f32⟩ : BufTy).Contents (Elt F) → (⟨S_, .f32⟩ : BufTy).Contents (Elt F)),
    binary main_v255 main_v267 main_v268 (addf : (⟨S_, .f32⟩ : BufTy).Contents (Elt F) → (⟨S_, .f32⟩ : BufTy).Contents (Elt F) → (⟨S_, .f32⟩ : BufTy).Contents (Elt F)),
    unary main_arg15 main_v269 ((extractStridedSlice S8x1x511x511 ![0, 6, 0, 1] · slices_S8x9x512x512_S8x1x511x511_0_6_0_1) : (⟨S8x9x512x512, .f32⟩ : BufTy).Contents (Elt F) → (⟨S8x1x511x511, .f32⟩ : BufTy).Contents (Elt F)),
    reshape main_v269 main_v270 rfl shapeCasts_S8x1x511x511_S8x511x511,
    unary main_arg16 main_v271 ((extractStridedSlice S8x1x511x511 ![0, 2, 1, 0] · slices_S8x9x512x512_S8x1x511x511_0_2_1_0) : (⟨S8x9x512x512, .f32⟩ : BufTy).Contents (Elt F) → (⟨S8x1x511x511, .f32⟩ : BufTy).Contents (Elt F)),
    reshape main_v271 main_v272 rfl shapeCasts_S8x1x511x511_S8x511x511,
    unary main_arg0 main_v273 ((extractStridedSlice S8x1x511x511 ![0, 0, 0, 1] · slices_S8x1x512x512_S8x1x511x511_0_0_0_1) : (⟨S8x1x512x512, .f32⟩ : BufTy).Contents (Elt F) → (⟨S8x1x511x511, .f32⟩ : BufTy).Contents (Elt F)),
    reshape main_v273 main_v274 rfl shapeCasts_S8x1x511x511_S8x511x511,
    nullary main_cst_95 (constant S_ .f32 0x2EDBE6FF#32),
    nullary main_cst_96 (constant S_ .f32 0x3F800000#32),
    TRef.unary (TRef.of (T := ⟨S_, .f32⟩) main_cst_95) (TRef.of (T := ⟨S_, .f32⟩) main_call30_v0) id,
    TRef.unary (TRef.of (T := ⟨S_, .f32⟩) main_call30_v0) (TRef.of (T := ⟨S8x511x511, .f32⟩) main_call30_v1) (broadcastInDim S8x511x511 ![] bcast_S_S8x511x511),
    TRef.binary (TRef.of (T := ⟨S8x511x511, .f32⟩) main_call30_v1) (TRef.of (T := ⟨S8x511x511, .f32⟩) main_v270) (TRef.of (T := ⟨S8x511x511, .f32⟩) main_call30_v2) maximumf,
    TRef.unary (TRef.of (T := ⟨S_, .f32⟩) main_cst_96) (TRef.of (T := ⟨S_, .f32⟩) main_call30_v3) id,
    TRef.unary (TRef.of (T := ⟨S_, .f32⟩) main_call30_v3) (TRef.of (T := ⟨S8x511x511, .f32⟩) main_call30_v4) (broadcastInDim S8x511x511 ![] bcast_S_S8x511x511),
    TRef.binary (TRef.of (T := ⟨S8x511x511, .f32⟩) main_call30_v4) (TRef.of (T := ⟨S8x511x511, .f32⟩) main_call30_v2) (TRef.of (T := ⟨S8x511x511, .f32⟩) main_v275) minimumf,
    nullary main_cst_97 (constant S_ .f32 0x2EDBE6FF#32),
    nullary main_cst_98 (constant S_ .f32 0x3F800000#32),
    TRef.unary (TRef.of (T := ⟨S_, .f32⟩) main_cst_97) (TRef.of (T := ⟨S_, .f32⟩) main_call31_v0) id,
    TRef.unary (TRef.of (T := ⟨S_, .f32⟩) main_call31_v0) (TRef.of (T := ⟨S8x511x511, .f32⟩) main_call31_v1) (broadcastInDim S8x511x511 ![] bcast_S_S8x511x511),
    TRef.binary (TRef.of (T := ⟨S8x511x511, .f32⟩) main_call31_v1) (TRef.of (T := ⟨S8x511x511, .f32⟩) main_v272) (TRef.of (T := ⟨S8x511x511, .f32⟩) main_call31_v2) maximumf,
    TRef.unary (TRef.of (T := ⟨S_, .f32⟩) main_cst_98) (TRef.of (T := ⟨S_, .f32⟩) main_call31_v3) id,
    TRef.unary (TRef.of (T := ⟨S_, .f32⟩) main_call31_v3) (TRef.of (T := ⟨S8x511x511, .f32⟩) main_call31_v4) (broadcastInDim S8x511x511 ![] bcast_S_S8x511x511),
    TRef.binary (TRef.of (T := ⟨S8x511x511, .f32⟩) main_call31_v4) (TRef.of (T := ⟨S8x511x511, .f32⟩) main_call31_v2) (TRef.of (T := ⟨S8x511x511, .f32⟩) main_v276) minimumf,
    binary main_v275 main_v276 main_v277 (subf : (⟨S8x511x511, .f32⟩ : BufTy).Contents (Elt F) → (⟨S8x511x511, .f32⟩ : BufTy).Contents (Elt F) → (⟨S8x511x511, .f32⟩ : BufTy).Contents (Elt F)),
    binary main_v277 main_v277 main_v278 (mulf : (⟨S8x511x511, .f32⟩ : BufTy).Contents (Elt F) → (⟨S8x511x511, .f32⟩ : BufTy).Contents (Elt F) → (⟨S8x511x511, .f32⟩ : BufTy).Contents (Elt F)),
    binary main_v278 main_v274 main_v279 (mulf : (⟨S8x511x511, .f32⟩ : BufTy).Contents (Elt F) → (⟨S8x511x511, .f32⟩ : BufTy).Contents (Elt F) → (⟨S8x511x511, .f32⟩ : BufTy).Contents (Elt F)),
    nullary main_cst_99 (constant S_ .f32 0x00000000#32),
    binary main_v279 main_cst_99 main_v280 ((fun x v => Host.reduceAdd x v reducesTo_S8x511x511_S_d0_1_2 h_S_) : (⟨S8x511x511, .f32⟩ : BufTy).Contents (Elt F) → (⟨S_, .f32⟩ : BufTy).Contents (Elt F) → (⟨S_, .f32⟩ : BufTy).Contents (Elt F)),
    binary main_v268 main_v280 main_v281 (addf : (⟨S_, .f32⟩ : BufTy).Contents (Elt F) → (⟨S_, .f32⟩ : BufTy).Contents (Elt F) → (⟨S_, .f32⟩ : BufTy).Contents (Elt F)),
    unary main_arg15 main_v282 ((extractStridedSlice S8x1x511x512 ![0, 7, 0, 0] · slices_S8x9x512x512_S8x1x511x512_0_7_0_0) : (⟨S8x9x512x512, .f32⟩ : BufTy).Contents (Elt F) → (⟨S8x1x511x512, .f32⟩ : BufTy).Contents (Elt F)),
    reshape main_v282 main_v283 rfl shapeCasts_S8x1x511x512_S8x511x512,
    unary main_arg16 main_v284 ((extractStridedSlice S8x1x511x512 ![0, 1, 1, 0] · slices_S8x9x512x512_S8x1x511x512_0_1_1_0) : (⟨S8x9x512x512, .f32⟩ : BufTy).Contents (Elt F) → (⟨S8x1x511x512, .f32⟩ : BufTy).Contents (Elt F)),
    reshape main_v284 main_v285 rfl shapeCasts_S8x1x511x512_S8x511x512,
    unary main_arg0 main_v286 ((extractStridedSlice S8x1x511x512 ![0, 0, 0, 0] · slices_S8x1x512x512_S8x1x511x512_0_0_0_0) : (⟨S8x1x512x512, .f32⟩ : BufTy).Contents (Elt F) → (⟨S8x1x511x512, .f32⟩ : BufTy).Contents (Elt F)),
    reshape main_v286 main_v287 rfl shapeCasts_S8x1x511x512_S8x511x512,
    nullary main_cst_100 (constant S_ .f32 0x2EDBE6FF#32),
    nullary main_cst_101 (constant S_ .f32 0x3F800000#32),
    TRef.unary (TRef.of (T := ⟨S_, .f32⟩) main_cst_100) (TRef.of (T := ⟨S_, .f32⟩) main_call32_v0) id,
    TRef.unary (TRef.of (T := ⟨S_, .f32⟩) main_call32_v0) (TRef.of (T := ⟨S8x511x512, .f32⟩) main_call32_v1) (broadcastInDim S8x511x512 ![] bcast_S_S8x511x512),
    TRef.binary (TRef.of (T := ⟨S8x511x512, .f32⟩) main_call32_v1) (TRef.of (T := ⟨S8x511x512, .f32⟩) main_v283) (TRef.of (T := ⟨S8x511x512, .f32⟩) main_call32_v2) maximumf,
    TRef.unary (TRef.of (T := ⟨S_, .f32⟩) main_cst_101) (TRef.of (T := ⟨S_, .f32⟩) main_call32_v3) id,
    TRef.unary (TRef.of (T := ⟨S_, .f32⟩) main_call32_v3) (TRef.of (T := ⟨S8x511x512, .f32⟩) main_call32_v4) (broadcastInDim S8x511x512 ![] bcast_S_S8x511x512),
    TRef.binary (TRef.of (T := ⟨S8x511x512, .f32⟩) main_call32_v4) (TRef.of (T := ⟨S8x511x512, .f32⟩) main_call32_v2) (TRef.of (T := ⟨S8x511x512, .f32⟩) main_v288) minimumf,
    nullary main_cst_102 (constant S_ .f32 0x2EDBE6FF#32),
    nullary main_cst_103 (constant S_ .f32 0x3F800000#32),
    TRef.unary (TRef.of (T := ⟨S_, .f32⟩) main_cst_102) (TRef.of (T := ⟨S_, .f32⟩) main_call33_v0) id,
    TRef.unary (TRef.of (T := ⟨S_, .f32⟩) main_call33_v0) (TRef.of (T := ⟨S8x511x512, .f32⟩) main_call33_v1) (broadcastInDim S8x511x512 ![] bcast_S_S8x511x512),
    TRef.binary (TRef.of (T := ⟨S8x511x512, .f32⟩) main_call33_v1) (TRef.of (T := ⟨S8x511x512, .f32⟩) main_v285) (TRef.of (T := ⟨S8x511x512, .f32⟩) main_call33_v2) maximumf,
    TRef.unary (TRef.of (T := ⟨S_, .f32⟩) main_cst_103) (TRef.of (T := ⟨S_, .f32⟩) main_call33_v3) id,
    TRef.unary (TRef.of (T := ⟨S_, .f32⟩) main_call33_v3) (TRef.of (T := ⟨S8x511x512, .f32⟩) main_call33_v4) (broadcastInDim S8x511x512 ![] bcast_S_S8x511x512),
    TRef.binary (TRef.of (T := ⟨S8x511x512, .f32⟩) main_call33_v4) (TRef.of (T := ⟨S8x511x512, .f32⟩) main_call33_v2) (TRef.of (T := ⟨S8x511x512, .f32⟩) main_v289) minimumf,
    binary main_v288 main_v289 main_v290 (subf : (⟨S8x511x512, .f32⟩ : BufTy).Contents (Elt F) → (⟨S8x511x512, .f32⟩ : BufTy).Contents (Elt F) → (⟨S8x511x512, .f32⟩ : BufTy).Contents (Elt F)),
    binary main_v290 main_v290 main_v291 (mulf : (⟨S8x511x512, .f32⟩ : BufTy).Contents (Elt F) → (⟨S8x511x512, .f32⟩ : BufTy).Contents (Elt F) → (⟨S8x511x512, .f32⟩ : BufTy).Contents (Elt F)),
    binary main_v291 main_v287 main_v292 (mulf : (⟨S8x511x512, .f32⟩ : BufTy).Contents (Elt F) → (⟨S8x511x512, .f32⟩ : BufTy).Contents (Elt F) → (⟨S8x511x512, .f32⟩ : BufTy).Contents (Elt F)),
    nullary main_cst_104 (constant S_ .f32 0x00000000#32),
    binary main_v292 main_cst_104 main_v293 ((fun x v => Host.reduceAdd x v reducesTo_S8x511x512_S_d0_1_2 h_S_) : (⟨S8x511x512, .f32⟩ : BufTy).Contents (Elt F) → (⟨S_, .f32⟩ : BufTy).Contents (Elt F) → (⟨S_, .f32⟩ : BufTy).Contents (Elt F)),
    binary main_v281 main_v293 main_v294 (addf : (⟨S_, .f32⟩ : BufTy).Contents (Elt F) → (⟨S_, .f32⟩ : BufTy).Contents (Elt F) → (⟨S_, .f32⟩ : BufTy).Contents (Elt F)),
    unary main_arg15 main_v295 ((extractStridedSlice S8x1x511x511 ![0, 8, 0, 0] · slices_S8x9x512x512_S8x1x511x511_0_8_0_0) : (⟨S8x9x512x512, .f32⟩ : BufTy).Contents (Elt F) → (⟨S8x1x511x511, .f32⟩ : BufTy).Contents (Elt F)),
    reshape main_v295 main_v296 rfl shapeCasts_S8x1x511x511_S8x511x511,
    unary main_arg16 main_v297 ((extractStridedSlice S8x1x511x511 ![0, 0, 1, 1] · slices_S8x9x512x512_S8x1x511x511_0_0_1_1) : (⟨S8x9x512x512, .f32⟩ : BufTy).Contents (Elt F) → (⟨S8x1x511x511, .f32⟩ : BufTy).Contents (Elt F)),
    reshape main_v297 main_v298 rfl shapeCasts_S8x1x511x511_S8x511x511,
    unary main_arg0 main_v299 ((extractStridedSlice S8x1x511x511 ![0, 0, 0, 0] · slices_S8x1x512x512_S8x1x511x511_0_0_0_0) : (⟨S8x1x512x512, .f32⟩ : BufTy).Contents (Elt F) → (⟨S8x1x511x511, .f32⟩ : BufTy).Contents (Elt F)),
    reshape main_v299 main_v300 rfl shapeCasts_S8x1x511x511_S8x511x511,
    nullary main_cst_105 (constant S_ .f32 0x2EDBE6FF#32),
    nullary main_cst_106 (constant S_ .f32 0x3F800000#32),
    TRef.unary (TRef.of (T := ⟨S_, .f32⟩) main_cst_105) (TRef.of (T := ⟨S_, .f32⟩) main_call34_v0) id,
    TRef.unary (TRef.of (T := ⟨S_, .f32⟩) main_call34_v0) (TRef.of (T := ⟨S8x511x511, .f32⟩) main_call34_v1) (broadcastInDim S8x511x511 ![] bcast_S_S8x511x511),
    TRef.binary (TRef.of (T := ⟨S8x511x511, .f32⟩) main_call34_v1) (TRef.of (T := ⟨S8x511x511, .f32⟩) main_v296) (TRef.of (T := ⟨S8x511x511, .f32⟩) main_call34_v2) maximumf,
    TRef.unary (TRef.of (T := ⟨S_, .f32⟩) main_cst_106) (TRef.of (T := ⟨S_, .f32⟩) main_call34_v3) id,
    TRef.unary (TRef.of (T := ⟨S_, .f32⟩) main_call34_v3) (TRef.of (T := ⟨S8x511x511, .f32⟩) main_call34_v4) (broadcastInDim S8x511x511 ![] bcast_S_S8x511x511),
    TRef.binary (TRef.of (T := ⟨S8x511x511, .f32⟩) main_call34_v4) (TRef.of (T := ⟨S8x511x511, .f32⟩) main_call34_v2) (TRef.of (T := ⟨S8x511x511, .f32⟩) main_v301) minimumf,
    nullary main_cst_107 (constant S_ .f32 0x2EDBE6FF#32),
    nullary main_cst_108 (constant S_ .f32 0x3F800000#32),
    TRef.unary (TRef.of (T := ⟨S_, .f32⟩) main_cst_107) (TRef.of (T := ⟨S_, .f32⟩) main_call35_v0) id,
    TRef.unary (TRef.of (T := ⟨S_, .f32⟩) main_call35_v0) (TRef.of (T := ⟨S8x511x511, .f32⟩) main_call35_v1) (broadcastInDim S8x511x511 ![] bcast_S_S8x511x511),
    TRef.binary (TRef.of (T := ⟨S8x511x511, .f32⟩) main_call35_v1) (TRef.of (T := ⟨S8x511x511, .f32⟩) main_v298) (TRef.of (T := ⟨S8x511x511, .f32⟩) main_call35_v2) maximumf,
    TRef.unary (TRef.of (T := ⟨S_, .f32⟩) main_cst_108) (TRef.of (T := ⟨S_, .f32⟩) main_call35_v3) id,
    TRef.unary (TRef.of (T := ⟨S_, .f32⟩) main_call35_v3) (TRef.of (T := ⟨S8x511x511, .f32⟩) main_call35_v4) (broadcastInDim S8x511x511 ![] bcast_S_S8x511x511),
    TRef.binary (TRef.of (T := ⟨S8x511x511, .f32⟩) main_call35_v4) (TRef.of (T := ⟨S8x511x511, .f32⟩) main_call35_v2) (TRef.of (T := ⟨S8x511x511, .f32⟩) main_v302) minimumf,
    binary main_v301 main_v302 main_v303 (subf : (⟨S8x511x511, .f32⟩ : BufTy).Contents (Elt F) → (⟨S8x511x511, .f32⟩ : BufTy).Contents (Elt F) → (⟨S8x511x511, .f32⟩ : BufTy).Contents (Elt F)),
    binary main_v303 main_v303 main_v304 (mulf : (⟨S8x511x511, .f32⟩ : BufTy).Contents (Elt F) → (⟨S8x511x511, .f32⟩ : BufTy).Contents (Elt F) → (⟨S8x511x511, .f32⟩ : BufTy).Contents (Elt F)),
    binary main_v304 main_v300 main_v305 (mulf : (⟨S8x511x511, .f32⟩ : BufTy).Contents (Elt F) → (⟨S8x511x511, .f32⟩ : BufTy).Contents (Elt F) → (⟨S8x511x511, .f32⟩ : BufTy).Contents (Elt F)),
    nullary main_cst_109 (constant S_ .f32 0x00000000#32),
    binary main_v305 main_cst_109 main_v306 ((fun x v => Host.reduceAdd x v reducesTo_S8x511x511_S_d0_1_2 h_S_) : (⟨S8x511x511, .f32⟩ : BufTy).Contents (Elt F) → (⟨S_, .f32⟩ : BufTy).Contents (Elt F) → (⟨S_, .f32⟩ : BufTy).Contents (Elt F)),
    binary main_v294 main_v306 main_v307 (addf : (⟨S_, .f32⟩ : BufTy).Contents (Elt F) → (⟨S_, .f32⟩ : BufTy).Contents (Elt F) → (⟨S_, .f32⟩ : BufTy).Contents (Elt F)),
    binary main_v191 main_v307 main_v308 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem part_eq6 (c : Dev nD) : main_part6 (F := F) c = seq ops6 := rfl

set_option maxRecDepth 8192 in
theorem ops6_sub : (ops6 : List (HloOp τ sig (Elt F))).Forall fun op => op.bufs ⊆ tcRefs τ sig :=
  ⟨binary_bufs_sub .., binary_bufs_sub .., nullary_bufs_sub .., binary_bufs_sub .., binary_bufs_sub .., unary_bufs_sub .., reshape_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., binary_bufs_sub .., unary_bufs_sub .., reshape_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., binary_bufs_sub .., unary_bufs_sub .., reshape_bufs_sub .., unary_bufs_sub .., reshape_bufs_sub .., unary_bufs_sub .., reshape_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., binary_bufs_sub .., nullary_bufs_sub .., binary_bufs_sub .., binary_bufs_sub .., binary_bufs_sub ..⟩

set_option maxRecDepth 8192 in
theorem ops6_fresh : ∀ op ∈ (ops6 : List (HloOp τ sig (Elt F))), op.fresh = ∅ :=
  List.forall_iff_forall_mem.1 (show (ops6 : List (HloOp τ sig (Elt F))).Forall (fun op => op.fresh = ∅) from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-- The buffers the window writes. -/
abbrev W6 : List (Ref sig .tc) := [main_v265, main_v266, main_cst_94, main_v267, main_v268, main_v269, main_v270, main_v271, main_v272, main_v273, main_v274, main_cst_95, main_cst_96, main_call30_v0, main_call30_v1, main_call30_v2, main_call30_v3, main_call30_v4, main_v275, main_cst_97, main_cst_98, main_call31_v0, main_call31_v1, main_call31_v2, main_call31_v3, main_call31_v4, main_v276, main_v277, main_v278, main_v279, main_cst_99, main_v280, main_v281, main_v282, main_v283, main_v284, main_v285, main_v286, main_v287, main_cst_100, main_cst_101, main_call32_v0, main_call32_v1, main_call32_v2, main_call32_v3, main_call32_v4, main_v288, main_cst_102, main_cst_103, main_call33_v0, main_call33_v1, main_call33_v2, main_call33_v3, main_call33_v4, main_v289, main_v290, main_v291, main_v292, main_cst_104, main_v293, main_v294, main_v295, main_v296, main_v297, main_v298, main_v299, main_v300, main_cst_105, main_cst_106, main_call34_v0, main_call34_v1, main_call34_v2, main_call34_v3, main_call34_v4, main_v301, main_cst_107, main_cst_108, main_call35_v0, main_call35_v1, main_call35_v2, main_call35_v3, main_call35_v4, main_v302, main_v303, main_v304, main_v305, main_cst_109, main_v306, main_v307, main_v308]

set_option maxRecDepth 8192 in
theorem ops6_writes : (ops6 : List (HloOp τ sig (Elt F))).Forall fun op =>
    op.writes ⊆ (W6.map (Proc.devRef (τ := τ) .tc)).toFinset :=
  ⟨wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide), wmem (by decide)⟩

/-- A buffer the window does not write keeps its contents through it. -/
theorem keep6 (W : Valuation τ sig (Elt F)) (r : Ref sig .tc) (h : r ∉ W6) :
    after ops6 W (Proc.devRef .tc r) = W (Proc.devRef .tc r) :=
  after_of_writes_sub ops6 W ops6_writes h

/-- The arguments are not written. -/
theorem args6 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) :
    ArgsAt (after ops6 W) x0 x1 x2 x3 x4 x5 x6 x7 x8 x9 x10 x11 x12 x13 x14 x15 x16 := by
  obtain ⟨a0, a1, a2, a3, a4, a5, a6, a7, a8, a9, a10, a11, a12, a13, a14, a15, a16⟩ := hA
  exact ⟨(keep6 W main_arg0 (by decide)).trans a0,
    (keep6 W main_arg1 (by decide)).trans a1,
    (keep6 W main_arg2 (by decide)).trans a2,
    (keep6 W main_arg3 (by decide)).trans a3,
    (keep6 W main_arg4 (by decide)).trans a4,
    (keep6 W main_arg5 (by decide)).trans a5,
    (keep6 W main_arg6 (by decide)).trans a6,
    (keep6 W main_arg7 (by decide)).trans a7,
    (keep6 W main_arg8 (by decide)).trans a8,
    (keep6 W main_arg9 (by decide)).trans a9,
    (keep6 W main_arg10 (by decide)).trans a10,
    (keep6 W main_arg11 (by decide)).trans a11,
    (keep6 W main_arg12 (by decide)).trans a12,
    (keep6 W main_arg13 (by decide)).trans a13,
    (keep6 W main_arg14 (by decide)).trans a14,
    (keep6 W main_arg15 (by decide)).trans a15,
    (keep6 W main_arg16 (by decide)).trans a16⟩

set_option maxRecDepth 8192 in
set_option maxHeartbeats 4000000 in
/-- What the window leaves, from what it found. -/
theorem step6 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) (hL : Live6 W x0 x2 x3 x4 x5 x6 x7 x8 x9 x10 x11 x12 x13 x14 x15 x16) :
    Live7 (after ops6 W) x0 x2 x3 x4 x5 x6 x7 x8 x9 x10 x11 x12 x13 x14 x15 x16 := by
  obtain ⟨rfl, rfl, rfl, rfl, rfl, rfl, rfl, rfl, rfl, rfl, rfl, rfl, rfl, rfl, rfl, rfl, rfl⟩ := hA
  obtain ⟨h_v39, h_v57, h_v75, h_v191, h_v255, h_v261, h_v264⟩ := hL
  refine ⟨?_, ?_, ?_, ?_⟩
  · exact (keep6 W main_v39 (by decide)).trans h_v39
  · exact (keep6 W main_v57 (by decide)).trans h_v57
  · exact (keep6 W main_v75 (by decide)).trans h_v75
  · -- main_v308
    simp only [ops6]
    after_results_simp
    simp only [h_v261, h_v264, h_v255, h_v191] <;> rfl

end Cert.ReferenceIdeal.RunParts

end
-- ==== Proof.RefRunPart7.lean ====
/- Window 7 of the reference program (operations 600 … 604 of 605): its operations as a list, that the printed
    window is that list run in order, which buffers it writes, and what it leaves in the buffers a later window reads, given
    what it found. -/
import proofs.«131438_j61692910239837_2_alg».proof.Proof.RefRunInv
import proofs.«131438_j61692910239837_2_alg».proof.Proof.RefRunLib

noncomputable section

namespace Cert.ReferenceIdeal.RunParts

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

set_option maxHeartbeats 4000000 in
/-- The window's operations, in order (a called function's six operations stand in its call's place). -/
abbrev ops7 : List (HloOp τ sig (Elt F)) :=
  [ nullary main_cst_110 (constant S_ .f32 0x41100000#32),
    binary main_v308 main_cst_110 main_v309 (Host.divf : (⟨S_, .f32⟩ : BufTy).Contents (Elt F) → (⟨S_, .f32⟩ : BufTy).Contents (Elt F) → (⟨S_, .f32⟩ : BufTy).Contents (Elt F)),
    binary main_v39 main_v57 main_v310 (addf : (⟨S_, .f32⟩ : BufTy).Contents (Elt F) → (⟨S_, .f32⟩ : BufTy).Contents (Elt F) → (⟨S_, .f32⟩ : BufTy).Contents (Elt F)),
    binary main_v310 main_v75 main_v311 (addf : (⟨S_, .f32⟩ : BufTy).Contents (Elt F) → (⟨S_, .f32⟩ : BufTy).Contents (Elt F) → (⟨S_, .f32⟩ : BufTy).Contents (Elt F)),
    binary main_v311 main_v309 main_v312 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem part_eq7 (c : Dev nD) : main_part7 (F := F) c = seq ops7 := rfl

set_option maxRecDepth 8192 in
theorem ops7_sub : (ops7 : List (HloOp τ sig (Elt F))).Forall fun op => op.bufs ⊆ tcRefs τ sig :=
  ⟨nullary_bufs_sub .., binary_bufs_sub .., binary_bufs_sub .., binary_bufs_sub .., binary_bufs_sub ..⟩

set_option maxRecDepth 8192 in
theorem ops7_fresh : ∀ op ∈ (ops7 : List (HloOp τ sig (Elt F))), op.fresh = ∅ :=
  List.forall_iff_forall_mem.1 (show (ops7 : List (HloOp τ sig (Elt F))).Forall (fun op => op.fresh = ∅) from
    ⟨rfl, rfl, rfl, rfl, rfl⟩)

/-- The buffers the window writes. -/
abbrev W7 : List (Ref sig .tc) := [main_cst_110, main_v309, main_v310, main_v311, main_v312]

set_option maxRecDepth 8192 in
theorem ops7_writes : (ops7 : List (HloOp τ sig (Elt F))).Forall fun op =>
    op.writes ⊆ (W7.map (Proc.devRef (τ := τ) .tc)).toFinset :=
  ⟨wmem (by decide), wmem (by decide), wmem (by decide), wmem (by decide), wmem (by decide)⟩

/-- A buffer the window does not write keeps its contents through it. -/
theorem keep7 (W : Valuation τ sig (Elt F)) (r : Ref sig .tc) (h : r ∉ W7) :
    after ops7 W (Proc.devRef .tc r) = W (Proc.devRef .tc r) :=
  after_of_writes_sub ops7 W ops7_writes h

/-- The arguments are not written. -/
theorem args7 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) :
    ArgsAt (after ops7 W) x0 x1 x2 x3 x4 x5 x6 x7 x8 x9 x10 x11 x12 x13 x14 x15 x16 := by
  obtain ⟨a0, a1, a2, a3, a4, a5, a6, a7, a8, a9, a10, a11, a12, a13, a14, a15, a16⟩ := hA
  exact ⟨(keep7 W main_arg0 (by decide)).trans a0,
    (keep7 W main_arg1 (by decide)).trans a1,
    (keep7 W main_arg2 (by decide)).trans a2,
    (keep7 W main_arg3 (by decide)).trans a3,
    (keep7 W main_arg4 (by decide)).trans a4,
    (keep7 W main_arg5 (by decide)).trans a5,
    (keep7 W main_arg6 (by decide)).trans a6,
    (keep7 W main_arg7 (by decide)).trans a7,
    (keep7 W main_arg8 (by decide)).trans a8,
    (keep7 W main_arg9 (by decide)).trans a9,
    (keep7 W main_arg10 (by decide)).trans a10,
    (keep7 W main_arg11 (by decide)).trans a11,
    (keep7 W main_arg12 (by decide)).trans a12,
    (keep7 W main_arg13 (by decide)).trans a13,
    (keep7 W main_arg14 (by decide)).trans a14,
    (keep7 W main_arg15 (by decide)).trans a15,
    (keep7 W main_arg16 (by decide)).trans a16⟩

set_option maxRecDepth 8192 in
set_option maxHeartbeats 4000000 in
/-- What the window leaves, from what it found. -/
theorem step7 (W : Valuation τ sig (Elt F)) (x0 x1 x2 x3 x4 x5 x6 x7 x8 x9 x10 x11 x12 : (⟨S8x1x512x512, .f32⟩ : BufTy).Contents (Elt F)) (x13 x14 x15 x16 : (⟨S8x9x512x512, .f32⟩ : BufTy).Contents (Elt F)) (hA : ArgsAt W x0 x1 x2 x3 x4 x5 x6 x7 x8 x9 x10 x11 x12 x13 x14 x15 x16) (hL : Live7 W x0 x2 x3 x4 x5 x6 x7 x8 x9 x10 x11 x12 x13 x14 x15 x16) :
    after ops7 W (Proc.devRef .tc main_v312) = val_main_v312 (F := F) x0 x2 x3 x4 x5 x6 x7 x8 x9 x10 x11 x12 x13 x14 x15 x16 := by
  obtain ⟨rfl, rfl, rfl, rfl, rfl, rfl, rfl, rfl, rfl, rfl, rfl, rfl, rfl, rfl, rfl, rfl, rfl⟩ := hA
  obtain ⟨h_v39, h_v57, h_v75, h_v308⟩ := hL
  simp only [ops7]
  after_results_simp
  simp only [h_v308, h_v75, h_v57, h_v39] <;> rfl

end Cert.ReferenceIdeal.RunParts

end
-- ==== Proof.RefRunParts.lean ====
import proofs.«131438_j61692910239837_2_alg».proof.Proof.RefRunPart0
import proofs.«131438_j61692910239837_2_alg».proof.Proof.RefRunPart1
import proofs.«131438_j61692910239837_2_alg».proof.Proof.RefRunPart2
import proofs.«131438_j61692910239837_2_alg».proof.Proof.RefRunPart3
import proofs.«131438_j61692910239837_2_alg».proof.Proof.RefRunPart4
import proofs.«131438_j61692910239837_2_alg».proof.Proof.RefRunPart5
import proofs.«131438_j61692910239837_2_alg».proof.Proof.RefRunPart6
import proofs.«131438_j61692910239837_2_alg».proof.Proof.RefRunPart7

/-!
# The reference program's run, from its eight windows

The printed reference program runs eight windows of host operations in order.  Each window is a list of operations run
as a line, so the program is the eight lists, one after the other, run as one line; every operation touches TensorCore
buffers only and determines what it writes.  Hence every weakly fair execution from a memory with zero counters
terminates, and each buffer ends at the fold of the 605 operations over its launch contents.

The fold over the whole line is the folds over the windows in order.  Window by window, the arguments keep their launch
contents (no operation writes one) and the buffers a later window reads hold their stages of the arguments; the last
window leaves the result at the last stage.
-/

noncomputable section

namespace Cert.ReferenceIdeal.RunParts

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

/-- The program's operations: the eight windows' lists, one after the other. -/
abbrev opsAll : List (HloOp τ sig (Elt F)) :=
  ops0 ++ (ops1 ++ (ops2 ++ (ops3 ++ (ops4 ++ (ops5 ++ (ops6 ++ ops7))))))

/-- The program is its operations run as one line. -/
theorem main_eq (c : Dev nD) : main (F := F) c = seq opsAll := by
  show main (F := F) c = seq (ops0 ++ (ops1 ++ (ops2 ++ (ops3 ++ (ops4 ++ (ops5 ++ (ops6 ++ ops7)))))))
  rw [seq_append ops0, seq_append ops1, seq_append ops2, seq_append ops3, seq_append ops4, seq_append ops5,
    seq_append ops6, ← part_eq0 c, ← part_eq1 c, ← part_eq2 c, ← part_eq3 c, ← part_eq4 c, ← part_eq5 c,
    ← part_eq6 c, ← part_eq7 c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem opsAll_sub : (opsAll : List (HloOp τ sig (Elt F))).Forall fun op => op.bufs ⊆ tcRefs τ sig :=
  forall_append ops0_sub (forall_append ops1_sub (forall_append ops2_sub (forall_append ops3_sub
    (forall_append ops4_sub (forall_append ops5_sub (forall_append ops6_sub ops7_sub))))))

/-- Every operation determines what it writes. -/
theorem opsAll_fresh : ∀ op ∈ (opsAll : List (HloOp τ sig (Elt F))), op.fresh = ∅ :=
  forall_mem_append ops0_fresh (forall_mem_append ops1_fresh (forall_mem_append ops2_fresh (forall_mem_append ops3_fresh
    (forall_mem_append ops4_fresh (forall_mem_append ops5_fresh (forall_mem_append ops6_fresh ops7_fresh))))))

/-- The fold over the program is the folds over the windows, in order. -/
theorem after_all (V : Valuation τ sig (Elt F)) :
    after opsAll V
      = after ops7 (after ops6 (after ops5 (after ops4 (after ops3 (after ops2 (after ops1 (after ops0 V))))))) := by
  show after (ops0 ++ (ops1 ++ (ops2 ++ (ops3 ++ (ops4 ++ (ops5 ++ (ops6 ++ ops7))))))) V = _
  rw [after_append, after_append, after_append, after_append, after_append, after_append, after_append]

/-- From any contents: after the program the result buffer holds the last stage of the arguments' contents, and the
    arguments hold what they held. -/
theorem value_all (V : Valuation τ sig (Elt F)) :
    after opsAll V (Proc.devRef .tc main_v312)
        = val_main_v312 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16))
      ∧ ArgsAt (after opsAll V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  have A0 : ArgsAt V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) :=
    ⟨rfl, rfl, rfl, rfl, rfl, rfl, rfl, rfl, rfl, rfl, rfl, rfl, rfl, rfl, rfl, rfl, rfl⟩
  have L1 := step0 V _ _ _ _ _ _ _ _ _ _ _ _ _ _ _ _ _ A0
  have A1 := args0 V _ _ _ _ _ _ _ _ _ _ _ _ _ _ _ _ _ A0
  have L2 := step1 _ _ _ _ _ _ _ _ _ _ _ _ _ _ _ _ _ _ A1 L1
  have A2 := args1 _ _ _ _ _ _ _ _ _ _ _ _ _ _ _ _ _ _ A1
  have L3 := step2 _ _ _ _ _ _ _ _ _ _ _ _ _ _ _ _ _ _ A2 L2
  have A3 := args2 _ _ _ _ _ _ _ _ _ _ _ _ _ _ _ _ _ _ A2
  have L4 := step3 _ _ _ _ _ _ _ _ _ _ _ _ _ _ _ _ _ _ A3 L3
  have A4 := args3 _ _ _ _ _ _ _ _ _ _ _ _ _ _ _ _ _ _ A3
  have L5 := step4 _ _ _ _ _ _ _ _ _ _ _ _ _ _ _ _ _ _ A4 L4
  have A5 := args4 _ _ _ _ _ _ _ _ _ _ _ _ _ _ _ _ _ _ A4
  have L6 := step5 _ _ _ _ _ _ _ _ _ _ _ _ _ _ _ _ _ _ A5 L5
  have A6 := args5 _ _ _ _ _ _ _ _ _ _ _ _ _ _ _ _ _ _ A5
  have L7 := step6 _ _ _ _ _ _ _ _ _ _ _ _ _ _ _ _ _ _ A6 L6
  have A7 := args6 _ _ _ _ _ _ _ _ _ _ _ _ _ _ _ _ _ _ A6
  have R := step7 _ _ _ _ _ _ _ _ _ _ _ _ _ _ _ _ _ _ A7 L7
  have A8 := args7 _ _ _ _ _ _ _ _ _ _ _ _ _ _ _ _ _ _ A7
  rw [after_all]
  exact ⟨R, A8⟩

/-- On every device, for any float values, from any memory with zero counters: every weakly fair execution of the
    reference program terminates with its result at the last stage of the arguments' launch contents, and the
    arguments unchanged. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v312)
          = val_main_v312 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono
    (fun _ h c => by
      obtain ⟨hv, a0, a1, a2, a3, a4, a5, a6, a7, a8, a9, a10, a11, a12, a13, a14, a15, a16⟩ := value_all (F := F) (launchContents m c)
      exact ⟨(h c main_v312).trans hv, (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9, (h c main_arg10).trans a10, (h c main_arg11).trans a11, (h c main_arg12).trans a12, (h c main_arg13).trans a13, (h c main_arg14).trans a14, (h c main_arg15).trans a15, (h c main_arg16).trans a16⟩)
    (run_seq scopedRefs_eq scopedSems_eq defs main (fun _ => opsAll) main_eq (fun _ => opsAll_sub) m ρ
      (fun _ => opsAll_fresh))

end Cert.ReferenceIdeal.RunParts

end
-- ==== Proof.lean ====
/- The claim: a masked, reweighted squared-error loss with a flow-consistency term, computed by three grid launches
   over the batch and a few host operations, against the same loss written as whole-array sums.

   The kernel program runs (its three frames are the generated ones); its result buffer ends at the fold of contents
   through its segments, which is the loss arranged row by row over the batch (`lossRows` of the arguments read pixel by
   pixel): each launch leaves in row `b` of its output array the row total of batch entry `b`, and the host operations
   add the rows.  The reference program's result is the loss arranged term by term (`lossWhole`).  The two arrangements
   are one extended real: sums regroup freely in a commutative monoid, a product with the nonnegative finite constants
   `¼` and `½` distributes over any sum of extended reals, and dividing by `4` or `2` is multiplying by `¼` or `½`.
   The precondition is never opened.  The ideal pass rewrote nothing, so the idealization claim is trivial. -/
import proofs.«131438_j61692910239837_2_alg».proof.Defs
import proofs.«131438_j61692910239837_2_alg».proof.Proof.Gen.Kernel
import proofs.«131438_j61692910239837_2_alg».proof.Proof.Gen.Kernel.Skeleton
import proofs.«131438_j61692910239837_2_alg».proof.Proof.Gen.Kernel.Launch
import proofs.«131438_j61692910239837_2_alg».proof.Proof.Gen.Kernel.Points
import proofs.«131438_j61692910239837_2_alg».proof.Proof.Gen.Kernel.Frame
import proofs.«131438_j61692910239837_2_alg».proof.Proof.Gen.KernelIdeal
import proofs.«131438_j61692910239837_2_alg».proof.Proof.Gen.KernelIdeal.Skeleton
import proofs.«131438_j61692910239837_2_alg».proof.Proof.Gen.KernelIdeal.Launch
import proofs.«131438_j61692910239837_2_alg».proof.Proof.Gen.KernelIdeal.Points
import proofs.«131438_j61692910239837_2_alg».proof.Proof.Gen.KernelIdeal.Frame
import proofs.«131438_j61692910239837_2_alg».proof.Proof.Gen.ReferenceIdeal
import proofs.«131438_j61692910239837_2_alg».proof.Proof.Gen.Pre_finite_inputs
import proofs.«131438_j61692910239837_2_alg».proof.Proof.KernelRun
import proofs.«131438_j61692910239837_2_alg».proof.Proof.Rows
import proofs.«131438_j61692910239837_2_alg».proof.Proof.BodyA
import proofs.«131438_j61692910239837_2_alg».proof.Proof.BodyB
import proofs.«131438_j61692910239837_2_alg».proof.Proof.RefTerm
import proofs.«131438_j61692910239837_2_alg».proof.Proof.RefRunParts
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_reference : Cert.frame_ReferenceIdeal := fun m ρ _ =>
  (θ_run Cert.ReferenceIdeal.defs _ _).mono (fun _ h c => (h c).2) (Cert.ReferenceIdeal.RunParts.run_value (F := Ideal) m ρ)

/-- Both programs end, from memories that agree on the arguments, with the same extended real: the kernel's rows'
    sum and the reference's whole-batch totals are the two arrangements of the one loss. -/
theorem algebraic : Cert.algebraic_KernelIdeal_ReferenceIdeal := by
  intro m ρ m' ρ' _ hagree
  refine ⟨fun c => Cert.KernelIdeal.Gen.W6 m ρ c (Proc.devRef .tc Cert.KernelIdeal.main_v14),
    Cert.KernelIdeal.RunValue.run_result (F := Ideal) m ρ, ?_⟩
  refine (θ_run Cert.ReferenceIdeal.defs _ _).mono (fun _ h c => ⟨(h c).1.trans ?_, (h c).2⟩)
    (Cert.ReferenceIdeal.RunParts.run_value (F := Ideal) m' ρ')
  dsimp only
  obtain ⟨a0, a1, a2, a3, a4, a5, a6, a7, a8, a9, a10, a11, a12, a13, a14, a15, a16⟩ := hagree c
  rw [Cert.KernelIdeal.Rows.result_value m ρ Cert.KernelIdeal.BodyA.outA_apply Cert.KernelIdeal.BodyB.outB1_apply
    Cert.KernelIdeal.BodyB.outB2_apply c, Cert.FlowLoss.lossRows_eq_lossWhole,
    Cert.ReferenceIdeal.RefValue.val_fun_eq, a0, a2, a3, a4, a5, a6, a7, a8, a9, a10, a11, a12, a13, a14, a15, a16]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
